-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v494) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4095x1024 : Shape := ⟨2, ![4095, 1024]⟩
abbrev S8192x1024 : Shape := ⟨2, ![8192, 1024]⟩
abbrev S8192x2048 : Shape := ⟨2, ![8192, 2048]⟩
abbrev S8192 : Shape := ⟨1, ![8192]⟩
abbrev S_ : Shape := ⟨0, ![]⟩

class Facts : Prop where
  bcast_S_S4095x1024 : S_.BroadcastsInDim S4095x1024 (![] : Fin 0 → Fin S4095x1024.rank)
  reducesTo_S4095x1024_S_d0_1 : S4095x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S4095x1024 .f32) (main_arg1 : FVec F S8192x1024 .f32) (main_arg2 : FVec F S8192x2048 .f32) (main_arg3 : FVec F S8192 .f32) (main_arg4 : FVec F S8192 .f32) : IVec S_ 1 :=
  let main_v0 : FVec F S4095x1024 .f32 := Host.absf main_arg0
  let main_cst : FVec F S_ .f32 := constant S_ .f32 0x7F800000#32
  let main_v1 : FVec F S4095x1024 .f32 := broadcastInDim S4095x1024 ![] bcast_S_S4095x1024 main_cst
  let main_v2 : IVec S4095x1024 1 := cmpf .olt main_v0 main_v1
  let main_c : IVec S_ 1 := constantI S_ 1 1#1
  let main_v3 : IVec S_ 1 := (fun x v => Host.reduce IntOp.andi x v reducesTo_S4095x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_v13 main_v16
-- ==== Kernel.lean ====
abbrev S4095x1024 : Shape := ⟨2, ![4095, 1024]⟩
abbrev S8192x1024 : Shape := ⟨2, ![8192, 1024]⟩
abbrev S8192x2048 : Shape := ⟨2, ![8192, 2048]⟩
abbrev S8192 : Shape := ⟨1, ![8192]⟩
abbrev S1024x8192 : Shape := ⟨2, ![1024, 8192]⟩
abbrev S2048x8192 : Shape := ⟨2, ![2048, 8192]⟩
abbrev S1x8192 : Shape := ⟨2, ![1, 8192]⟩
abbrev S2048x1024 : Shape := ⟨2, ![2048, 1024]⟩
abbrev S512x1024 : Shape := ⟨2, ![512, 1024]⟩
abbrev S512x8192 : Shape := ⟨2, ![512, 8192]⟩
abbrev S512x2048 : Shape := ⟨2, ![512, 2048]⟩
abbrev S1024x1024 : Shape := ⟨2, ![1024, 1024]⟩
abbrev S1024x2048 : Shape := ⟨2, ![1024, 2048]⟩
abbrev S64x1024 : Shape := ⟨2, ![64, 1024]⟩
abbrev S64x2048 : Shape := ⟨2, ![64, 2048]⟩
abbrev S64x8192 : Shape := ⟨2, ![64, 8192]⟩
abbrev S256x1024 : Shape := ⟨2, ![256, 1024]⟩
abbrev S256x2048 : Shape := ⟨2, ![256, 2048]⟩
abbrev S128x1024 : Shape := ⟨2, ![128, 1024]⟩
abbrev S128x2048 : Shape := ⟨2, ![128, 2048]⟩
abbrev S32x1024 : Shape := ⟨2, ![32, 1024]⟩
abbrev S32x2048 : Shape := ⟨2, ![32, 2048]⟩
abbrev S32x8192 : Shape := ⟨2, ![32, 8192]⟩
abbrev S16x1024 : Shape := ⟨2, ![16, 1024]⟩
abbrev S16x2048 : Shape := ⟨2, ![16, 2048]⟩
abbrev S16x8192 : Shape := ⟨2, ![16, 8192]⟩
abbrev S8x1024 : Shape := ⟨2, ![8, 1024]⟩
abbrev S8x2048 : Shape := ⟨2, ![8, 2048]⟩
abbrev S8x8192 : Shape := ⟨2, ![8, 8192]⟩
abbrev S4x1024 : Shape := ⟨2, ![4, 1024]⟩
abbrev S4x2048 : Shape := ⟨2, ![4, 2048]⟩
abbrev S4x8192 : Shape := ⟨2, ![4, 8192]⟩
abbrev S2x1024 : Shape := ⟨2, ![2, 1024]⟩
abbrev S2x2048 : Shape := ⟨2, ![2, 2048]⟩
abbrev S2x8192 : Shape := ⟨2, ![2, 8192]⟩
abbrev S1x1024 : Shape := ⟨2, ![1, 1024]⟩
abbrev S1x2048 : Shape := ⟨2, ![1, 2048]⟩

abbrev nBuf : Space → Nat
  | .hbm => 71
  | .vmem => 116
  | .smem => 0
  | _ => 0

abbrev bufTy : (tb : Table) → Fin (tcTables nBuf tb) → BufTy
  | .hbm, ⟨0, _⟩ => ⟨S4095x1024, .f32⟩
  | .hbm, ⟨1, _⟩ => ⟨S8192x1024, .f32⟩
  | .hbm, ⟨2, _⟩ => ⟨S8192x2048, .f32⟩
  | .hbm, ⟨3, _⟩ => ⟨S8192, .f32⟩
  | .hbm, ⟨4, _⟩ => ⟨S8192, .f32⟩
  | .hbm, ⟨5, _⟩ => ⟨S8192x1024, .bf16⟩
  | .hbm, ⟨6, _⟩ => ⟨S1024x8192, .bf16⟩
  | .hbm, ⟨7, _⟩ => ⟨S8192x2048, .bf16⟩
  | .hbm, ⟨8, _⟩ => ⟨S2048x8192, .bf16⟩
  | .hbm, ⟨9, _⟩ => ⟨S8192, .f32⟩
  | .hbm, ⟨10, _⟩ => ⟨S1x8192, .f32⟩
  | .hbm, ⟨11, _⟩ => ⟨S4095x1024, .bf16⟩
  | .hbm, ⟨12, _⟩ => ⟨S2048x1024, .bf16⟩
  | .hbm, ⟨13, _⟩ => ⟨S2048x1024, .f32⟩
  | .hbm, ⟨14, _⟩ => ⟨S2048x1024, .f32⟩
  | .hbm, ⟨15, _⟩ => ⟨S1024x1024, .bf16⟩
  | .hbm, ⟨16, _⟩ => ⟨S1024x2048, .f32⟩
  | .hbm, ⟨17, _⟩ => ⟨S1024x2048, .f32⟩
  | .hbm, ⟨18, _⟩ => ⟨S1024x1024, .f32⟩
  | .hbm, ⟨19, _⟩ => ⟨S1024x1024, .f32⟩
  | .hbm, ⟨20, _⟩ => ⟨S512x1024, .bf16⟩
  | .hbm, ⟨21, _⟩ => ⟨S512x2048, .f32⟩
  | .hbm, ⟨22, _⟩ => ⟨S512x2048, .f32⟩
  | .hbm, ⟨23, _⟩ => ⟨S512x1024, .f32⟩
  | .hbm, ⟨24, _⟩ => ⟨S512x1024, .f32⟩
  | .hbm, ⟨25, _⟩ => ⟨S256x1024, .bf16⟩
  | .hbm, ⟨26, _⟩ => ⟨S256x2048, .f32⟩
  | .hbm, ⟨27, _⟩ => ⟨S256x2048, .f32⟩
  | .hbm, ⟨28, _⟩ => ⟨S256x1024, .f32⟩
  | .hbm, ⟨29, _⟩ => ⟨S256x1024, .f32⟩
  | .hbm, ⟨30, _⟩ => ⟨S128x1024, .bf16⟩
  | .hbm, ⟨31, _⟩ => ⟨S128x2048, .f32⟩
  | .hbm, ⟨32, _⟩ => ⟨S128x2048, .f32⟩
  | .hbm, ⟨33, _⟩ => ⟨S128x1024, .f32⟩
  | .hbm, ⟨34, _⟩ => ⟨S128x1024, .f32⟩
  | .hbm, ⟨35, _⟩ => ⟨S64x1024, .bf16⟩
  | .hbm, ⟨36, _⟩ => ⟨S64x2048, .f32⟩
  | .hbm, ⟨37, _⟩ => ⟨S64x2048, .f32⟩
  | .hbm, ⟨38, _⟩ => ⟨S64x1024, .f32⟩
  | .hbm, ⟨39, _⟩ => ⟨S64x1024, .f32⟩
  | .hbm, ⟨40, _⟩ => ⟨S32x1024, .bf16⟩
  | .hbm, ⟨41, _⟩ => ⟨S32x2048, .f32⟩
  | .hbm, ⟨42, _⟩ => ⟨S32x2048, .f32⟩
  | .hbm, ⟨43, _⟩ => ⟨S32x1024, .f32⟩
  | .hbm, ⟨44, _⟩ => ⟨S32x1024, .f32⟩
  | .hbm, ⟨45, _⟩ => ⟨S16x1024, .bf16⟩
  | .hbm, ⟨46, _⟩ => ⟨S16x2048, .f32⟩
  | .hbm, ⟨47, _⟩ => ⟨S16x2048, .f32⟩
  | .hbm, ⟨48, _⟩ => ⟨S16x1024, .f32⟩
  | .hbm, ⟨49, _⟩ => ⟨S16x1024, .f32⟩
  | .hbm, ⟨50, _⟩ => ⟨S8x1024, .bf16⟩
  | .hbm, ⟨51, _⟩ => ⟨S8x2048, .f32⟩
  | .hbm, ⟨52, _⟩ => ⟨S8x2048, .f32⟩
  | .hbm, ⟨53, _⟩ => ⟨S8x1024, .f32⟩
  | .hbm, ⟨54, _⟩ => ⟨S8x1024, .f32⟩
  | .hbm, ⟨55, _⟩ => ⟨S4x1024, .bf16⟩
  | .hbm, ⟨56, _⟩ => ⟨S4x2048, .f32⟩
  | .hbm, ⟨57, _⟩ => ⟨S4x2048, .f32⟩
  | .hbm, ⟨58, _⟩ => ⟨S4x1024, .f32⟩
  | .hbm, ⟨59, _⟩ => ⟨S4x1024, .f32⟩
  | .hbm, ⟨60, _⟩ => ⟨S2x1024, .bf16⟩
  | .hbm, ⟨61, _⟩ => ⟨S2x2048, .f32⟩
  | .hbm, ⟨62, _⟩ => ⟨S2x2048, .f32⟩
  | .hbm, ⟨63, _⟩ => ⟨S2x1024, .f32⟩
  | .hbm, ⟨64, _⟩ => ⟨S2x1024, .f32⟩
  | .hbm, ⟨65, _⟩ => ⟨S1x1024, .bf16⟩
  | .hbm, ⟨66, _⟩ => ⟨S1x2048, .f32⟩
  | .hbm, ⟨67, _⟩ => ⟨S1x2048, .f32⟩
  | .hbm, ⟨68, _⟩ => ⟨S1x1024, .f32⟩
  | .hbm, ⟨69, _⟩ => ⟨S1x1024, .f32⟩
  | .hbm, ⟨70, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1024x8192, .bf16⟩
  | .local _ .vmem, ⟨3, _⟩ => ⟨S1x8192, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S64x1024, .bf16⟩
  | .local _ .vmem, ⟨9, _⟩ => ⟨S64x1024, .bf16⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S1024x8192, .bf16⟩
  | .local _ .vmem, ⟨15, _⟩ => ⟨S2048x8192, .bf16⟩
  | .local _ .vmem, ⟨16, _⟩ => ⟨S1x8192, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .bf16⟩
  | .local _ .vmem, ⟨22, _⟩ => ⟨S64x1024, .bf16⟩
  | .local _ .vmem, ⟨23, _⟩ => ⟨S64x2048, .f32⟩
  | .local _ .vmem, ⟨24, _⟩ => ⟨S64x2048, .f32⟩
  | .local _ .vmem, ⟨25, _⟩ => ⟨S64x2048, .f32⟩
  | .local _ .vmem, ⟨26, _⟩ => ⟨S64x2048, .f32⟩
  | .local _ .vmem, ⟨27, _⟩ => ⟨S1024x8192, .bf16⟩
  | .local _ .vmem, ⟨28, _⟩ => ⟨S2048x8192, .bf16⟩
  | .local _ .vmem, ⟨29, _⟩ => ⟨S1x8192, .f32⟩
  | .local _ .vmem, ⟨30, _⟩ => ⟨S64x1024, .f32⟩
  | .local _ .vmem, ⟨31, _⟩ => ⟨S64x1024, .f32⟩
  | .local _ .vmem, ⟨32, _⟩ => ⟨S64x1024, .f32⟩
  | .local _ .vmem, ⟨33, _⟩ => ⟨S64x1024, .f32⟩
  | .local _ .vmem, ⟨34, _⟩ => ⟨S64x1024, .bf16⟩
  | .local _ .vmem, ⟨35, _⟩ => ⟨S64x1024, .bf16⟩
  | .local _ .vmem, ⟨36, _⟩ => ⟨S64x2048, .f32⟩
  | .local _ .vmem, ⟨37, _⟩ => ⟨S64x2048, .f32⟩
  | .local _ .vmem, ⟨38, _⟩ => ⟨S64x2048, .f32⟩
  | .local _ .vmem, ⟨39, _⟩ => ⟨S64x2048, .f32⟩
  | .local _ .vmem, ⟨40, _⟩ => ⟨S1024x8192, .bf16⟩
  | .local _ .vmem, ⟨41, _⟩ => ⟨S2048x8192, .bf16⟩
  | .local _ .vmem, ⟨42, _⟩ => ⟨S1x8192, .f32⟩
  | .local _ .vmem, ⟨43, _⟩ => ⟨S64x1024, .f32⟩
  | .local _ .vmem, ⟨44, _⟩ => ⟨S64x1024, .f32⟩
  | .local _ .vmem, ⟨45, _⟩ => ⟨S64x1024, .f32⟩
  | .local _ .vmem, ⟨46, _⟩ => ⟨S64x1024, .f32⟩
  | .local _ .vmem, ⟨47, _⟩ => ⟨S64x1024, .bf16⟩
  | .local _ .vmem, ⟨48, _⟩ => ⟨S64x1024, .bf16⟩
  | .local _ .vmem, ⟨49, _⟩ => ⟨S64x2048, .f32⟩
  | .local _ .vmem, ⟨50, _⟩ => ⟨S64x2048, .f32⟩
  | .local _ .vmem, ⟨51, _⟩ => ⟨S64x2048, .f32⟩
  | .local _ .vmem, ⟨52, _⟩ => ⟨S64x2048, .f32⟩
  | .local _ .vmem, ⟨53, _⟩ => ⟨S1024x8192, .bf16⟩
  | .local _ .vmem, ⟨54, _⟩ => ⟨S2048x8192, .bf16⟩
  | .local _ .vmem, ⟨55, _⟩ => ⟨S1x8192, .f32⟩
  | .local _ .vmem, ⟨56, _⟩ => ⟨S64x1024, .f32⟩
  | .local _ .vmem, ⟨57, _⟩ => ⟨S64x1024, .f32⟩
  | .local _ .vmem, ⟨58, _⟩ => ⟨S64x1024, .f32⟩
  | .local _ .vmem, ⟨59, _⟩ => ⟨S64x1024, .f32⟩
  | .local _ .vmem, ⟨60, _⟩ => ⟨S64x1024, .bf16⟩
  | .local _ .vmem, ⟨61, _⟩ => ⟨S64x2048, .f32⟩
  | .local _ .vmem, ⟨62, _⟩ => ⟨S64x2048, .f32⟩
  | .local _ .vmem, ⟨63, _⟩ => ⟨S1024x8192, .bf16⟩
  | .local _ .vmem, ⟨64, _⟩ => ⟨S2048x8192, .bf16⟩
  | .local _ .vmem, ⟨65, _⟩ => ⟨S1x8192, .f32⟩
  | .local _ .vmem, ⟨66, _⟩ => ⟨S64x1024, .f32⟩
  | .local _ .vmem, ⟨67, _⟩ => ⟨S64x1024, .f32⟩
  | .local _ .vmem, ⟨68, _⟩ => ⟨S32x1024, .bf16⟩
  | .local _ .vmem, ⟨69, _⟩ => ⟨S32x2048, .f32⟩
  | .local _ .vmem, ⟨70, _⟩ => ⟨S32x2048, .f32⟩
  | .local _ .vmem, ⟨71, _⟩ => ⟨S1024x8192, .bf16⟩
  | .local _ .vmem, ⟨72, _⟩ => ⟨S2048x8192, .bf16⟩
  | .local _ .vmem, ⟨73, _⟩ => ⟨S1x8192, .f32⟩
  | .local _ .vmem, ⟨74, _⟩ => ⟨S32x1024, .f32⟩
  | .local _ .vmem, ⟨75, _⟩ => ⟨S32x1024, .f32⟩
  | .local _ .vmem, ⟨76, _⟩ => ⟨S16x1024, .bf16⟩
  | .local _ .vmem, ⟨77, _⟩ => ⟨S16x2048, .f32⟩
  | .local _ .vmem, ⟨78, _⟩ => ⟨S16x2048, .f32⟩
  | .local _ .vmem, ⟨79, _⟩ => ⟨S1024x8192, .bf16⟩
  | .local _ .vmem, ⟨80, _⟩ => ⟨S2048x8192, .bf16⟩
  | .local _ .vmem, ⟨81, _⟩ => ⟨S1x8192, .f32⟩
  | .local _ .vmem, ⟨82, _⟩ => ⟨S16x1024, .f32⟩
  | .local _ .vmem, ⟨83, _⟩ => ⟨S16x1024, .f32⟩
  | .local _ .vmem, ⟨84, _⟩ => ⟨S8x1024, .bf16⟩
  | .local _ .vmem, ⟨85, _⟩ => ⟨S8x2048, .f32⟩
  | .local _ .vmem, ⟨86, _⟩ => ⟨S8x2048, .f32⟩
  | .local _ .vmem, ⟨87, _⟩ => ⟨S1024x8192, .bf16⟩
  | .local _ .vmem, ⟨88, _⟩ => ⟨S2048x8192, .bf16⟩
  | .local _ .vmem, ⟨89, _⟩ => ⟨S1x8192, .f32⟩
  | .local _ .vmem, ⟨90, _⟩ => ⟨S8x1024, .f32⟩
  | .local _ .vmem, ⟨91, _⟩ => ⟨S8x1024, .f32⟩
  | .local _ .vmem, ⟨92, _⟩ => ⟨S4x1024, .bf16⟩
  | .local _ .vmem, ⟨93, _⟩ => ⟨S4x2048, .f32⟩
  | .local _ .vmem, ⟨94, _⟩ => ⟨S4x2048, .f32⟩
  | .local _ .vmem, ⟨95, _⟩ => ⟨S1024x8192, .bf16⟩
  | .local _ .vmem, ⟨96, _⟩ => ⟨S2048x8192, .bf16⟩
  | .local _ .vmem, ⟨97, _⟩ => ⟨S1x8192, .f32⟩
  | .local _ .vmem, ⟨98, _⟩ => ⟨S4x1024, .f32⟩
  | .local _ .vmem, ⟨99, _⟩ => ⟨S4x1024, .f32⟩
  | .local _ .vmem, ⟨100, _⟩ => ⟨S2x1024, .bf16⟩
  | .local _ .vmem, ⟨101, _⟩ => ⟨S2x2048, .f32⟩
  | .local _ .vmem, ⟨102, _⟩ => ⟨S2x2048, .f32⟩
  | .local _ .vmem, ⟨103, _⟩ => ⟨S1024x8192, .bf16⟩
  | .local _ .vmem, ⟨104, _⟩ => ⟨S2048x8192, .bf16⟩
  | .local _ .vmem, ⟨105, _⟩ => ⟨S1x8192, .f32⟩
  | .local _ .vmem, ⟨106, _⟩ => ⟨S2x1024, .f32⟩
  | .local _ .vmem, ⟨107, _⟩ => ⟨S2x1024, .f32⟩
  | .local _ .vmem, ⟨108, _⟩ => ⟨S1x1024, .bf16⟩
  | .local _ .vmem, ⟨109, _⟩ => ⟨S1x2048, .f32⟩
  | .local _ .vmem, ⟨110, _⟩ => ⟨S1x2048, .f32⟩
  | .local _ .vmem, ⟨111, _⟩ => ⟨S1024x8192, .bf16⟩
  | .local _ .vmem, ⟨112, _⟩ => ⟨S2048x8192, .bf16⟩
  | .local _ .vmem, ⟨113, _⟩ => ⟨S1x8192, .f32⟩
  | .local _ .vmem, ⟨114, _⟩ => ⟨S1x1024, .f32⟩
  | .local _ .vmem, ⟨115, _⟩ => ⟨S1x1024, .f32⟩
  | _, _ => ⟨S4095x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | _, _ => false

abbrev semScoped : Fin 0 → Bool
  | ⟨_, h⟩ => absurd h (Nat.not_lt_zero _)

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  ofTc nBuf bufTy 0 116 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32_0 : Ref sig .tc := ⟨.hbm, 43, rfl⟩
abbrev main_v32_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36_0 : Ref sig .tc := ⟨.hbm, 48, rfl⟩
abbrev main_v36_1 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40_0 : Ref sig .tc := ⟨.hbm, 53, rfl⟩
abbrev main_v40_1 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44_0 : Ref sig .tc := ⟨.hbm, 58, rfl⟩
abbrev main_v44_1 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48_0 : Ref sig .tc := ⟨.hbm, 63, rfl⟩
abbrev main_v48_1 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52_0 : Ref sig .tc := ⟨.hbm, 68, rfl⟩
abbrev main_v52_1 : Ref sig .tc := ⟨.hbm, 69, rfl⟩
abbrev main_v53 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg6_1 : Ref sig .tc := ⟨.vmem, 44, rfl⟩
abbrev cc3_stg7_0 : Ref sig .tc := ⟨.vmem, 45, rfl⟩
abbrev cc3_stg7_1 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg1_1 : Ref sig .tc := ⟨.vmem, 50, rfl⟩
abbrev cc4_stg2_0 : Ref sig .tc := ⟨.vmem, 51, rfl⟩
abbrev cc4_stg2_1 : Ref sig .tc := ⟨.vmem, 52, rfl⟩
abbrev cc4_stg3_0 : Ref sig .tc := ⟨.vmem, 53, rfl⟩
abbrev cc4_stg4_0 : Ref sig .tc := ⟨.vmem, 54, rfl⟩
abbrev cc4_stg5_0 : Ref sig .tc := ⟨.vmem, 55, rfl⟩
abbrev cc4_stg6_0 : Ref sig .tc := ⟨.vmem, 56, rfl⟩
abbrev cc4_stg6_1 : Ref sig .tc := ⟨.vmem, 57, rfl⟩
abbrev cc4_stg7_0 : Ref sig .tc := ⟨.vmem, 58, rfl⟩
abbrev cc4_stg7_1 : Ref sig .tc := ⟨.vmem, 59, rfl⟩
abbrev cc5_stg0_0 : Ref sig .tc := ⟨.vmem, 60, rfl⟩
abbrev cc5_stg1_0 : Ref sig .tc := ⟨.vmem, 61, rfl⟩
abbrev cc5_stg2_0 : Ref sig .tc := ⟨.vmem, 62, rfl⟩
abbrev cc5_stg3_0 : Ref sig .tc := ⟨.vmem, 63, rfl⟩
abbrev cc5_stg4_0 : Ref sig .tc := ⟨.vmem, 64, rfl⟩
abbrev cc5_stg5_0 : Ref sig .tc := ⟨.vmem, 65, rfl⟩
abbrev cc5_stg6_0 : Ref sig .tc := ⟨.vmem, 66, rfl⟩
abbrev cc5_stg7_0 : Ref sig .tc := ⟨.vmem, 67, rfl⟩
abbrev cc6_stg0_0 : Ref sig .tc := ⟨.vmem, 68, rfl⟩
abbrev cc6_stg1_0 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg5_0 : Ref sig .tc := ⟨.vmem, 73, rfl⟩
abbrev cc6_stg6_0 : Ref sig .tc := ⟨.vmem, 74, rfl⟩
abbrev cc6_stg7_0 : Ref sig .tc := ⟨.vmem, 75, rfl⟩
abbrev cc7_stg0_0 : Ref sig .tc := ⟨.vmem, 76, rfl⟩
abbrev cc7_stg1_0 : Ref sig .tc := ⟨.vmem, 77, rfl⟩
abbrev cc7_stg2_0 : Ref sig .tc := ⟨.vmem, 78, rfl⟩
abbrev cc7_stg3_0 : Ref sig .tc := ⟨.vmem, 79, rfl⟩
abbrev cc7_stg4_0 : Ref sig .tc := ⟨.vmem, 80, rfl⟩
abbrev cc7_stg5_0 : Ref sig .tc := ⟨.vmem, 81, rfl⟩
abbrev cc7_stg6_0 : Ref sig .tc := ⟨.vmem, 82, rfl⟩
abbrev cc7_stg7_0 : Ref sig .tc := ⟨.vmem, 83, rfl⟩
abbrev cc8_stg0_0 : Ref sig .tc := ⟨.vmem, 84, rfl⟩
abbrev cc8_stg1_0 : Ref sig .tc := ⟨.vmem, 85, rfl⟩
abbrev cc8_stg2_0 : Ref sig .tc := ⟨.vmem, 86, rfl⟩
abbrev cc8_stg3_0 : Ref sig .tc := ⟨.vmem, 87, rfl⟩
abbrev cc8_stg4_0 : Ref sig .tc := ⟨.vmem, 88, rfl⟩
abbrev cc8_stg5_0 : Ref sig .tc := ⟨.vmem, 89, rfl⟩
abbrev cc8_stg6_0 : Ref sig .tc := ⟨.vmem, 90, rfl⟩
abbrev cc8_stg7_0 : Ref sig .tc := ⟨.vmem, 91, rfl⟩
abbrev cc9_stg0_0 : Ref sig .tc := ⟨.vmem, 92, rfl⟩
abbrev cc9_stg1_0 : Ref sig .tc := ⟨.vmem, 93, rfl⟩
abbrev cc9_stg2_0 : Ref sig .tc := ⟨.vmem, 94, rfl⟩
abbrev cc9_stg3_0 : Ref sig .tc := ⟨.vmem, 95, rfl⟩
abbrev cc9_stg4_0 : Ref sig .tc := ⟨.vmem, 96, rfl⟩
abbrev cc9_stg5_0 : Ref sig .tc := ⟨.vmem, 97, rfl⟩
abbrev cc9_stg6_0 : Ref sig .tc := ⟨.vmem, 98, rfl⟩
abbrev cc9_stg7_0 : Ref sig .tc := ⟨.vmem, 99, rfl⟩
abbrev cc10_stg0_0 : Ref sig .tc := ⟨.vmem, 100, rfl⟩
abbrev cc10_stg1_0 : Ref sig .tc := ⟨.vmem, 101, rfl⟩
abbrev cc10_stg2_0 : Ref sig .tc := ⟨.vmem, 102, rfl⟩
abbrev cc10_stg3_0 : Ref sig .tc := ⟨.vmem, 103, rfl⟩
abbrev cc10_stg4_0 : Ref sig .tc := ⟨.vmem, 104, rfl⟩
abbrev cc10_stg5_0 : Ref sig .tc := ⟨.vmem, 105, rfl⟩
abbrev cc10_stg6_0 : Ref sig .tc := ⟨.vmem, 106, rfl⟩
abbrev cc10_stg7_0 : Ref sig .tc := ⟨.vmem, 107, rfl⟩
abbrev cc11_stg0_0 : Ref sig .tc := ⟨.vmem, 108, rfl⟩
abbrev cc11_stg1_0 : Ref sig .tc := ⟨.vmem, 109, rfl⟩
abbrev cc11_stg2_0 : Ref sig .tc := ⟨.vmem, 110, rfl⟩
abbrev cc11_stg3_0 : Ref sig .tc := ⟨.vmem, 111, rfl⟩
abbrev cc11_stg4_0 : Ref sig .tc := ⟨.vmem, 112, rfl⟩
abbrev cc11_stg5_0 : Ref sig .tc := ⟨.vmem, 113, rfl⟩
abbrev cc11_stg6_0 : Ref sig .tc := ⟨.vmem, 114, rfl⟩
abbrev cc11_stg7_0 : Ref sig .tc := ⟨.vmem, 115, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem6_1 : DmaSem sig := 44
abbrev cc3_sem7_0 : DmaSem sig := 45
abbrev cc3_sem7_1 : DmaSem sig := 46
abbrev cc4_sem0_0 : DmaSem sig := 47
abbrev cc4_sem0_1 : DmaSem sig := 48
abbrev cc4_sem1_0 : DmaSem sig := 49
abbrev cc4_sem1_1 : DmaSem sig := 50
abbrev cc4_sem2_0 : DmaSem sig := 51
abbrev cc4_sem2_1 : DmaSem sig := 52
abbrev cc4_sem3_0 : DmaSem sig := 53
abbrev cc4_sem4_0 : DmaSem sig := 54
abbrev cc4_sem5_0 : DmaSem sig := 55
abbrev cc4_sem6_0 : DmaSem sig := 56
abbrev cc4_sem6_1 : DmaSem sig := 57
abbrev cc4_sem7_0 : DmaSem sig := 58
abbrev cc4_sem7_1 : DmaSem sig := 59
abbrev cc5_sem0_0 : DmaSem sig := 60
abbrev cc5_sem1_0 : DmaSem sig := 61
abbrev cc5_sem2_0 : DmaSem sig := 62
abbrev cc5_sem3_0 : DmaSem sig := 63
abbrev cc5_sem4_0 : DmaSem sig := 64
abbrev cc5_sem5_0 : DmaSem sig := 65
abbrev cc5_sem6_0 : DmaSem sig := 66
abbrev cc5_sem7_0 : DmaSem sig := 67
abbrev cc6_sem0_0 : DmaSem sig := 68
abbrev cc6_sem1_0 : DmaSem sig := 69
abbrev cc6_sem2_0 : DmaSem sig := 70
abbrev cc6_sem3_0 : DmaSem sig := 71
abbrev cc6_sem4_0 : DmaSem sig := 72
abbrev cc6_sem5_0 : DmaSem sig := 73
abbrev cc6_sem6_0 : DmaSem sig := 74
abbrev cc6_sem7_0 : DmaSem sig := 75
abbrev cc7_sem0_0 : DmaSem sig := 76
abbrev cc7_sem1_0 : DmaSem sig := 77
abbrev cc7_sem2_0 : DmaSem sig := 78
abbrev cc7_sem3_0 : DmaSem sig := 79
abbrev cc7_sem4_0 : DmaSem sig := 80
abbrev cc7_sem5_0 : DmaSem sig := 81
abbrev cc7_sem6_0 : DmaSem sig := 82
abbrev cc7_sem7_0 : DmaSem sig := 83
abbrev cc8_sem0_0 : DmaSem sig := 84
abbrev cc8_sem1_0 : DmaSem sig := 85
abbrev cc8_sem2_0 : DmaSem sig := 86
abbrev cc8_sem3_0 : DmaSem sig := 87
abbrev cc8_sem4_0 : DmaSem sig := 88
abbrev cc8_sem5_0 : DmaSem sig := 89
abbrev cc8_sem6_0 : DmaSem sig := 90
abbrev cc8_sem7_0 : DmaSem sig := 91
abbrev cc9_sem0_0 : DmaSem sig := 92
abbrev cc9_sem1_0 : DmaSem sig := 93
abbrev cc9_sem2_0 : DmaSem sig := 94
abbrev cc9_sem3_0 : DmaSem sig := 95
abbrev cc9_sem4_0 : DmaSem sig := 96
abbrev cc9_sem5_0 : DmaSem sig := 97
abbrev cc9_sem6_0 : DmaSem sig := 98
abbrev cc9_sem7_0 : DmaSem sig := 99
abbrev cc10_sem0_0 : DmaSem sig := 100
abbrev cc10_sem1_0 : DmaSem sig := 101
abbrev cc10_sem2_0 : DmaSem sig := 102
abbrev cc10_sem3_0 : DmaSem sig := 103
abbrev cc10_sem4_0 : DmaSem sig := 104
abbrev cc10_sem5_0 : DmaSem sig := 105
abbrev cc10_sem6_0 : DmaSem sig := 106
abbrev cc10_sem7_0 : DmaSem sig := 107
abbrev cc11_sem0_0 : DmaSem sig := 108
abbrev cc11_sem1_0 : DmaSem sig := 109
abbrev cc11_sem2_0 : DmaSem sig := 110
abbrev cc11_sem3_0 : DmaSem sig := 111
abbrev cc11_sem4_0 : DmaSem sig := 112
abbrev cc11_sem5_0 : DmaSem sig := 113
abbrev cc11_sem6_0 : DmaSem sig := 114
abbrev cc11_sem7_0 : DmaSem sig := 115

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x8192 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x8192 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x8192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S64x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S64x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x8192 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x8192 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x8192 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S64x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S64x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S64x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S64x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1024x8192 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2048x8192 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x8192 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S64x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S64x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S64x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S64x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S64x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1024x8192 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S2048x8192 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x8192 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S64x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S64x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S64x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S64x2048 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S64x2048 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S1024x8192 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S2048x8192 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x8192 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]

abbrev stage5_7 : Fin 1 → Memref sig .tc .vmem S64x1024 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S32x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S32x2048 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S32x2048 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S1024x8192 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S2048x8192 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x8192 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S32x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]

abbrev stage6_7 : Fin 1 → Memref sig .tc .vmem S32x1024 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S16x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S16x2048 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S16x2048 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev stage7_3 : Fin 1 → Memref sig .tc .vmem S1024x8192 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S2048x8192 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x8192 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S16x1024 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![true]

abbrev stage7_7 : Fin 1 → Memref sig .tc .vmem S16x1024 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S8x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S8x2048 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S8x2048 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true]

abbrev stage8_3 : Fin 1 → Memref sig .tc .vmem S1024x8192 .bf16 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S2048x8192 .bf16 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x8192 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S8x1024 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![true]

abbrev stage8_7 : Fin 1 → Memref sig .tc .vmem S8x1024 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S4x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S4x2048 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true]

abbrev stage9_2 : Fin 1 → Memref sig .tc .vmem S4x2048 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true]

abbrev stage9_3 : Fin 1 → Memref sig .tc .vmem S1024x8192 .bf16 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S2048x8192 .bf16 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x8192 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S4x1024 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![true]

abbrev stage9_7 : Fin 1 → Memref sig .tc .vmem S4x1024 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S2x1024 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S2x2048 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![true]

abbrev stage10_2 : Fin 1 → Memref sig .tc .vmem S2x2048 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![true]

abbrev stage10_3 : Fin 1 → Memref sig .tc .vmem S1024x8192 .bf16 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S2048x8192 .bf16 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x8192 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S2x1024 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![true]

abbrev stage10_7 : Fin 1 → Memref sig .tc .vmem S2x1024 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S1x1024 .bf16 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S1x2048 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![true]

abbrev stage11_2 : Fin 1 → Memref sig .tc .vmem S1x2048 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![true]

abbrev stage11_3 : Fin 1 → Memref sig .tc .vmem S1024x8192 .bf16 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S2048x8192 .bf16 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x8192 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x1024 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![true]

abbrev stage11_7 : Fin 1 → Memref sig .tc .vmem S1x1024 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![true]

class Facts₀ : Prop where
  bitsLt_bf16_f32 : FTy.bits .bf16 < FTy.bits .f32
  transposes_S8192x1024_S1024x8192_1_0 : S8192x1024.Transposes [1, 0] S1024x8192
  transposes_S8192x2048_S2048x8192_1_0 : S8192x2048.Transposes [1, 0] S2048x8192
  shapeCasts_S8192_S1x8192 : S8192.ShapeCasts S1x8192
  slices_S4095x1024_S2048x1024_2047_0 : S4095x1024.Slices ![2047, 0] S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S512x8192 : S1x8192.Broadcasts S512x8192
  slices_S512x8192_o0_0_S512x2048 : S512x8192.Slices ![0, 0] S512x2048
  slices_S512x8192_o0_4096_S512x2048 : S512x8192.Slices ![0, 4096] S512x2048
  slices_S512x8192_o0_6144_S512x2048 : S512x8192.Slices ![0, 6144] S512x2048
  slices_S512x2048_o0_0_S512x1024 : S512x2048.Slices ![0, 0] S512x1024
  slices_S4095x1024_S1024x1024_1023_0 : S4095x1024.Slices ![1023, 0] S1024x1024
  shapeCasts_S2048x1024_S1024x2048 : S2048x1024.ShapeCasts S1024x2048
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S2048x8192_S2048x8192_0_0 : ∀ a, (![0, 0] : Fin 2 → Nat) a + S2048x8192.size a ≤ S2048x8192.size a
  h_S2048x8192 : 0 < S2048x8192.numel
  shapeCasts_S2048x8192_S2048x8192 : S2048x8192.ShapeCasts S2048x8192
  broadcasts_S1x8192_S64x8192 : S1x8192.Broadcasts S64x8192
  slices_S64x8192_o0_0_S64x2048 : S64x8192.Slices ![0, 0] S64x2048
  slices_S64x8192_o0_2048_S64x2048 : S64x8192.Slices ![0, 2048] S64x2048
  slices_S64x8192_o0_4096_S64x2048 : S64x8192.Slices ![0, 4096] S64x2048
  slices_S64x8192_o0_6144_S64x2048 : S64x8192.Slices ![0, 6144] S64x2048
  slices_S64x2048_o0_0_S64x1024 : S64x2048.Slices ![0, 0] S64x1024
  slices_S4095x1024_S512x1024_511_0 : S4095x1024.Slices ![511, 0] S512x1024
  shapeCasts_S1024x1024_S512x2048 : S1024x1024.ShapeCasts S512x2048
  slices_S4095x1024_S256x1024_255_0 : S4095x1024.Slices ![255, 0] S256x1024
  shapeCasts_S512x1024_S256x2048 : S512x1024.ShapeCasts S256x2048
  slices_S4095x1024_S128x1024_127_0 : S4095x1024.Slices ![127, 0] S128x1024
  shapeCasts_S256x1024_S128x2048 : S256x1024.ShapeCasts S128x2048
  slices_S4095x1024_S64x1024_63_0 : S4095x1024.Slices ![63, 0] S64x1024
  shapeCasts_S128x1024_S64x2048 : S128x1024.ShapeCasts S64x2048
  slices_S4095x1024_S32x1024_31_0 : S4095x1024.Slices ![31, 0] S32x1024
  shapeCasts_S64x1024_S32x2048 : S64x1024.ShapeCasts S32x2048
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  broadcasts_S1x8192_S32x8192 : S1x8192.Broadcasts S32x8192
  slices_S32x8192_o0_0_S32x2048 : S32x8192.Slices ![0, 0] S32x2048
  slices_S32x8192_o0_2048_S32x2048 : S32x8192.Slices ![0, 2048] S32x2048
  slices_S32x8192_o0_4096_S32x2048 : S32x8192.Slices ![0, 4096] S32x2048
  slices_S32x8192_o0_6144_S32x2048 : S32x8192.Slices ![0, 6144] S32x2048
  slices_S32x2048_o0_0_S32x1024 : S32x2048.Slices ![0, 0] S32x1024
  slices_S4095x1024_S16x1024_15_0 : S4095x1024.Slices ![15, 0] S16x1024
  shapeCasts_S32x1024_S16x2048 : S32x1024.ShapeCasts S16x2048
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  broadcasts_S1x8192_S16x8192 : S1x8192.Broadcasts S16x8192
  slices_S16x8192_o0_0_S16x2048 : S16x8192.Slices ![0, 0] S16x2048
  slices_S16x8192_o0_2048_S16x2048 : S16x8192.Slices ![0, 2048] S16x2048
  slices_S16x8192_o0_4096_S16x2048 : S16x8192.Slices ![0, 4096] S16x2048
  slices_S16x8192_o0_6144_S16x2048 : S16x8192.Slices ![0, 6144] S16x2048
  slices_S16x2048_o0_0_S16x1024 : S16x2048.Slices ![0, 0] S16x1024
  slices_S4095x1024_S8x1024_7_0 : S4095x1024.Slices ![7, 0] S8x1024
  shapeCasts_S16x1024_S8x2048 : S16x1024.ShapeCasts S8x2048
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  broadcasts_S1x8192_S8x8192 : S1x8192.Broadcasts S8x8192
  slices_S8x8192_o0_0_S8x2048 : S8x8192.Slices ![0, 0] S8x2048
  slices_S8x8192_o0_2048_S8x2048 : S8x8192.Slices ![0, 2048] S8x2048
  slices_S8x8192_o0_4096_S8x2048 : S8x8192.Slices ![0, 4096] S8x2048
  slices_S8x8192_o0_6144_S8x2048 : S8x8192.Slices ![0, 6144] S8x2048
  slices_S8x2048_o0_0_S8x1024 : S8x2048.Slices ![0, 0] S8x1024
  slices_S4095x1024_S4x1024_3_0 : S4095x1024.Slices ![3, 0] S4x1024
  shapeCasts_S8x1024_S4x2048 : S8x1024.ShapeCasts S4x2048
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  broadcasts_S1x8192_S4x8192 : S1x8192.Broadcasts S4x8192
  slices_S4x8192_o0_0_S4x2048 : S4x8192.Slices ![0, 0] S4x2048
  slices_S4x8192_o0_2048_S4x2048 : S4x8192.Slices ![0, 2048] S4x2048
  slices_S4x8192_o0_4096_S4x2048 : S4x8192.Slices ![0, 4096] S4x2048
  slices_S4x8192_o0_6144_S4x2048 : S4x8192.Slices ![0, 6144] S4x2048
  slices_S4x2048_o0_0_S4x1024 : S4x2048.Slices ![0, 0] S4x1024
  slices_S4095x1024_S2x1024_1_0 : S4095x1024.Slices ![1, 0] S2x1024
  shapeCasts_S4x1024_S2x2048 : S4x1024.ShapeCasts S2x2048
  inb_S2x1024_S2x1024_0_0 : ∀ a, (![0, 0] : Fin 2 → Nat) a + S2x1024.size a ≤ S2x1024.size a
  h_S2x1024 : 0 < S2x1024.numel
  shapeCasts_S2x1024_S2x1024 : S2x1024.ShapeCasts S2x1024
  inb_S2x2048_S2x2048_0_0 : ∀ a, (![0, 0] : Fin 2 → Nat) a + S2x2048.size a ≤ S2x2048.size a
  h_S2x2048 : 0 < S2x2048.numel
  shapeCasts_S2x2048_S2x2048 : S2x2048.ShapeCasts S2x2048
  broadcasts_S1x8192_S2x8192 : S1x8192.Broadcasts S2x8192
  slices_S2x8192_o0_0_S2x2048 : S2x8192.Slices ![0, 0] S2x2048
  slices_S2x8192_o0_2048_S2x2048 : S2x8192.Slices ![0, 2048] S2x2048
  slices_S2x8192_o0_4096_S2x2048 : S2x8192.Slices ![0, 4096] S2x2048
  slices_S2x8192_o0_6144_S2x2048 : S2x8192.Slices ![0, 6144] S2x2048
  slices_S2x2048_o0_0_S2x1024 : S2x2048.Slices ![0, 0] S2x1024
  slices_S4095x1024_S1x1024_0_0 : S4095x1024.Slices ![0, 0] S1x1024
  shapeCasts_S2x1024_S1x2048 : S2x1024.ShapeCasts S1x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  slices_S1x8192_o0_0_S1x2048 : S1x8192.Slices ![0, 0] S1x2048
  slices_S1x8192_o0_2048_S1x2048 : S1x8192.Slices ![0, 2048] S1x2048
  slices_S1x8192_o0_4096_S1x2048 : S1x8192.Slices ![0, 4096] S1x2048
  slices_S1x8192_o0_6144_S1x2048 : S1x8192.Slices ![0, 6144] S1x2048
  slices_S1x2048_o0_0_S1x1024 : S1x2048.Slices ![0, 0] S1x1024
  concatenates_S1x1024_S1x1024_S1x2048_d1 : Shape.Concatenates [S1x1024, S1x1024] S1x2048 1
  dot_S512x1024_S1024x8192_S512x8192_1_0_0_1_n_n_wf : DotDims.WF S512x1024 S1024x8192 S512x8192 [1] [0] [0] [1] [] []
  dot_S64x1024_S1024x8192_S64x8192_1_0_0_1_n_n_wf : DotDims.WF S64x1024 S1024x8192 S64x8192 [1] [0] [0] [1] [] []
  dot_S64x2048_S2048x8192_S64x8192_1_0_0_1_n_n_wf : DotDims.WF S64x2048 S2048x8192 S64x8192 [1] [0] [0] [1] [] []
  dot_S32x1024_S1024x8192_S32x8192_1_0_0_1_n_n_wf : DotDims.WF S32x1024 S1024x8192 S32x8192 [1] [0] [0] [1] [] []
  dot_S32x2048_S2048x8192_S32x8192_1_0_0_1_n_n_wf : DotDims.WF S32x2048 S2048x8192 S32x8192 [1] [0] [0] [1] [] []
  dot_S16x1024_S1024x8192_S16x8192_1_0_0_1_n_n_wf : DotDims.WF S16x1024 S1024x8192 S16x8192 [1] [0] [0] [1] [] []
  dot_S16x2048_S2048x8192_S16x8192_1_0_0_1_n_n_wf : DotDims.WF S16x2048 S2048x8192 S16x8192 [1] [0] [0] [1] [] []
  dot_S8x1024_S1024x8192_S8x8192_1_0_0_1_n_n_wf : DotDims.WF S8x1024 S1024x8192 S8x8192 [1] [0] [0] [1] [] []
  dot_S8x2048_S2048x8192_S8x8192_1_0_0_1_n_n_wf : DotDims.WF S8x2048 S2048x8192 S8x8192 [1] [0] [0] [1] [] []
  dot_S4x1024_S1024x8192_S4x8192_1_0_0_1_n_n_wf : DotDims.WF S4x1024 S1024x8192 S4x8192 [1] [0] [0] [1] [] []
  dot_S4x2048_S2048x8192_S4x8192_1_0_0_1_n_n_wf : DotDims.WF S4x2048 S2048x8192 S4x8192 [1] [0] [0] [1] [] []
  dot_S2x1024_S1024x8192_S2x8192_1_0_0_1_n_n_wf : DotDims.WF S2x1024 S1024x8192 S2x8192 [1] [0] [0] [1] [] []
  dot_S2x2048_S2048x8192_S2x8192_1_0_0_1_n_n_wf : DotDims.WF S2x2048 S2048x8192 S2x8192 [1] [0] [0] [1] [] []
  dot_S1x1024_S1024x8192_S1x8192_1_0_0_1_n_n_wf : DotDims.WF S1x1024 S1024x8192 S1x8192 [1] [0] [0] [1] [] []
  dot_S1x2048_S2048x8192_S1x8192_1_0_0_1_n_n_wf : DotDims.WF S1x2048 S2048x8192 S1x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .bf16 = 32 ∨ (Rect.block (s := S2048x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x8192.size a ≤ S1024x8192.size a
  hwx0_1 : ∀ i : grid0.Coords, EltTy.bits .bf16 = 32 ∨ (Rect.block (s := S1024x8192) S1024x8192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x1024.size a
  hwx0_3 : ∀ i : grid0.Coords, EltTy.bits .f32 = 32 ∨ (Rect.block (s := S2048x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S2048x1024.size a
  hwx0_4 : ∀ i : grid0.Coords, EltTy.bits .f32 = 32 ∨ (Rect.block (s := S2048x1024) S512x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x1024.size a ≤ S1024x1024.size a
  hwx1_0 : ∀ i : grid1.Coords, EltTy.bits .bf16 = 32 ∨ (Rect.block (s := S1024x1024) S64x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x2048.size a ≤ S1024x2048.size a
  hwx1_1 : ∀ i : grid1.Coords, EltTy.bits .f32 = 32 ∨ (Rect.block (s := S1024x2048) S64x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x2048.size a ≤ S1024x2048.size a
  hwx1_2 : ∀ i : grid1.Coords, EltTy.bits .f32 = 32 ∨ (Rect.block (s := S1024x2048) S64x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x8192.size a ≤ S1024x8192.size a
  hwx1_3 : ∀ i : grid1.Coords, EltTy.bits .bf16 = 32 ∨ (Rect.block (s := S1024x8192) S1024x8192.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x8192.size a ≤ S2048x8192.size a
  hwx1_4 : ∀ i : grid1.Coords, EltTy.bits .bf16 = 32 ∨ (Rect.block (s := S2048x8192) S2048x8192.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x8192.size a ≤ S1x8192.size a
  hwx1_5 : ∀ i : grid1.Coords, EltTy.bits .f32 = 32 ∨ (Rect.block (s := S1x8192) S1x8192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S64x1024.size a ≤ S1024x1024.size a
  hwx1_6 : ∀ i : grid1.Coords, EltTy.bits .f32 = 32 ∨ (Rect.block (s := S1024x1024) S64x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S64x1024.size a ≤ S1024x1024.size a
  hwx1_7 : ∀ i : grid1.Coords, EltTy.bits .f32 = 32 ∨ (Rect.block (s := S1024x1024) S64x1024.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x1024.size a ≤ S512x1024.size a
  hwx2_0 : ∀ i : grid2.Coords, EltTy.bits .bf16 = 32 ∨ (Rect.block (s := S512x1024) S64x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x2048.size a ≤ S512x2048.size a
  hwx2_1 : ∀ i : grid2.Coords, EltTy.bits .f32 = 32 ∨ (Rect.block (s := S512x2048) S64x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S64x2048.size a ≤ S512x2048.size a
  hwx2_2 : ∀ i : grid2.Coords, EltTy.bits .f32 = 32 ∨ (Rect.block (s := S512x2048) S64x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x8192.size a ≤ S1024x8192.size a
  hwx2_3 : ∀ i : grid2.Coords, EltTy.bits .bf16 = 32 ∨ (Rect.block (s := S1024x8192) S1024x8192.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2048x8192.size a ≤ S2048x8192.size a
  hwx2_4 : ∀ i : grid2.Coords, EltTy.bits .bf16 = 32 ∨ (Rect.block (s := S2048x8192) S2048x8192.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x8192.size a ≤ S1x8192.size a
  hwx2_5 : ∀ i : grid2.Coords, EltTy.bits .f32 = 32 ∨ (Rect.block (s := S1x8192) S1x8192.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S64x1024.size a ≤ S512x1024.size a
  hwx2_6 : ∀ i : grid2.Coords, EltTy.bits .f32 = 32 ∨ (Rect.block (s := S512x1024) S64x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S64x1024.size a ≤ S512x1024.size a
  hwx2_7 : ∀ i : grid2.Coords, EltTy.bits .f32 = 32 ∨ (Rect.block (s := S512x1024) S64x1024.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x1024.size a ≤ S256x1024.size a
  hwx3_0 : ∀ i : grid3.Coords, EltTy.bits .bf16 = 32 ∨ (Rect.block (s := S256x1024) S64x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S64x2048.size a ≤ S256x2048.size a
  hwx3_1 : ∀ i : grid3.Coords, EltTy.bits .f32 = 32 ∨ (Rect.block (s := S256x2048) S64x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S64x2048.size a ≤ S256x2048.size a
  hwx3_2 : ∀ i : grid3.Coords, EltTy.bits .f32 = 32 ∨ (Rect.block (s := S256x2048) S64x2048.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x8192.size a ≤ S1024x8192.size a
  hwx3_3 : ∀ i : grid3.Coords, EltTy.bits .bf16 = 32 ∨ (Rect.block (s := S1024x8192) S1024x8192.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2048x8192.size a ≤ S2048x8192.size a
  hwx3_4 : ∀ i : grid3.Coords, EltTy.bits .bf16 = 32 ∨ (Rect.block (s := S2048x8192) S2048x8192.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x8192.size a ≤ S1x8192.size a
  hwx3_5 : ∀ i : grid3.Coords, EltTy.bits .f32 = 32 ∨ (Rect.block (s := S1x8192) S1x8192.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S64x1024.size a ≤ S256x1024.size a
  hwx3_6 : ∀ i : grid3.Coords, EltTy.bits .f32 = 32 ∨ (Rect.block (s := S256x1024) S64x1024.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S64x1024.size a ≤ S256x1024.size a
  hwx3_7 : ∀ i : grid3.Coords, EltTy.bits .f32 = 32 ∨ (Rect.block (s := S256x1024) S64x1024.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x1024.size a ≤ S128x1024.size a
  hwx4_0 : ∀ i : grid4.Coords, EltTy.bits .bf16 = 32 ∨ (Rect.block (s := S128x1024) S64x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S64x2048.size a ≤ S128x2048.size a
  hwx4_1 : ∀ i : grid4.Coords, EltTy.bits .f32 = 32 ∨ (Rect.block (s := S128x2048) S64x2048.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S64x2048.size a ≤ S128x2048.size a
  hwx4_2 : ∀ i : grid4.Coords, EltTy.bits .f32 = 32 ∨ (Rect.block (s := S128x2048) S64x2048.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1024x8192.size a ≤ S1024x8192.size a
  hwx4_3 : ∀ i : grid4.Coords, EltTy.bits .bf16 = 32 ∨ (Rect.block (s := S1024x8192) S1024x8192.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S2048x8192.size a ≤ S2048x8192.size a
  hwx4_4 : ∀ i : grid4.Coords, EltTy.bits .bf16 = 32 ∨ (Rect.block (s := S2048x8192) S2048x8192.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x8192.size a ≤ S1x8192.size a
  hwx4_5 : ∀ i : grid4.Coords, EltTy.bits .f32 = 32 ∨ (Rect.block (s := S1x8192) S1x8192.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S64x1024.size a ≤ S128x1024.size a
  hwx4_6 : ∀ i : grid4.Coords, EltTy.bits .f32 = 32 ∨ (Rect.block (s := S128x1024) S64x1024.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S64x1024.size a ≤ S128x1024.size a
  hwx4_7 : ∀ i : grid4.Coords, EltTy.bits .f32 = 32 ∨ (Rect.block (s := S128x1024) S64x1024.size (cc4_transform_7 i) (hinb4_7 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S64x1024.size a ≤ S64x1024.size a
  hwx5_0 : ∀ i : grid5.Coords, EltTy.bits .bf16 = 32 ∨ (Rect.block (s := S64x1024) S64x1024.size (cc5_transform_0 i) (hinb5_0 i)).WholeWords (EltTy.packing .bf16)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S64x2048.size a ≤ S64x2048.size a
  hwx5_1 : ∀ i : grid5.Coords, EltTy.bits .f32 = 32 ∨ (Rect.block (s := S64x2048) S64x2048.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S64x2048.size a ≤ S64x2048.size a
  hwx5_2 : ∀ i : grid5.Coords, EltTy.bits .f32 = 32 ∨ (Rect.block (s := S64x2048) S64x2048.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1024x8192.size a ≤ S1024x8192.size a
  hwx5_3 : ∀ i : grid5.Coords, EltTy.bits .bf16 = 32 ∨ (Rect.block (s := S1024x8192) S1024x8192.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S2048x8192.size a ≤ S2048x8192.size a
  hwx5_4 : ∀ i : grid5.Coords, EltTy.bits .bf16 = 32 ∨ (Rect.block (s := S2048x8192) S2048x8192.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x8192.size a ≤ S1x8192.size a
  hwx5_5 : ∀ i : grid5.Coords, EltTy.bits .f32 = 32 ∨ (Rect.block (s := S1x8192) S1x8192.size (cc5_transform_5 i) (hinb5_5 i)).WholeWords (EltTy.packing .f32)
  hstage5_6 : ∀ j, (stage5_6 j).IsWhole
  nbuf5_6 : grid5.bufCount reads5_6 false = 1
  hreads5_6 : ∀ i i' : grid5.Coords, (∀ a, reads5_6 a = true → i a = i' a) → cc5_transform_6 i = cc5_transform_6 i'
  hinb5_6 : ∀ (i : grid5.Coords) a, (cc5_transform_6 i a + 1) * S64x1024.size a ≤ S64x1024.size a
  hwx5_6 : ∀ i : grid5.Coords, EltTy.bits .f32 = 32 ∨ (Rect.block (s := S64x1024) S64x1024.size (cc5_transform_6 i) (hinb5_6 i)).WholeWords (EltTy.packing .f32)
  hstage5_7 : ∀ j, (stage5_7 j).IsWhole
  nbuf5_7 : grid5.bufCount reads5_7 false = 1
  hreads5_7 : ∀ i i' : grid5.Coords, (∀ a, reads5_7 a = true → i a = i' a) → cc5_transform_7 i = cc5_transform_7 i'
  hinb5_7 : ∀ (i : grid5.Coords) a, (cc5_transform_7 i a + 1) * S64x1024.size a ≤ S64x1024.size a
  hwx5_7 : ∀ i : grid5.Coords, EltTy.bits .f32 = 32 ∨ (Rect.block (s := S64x1024) S64x1024.size (cc5_transform_7 i) (hinb5_7 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S32x1024.size a ≤ S32x1024.size a
  hwx6_0 : ∀ i : grid6.Coords, EltTy.bits .bf16 = 32 ∨ (Rect.block (s := S32x1024) S32x1024.size (cc6_transform_0 i) (hinb6_0 i)).WholeWords (EltTy.packing .bf16)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S32x2048.size a ≤ S32x2048.size a
  hwx6_1 : ∀ i : grid6.Coords, EltTy.bits .f32 = 32 ∨ (Rect.block (s := S32x2048) S32x2048.size (cc6_transform_1 i) (hinb6_1 i)).WholeWords (EltTy.packing .f32)
  hstage6_2 : ∀ j, (stage6_2 j).IsWhole
  nbuf6_2 : grid6.bufCount reads6_2 false = 1
  hreads6_2 : ∀ i i' : grid6.Coords, (∀ a, reads6_2 a = true → i a = i' a) → cc6_transform_2 i = cc6_transform_2 i'
  hinb6_2 : ∀ (i : grid6.Coords) a, (cc6_transform_2 i a + 1) * S32x2048.size a ≤ S32x2048.size a
  hwx6_2 : ∀ i : grid6.Coords, EltTy.bits .f32 = 32 ∨ (Rect.block (s := S32x2048) S32x2048.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1024x8192.size a ≤ S1024x8192.size a
  hwx6_3 : ∀ i : grid6.Coords, EltTy.bits .bf16 = 32 ∨ (Rect.block (s := S1024x8192) S1024x8192.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S2048x8192.size a ≤ S2048x8192.size a
  hwx6_4 : ∀ i : grid6.Coords, EltTy.bits .bf16 = 32 ∨ (Rect.block (s := S2048x8192) S2048x8192.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x8192.size a ≤ S1x8192.size a
  hwx6_5 : ∀ i : grid6.Coords, EltTy.bits .f32 = 32 ∨ (Rect.block (s := S1x8192) S1x8192.size (cc6_transform_5 i) (hinb6_5 i)).WholeWords (EltTy.packing .f32)
  hstage6_6 : ∀ j, (stage6_6 j).IsWhole
  nbuf6_6 : grid6.bufCount reads6_6 false = 1
  hreads6_6 : ∀ i i' : grid6.Coords, (∀ a, reads6_6 a = true → i a = i' a) → cc6_transform_6 i = cc6_transform_6 i'
  hinb6_6 : ∀ (i : grid6.Coords) a, (cc6_transform_6 i a + 1) * S32x1024.size a ≤ S32x1024.size a
  hwx6_6 : ∀ i : grid6.Coords, EltTy.bits .f32 = 32 ∨ (Rect.block (s := S32x1024) S32x1024.size (cc6_transform_6 i) (hinb6_6 i)).WholeWords (EltTy.packing .f32)
  hstage6_7 : ∀ j, (stage6_7 j).IsWhole
  nbuf6_7 : grid6.bufCount reads6_7 false = 1
  hreads6_7 : ∀ i i' : grid6.Coords, (∀ a, reads6_7 a = true → i a = i' a) → cc6_transform_7 i = cc6_transform_7 i'
  hinb6_7 : ∀ (i : grid6.Coords) a, (cc6_transform_7 i a + 1) * S32x1024.size a ≤ S32x1024.size a
  hwx6_7 : ∀ i : grid6.Coords, EltTy.bits .f32 = 32 ∨ (Rect.block (s := S32x1024) S32x1024.size (cc6_transform_7 i) (hinb6_7 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S16x1024.size a ≤ S16x1024.size a
  hwx7_0 : ∀ i : grid7.Coords, EltTy.bits .bf16 = 32 ∨ (Rect.block (s := S16x1024) S16x1024.size (cc7_transform_0 i) (hinb7_0 i)).WholeWords (EltTy.packing .bf16)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S16x2048.size a ≤ S16x2048.size a
  hwx7_1 : ∀ i : grid7.Coords, EltTy.bits .f32 = 32 ∨ (Rect.block (s := S16x2048) S16x2048.size (cc7_transform_1 i) (hinb7_1 i)).WholeWords (EltTy.packing .f32)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hinb7_2 : ∀ (i : grid7.Coords) a, (cc7_transform_2 i a + 1) * S16x2048.size a ≤ S16x2048.size a
  hwx7_2 : ∀ i : grid7.Coords, EltTy.bits .f32 = 32 ∨ (Rect.block (s := S16x2048) S16x2048.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1024x8192.size a ≤ S1024x8192.size a
  hwx7_3 : ∀ i : grid7.Coords, EltTy.bits .bf16 = 32 ∨ (Rect.block (s := S1024x8192) S1024x8192.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S2048x8192.size a ≤ S2048x8192.size a
  hwx7_4 : ∀ i : grid7.Coords, EltTy.bits .bf16 = 32 ∨ (Rect.block (s := S2048x8192) S2048x8192.size (cc7_transform_4 i) (hinb7_4 i)).WholeWords (EltTy.packing .bf16)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x8192.size a ≤ S1x8192.size a
  hwx7_5 : ∀ i : grid7.Coords, EltTy.bits .f32 = 32 ∨ (Rect.block (s := S1x8192) S1x8192.size (cc7_transform_5 i) (hinb7_5 i)).WholeWords (EltTy.packing .f32)
  hstage7_6 : ∀ j, (stage7_6 j).IsWhole
  nbuf7_6 : grid7.bufCount reads7_6 false = 1
  hreads7_6 : ∀ i i' : grid7.Coords, (∀ a, reads7_6 a = true → i a = i' a) → cc7_transform_6 i = cc7_transform_6 i'
  hinb7_6 : ∀ (i : grid7.Coords) a, (cc7_transform_6 i a + 1) * S16x1024.size a ≤ S16x1024.size a
  hwx7_6 : ∀ i : grid7.Coords, EltTy.bits .f32 = 32 ∨ (Rect.block (s := S16x1024) S16x1024.size (cc7_transform_6 i) (hinb7_6 i)).WholeWords (EltTy.packing .f32)
  hstage7_7 : ∀ j, (stage7_7 j).IsWhole
  nbuf7_7 : grid7.bufCount reads7_7 false = 1
  hreads7_7 : ∀ i i' : grid7.Coords, (∀ a, reads7_7 a = true → i a = i' a) → cc7_transform_7 i = cc7_transform_7 i'
  hinb7_7 : ∀ (i : grid7.Coords) a, (cc7_transform_7 i a + 1) * S16x1024.size a ≤ S16x1024.size a
  hwx7_7 : ∀ i : grid7.Coords, EltTy.bits .f32 = 32 ∨ (Rect.block (s := S16x1024) S16x1024.size (cc7_transform_7 i) (hinb7_7 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S8x1024.size a ≤ S8x1024.size a
  hwx8_0 : ∀ i : grid8.Coords, EltTy.bits .bf16 = 32 ∨ (Rect.block (s := S8x1024) S8x1024.size (cc8_transform_0 i) (hinb8_0 i)).WholeWords (EltTy.packing .bf16)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S8x2048.size a ≤ S8x2048.size a
  hwx8_1 : ∀ i : grid8.Coords, EltTy.bits .f32 = 32 ∨ (Rect.block (s := S8x2048) S8x2048.size (cc8_transform_1 i) (hinb8_1 i)).WholeWords (EltTy.packing .f32)
  hstage8_2 : ∀ j, (stage8_2 j).IsWhole
  nbuf8_2 : grid8.bufCount reads8_2 false = 1
  hreads8_2 : ∀ i i' : grid8.Coords, (∀ a, reads8_2 a = true → i a = i' a) → cc8_transform_2 i = cc8_transform_2 i'
  hinb8_2 : ∀ (i : grid8.Coords) a, (cc8_transform_2 i a + 1) * S8x2048.size a ≤ S8x2048.size a
  hwx8_2 : ∀ i : grid8.Coords, EltTy.bits .f32 = 32 ∨ (Rect.block (s := S8x2048) S8x2048.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1024x8192.size a ≤ S1024x8192.size a
  hwx8_3 : ∀ i : grid8.Coords, EltTy.bits .bf16 = 32 ∨ (Rect.block (s := S1024x8192) S1024x8192.size (cc8_transform_3 i) (hinb8_3 i)).WholeWords (EltTy.packing .bf16)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S2048x8192.size a ≤ S2048x8192.size a
  hwx8_4 : ∀ i : grid8.Coords, EltTy.bits .bf16 = 32 ∨ (Rect.block (s := S2048x8192) S2048x8192.size (cc8_transform_4 i) (hinb8_4 i)).WholeWords (EltTy.packing .bf16)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x8192.size a ≤ S1x8192.size a
  hwx8_5 : ∀ i : grid8.Coords, EltTy.bits .f32 = 32 ∨ (Rect.block (s := S1x8192) S1x8192.size (cc8_transform_5 i) (hinb8_5 i)).WholeWords (EltTy.packing .f32)
  hstage8_6 : ∀ j, (stage8_6 j).IsWhole
  nbuf8_6 : grid8.bufCount reads8_6 false = 1
  hreads8_6 : ∀ i i' : grid8.Coords, (∀ a, reads8_6 a = true → i a = i' a) → cc8_transform_6 i = cc8_transform_6 i'
  hinb8_6 : ∀ (i : grid8.Coords) a, (cc8_transform_6 i a + 1) * S8x1024.size a ≤ S8x1024.size a
  hwx8_6 : ∀ i : grid8.Coords, EltTy.bits .f32 = 32 ∨ (Rect.block (s := S8x1024) S8x1024.size (cc8_transform_6 i) (hinb8_6 i)).WholeWords (EltTy.packing .f32)
  hstage8_7 : ∀ j, (stage8_7 j).IsWhole
  nbuf8_7 : grid8.bufCount reads8_7 false = 1
  hreads8_7 : ∀ i i' : grid8.Coords, (∀ a, reads8_7 a = true → i a = i' a) → cc8_transform_7 i = cc8_transform_7 i'
  hinb8_7 : ∀ (i : grid8.Coords) a, (cc8_transform_7 i a + 1) * S8x1024.size a ≤ S8x1024.size a
  hwx8_7 : ∀ i : grid8.Coords, EltTy.bits .f32 = 32 ∨ (Rect.block (s := S8x1024) S8x1024.size (cc8_transform_7 i) (hinb8_7 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S4x1024.size a ≤ S4x1024.size a
  hwx9_0 : ∀ i : grid9.Coords, EltTy.bits .bf16 = 32 ∨ (Rect.block (s := S4x1024) S4x1024.size (cc9_transform_0 i) (hinb9_0 i)).WholeWords (EltTy.packing .bf16)
  hstage9_1 : ∀ j, (stage9_1 j).IsWhole
  nbuf9_1 : grid9.bufCount reads9_1 false = 1
  hreads9_1 : ∀ i i' : grid9.Coords, (∀ a, reads9_1 a = true → i a = i' a) → cc9_transform_1 i = cc9_transform_1 i'
  hinb9_1 : ∀ (i : grid9.Coords) a, (cc9_transform_1 i a + 1) * S4x2048.size a ≤ S4x2048.size a
  hwx9_1 : ∀ i : grid9.Coords, EltTy.bits .f32 = 32 ∨ (Rect.block (s := S4x2048) S4x2048.size (cc9_transform_1 i) (hinb9_1 i)).WholeWords (EltTy.packing .f32)
  hstage9_2 : ∀ j, (stage9_2 j).IsWhole
  nbuf9_2 : grid9.bufCount reads9_2 false = 1
  hreads9_2 : ∀ i i' : grid9.Coords, (∀ a, reads9_2 a = true → i a = i' a) → cc9_transform_2 i = cc9_transform_2 i'
  hinb9_2 : ∀ (i : grid9.Coords) a, (cc9_transform_2 i a + 1) * S4x2048.size a ≤ S4x2048.size a
  hwx9_2 : ∀ i : grid9.Coords, EltTy.bits .f32 = 32 ∨ (Rect.block (s := S4x2048) S4x2048.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1024x8192.size a ≤ S1024x8192.size a
  hwx9_3 : ∀ i : grid9.Coords, EltTy.bits .bf16 = 32 ∨ (Rect.block (s := S1024x8192) S1024x8192.size (cc9_transform_3 i) (hinb9_3 i)).WholeWords (EltTy.packing .bf16)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S2048x8192.size a ≤ S2048x8192.size a
  hwx9_4 : ∀ i : grid9.Coords, EltTy.bits .bf16 = 32 ∨ (Rect.block (s := S2048x8192) S2048x8192.size (cc9_transform_4 i) (hinb9_4 i)).WholeWords (EltTy.packing .bf16)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x8192.size a ≤ S1x8192.size a
  hwx9_5 : ∀ i : grid9.Coords, EltTy.bits .f32 = 32 ∨ (Rect.block (s := S1x8192) S1x8192.size (cc9_transform_5 i) (hinb9_5 i)).WholeWords (EltTy.packing .f32)
  hstage9_6 : ∀ j, (stage9_6 j).IsWhole
  nbuf9_6 : grid9.bufCount reads9_6 false = 1
  hreads9_6 : ∀ i i' : grid9.Coords, (∀ a, reads9_6 a = true → i a = i' a) → cc9_transform_6 i = cc9_transform_6 i'
  hinb9_6 : ∀ (i : grid9.Coords) a, (cc9_transform_6 i a + 1) * S4x1024.size a ≤ S4x1024.size a
  hwx9_6 : ∀ i : grid9.Coords, EltTy.bits .f32 = 32 ∨ (Rect.block (s := S4x1024) S4x1024.size (cc9_transform_6 i) (hinb9_6 i)).WholeWords (EltTy.packing .f32)
  hstage9_7 : ∀ j, (stage9_7 j).IsWhole
  nbuf9_7 : grid9.bufCount reads9_7 false = 1
  hreads9_7 : ∀ i i' : grid9.Coords, (∀ a, reads9_7 a = true → i a = i' a) → cc9_transform_7 i = cc9_transform_7 i'
  hinb9_7 : ∀ (i : grid9.Coords) a, (cc9_transform_7 i a + 1) * S4x1024.size a ≤ S4x1024.size a
  hwx9_7 : ∀ i : grid9.Coords, EltTy.bits .f32 = 32 ∨ (Rect.block (s := S4x1024) S4x1024.size (cc9_transform_7 i) (hinb9_7 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S2x1024.size a ≤ S2x1024.size a
  hwx10_0 : ∀ i : grid10.Coords, EltTy.bits .bf16 = 32 ∨ (Rect.block (s := S2x1024) S2x1024.size (cc10_transform_0 i) (hinb10_0 i)).WholeWords (EltTy.packing .bf16)
  hstage10_1 : ∀ j, (stage10_1 j).IsWhole
  nbuf10_1 : grid10.bufCount reads10_1 false = 1
  hreads10_1 : ∀ i i' : grid10.Coords, (∀ a, reads10_1 a = true → i a = i' a) → cc10_transform_1 i = cc10_transform_1 i'
  hinb10_1 : ∀ (i : grid10.Coords) a, (cc10_transform_1 i a + 1) * S2x2048.size a ≤ S2x2048.size a
  hwx10_1 : ∀ i : grid10.Coords, EltTy.bits .f32 = 32 ∨ (Rect.block (s := S2x2048) S2x2048.size (cc10_transform_1 i) (hinb10_1 i)).WholeWords (EltTy.packing .f32)
  hstage10_2 : ∀ j, (stage10_2 j).IsWhole
  nbuf10_2 : grid10.bufCount reads10_2 false = 1
  hreads10_2 : ∀ i i' : grid10.Coords, (∀ a, reads10_2 a = true → i a = i' a) → cc10_transform_2 i = cc10_transform_2 i'
  hinb10_2 : ∀ (i : grid10.Coords) a, (cc10_transform_2 i a + 1) * S2x2048.size a ≤ S2x2048.size a
  hwx10_2 : ∀ i : grid10.Coords, EltTy.bits .f32 = 32 ∨ (Rect.block (s := S2x2048) S2x2048.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1024x8192.size a ≤ S1024x8192.size a
  hwx10_3 : ∀ i : grid10.Coords, EltTy.bits .bf16 = 32 ∨ (Rect.block (s := S1024x8192) S1024x8192.size (cc10_transform_3 i) (hinb10_3 i)).WholeWords (EltTy.packing .bf16)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S2048x8192.size a ≤ S2048x8192.size a
  hwx10_4 : ∀ i : grid10.Coords, EltTy.bits .bf16 = 32 ∨ (Rect.block (s := S2048x8192) S2048x8192.size (cc10_transform_4 i) (hinb10_4 i)).WholeWords (EltTy.packing .bf16)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x8192.size a ≤ S1x8192.size a
  hwx10_5 : ∀ i : grid10.Coords, EltTy.bits .f32 = 32 ∨ (Rect.block (s := S1x8192) S1x8192.size (cc10_transform_5 i) (hinb10_5 i)).WholeWords (EltTy.packing .f32)
  hstage10_6 : ∀ j, (stage10_6 j).IsWhole
  nbuf10_6 : grid10.bufCount reads10_6 false = 1
  hreads10_6 : ∀ i i' : grid10.Coords, (∀ a, reads10_6 a = true → i a = i' a) → cc10_transform_6 i = cc10_transform_6 i'
  hinb10_6 : ∀ (i : grid10.Coords) a, (cc10_transform_6 i a + 1) * S2x1024.size a ≤ S2x1024.size a
  hwx10_6 : ∀ i : grid10.Coords, EltTy.bits .f32 = 32 ∨ (Rect.block (s := S2x1024) S2x1024.size (cc10_transform_6 i) (hinb10_6 i)).WholeWords (EltTy.packing .f32)
  hstage10_7 : ∀ j, (stage10_7 j).IsWhole
  nbuf10_7 : grid10.bufCount reads10_7 false = 1
  hreads10_7 : ∀ i i' : grid10.Coords, (∀ a, reads10_7 a = true → i a = i' a) → cc10_transform_7 i = cc10_transform_7 i'
  hinb10_7 : ∀ (i : grid10.Coords) a, (cc10_transform_7 i a + 1) * S2x1024.size a ≤ S2x1024.size a
  hwx10_7 : ∀ i : grid10.Coords, EltTy.bits .f32 = 32 ∨ (Rect.block (s := S2x1024) S2x1024.size (cc10_transform_7 i) (hinb10_7 i)).WholeWords (EltTy.packing .f32)
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S1x1024.size a ≤ S1x1024.size a
  hwx11_0 : ∀ i : grid11.Coords, EltTy.bits .bf16 = 32 ∨ (Rect.block (s := S1x1024) S1x1024.size (cc11_transform_0 i) (hinb11_0 i)).WholeWords (EltTy.packing .bf16)
  hstage11_1 : ∀ j, (stage11_1 j).IsWhole
  nbuf11_1 : grid11.bufCount reads11_1 false = 1
  hreads11_1 : ∀ i i' : grid11.Coords, (∀ a, reads11_1 a = true → i a = i' a) → cc11_transform_1 i = cc11_transform_1 i'
  hinb11_1 : ∀ (i : grid11.Coords) a, (cc11_transform_1 i a + 1) * S1x2048.size a ≤ S1x2048.size a
  hwx11_1 : ∀ i : grid11.Coords, EltTy.bits .f32 = 32 ∨ (Rect.block (s := S1x2048) S1x2048.size (cc11_transform_1 i) (hinb11_1 i)).WholeWords (EltTy.packing .f32)
  hstage11_2 : ∀ j, (stage11_2 j).IsWhole
  nbuf11_2 : grid11.bufCount reads11_2 false = 1
  hreads11_2 : ∀ i i' : grid11.Coords, (∀ a, reads11_2 a = true → i a = i' a) → cc11_transform_2 i = cc11_transform_2 i'
  hinb11_2 : ∀ (i : grid11.Coords) a, (cc11_transform_2 i a + 1) * S1x2048.size a ≤ S1x2048.size a
  hwx11_2 : ∀ i : grid11.Coords, EltTy.bits .f32 = 32 ∨ (Rect.block (s := S1x2048) S1x2048.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1024x8192.size a ≤ S1024x8192.size a
  hwx11_3 : ∀ i : grid11.Coords, EltTy.bits .bf16 = 32 ∨ (Rect.block (s := S1024x8192) S1024x8192.size (cc11_transform_3 i) (hinb11_3 i)).WholeWords (EltTy.packing .bf16)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S2048x8192.size a ≤ S2048x8192.size a
  hwx11_4 : ∀ i : grid11.Coords, EltTy.bits .bf16 = 32 ∨ (Rect.block (s := S2048x8192) S2048x8192.size (cc11_transform_4 i) (hinb11_4 i)).WholeWords (EltTy.packing .bf16)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x8192.size a ≤ S1x8192.size a
  hwx11_5 : ∀ i : grid11.Coords, EltTy.bits .f32 = 32 ∨ (Rect.block (s := S1x8192) S1x8192.size (cc11_transform_5 i) (hinb11_5 i)).WholeWords (EltTy.packing .f32)
  hstage11_6 : ∀ j, (stage11_6 j).IsWhole
  nbuf11_6 : grid11.bufCount reads11_6 false = 1
  hreads11_6 : ∀ i i' : grid11.Coords, (∀ a, reads11_6 a = true → i a = i' a) → cc11_transform_6 i = cc11_transform_6 i'
  hinb11_6 : ∀ (i : grid11.Coords) a, (cc11_transform_6 i a + 1) * S1x1024.size a ≤ S1x1024.size a
  hwx11_6 : ∀ i : grid11.Coords, EltTy.bits .f32 = 32 ∨ (Rect.block (s := S1x1024) S1x1024.size (cc11_transform_6 i) (hinb11_6 i)).WholeWords (EltTy.packing .f32)
  hstage11_7 : ∀ j, (stage11_7 j).IsWhole
  nbuf11_7 : grid11.bufCount reads11_7 false = 1
  hreads11_7 : ∀ i i' : grid11.Coords, (∀ a, reads11_7 a = true → i a = i' a) → cc11_transform_7 i = cc11_transform_7 i'
  hinb11_7 : ∀ (i : grid11.Coords) a, (cc11_transform_7 i a + 1) * S1x1024.size a ≤ S1x1024.size a
  hwx11_7 : ∀ i : grid11.Coords, EltTy.bits .f32 = 32 ∨ (Rect.block (s := S1x1024) S1x1024.size (cc11_transform_7 i) (hinb11_7 i)).WholeWords (EltTy.packing .f32)

variable [Facts₀]

def dot_S512x1024_S1024x8192_S512x8192_1_0_0_1_n_n : DotDims S512x1024 S1024x8192 S512x8192 where
  lhsContracting := [1]
  rhsContracting := [0]
  lhsNonContracting := [0]
  rhsNonContracting := [1]
  lhsBatch := []
  rhsBatch := []
  wf := dot_S512x1024_S1024x8192_S512x8192_1_0_0_1_n_n_wf
def dot_S64x1024_S1024x8192_S64x8192_1_0_0_1_n_n : DotDims S64x1024 S1024x8192 S64x8192 where
  lhsContracting := [1]
  rhsContracting := [0]
  lhsNonContracting := [0]
  rhsNonContracting := [1]
  lhsBatch := []
  rhsBatch := []
  wf := dot_S64x1024_S1024x8192_S64x8192_1_0_0_1_n_n_wf
def dot_S64x2048_S2048x8192_S64x8192_1_0_0_1_n_n : DotDims S64x2048 S2048x8192 S64x8192 where
  lhsContracting := [1]
  rhsContracting := [0]
  lhsNonContracting := [0]
  rhsNonContracting := [1]
  lhsBatch := []
  rhsBatch := []
  wf := dot_S64x2048_S2048x8192_S64x8192_1_0_0_1_n_n_wf
def dot_S32x1024_S1024x8192_S32x8192_1_0_0_1_n_n : DotDims S32x1024 S1024x8192 S32x8192 where
  lhsContracting := [1]
  rhsContracting := [0]
  lhsNonContracting := [0]
  rhsNonContracting := [1]
  lhsBatch := []
  rhsBatch := []
  wf := dot_S32x1024_S1024x8192_S32x8192_1_0_0_1_n_n_wf
def dot_S32x2048_S2048x8192_S32x8192_1_0_0_1_n_n : DotDims S32x2048 S2048x8192 S32x8192 where
  lhsContracting := [1]
  rhsContracting := [0]
  lhsNonContracting := [0]
  rhsNonContracting := [1]
  lhsBatch := []
  rhsBatch := []
  wf := dot_S32x2048_S2048x8192_S32x8192_1_0_0_1_n_n_wf
def dot_S16x1024_S1024x8192_S16x8192_1_0_0_1_n_n : DotDims S16x1024 S1024x8192 S16x8192 where
  lhsContracting := [1]
  rhsContracting := [0]
  lhsNonContracting := [0]
  rhsNonContracting := [1]
  lhsBatch := []
  rhsBatch := []
  wf := dot_S16x1024_S1024x8192_S16x8192_1_0_0_1_n_n_wf
def dot_S16x2048_S2048x8192_S16x8192_1_0_0_1_n_n : DotDims S16x2048 S2048x8192 S16x8192 where
  lhsContracting := [1]
  rhsContracting := [0]
  lhsNonContracting := [0]
  rhsNonContracting := [1]
  lhsBatch := []
  rhsBatch := []
  wf := dot_S16x2048_S2048x8192_S16x8192_1_0_0_1_n_n_wf
def dot_S8x1024_S1024x8192_S8x8192_1_0_0_1_n_n : DotDims S8x1024 S1024x8192 S8x8192 where
  lhsContracting := [1]
  rhsContracting := [0]
  lhsNonContracting := [0]
  rhsNonContracting := [1]
  lhsBatch := []
  rhsBatch := []
  wf := dot_S8x1024_S1024x8192_S8x8192_1_0_0_1_n_n_wf
def dot_S8x2048_S2048x8192_S8x8192_1_0_0_1_n_n : DotDims S8x2048 S2048x8192 S8x8192 where
  lhsContracting := [1]
  rhsContracting := [0]
  lhsNonContracting := [0]
  rhsNonContracting := [1]
  lhsBatch := []
  rhsBatch := []
  wf := dot_S8x2048_S2048x8192_S8x8192_1_0_0_1_n_n_wf
def dot_S4x1024_S1024x8192_S4x8192_1_0_0_1_n_n : DotDims S4x1024 S1024x8192 S4x8192 where
  lhsContracting := [1]
  rhsContracting := [0]
  lhsNonContracting := [0]
  rhsNonContracting := [1]
  lhsBatch := []
  rhsBatch := []
  wf := dot_S4x1024_S1024x8192_S4x8192_1_0_0_1_n_n_wf
def dot_S4x2048_S2048x8192_S4x8192_1_0_0_1_n_n : DotDims S4x2048 S2048x8192 S4x8192 where
  lhsContracting := [1]
  rhsContracting := [0]
  lhsNonContracting := [0]
  rhsNonContracting := [1]
  lhsBatch := []
  rhsBatch := []
  wf := dot_S4x2048_S2048x8192_S4x8192_1_0_0_1_n_n_wf
def dot_S2x1024_S1024x8192_S2x8192_1_0_0_1_n_n : DotDims S2x1024 S1024x8192 S2x8192 where
  lhsContracting := [1]
  rhsContracting := [0]
  lhsNonContracting := [0]
  rhsNonContracting := [1]
  lhsBatch := []
  rhsBatch := []
  wf := dot_S2x1024_S1024x8192_S2x8192_1_0_0_1_n_n_wf
def dot_S2x2048_S2048x8192_S2x8192_1_0_0_1_n_n : DotDims S2x2048 S2048x8192 S2x8192 where
  lhsContracting := [1]
  rhsContracting := [0]
  lhsNonContracting := [0]
  rhsNonContracting := [1]
  lhsBatch := []
  rhsBatch := []
  wf := dot_S2x2048_S2048x8192_S2x8192_1_0_0_1_n_n_wf
def dot_S1x1024_S1024x8192_S1x8192_1_0_0_1_n_n : DotDims S1x1024 S1024x8192 S1x8192 where
  lhsContracting := [1]
  rhsContracting := [0]
  lhsNonContracting := [0]
  rhsNonContracting := [1]
  lhsBatch := []
  rhsBatch := []
  wf := dot_S1x1024_S1024x8192_S1x8192_1_0_0_1_n_n_wf
def dot_S1x2048_S2048x8192_S1x8192_1_0_0_1_n_n : DotDims S1x2048 S2048x8192 S1x8192 where
  lhsContracting := [1]
  rhsContracting := [0]
  lhsNonContracting := [0]
  rhsNonContracting := [1]
  lhsBatch := []
  rhsBatch := []
  wf := dot_S1x2048_S2048x8192_S1x8192_1_0_0_1_n_n_wf

abbrev win0_0 : Pipeline.Window sig grid0 :=
  Pipeline.Window.ofSpec (Memref.whole main_v7) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v9) S64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S64x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S64x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S2048x8192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x8192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12_0) S64x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v12_1) S64x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v13) S64x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S64x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S64x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1024x8192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v3) S2048x8192.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S1x8192.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16_0) S64x1024.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v16_1) S64x1024.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v17) S64x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S64x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S64x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v1) S1024x8192.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v3) S2048x8192.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v5) S1x8192.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v20_0) S64x1024.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v20_1) S64x1024.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v21) S64x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v22) S64x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v23) S64x2048.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v1) S1024x8192.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v3) S2048x8192.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v5) S1x8192.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v24_0) S64x1024.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v24_1) S64x1024.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v25) S64x1024.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v26) S64x2048.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v27) S64x2048.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v1) S1024x8192.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v3) S2048x8192.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v5) S1x8192.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v28_0) S64x1024.size cc5_transform_6 reads5_6 true false 1 stage5_6 sem5_6
    hrank5 hreads5_6 hinb5_6 nbuf5_6 (Memref.isWhole_whole _) hwx5_6 hstage5_6

abbrev win5_7 : Pipeline.Window sig grid5 :=
  Pipeline.Window.ofSpec (Memref.whole main_v28_1) S64x1024.size cc5_transform_7 reads5_7 true false 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v29) S32x1024.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v30) S32x2048.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v31) S32x2048.size cc6_transform_2 reads6_2 false false 1 stage6_2 sem6_2
    hrank6 hreads6_2 hinb6_2 nbuf6_2 (Memref.isWhole_whole _) hwx6_2 hstage6_2

abbrev win6_3 : Pipeline.Window sig grid6 :=
  Pipeline.Window.ofSpec (Memref.whole main_v1) S1024x8192.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v3) S2048x8192.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v5) S1x8192.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v32_0) S32x1024.size cc6_transform_6 reads6_6 true false 1 stage6_6 sem6_6
    hrank6 hreads6_6 hinb6_6 nbuf6_6 (Memref.isWhole_whole _) hwx6_6 hstage6_6

abbrev win6_7 : Pipeline.Window sig grid6 :=
  Pipeline.Window.ofSpec (Memref.whole main_v32_1) S32x1024.size cc6_transform_7 reads6_7 true false 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v33) S16x1024.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v34) S16x2048.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_v35) S16x2048.size cc7_transform_2 reads7_2 false false 1 stage7_2 sem7_2
    hrank7 hreads7_2 hinb7_2 nbuf7_2 (Memref.isWhole_whole _) hwx7_2 hstage7_2

abbrev win7_3 : Pipeline.Window sig grid7 :=
  Pipeline.Window.ofSpec (Memref.whole main_v1) S1024x8192.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v3) S2048x8192.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v5) S1x8192.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v36_0) S16x1024.size cc7_transform_6 reads7_6 true false 1 stage7_6 sem7_6
    hrank7 hreads7_6 hinb7_6 nbuf7_6 (Memref.isWhole_whole _) hwx7_6 hstage7_6

abbrev win7_7 : Pipeline.Window sig grid7 :=
  Pipeline.Window.ofSpec (Memref.whole main_v36_1) S16x1024.size cc7_transform_7 reads7_7 true false 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v37) S8x1024.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v38) S8x2048.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v39) S8x2048.size cc8_transform_2 reads8_2 false false 1 stage8_2 sem8_2
    hrank8 hreads8_2 hinb8_2 nbuf8_2 (Memref.isWhole_whole _) hwx8_2 hstage8_2

abbrev win8_3 : Pipeline.Window sig grid8 :=
  Pipeline.Window.ofSpec (Memref.whole main_v1) S1024x8192.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v3) S2048x8192.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v5) S1x8192.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v40_0) S8x1024.size cc8_transform_6 reads8_6 true false 1 stage8_6 sem8_6
    hrank8 hreads8_6 hinb8_6 nbuf8_6 (Memref.isWhole_whole _) hwx8_6 hstage8_6

abbrev win8_7 : Pipeline.Window sig grid8 :=
  Pipeline.Window.ofSpec (Memref.whole main_v40_1) S8x1024.size cc8_transform_7 reads8_7 true false 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v41) S4x1024.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_v42) S4x2048.size cc9_transform_1 reads9_1 false false 1 stage9_1 sem9_1
    hrank9 hreads9_1 hinb9_1 nbuf9_1 (Memref.isWhole_whole _) hwx9_1 hstage9_1

abbrev win9_2 : Pipeline.Window sig grid9 :=
  Pipeline.Window.ofSpec (Memref.whole main_v43) S4x2048.size cc9_transform_2 reads9_2 false false 1 stage9_2 sem9_2
    hrank9 hreads9_2 hinb9_2 nbuf9_2 (Memref.isWhole_whole _) hwx9_2 hstage9_2

abbrev win9_3 : Pipeline.Window sig grid9 :=
  Pipeline.Window.ofSpec (Memref.whole main_v1) S1024x8192.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v3) S2048x8192.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v5) S1x8192.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v44_0) S4x1024.size cc9_transform_6 reads9_6 true false 1 stage9_6 sem9_6
    hrank9 hreads9_6 hinb9_6 nbuf9_6 (Memref.isWhole_whole _) hwx9_6 hstage9_6

abbrev win9_7 : Pipeline.Window sig grid9 :=
  Pipeline.Window.ofSpec (Memref.whole main_v44_1) S4x1024.size cc9_transform_7 reads9_7 true false 1 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v45) S2x1024.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_v46) S2x2048.size cc10_transform_1 reads10_1 false false 1 stage10_1 sem10_1
    hrank10 hreads10_1 hinb10_1 nbuf10_1 (Memref.isWhole_whole _) hwx10_1 hstage10_1

abbrev win10_2 : Pipeline.Window sig grid10 :=
  Pipeline.Window.ofSpec (Memref.whole main_v47) S2x2048.size cc10_transform_2 reads10_2 false false 1 stage10_2 sem10_2
    hrank10 hreads10_2 hinb10_2 nbuf10_2 (Memref.isWhole_whole _) hwx10_2 hstage10_2

abbrev win10_3 : Pipeline.Window sig grid10 :=
  Pipeline.Window.ofSpec (Memref.whole main_v1) S1024x8192.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v3) S2048x8192.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v5) S1x8192.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v48_0) S2x1024.size cc10_transform_6 reads10_6 true false 1 stage10_6 sem10_6
    hrank10 hreads10_6 hinb10_6 nbuf10_6 (Memref.isWhole_whole _) hwx10_6 hstage10_6

abbrev win10_7 : Pipeline.Window sig grid10 :=
  Pipeline.Window.ofSpec (Memref.whole main_v48_1) S2x1024.size cc10_transform_7 reads10_7 true false 1 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v49) S1x1024.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_v50) S1x2048.size cc11_transform_1 reads11_1 false false 1 stage11_1 sem11_1
    hrank11 hreads11_1 hinb11_1 nbuf11_1 (Memref.isWhole_whole _) hwx11_1 hstage11_1

abbrev win11_2 : Pipeline.Window sig grid11 :=
  Pipeline.Window.ofSpec (Memref.whole main_v51) S1x2048.size cc11_transform_2 reads11_2 false false 1 stage11_2 sem11_2
    hrank11 hreads11_2 hinb11_2 nbuf11_2 (Memref.isWhole_whole _) hwx11_2 hstage11_2

abbrev win11_3 : Pipeline.Window sig grid11 :=
  Pipeline.Window.ofSpec (Memref.whole main_v1) S1024x8192.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v3) S2048x8192.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v5) S1x8192.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v52_0) S1x1024.size cc11_transform_6 reads11_6 true false 1 stage11_6 sem11_6
    hrank11 hreads11_6 hinb11_6 nbuf11_6 (Memref.isWhole_whole _) hwx11_6 hstage11_6

abbrev win11_7 : Pipeline.Window sig grid11 :=
  Pipeline.Window.ofSpec (Memref.whole main_v52_1) S1x1024.size cc11_transform_7 reads11_7 true false 1 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

class Facts : Prop extends Facts₀ where

variable [Facts]
-- ==== ReferenceIdeal.lean ====
abbrev S4095x1024 : Shape := ⟨2, ![4095, 1024]⟩
abbrev S8192x1024 : Shape := ⟨2, ![8192, 1024]⟩
abbrev S8192x2048 : Shape := ⟨2, ![8192, 2048]⟩
abbrev S8192 : Shape := ⟨1, ![8192]⟩
abbrev S_ : Shape := ⟨0, ![]⟩
abbrev S4096x1024 : Shape := ⟨2, ![4096, 1024]⟩
abbrev S2048x2048 : Shape := ⟨2, ![2048, 2048]⟩
abbrev S2048x1024 : Shape := ⟨2, ![2048, 1024]⟩
abbrev S1024x8192 : Shape := ⟨2, ![1024, 8192]⟩
abbrev S2048x8192 : Shape := ⟨2, ![2048, 8192]⟩
abbrev S1x8192 : Shape := ⟨2, ![1, 8192]⟩
abbrev S1024x2048 : Shape := ⟨2, ![1024, 2048]⟩
abbrev S1024x1024 : Shape := ⟨2, ![1024, 1024]⟩
abbrev S512x2048 : Shape := ⟨2, ![512, 2048]⟩
abbrev S512x1024 : Shape := ⟨2, ![512, 1024]⟩
abbrev S512x8192 : Shape := ⟨2, ![512, 8192]⟩
abbrev S256x2048 : Shape := ⟨2, ![256, 2048]⟩
abbrev S256x1024 : Shape := ⟨2, ![256, 1024]⟩
abbrev S256x8192 : Shape := ⟨2, ![256, 8192]⟩
abbrev S128x2048 : Shape := ⟨2, ![128, 2048]⟩
abbrev S128x1024 : Shape := ⟨2, ![128, 1024]⟩
abbrev S128x8192 : Shape := ⟨2, ![128, 8192]⟩
abbrev S64x2048 : Shape := ⟨2, ![64, 2048]⟩
abbrev S64x1024 : Shape := ⟨2, ![64, 1024]⟩
abbrev S64x8192 : Shape := ⟨2, ![64, 8192]⟩
abbrev S32x2048 : Shape := ⟨2, ![32, 2048]⟩
abbrev S32x1024 : Shape := ⟨2, ![32, 1024]⟩
abbrev S32x8192 : Shape := ⟨2, ![32, 8192]⟩
abbrev S16x2048 : Shape := ⟨2, ![16, 2048]⟩
abbrev S16x1024 : Shape := ⟨2, ![16, 1024]⟩
abbrev S16x8192 : Shape := ⟨2, ![16, 8192]⟩
abbrev S8x2048 : Shape := ⟨2, ![8, 2048]⟩
abbrev S8x1024 : Shape := ⟨2, ![8, 1024]⟩
abbrev S8x8192 : Shape := ⟨2, ![8, 8192]⟩
abbrev S4x2048 : Shape := ⟨2, ![4, 2048]⟩
abbrev S4x1024 : Shape := ⟨2, ![4, 1024]⟩
abbrev S4x8192 : Shape := ⟨2, ![4, 8192]⟩
abbrev S2x2048 : Shape := ⟨2, ![2, 2048]⟩
abbrev S2x1024 : Shape := ⟨2, ![2, 1024]⟩
abbrev S2x8192 : Shape := ⟨2, ![2, 8192]⟩
abbrev S1x2048 : Shape := ⟨2, ![1, 2048]⟩
abbrev S1x1024 : Shape := ⟨2, ![1, 1024]⟩

abbrev nBuf : Space → Nat
  | .hbm => 574
  | .vmem => 0
  | .smem => 0
  | _ => 0

abbrev hbmTy0_0 (i : Nat) : BufTy := match i % 128 with
  | 0 => ⟨S4095x1024, .f32⟩
  | 1 => ⟨S8192x1024, .f32⟩
  | 2 => ⟨S8192x2048, .f32⟩
  | 3 => ⟨S8192, .f32⟩
  | 4 => ⟨S8192, .f32⟩
  | 5 => ⟨S8192, .f32⟩
  | 6 => ⟨S_, .f32⟩
  | 7 => ⟨S4096x1024, .f32⟩
  | 8 => ⟨S_, .f32⟩
  | 9 => ⟨S4096x1024, .f32⟩
  | 10 => ⟨S2048x2048, .f32⟩
  | 11 => ⟨S2048x2048, .f32⟩
  | 12 => ⟨S2048x1024, .f32⟩
  | 13 => ⟨S1024x8192, .f32⟩
  | 14 => ⟨S2048x8192, .f32⟩
  | 15 => ⟨S2048x8192, .f32⟩
  | 16 => ⟨S2048x8192, .f32⟩
  | 17 => ⟨S2048x8192, .f32⟩
  | 18 => ⟨S1x8192, .f32⟩
  | 19 => ⟨S2048x8192, .f32⟩
  | 20 => ⟨S2048x8192, .f32⟩
  | 21 => ⟨S2048x2048, .f32⟩
  | 22 => ⟨S2048x2048, .f32⟩
  | 23 => ⟨S2048x2048, .f32⟩
  | 24 => ⟨S2048x2048, .f32⟩
  | 25 => ⟨S2048x2048, .f32⟩
  | 26 => ⟨S2048x2048, .f32⟩
  | 27 => ⟨S_, .f32⟩
  | 28 => ⟨S2048x2048, .f32⟩
  | 29 => ⟨S2048x2048, .f32⟩
  | 30 => ⟨S_, .f32⟩
  | 31 => ⟨S2048x2048, .f32⟩
  | 32 => ⟨S2048x2048, .f32⟩
  | 33 => ⟨S2048x2048, .f32⟩
  | 34 => ⟨S2048x2048, .f32⟩
  | 35 => ⟨S2048x2048, .f32⟩
  | 36 => ⟨S_, .f32⟩
  | 37 => ⟨S2048x2048, .f32⟩
  | 38 => ⟨S2048x2048, .f32⟩
  | 39 => ⟨S_, .f32⟩
  | 40 => ⟨S2048x2048, .f32⟩
  | 41 => ⟨S2048x2048, .f32⟩
  | 42 => ⟨S2048x2048, .f32⟩
  | 43 => ⟨S2048x2048, .f32⟩
  | 44 => ⟨S2048x2048, .f32⟩
  | 45 => ⟨S2048x2048, .f32⟩
  | 46 => ⟨S2048x2048, .f32⟩
  | 47 => ⟨S_, .f32⟩
  | 48 => ⟨S2048x2048, .f32⟩
  | 49 => ⟨S2048x2048, .f32⟩
  | 50 => ⟨S_, .f32⟩
  | 51 => ⟨S2048x2048, .f32⟩
  | 52 => ⟨S2048x2048, .f32⟩
  | 53 => ⟨S2048x2048, .f32⟩
  | 54 => ⟨S2048x2048, .f32⟩
  | 55 => ⟨S2048x1024, .f32⟩
  | 56 => ⟨S2048x1024, .f32⟩
  | 57 => ⟨S1024x2048, .f32⟩
  | 58 => ⟨S1024x2048, .f32⟩
  | 59 => ⟨S1024x1024, .f32⟩
  | 60 => ⟨S1024x8192, .f32⟩
  | 61 => ⟨S1024x8192, .f32⟩
  | 62 => ⟨S2048x8192, .f32⟩
  | 63 => ⟨S1024x8192, .f32⟩
  | 64 => ⟨S1024x8192, .f32⟩
  | 65 => ⟨S1x8192, .f32⟩
  | 66 => ⟨S1024x8192, .f32⟩
  | 67 => ⟨S1024x8192, .f32⟩
  | 68 => ⟨S1024x2048, .f32⟩
  | 69 => ⟨S1024x2048, .f32⟩
  | 70 => ⟨S1024x2048, .f32⟩
  | 71 => ⟨S1024x2048, .f32⟩
  | 72 => ⟨S1024x2048, .f32⟩
  | 73 => ⟨S1024x2048, .f32⟩
  | 74 => ⟨S_, .f32⟩
  | 75 => ⟨S1024x2048, .f32⟩
  | 76 => ⟨S1024x2048, .f32⟩
  | 77 => ⟨S_, .f32⟩
  | 78 => ⟨S1024x2048, .f32⟩
  | 79 => ⟨S1024x2048, .f32⟩
  | 80 => ⟨S1024x2048, .f32⟩
  | 81 => ⟨S1024x2048, .f32⟩
  | 82 => ⟨S1024x2048, .f32⟩
  | 83 => ⟨S_, .f32⟩
  | 84 => ⟨S1024x2048, .f32⟩
  | 85 => ⟨S1024x2048, .f32⟩
  | 86 => ⟨S_, .f32⟩
  | 87 => ⟨S1024x2048, .f32⟩
  | 88 => ⟨S1024x2048, .f32⟩
  | 89 => ⟨S1024x2048, .f32⟩
  | 90 => ⟨S1024x2048, .f32⟩
  | 91 => ⟨S1024x2048, .f32⟩
  | 92 => ⟨S1024x2048, .f32⟩
  | 93 => ⟨S1024x2048, .f32⟩
  | 94 => ⟨S_, .f32⟩
  | 95 => ⟨S1024x2048, .f32⟩
  | 96 => ⟨S1024x2048, .f32⟩
  | 97 => ⟨S_, .f32⟩
  | 98 => ⟨S1024x2048, .f32⟩
  | 99 => ⟨S1024x2048, .f32⟩
  | 100 => ⟨S1024x2048, .f32⟩
  | 101 => ⟨S1024x2048, .f32⟩
  | 102 => ⟨S1024x1024, .f32⟩
  | 103 => ⟨S1024x1024, .f32⟩
  | 104 => ⟨S512x2048, .f32⟩
  | 105 => ⟨S512x2048, .f32⟩
  | 106 => ⟨S512x1024, .f32⟩
  | 107 => ⟨S1024x8192, .f32⟩
  | 108 => ⟨S512x8192, .f32⟩
  | 109 => ⟨S2048x8192, .f32⟩
  | 110 => ⟨S512x8192, .f32⟩
  | 111 => ⟨S512x8192, .f32⟩
  | 112 => ⟨S1x8192, .f32⟩
  | 113 => ⟨S512x8192, .f32⟩
  | 114 => ⟨S512x8192, .f32⟩
  | 115 => ⟨S512x2048, .f32⟩
  | 116 => ⟨S512x2048, .f32⟩
  | 117 => ⟨S512x2048, .f32⟩
  | 118 => ⟨S512x2048, .f32⟩
  | 119 => ⟨S512x2048, .f32⟩
  | 120 => ⟨S512x2048, .f32⟩
  | 121 => ⟨S_, .f32⟩
  | 122 => ⟨S512x2048, .f32⟩
  | 123 => ⟨S512x2048, .f32⟩
  | 124 => ⟨S_, .f32⟩
  | 125 => ⟨S512x2048, .f32⟩
  | 126 => ⟨S512x2048, .f32⟩
  | 127 => ⟨S512x2048, .f32⟩
  | _ => ⟨S4095x1024, .f32⟩

abbrev hbmTy0_1 (i : Nat) : BufTy := match i % 128 with
  | 0 => ⟨S512x2048, .f32⟩
  | 1 => ⟨S512x2048, .f32⟩
  | 2 => ⟨S_, .f32⟩
  | 3 => ⟨S512x2048, .f32⟩
  | 4 => ⟨S512x2048, .f32⟩
  | 5 => ⟨S_, .f32⟩
  | 6 => ⟨S512x2048, .f32⟩
  | 7 => ⟨S512x2048, .f32⟩
  | 8 => ⟨S512x2048, .f32⟩
  | 9 => ⟨S512x2048, .f32⟩
  | 10 => ⟨S512x2048, .f32⟩
  | 11 => ⟨S512x2048, .f32⟩
  | 12 => ⟨S512x2048, .f32⟩
  | 13 => ⟨S_, .f32⟩
  | 14 => ⟨S512x2048, .f32⟩
  | 15 => ⟨S512x2048, .f32⟩
  | 16 => ⟨S_, .f32⟩
  | 17 => ⟨S512x2048, .f32⟩
  | 18 => ⟨S512x2048, .f32⟩
  | 19 => ⟨S512x2048, .f32⟩
  | 20 => ⟨S512x2048, .f32⟩
  | 21 => ⟨S512x1024, .f32⟩
  | 22 => ⟨S512x1024, .f32⟩
  | 23 => ⟨S256x2048, .f32⟩
  | 24 => ⟨S256x2048, .f32⟩
  | 25 => ⟨S256x1024, .f32⟩
  | 26 => ⟨S1024x8192, .f32⟩
  | 27 => ⟨S256x8192, .f32⟩
  | 28 => ⟨S2048x8192, .f32⟩
  | 29 => ⟨S256x8192, .f32⟩
  | 30 => ⟨S256x8192, .f32⟩
  | 31 => ⟨S1x8192, .f32⟩
  | 32 => ⟨S256x8192, .f32⟩
  | 33 => ⟨S256x8192, .f32⟩
  | 34 => ⟨S256x2048, .f32⟩
  | 35 => ⟨S256x2048, .f32⟩
  | 36 => ⟨S256x2048, .f32⟩
  | 37 => ⟨S256x2048, .f32⟩
  | 38 => ⟨S256x2048, .f32⟩
  | 39 => ⟨S256x2048, .f32⟩
  | 40 => ⟨S_, .f32⟩
  | 41 => ⟨S256x2048, .f32⟩
  | 42 => ⟨S256x2048, .f32⟩
  | 43 => ⟨S_, .f32⟩
  | 44 => ⟨S256x2048, .f32⟩
  | 45 => ⟨S256x2048, .f32⟩
  | 46 => ⟨S256x2048, .f32⟩
  | 47 => ⟨S256x2048, .f32⟩
  | 48 => ⟨S256x2048, .f32⟩
  | 49 => ⟨S_, .f32⟩
  | 50 => ⟨S256x2048, .f32⟩
  | 51 => ⟨S256x2048, .f32⟩
  | 52 => ⟨S_, .f32⟩
  | 53 => ⟨S256x2048, .f32⟩
  | 54 => ⟨S256x2048, .f32⟩
  | 55 => ⟨S256x2048, .f32⟩
  | 56 => ⟨S256x2048, .f32⟩
  | 57 => ⟨S256x2048, .f32⟩
  | 58 => ⟨S256x2048, .f32⟩
  | 59 => ⟨S256x2048, .f32⟩
  | 60 => ⟨S_, .f32⟩
  | 61 => ⟨S256x2048, .f32⟩
  | 62 => ⟨S256x2048, .f32⟩
  | 63 => ⟨S_, .f32⟩
  | 64 => ⟨S256x2048, .f32⟩
  | 65 => ⟨S256x2048, .f32⟩
  | 66 => ⟨S256x2048, .f32⟩
  | 67 => ⟨S256x2048, .f32⟩
  | 68 => ⟨S256x1024, .f32⟩
  | 69 => ⟨S256x1024, .f32⟩
  | 70 => ⟨S128x2048, .f32⟩
  | 71 => ⟨S128x2048, .f32⟩
  | 72 => ⟨S128x1024, .f32⟩
  | 73 => ⟨S1024x8192, .f32⟩
  | 74 => ⟨S128x8192, .f32⟩
  | 75 => ⟨S2048x8192, .f32⟩
  | 76 => ⟨S128x8192, .f32⟩
  | 77 => ⟨S128x8192, .f32⟩
  | 78 => ⟨S1x8192, .f32⟩
  | 79 => ⟨S128x8192, .f32⟩
  | 80 => ⟨S128x8192, .f32⟩
  | 81 => ⟨S128x2048, .f32⟩
  | 82 => ⟨S128x2048, .f32⟩
  | 83 => ⟨S128x2048, .f32⟩
  | 84 => ⟨S128x2048, .f32⟩
  | 85 => ⟨S128x2048, .f32⟩
  | 86 => ⟨S128x2048, .f32⟩
  | 87 => ⟨S_, .f32⟩
  | 88 => ⟨S128x2048, .f32⟩
  | 89 => ⟨S128x2048, .f32⟩
  | 90 => ⟨S_, .f32⟩
  | 91 => ⟨S128x2048, .f32⟩
  | 92 => ⟨S128x2048, .f32⟩
  | 93 => ⟨S128x2048, .f32⟩
  | 94 => ⟨S128x2048, .f32⟩
  | 95 => ⟨S128x2048, .f32⟩
  | 96 => ⟨S_, .f32⟩
  | 97 => ⟨S128x2048, .f32⟩
  | 98 => ⟨S128x2048, .f32⟩
  | 99 => ⟨S_, .f32⟩
  | 100 => ⟨S128x2048, .f32⟩
  | 101 => ⟨S128x2048, .f32⟩
  | 102 => ⟨S128x2048, .f32⟩
  | 103 => ⟨S128x2048, .f32⟩
  | 104 => ⟨S128x2048, .f32⟩
  | 105 => ⟨S128x2048, .f32⟩
  | 106 => ⟨S128x2048, .f32⟩
  | 107 => ⟨S_, .f32⟩
  | 108 => ⟨S128x2048, .f32⟩
  | 109 => ⟨S128x2048, .f32⟩
  | 110 => ⟨S_, .f32⟩
  | 111 => ⟨S128x2048, .f32⟩
  | 112 => ⟨S128x2048, .f32⟩
  | 113 => ⟨S128x2048, .f32⟩
  | 114 => ⟨S128x2048, .f32⟩
  | 115 => ⟨S128x1024, .f32⟩
  | 116 => ⟨S128x1024, .f32⟩
  | 117 => ⟨S64x2048, .f32⟩
  | 118 => ⟨S64x2048, .f32⟩
  | 119 => ⟨S64x1024, .f32⟩
  | 120 => ⟨S1024x8192, .f32⟩
  | 121 => ⟨S64x8192, .f32⟩
  | 122 => ⟨S2048x8192, .f32⟩
  | 123 => ⟨S64x8192, .f32⟩
  | 124 => ⟨S64x8192, .f32⟩
  | 125 => ⟨S1x8192, .f32⟩
  | 126 => ⟨S64x8192, .f32⟩
  | 127 => ⟨S64x8192, .f32⟩
  | _ => ⟨S4095x1024, .f32⟩

abbrev hbmTy0_2 (i : Nat) : BufTy := match i % 128 with
  | 0 => ⟨S64x2048, .f32⟩
  | 1 => ⟨S64x2048, .f32⟩
  | 2 => ⟨S64x2048, .f32⟩
  | 3 => ⟨S64x2048, .f32⟩
  | 4 => ⟨S64x2048, .f32⟩
  | 5 => ⟨S64x2048, .f32⟩
  | 6 => ⟨S_, .f32⟩
  | 7 => ⟨S64x2048, .f32⟩
  | 8 => ⟨S64x2048, .f32⟩
  | 9 => ⟨S_, .f32⟩
  | 10 => ⟨S64x2048, .f32⟩
  | 11 => ⟨S64x2048, .f32⟩
  | 12 => ⟨S64x2048, .f32⟩
  | 13 => ⟨S64x2048, .f32⟩
  | 14 => ⟨S64x2048, .f32⟩
  | 15 => ⟨S_, .f32⟩
  | 16 => ⟨S64x2048, .f32⟩
  | 17 => ⟨S64x2048, .f32⟩
  | 18 => ⟨S_, .f32⟩
  | 19 => ⟨S64x2048, .f32⟩
  | 20 => ⟨S64x2048, .f32⟩
  | 21 => ⟨S64x2048, .f32⟩
  | 22 => ⟨S64x2048, .f32⟩
  | 23 => ⟨S64x2048, .f32⟩
  | 24 => ⟨S64x2048, .f32⟩
  | 25 => ⟨S64x2048, .f32⟩
  | 26 => ⟨S_, .f32⟩
  | 27 => ⟨S64x2048, .f32⟩
  | 28 => ⟨S64x2048, .f32⟩
  | 29 => ⟨S_, .f32⟩
  | 30 => ⟨S64x2048, .f32⟩
  | 31 => ⟨S64x2048, .f32⟩
  | 32 => ⟨S64x2048, .f32⟩
  | 33 => ⟨S64x2048, .f32⟩
  | 34 => ⟨S64x1024, .f32⟩
  | 35 => ⟨S64x1024, .f32⟩
  | 36 => ⟨S32x2048, .f32⟩
  | 37 => ⟨S32x2048, .f32⟩
  | 38 => ⟨S32x1024, .f32⟩
  | 39 => ⟨S1024x8192, .f32⟩
  | 40 => ⟨S32x8192, .f32⟩
  | 41 => ⟨S2048x8192, .f32⟩
  | 42 => ⟨S32x8192, .f32⟩
  | 43 => ⟨S32x8192, .f32⟩
  | 44 => ⟨S1x8192, .f32⟩
  | 45 => ⟨S32x8192, .f32⟩
  | 46 => ⟨S32x8192, .f32⟩
  | 47 => ⟨S32x2048, .f32⟩
  | 48 => ⟨S32x2048, .f32⟩
  | 49 => ⟨S32x2048, .f32⟩
  | 50 => ⟨S32x2048, .f32⟩
  | 51 => ⟨S32x2048, .f32⟩
  | 52 => ⟨S32x2048, .f32⟩
  | 53 => ⟨S_, .f32⟩
  | 54 => ⟨S32x2048, .f32⟩
  | 55 => ⟨S32x2048, .f32⟩
  | 56 => ⟨S_, .f32⟩
  | 57 => ⟨S32x2048, .f32⟩
  | 58 => ⟨S32x2048, .f32⟩
  | 59 => ⟨S32x2048, .f32⟩
  | 60 => ⟨S32x2048, .f32⟩
  | 61 => ⟨S32x2048, .f32⟩
  | 62 => ⟨S_, .f32⟩
  | 63 => ⟨S32x2048, .f32⟩
  | 64 => ⟨S32x2048, .f32⟩
  | 65 => ⟨S_, .f32⟩
  | 66 => ⟨S32x2048, .f32⟩
  | 67 => ⟨S32x2048, .f32⟩
  | 68 => ⟨S32x2048, .f32⟩
  | 69 => ⟨S32x2048, .f32⟩
  | 70 => ⟨S32x2048, .f32⟩
  | 71 => ⟨S32x2048, .f32⟩
  | 72 => ⟨S32x2048, .f32⟩
  | 73 => ⟨S_, .f32⟩
  | 74 => ⟨S32x2048, .f32⟩
  | 75 => ⟨S32x2048, .f32⟩
  | 76 => ⟨S_, .f32⟩
  | 77 => ⟨S32x2048, .f32⟩
  | 78 => ⟨S32x2048, .f32⟩
  | 79 => ⟨S32x2048, .f32⟩
  | 80 => ⟨S32x2048, .f32⟩
  | 81 => ⟨S32x1024, .f32⟩
  | 82 => ⟨S32x1024, .f32⟩
  | 83 => ⟨S16x2048, .f32⟩
  | 84 => ⟨S16x2048, .f32⟩
  | 85 => ⟨S16x1024, .f32⟩
  | 86 => ⟨S1024x8192, .f32⟩
  | 87 => ⟨S16x8192, .f32⟩
  | 88 => ⟨S2048x8192, .f32⟩
  | 89 => ⟨S16x8192, .f32⟩
  | 90 => ⟨S16x8192, .f32⟩
  | 91 => ⟨S1x8192, .f32⟩
  | 92 => ⟨S16x8192, .f32⟩
  | 93 => ⟨S16x8192, .f32⟩
  | 94 => ⟨S16x2048, .f32⟩
  | 95 => ⟨S16x2048, .f32⟩
  | 96 => ⟨S16x2048, .f32⟩
  | 97 => ⟨S16x2048, .f32⟩
  | 98 => ⟨S16x2048, .f32⟩
  | 99 => ⟨S16x2048, .f32⟩
  | 100 => ⟨S_, .f32⟩
  | 101 => ⟨S16x2048, .f32⟩
  | 102 => ⟨S16x2048, .f32⟩
  | 103 => ⟨S_, .f32⟩
  | 104 => ⟨S16x2048, .f32⟩
  | 105 => ⟨S16x2048, .f32⟩
  | 106 => ⟨S16x2048, .f32⟩
  | 107 => ⟨S16x2048, .f32⟩
  | 108 => ⟨S16x2048, .f32⟩
  | 109 => ⟨S_, .f32⟩
  | 110 => ⟨S16x2048, .f32⟩
  | 111 => ⟨S16x2048, .f32⟩
  | 112 => ⟨S_, .f32⟩
  | 113 => ⟨S16x2048, .f32⟩
  | 114 => ⟨S16x2048, .f32⟩
  | 115 => ⟨S16x2048, .f32⟩
  | 116 => ⟨S16x2048, .f32⟩
  | 117 => ⟨S16x2048, .f32⟩
  | 118 => ⟨S16x2048, .f32⟩
  | 119 => ⟨S16x2048, .f32⟩
  | 120 => ⟨S_, .f32⟩
  | 121 => ⟨S16x2048, .f32⟩
  | 122 => ⟨S16x2048, .f32⟩
  | 123 => ⟨S_, .f32⟩
  | 124 => ⟨S16x2048, .f32⟩
  | 125 => ⟨S16x2048, .f32⟩
  | 126 => ⟨S16x2048, .f32⟩
  | 127 => ⟨S16x2048, .f32⟩
  | _ => ⟨S4095x1024, .f32⟩

abbrev hbmTy0_3 (i : Nat) : BufTy := match i % 128 with
  | 0 => ⟨S16x1024, .f32⟩
  | 1 => ⟨S16x1024, .f32⟩
  | 2 => ⟨S8x2048, .f32⟩
  | 3 => ⟨S8x2048, .f32⟩
  | 4 => ⟨S8x1024, .f32⟩
  | 5 => ⟨S1024x8192, .f32⟩
  | 6 => ⟨S8x8192, .f32⟩
  | 7 => ⟨S2048x8192, .f32⟩
  | 8 => ⟨S8x8192, .f32⟩
  | 9 => ⟨S8x8192, .f32⟩
  | 10 => ⟨S1x8192, .f32⟩
  | 11 => ⟨S8x8192, .f32⟩
  | 12 => ⟨S8x8192, .f32⟩
  | 13 => ⟨S8x2048, .f32⟩
  | 14 => ⟨S8x2048, .f32⟩
  | 15 => ⟨S8x2048, .f32⟩
  | 16 => ⟨S8x2048, .f32⟩
  | 17 => ⟨S8x2048, .f32⟩
  | 18 => ⟨S8x2048, .f32⟩
  | 19 => ⟨S_, .f32⟩
  | 20 => ⟨S8x2048, .f32⟩
  | 21 => ⟨S8x2048, .f32⟩
  | 22 => ⟨S_, .f32⟩
  | 23 => ⟨S8x2048, .f32⟩
  | 24 => ⟨S8x2048, .f32⟩
  | 25 => ⟨S8x2048, .f32⟩
  | 26 => ⟨S8x2048, .f32⟩
  | 27 => ⟨S8x2048, .f32⟩
  | 28 => ⟨S_, .f32⟩
  | 29 => ⟨S8x2048, .f32⟩
  | 30 => ⟨S8x2048, .f32⟩
  | 31 => ⟨S_, .f32⟩
  | 32 => ⟨S8x2048, .f32⟩
  | 33 => ⟨S8x2048, .f32⟩
  | 34 => ⟨S8x2048, .f32⟩
  | 35 => ⟨S8x2048, .f32⟩
  | 36 => ⟨S8x2048, .f32⟩
  | 37 => ⟨S8x2048, .f32⟩
  | 38 => ⟨S8x2048, .f32⟩
  | 39 => ⟨S_, .f32⟩
  | 40 => ⟨S8x2048, .f32⟩
  | 41 => ⟨S8x2048, .f32⟩
  | 42 => ⟨S_, .f32⟩
  | 43 => ⟨S8x2048, .f32⟩
  | 44 => ⟨S8x2048, .f32⟩
  | 45 => ⟨S8x2048, .f32⟩
  | 46 => ⟨S8x2048, .f32⟩
  | 47 => ⟨S8x1024, .f32⟩
  | 48 => ⟨S8x1024, .f32⟩
  | 49 => ⟨S4x2048, .f32⟩
  | 50 => ⟨S4x2048, .f32⟩
  | 51 => ⟨S4x1024, .f32⟩
  | 52 => ⟨S1024x8192, .f32⟩
  | 53 => ⟨S4x8192, .f32⟩
  | 54 => ⟨S2048x8192, .f32⟩
  | 55 => ⟨S4x8192, .f32⟩
  | 56 => ⟨S4x8192, .f32⟩
  | 57 => ⟨S1x8192, .f32⟩
  | 58 => ⟨S4x8192, .f32⟩
  | 59 => ⟨S4x8192, .f32⟩
  | 60 => ⟨S4x2048, .f32⟩
  | 61 => ⟨S4x2048, .f32⟩
  | 62 => ⟨S4x2048, .f32⟩
  | 63 => ⟨S4x2048, .f32⟩
  | 64 => ⟨S4x2048, .f32⟩
  | 65 => ⟨S4x2048, .f32⟩
  | 66 => ⟨S_, .f32⟩
  | 67 => ⟨S4x2048, .f32⟩
  | 68 => ⟨S4x2048, .f32⟩
  | 69 => ⟨S_, .f32⟩
  | 70 => ⟨S4x2048, .f32⟩
  | 71 => ⟨S4x2048, .f32⟩
  | 72 => ⟨S4x2048, .f32⟩
  | 73 => ⟨S4x2048, .f32⟩
  | 74 => ⟨S4x2048, .f32⟩
  | 75 => ⟨S_, .f32⟩
  | 76 => ⟨S4x2048, .f32⟩
  | 77 => ⟨S4x2048, .f32⟩
  | 78 => ⟨S_, .f32⟩
  | 79 => ⟨S4x2048, .f32⟩
  | 80 => ⟨S4x2048, .f32⟩
  | 81 => ⟨S4x2048, .f32⟩
  | 82 => ⟨S4x2048, .f32⟩
  | 83 => ⟨S4x2048, .f32⟩
  | 84 => ⟨S4x2048, .f32⟩
  | 85 => ⟨S4x2048, .f32⟩
  | 86 => ⟨S_, .f32⟩
  | 87 => ⟨S4x2048, .f32⟩
  | 88 => ⟨S4x2048, .f32⟩
  | 89 => ⟨S_, .f32⟩
  | 90 => ⟨S4x2048, .f32⟩
  | 91 => ⟨S4x2048, .f32⟩
  | 92 => ⟨S4x2048, .f32⟩
  | 93 => ⟨S4x2048, .f32⟩
  | 94 => ⟨S4x1024, .f32⟩
  | 95 => ⟨S4x1024, .f32⟩
  | 96 => ⟨S2x2048, .f32⟩
  | 97 => ⟨S2x2048, .f32⟩
  | 98 => ⟨S2x1024, .f32⟩
  | 99 => ⟨S1024x8192, .f32⟩
  | 100 => ⟨S2x8192, .f32⟩
  | 101 => ⟨S2048x8192, .f32⟩
  | 102 => ⟨S2x8192, .f32⟩
  | 103 => ⟨S2x8192, .f32⟩
  | 104 => ⟨S1x8192, .f32⟩
  | 105 => ⟨S2x8192, .f32⟩
  | 106 => ⟨S2x8192, .f32⟩
  | 107 => ⟨S2x2048, .f32⟩
  | 108 => ⟨S2x2048, .f32⟩
  | 109 => ⟨S2x2048, .f32⟩
  | 110 => ⟨S2x2048, .f32⟩
  | 111 => ⟨S2x2048, .f32⟩
  | 112 => ⟨S2x2048, .f32⟩
  | 113 => ⟨S_, .f32⟩
  | 114 => ⟨S2x2048, .f32⟩
  | 115 => ⟨S2x2048, .f32⟩
  | 116 => ⟨S_, .f32⟩
  | 117 => ⟨S2x2048, .f32⟩
  | 118 => ⟨S2x2048, .f32⟩
  | 119 => ⟨S2x2048, .f32⟩
  | 120 => ⟨S2x2048, .f32⟩
  | 121 => ⟨S2x2048, .f32⟩
  | 122 => ⟨S_, .f32⟩
  | 123 => ⟨S2x2048, .f32⟩
  | 124 => ⟨S2x2048, .f32⟩
  | 125 => ⟨S_, .f32⟩
  | 126 => ⟨S2x2048, .f32⟩
  | 127 => ⟨S2x2048, .f32⟩
  | _ => ⟨S4095x1024, .f32⟩

abbrev hbmTy0_4 (i : Nat) : BufTy := match i % 128 with
  | 0 => ⟨S2x2048, .f32⟩
  | 1 => ⟨S2x2048, .f32⟩
  | 2 => ⟨S2x2048, .f32⟩
  | 3 => ⟨S2x2048, .f32⟩
  | 4 => ⟨S2x2048, .f32⟩
  | 5 => ⟨S_, .f32⟩
  | 6 => ⟨S2x2048, .f32⟩
  | 7 => ⟨S2x2048, .f32⟩
  | 8 => ⟨S_, .f32⟩
  | 9 => ⟨S2x2048, .f32⟩
  | 10 => ⟨S2x2048, .f32⟩
  | 11 => ⟨S2x2048, .f32⟩
  | 12 => ⟨S2x2048, .f32⟩
  | 13 => ⟨S2x1024, .f32⟩
  | 14 => ⟨S2x1024, .f32⟩
  | 15 => ⟨S1x2048, .f32⟩
  | 16 => ⟨S1x2048, .f32⟩
  | 17 => ⟨S1x1024, .f32⟩
  | 18 => ⟨S1024x8192, .f32⟩
  | 19 => ⟨S1x8192, .f32⟩
  | 20 => ⟨S2048x8192, .f32⟩
  | 21 => ⟨S1x8192, .f32⟩
  | 22 => ⟨S1x8192, .f32⟩
  | 23 => ⟨S1x8192, .f32⟩
  | 24 => ⟨S1x8192, .f32⟩
  | 25 => ⟨S1x2048, .f32⟩
  | 26 => ⟨S1x2048, .f32⟩
  | 27 => ⟨S1x2048, .f32⟩
  | 28 => ⟨S1x2048, .f32⟩
  | 29 => ⟨S1x2048, .f32⟩
  | 30 => ⟨S1x2048, .f32⟩
  | 31 => ⟨S_, .f32⟩
  | 32 => ⟨S1x2048, .f32⟩
  | 33 => ⟨S1x2048, .f32⟩
  | 34 => ⟨S_, .f32⟩
  | 35 => ⟨S1x2048, .f32⟩
  | 36 => ⟨S1x2048, .f32⟩
  | 37 => ⟨S1x2048, .f32⟩
  | 38 => ⟨S1x2048, .f32⟩
  | 39 => ⟨S1x2048, .f32⟩
  | 40 => ⟨S_, .f32⟩
  | 41 => ⟨S1x2048, .f32⟩
  | 42 => ⟨S1x2048, .f32⟩
  | 43 => ⟨S_, .f32⟩
  | 44 => ⟨S1x2048, .f32⟩
  | 45 => ⟨S1x2048, .f32⟩
  | 46 => ⟨S1x2048, .f32⟩
  | 47 => ⟨S1x2048, .f32⟩
  | 48 => ⟨S1x2048, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S_, .f32⟩
  | 55 => ⟨S1x2048, .f32⟩
  | 56 => ⟨S1x2048, .f32⟩
  | 57 => ⟨S1x2048, .f32⟩
  | 58 => ⟨S1x2048, .f32⟩
  | 59 => ⟨S1x1024, .f32⟩
  | 60 => ⟨S1x1024, .f32⟩
  | 61 => ⟨S1x2048, .f32⟩
  | _ => ⟨S4095x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4095x1024, .f32⟩

abbrev bufTy : (tb : Table) → Fin (tcTables nBuf tb) → BufTy
  | .hbm, ⟨i, _⟩ => hbmTy i
  | _, _ => ⟨S4095x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_7 : Ref sig .tc := ⟨.hbm, 74, rfl⟩
abbrev main_v61 : Ref sig .tc := ⟨.hbm, 75, rfl⟩
abbrev main_v62 : Ref sig .tc := ⟨.hbm, 76, rfl⟩
abbrev main_cst_8 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_cst_10 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_13 : Ref sig .tc := ⟨.hbm, 121, rfl⟩
abbrev main_v102 : Ref sig .tc := ⟨.hbm, 122, rfl⟩
abbrev main_v103 : Ref sig .tc := ⟨.hbm, 123, rfl⟩
abbrev main_cst_14 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_cst_15 : Ref sig .tc := ⟨.hbm, 130, rfl⟩
abbrev main_v109 : Ref sig .tc := ⟨.hbm, 131, rfl⟩
abbrev main_v110 : Ref sig .tc := ⟨.hbm, 132, rfl⟩
abbrev main_cst_16 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_cst_17 : Ref sig .tc := ⟨.hbm, 141, rfl⟩
abbrev main_v118 : Ref sig .tc := ⟨.hbm, 142, rfl⟩
abbrev main_v119 : Ref sig .tc := ⟨.hbm, 143, rfl⟩
abbrev main_cst_18 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_cst_19 : Ref sig .tc := ⟨.hbm, 168, rfl⟩
abbrev main_v143 : Ref sig .tc := ⟨.hbm, 169, rfl⟩
abbrev main_v144 : Ref sig .tc := ⟨.hbm, 170, rfl⟩
abbrev main_cst_20 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_cst_21 : Ref sig .tc := ⟨.hbm, 177, rfl⟩
abbrev main_v150 : Ref sig .tc := ⟨.hbm, 178, rfl⟩
abbrev main_v151 : Ref sig .tc := ⟨.hbm, 179, rfl⟩
abbrev main_cst_22 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_cst_23 : Ref sig .tc := ⟨.hbm, 188, rfl⟩
abbrev main_v159 : Ref sig .tc := ⟨.hbm, 189, rfl⟩
abbrev main_v160 : Ref sig .tc := ⟨.hbm, 190, rfl⟩
abbrev main_cst_24 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_cst_25 : Ref sig .tc := ⟨.hbm, 215, rfl⟩
abbrev main_v184 : Ref sig .tc := ⟨.hbm, 216, rfl⟩
abbrev main_v185 : Ref sig .tc := ⟨.hbm, 217, rfl⟩
abbrev main_cst_26 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_cst_27 : Ref sig .tc := ⟨.hbm, 224, rfl⟩
abbrev main_v191 : Ref sig .tc := ⟨.hbm, 225, rfl⟩
abbrev main_v192 : Ref sig .tc := ⟨.hbm, 226, rfl⟩
abbrev main_cst_28 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_cst_29 : Ref sig .tc := ⟨.hbm, 235, rfl⟩
abbrev main_v200 : Ref sig .tc := ⟨.hbm, 236, rfl⟩
abbrev main_v201 : Ref sig .tc := ⟨.hbm, 237, rfl⟩
abbrev main_cst_30 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_cst_31 : Ref sig .tc := ⟨.hbm, 262, rfl⟩
abbrev main_v225 : Ref sig .tc := ⟨.hbm, 263, rfl⟩
abbrev main_v226 : Ref sig .tc := ⟨.hbm, 264, rfl⟩
abbrev main_cst_32 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_cst_33 : Ref sig .tc := ⟨.hbm, 271, rfl⟩
abbrev main_v232 : Ref sig .tc := ⟨.hbm, 272, rfl⟩
abbrev main_v233 : Ref sig .tc := ⟨.hbm, 273, rfl⟩
abbrev main_cst_34 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_cst_35 : Ref sig .tc := ⟨.hbm, 282, rfl⟩
abbrev main_v241 : Ref sig .tc := ⟨.hbm, 283, rfl⟩
abbrev main_v242 : Ref sig .tc := ⟨.hbm, 284, rfl⟩
abbrev main_cst_36 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_v261 : Ref sig .tc := ⟨.hbm, 304, rfl⟩
abbrev main_v262 : Ref sig .tc := ⟨.hbm, 305, rfl⟩
abbrev main_v263 : Ref sig .tc := ⟨.hbm, 306, rfl⟩
abbrev main_v264 : Ref sig .tc := ⟨.hbm, 307, rfl⟩
abbrev main_v265 : Ref sig .tc := ⟨.hbm, 308, rfl⟩
abbrev main_cst_37 : Ref sig .tc := ⟨.hbm, 309, rfl⟩
abbrev main_v266 : Ref sig .tc := ⟨.hbm, 310, rfl⟩
abbrev main_v267 : Ref sig .tc := ⟨.hbm, 311, rfl⟩
abbrev main_cst_38 : Ref sig .tc := ⟨.hbm, 312, rfl⟩
abbrev main_v268 : Ref sig .tc := ⟨.hbm, 313, rfl⟩
abbrev main_v269 : Ref sig .tc := ⟨.hbm, 314, rfl⟩
abbrev main_v270 : Ref sig .tc := ⟨.hbm, 315, rfl⟩
abbrev main_v271 : Ref sig .tc := ⟨.hbm, 316, rfl⟩
abbrev main_v272 : Ref sig .tc := ⟨.hbm, 317, rfl⟩
abbrev main_cst_39 : Ref sig .tc := ⟨.hbm, 318, rfl⟩
abbrev main_v273 : Ref sig .tc := ⟨.hbm, 319, rfl⟩
abbrev main_v274 : Ref sig .tc := ⟨.hbm, 320, rfl⟩
abbrev main_cst_40 : Ref sig .tc := ⟨.hbm, 321, rfl⟩
abbrev main_v275 : Ref sig .tc := ⟨.hbm, 322, rfl⟩
abbrev main_v276 : Ref sig .tc := ⟨.hbm, 323, rfl⟩
abbrev main_v277 : Ref sig .tc := ⟨.hbm, 324, rfl⟩
abbrev main_v278 : Ref sig .tc := ⟨.hbm, 325, rfl⟩
abbrev main_v279 : Ref sig .tc := ⟨.hbm, 326, rfl⟩
abbrev main_v280 : Ref sig .tc := ⟨.hbm, 327, rfl⟩
abbrev main_v281 : Ref sig .tc := ⟨.hbm, 328, rfl⟩
abbrev main_cst_41 : Ref sig .tc := ⟨.hbm, 329, rfl⟩
abbrev main_v282 : Ref sig .tc := ⟨.hbm, 330, rfl⟩
abbrev main_v283 : Ref sig .tc := ⟨.hbm, 331, rfl⟩
abbrev main_cst_42 : Ref sig .tc := ⟨.hbm, 332, rfl⟩
abbrev main_v284 : Ref sig .tc := ⟨.hbm, 333, rfl⟩
abbrev main_v285 : Ref sig .tc := ⟨.hbm, 334, rfl⟩
abbrev main_v286 : Ref sig .tc := ⟨.hbm, 335, rfl⟩
abbrev main_v287 : Ref sig .tc := ⟨.hbm, 336, rfl⟩
abbrev main_v288 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_v295 : Ref sig .tc := ⟨.hbm, 344, rfl⟩
abbrev main_v296 : Ref sig .tc := ⟨.hbm, 345, rfl⟩
abbrev main_v297 : Ref sig .tc := ⟨.hbm, 346, rfl⟩
abbrev main_v298 : Ref sig .tc := ⟨.hbm, 347, rfl⟩
abbrev main_v299 : Ref sig .tc := ⟨.hbm, 348, rfl⟩
abbrev main_v300 : Ref sig .tc := ⟨.hbm, 349, rfl⟩
abbrev main_v301 : Ref sig .tc := ⟨.hbm, 350, rfl⟩
abbrev main_v302 : Ref sig .tc := ⟨.hbm, 351, rfl⟩
abbrev main_v303 : Ref sig .tc := ⟨.hbm, 352, rfl⟩
abbrev main_v304 : Ref sig .tc := ⟨.hbm, 353, rfl⟩
abbrev main_v305 : Ref sig .tc := ⟨.hbm, 354, rfl⟩
abbrev main_v306 : Ref sig .tc := ⟨.hbm, 355, rfl⟩
abbrev main_cst_43 : Ref sig .tc := ⟨.hbm, 356, rfl⟩
abbrev main_v307 : Ref sig .tc := ⟨.hbm, 357, rfl⟩
abbrev main_v308 : Ref sig .tc := ⟨.hbm, 358, rfl⟩
abbrev main_cst_44 : Ref sig .tc := ⟨.hbm, 359, rfl⟩
abbrev main_v309 : Ref sig .tc := ⟨.hbm, 360, rfl⟩
abbrev main_v310 : Ref sig .tc := ⟨.hbm, 361, rfl⟩
abbrev main_v311 : Ref sig .tc := ⟨.hbm, 362, rfl⟩
abbrev main_v312 : Ref sig .tc := ⟨.hbm, 363, rfl⟩
abbrev main_v313 : Ref sig .tc := ⟨.hbm, 364, rfl⟩
abbrev main_cst_45 : Ref sig .tc := ⟨.hbm, 365, rfl⟩
abbrev main_v314 : Ref sig .tc := ⟨.hbm, 366, rfl⟩
abbrev main_v315 : Ref sig .tc := ⟨.hbm, 367, rfl⟩
abbrev main_cst_46 : Ref sig .tc := ⟨.hbm, 368, rfl⟩
abbrev main_v316 : Ref sig .tc := ⟨.hbm, 369, rfl⟩
abbrev main_v317 : Ref sig .tc := ⟨.hbm, 370, rfl⟩
abbrev main_v318 : Ref sig .tc := ⟨.hbm, 371, rfl⟩
abbrev main_v319 : Ref sig .tc := ⟨.hbm, 372, rfl⟩
abbrev main_v320 : Ref sig .tc := ⟨.hbm, 373, rfl⟩
abbrev main_v321 : Ref sig .tc := ⟨.hbm, 374, rfl⟩
abbrev main_v322 : Ref sig .tc := ⟨.hbm, 375, rfl⟩
abbrev main_cst_47 : Ref sig .tc := ⟨.hbm, 376, rfl⟩
abbrev main_v323 : Ref sig .tc := ⟨.hbm, 377, rfl⟩
abbrev main_v324 : Ref sig .tc := ⟨.hbm, 378, rfl⟩
abbrev main_cst_48 : Ref sig .tc := ⟨.hbm, 379, rfl⟩
abbrev main_v325 : Ref sig .tc := ⟨.hbm, 380, rfl⟩
abbrev main_v326 : Ref sig .tc := ⟨.hbm, 381, rfl⟩
abbrev main_v327 : Ref sig .tc := ⟨.hbm, 382, rfl⟩
abbrev main_v328 : Ref sig .tc := ⟨.hbm, 383, rfl⟩
abbrev main_v329 : Ref sig .tc := ⟨.hbm, 384, rfl⟩
abbrev main_v330 : Ref sig .tc := ⟨.hbm, 385, rfl⟩
abbrev main_v331 : Ref sig .tc := ⟨.hbm, 386, rfl⟩
abbrev main_v332 : Ref sig .tc := ⟨.hbm, 387, rfl⟩
abbrev main_v333 : Ref sig .tc := ⟨.hbm, 388, rfl⟩
abbrev main_v334 : Ref sig .tc := ⟨.hbm, 389, rfl⟩
abbrev main_v335 : Ref sig .tc := ⟨.hbm, 390, rfl⟩
abbrev main_v336 : Ref sig .tc := ⟨.hbm, 391, rfl⟩
abbrev main_v337 : Ref sig .tc := ⟨.hbm, 392, rfl⟩
abbrev main_v338 : Ref sig .tc := ⟨.hbm, 393, rfl⟩
abbrev main_v339 : Ref sig .tc := ⟨.hbm, 394, rfl⟩
abbrev main_v340 : Ref sig .tc := ⟨.hbm, 395, rfl⟩
abbrev main_v341 : Ref sig .tc := ⟨.hbm, 396, rfl⟩
abbrev main_v342 : Ref sig .tc := ⟨.hbm, 397, rfl⟩
abbrev main_v343 : Ref sig .tc := ⟨.hbm, 398, rfl⟩
abbrev main_v344 : Ref sig .tc := ⟨.hbm, 399, rfl⟩
abbrev main_v345 : Ref sig .tc := ⟨.hbm, 400, rfl⟩
abbrev main_v346 : Ref sig .tc := ⟨.hbm, 401, rfl⟩
abbrev main_v347 : Ref sig .tc := ⟨.hbm, 402, rfl⟩
abbrev main_cst_49 : Ref sig .tc := ⟨.hbm, 403, rfl⟩
abbrev main_v348 : Ref sig .tc := ⟨.hbm, 404, rfl⟩
abbrev main_v349 : Ref sig .tc := ⟨.hbm, 405, rfl⟩
abbrev main_cst_50 : Ref sig .tc := ⟨.hbm, 406, rfl⟩
abbrev main_v350 : Ref sig .tc := ⟨.hbm, 407, rfl⟩
abbrev main_v351 : Ref sig .tc := ⟨.hbm, 408, rfl⟩
abbrev main_v352 : Ref sig .tc := ⟨.hbm, 409, rfl⟩
abbrev main_v353 : Ref sig .tc := ⟨.hbm, 410, rfl⟩
abbrev main_v354 : Ref sig .tc := ⟨.hbm, 411, rfl⟩
abbrev main_cst_51 : Ref sig .tc := ⟨.hbm, 412, rfl⟩
abbrev main_v355 : Ref sig .tc := ⟨.hbm, 413, rfl⟩
abbrev main_v356 : Ref sig .tc := ⟨.hbm, 414, rfl⟩
abbrev main_cst_52 : Ref sig .tc := ⟨.hbm, 415, rfl⟩
abbrev main_v357 : Ref sig .tc := ⟨.hbm, 416, rfl⟩
abbrev main_v358 : Ref sig .tc := ⟨.hbm, 417, rfl⟩
abbrev main_v359 : Ref sig .tc := ⟨.hbm, 418, rfl⟩
abbrev main_v360 : Ref sig .tc := ⟨.hbm, 419, rfl⟩
abbrev main_v361 : Ref sig .tc := ⟨.hbm, 420, rfl⟩
abbrev main_v362 : Ref sig .tc := ⟨.hbm, 421, rfl⟩
abbrev main_v363 : Ref sig .tc := ⟨.hbm, 422, rfl⟩
abbrev main_cst_53 : Ref sig .tc := ⟨.hbm, 423, rfl⟩
abbrev main_v364 : Ref sig .tc := ⟨.hbm, 424, rfl⟩
abbrev main_v365 : Ref sig .tc := ⟨.hbm, 425, rfl⟩
abbrev main_cst_54 : Ref sig .tc := ⟨.hbm, 426, rfl⟩
abbrev main_v366 : Ref sig .tc := ⟨.hbm, 427, rfl⟩
abbrev main_v367 : Ref sig .tc := ⟨.hbm, 428, rfl⟩
abbrev main_v368 : Ref sig .tc := ⟨.hbm, 429, rfl⟩
abbrev main_v369 : Ref sig .tc := ⟨.hbm, 430, rfl⟩
abbrev main_v370 : Ref sig .tc := ⟨.hbm, 431, rfl⟩
abbrev main_v371 : Ref sig .tc := ⟨.hbm, 432, rfl⟩
abbrev main_v372 : Ref sig .tc := ⟨.hbm, 433, rfl⟩
abbrev main_v373 : Ref sig .tc := ⟨.hbm, 434, rfl⟩
abbrev main_v374 : Ref sig .tc := ⟨.hbm, 435, rfl⟩
abbrev main_v375 : Ref sig .tc := ⟨.hbm, 436, rfl⟩
abbrev main_v376 : Ref sig .tc := ⟨.hbm, 437, rfl⟩
abbrev main_v377 : Ref sig .tc := ⟨.hbm, 438, rfl⟩
abbrev main_v378 : Ref sig .tc := ⟨.hbm, 439, rfl⟩
abbrev main_v379 : Ref sig .tc := ⟨.hbm, 440, rfl⟩
abbrev main_v380 : Ref sig .tc := ⟨.hbm, 441, rfl⟩
abbrev main_v381 : Ref sig .tc := ⟨.hbm, 442, rfl⟩
abbrev main_v382 : Ref sig .tc := ⟨.hbm, 443, rfl⟩
abbrev main_v383 : Ref sig .tc := ⟨.hbm, 444, rfl⟩
abbrev main_v384 : Ref sig .tc := ⟨.hbm, 445, rfl⟩
abbrev main_v385 : Ref sig .tc := ⟨.hbm, 446, rfl⟩
abbrev main_v386 : Ref sig .tc := ⟨.hbm, 447, rfl⟩
abbrev main_v387 : Ref sig .tc := ⟨.hbm, 448, rfl⟩
abbrev main_v388 : Ref sig .tc := ⟨.hbm, 449, rfl⟩
abbrev main_cst_55 : Ref sig .tc := ⟨.hbm, 450, rfl⟩
abbrev main_v389 : Ref sig .tc := ⟨.hbm, 451, rfl⟩
abbrev main_v390 : Ref sig .tc := ⟨.hbm, 452, rfl⟩
abbrev main_cst_56 : Ref sig .tc := ⟨.hbm, 453, rfl⟩
abbrev main_v391 : Ref sig .tc := ⟨.hbm, 454, rfl⟩
abbrev main_v392 : Ref sig .tc := ⟨.hbm, 455, rfl⟩
abbrev main_v393 : Ref sig .tc := ⟨.hbm, 456, rfl⟩
abbrev main_v394 : Ref sig .tc := ⟨.hbm, 457, rfl⟩
abbrev main_v395 : Ref sig .tc := ⟨.hbm, 458, rfl⟩
abbrev main_cst_57 : Ref sig .tc := ⟨.hbm, 459, rfl⟩
abbrev main_v396 : Ref sig .tc := ⟨.hbm, 460, rfl⟩
abbrev main_v397 : Ref sig .tc := ⟨.hbm, 461, rfl⟩
abbrev main_cst_58 : Ref sig .tc := ⟨.hbm, 462, rfl⟩
abbrev main_v398 : Ref sig .tc := ⟨.hbm, 463, rfl⟩
abbrev main_v399 : Ref sig .tc := ⟨.hbm, 464, rfl⟩
abbrev main_v400 : Ref sig .tc := ⟨.hbm, 465, rfl⟩
abbrev main_v401 : Ref sig .tc := ⟨.hbm, 466, rfl⟩
abbrev main_v402 : Ref sig .tc := ⟨.hbm, 467, rfl⟩
abbrev main_v403 : Ref sig .tc := ⟨.hbm, 468, rfl⟩
abbrev main_v404 : Ref sig .tc := ⟨.hbm, 469, rfl⟩
abbrev main_cst_59 : Ref sig .tc := ⟨.hbm, 470, rfl⟩
abbrev main_v405 : Ref sig .tc := ⟨.hbm, 471, rfl⟩
abbrev main_v406 : Ref sig .tc := ⟨.hbm, 472, rfl⟩
abbrev main_cst_60 : Ref sig .tc := ⟨.hbm, 473, rfl⟩
abbrev main_v407 : Ref sig .tc := ⟨.hbm, 474, rfl⟩
abbrev main_v408 : Ref sig .tc := ⟨.hbm, 475, rfl⟩
abbrev main_v409 : Ref sig .tc := ⟨.hbm, 476, rfl⟩
abbrev main_v410 : Ref sig .tc := ⟨.hbm, 477, rfl⟩
abbrev main_v411 : Ref sig .tc := ⟨.hbm, 478, rfl⟩
abbrev main_v412 : Ref sig .tc := ⟨.hbm, 479, rfl⟩
abbrev main_v413 : Ref sig .tc := ⟨.hbm, 480, rfl⟩
abbrev main_v414 : Ref sig .tc := ⟨.hbm, 481, rfl⟩
abbrev main_v415 : Ref sig .tc := ⟨.hbm, 482, rfl⟩
abbrev main_v416 : Ref sig .tc := ⟨.hbm, 483, rfl⟩
abbrev main_v417 : Ref sig .tc := ⟨.hbm, 484, rfl⟩
abbrev main_v418 : Ref sig .tc := ⟨.hbm, 485, rfl⟩
abbrev main_v419 : Ref sig .tc := ⟨.hbm, 486, rfl⟩
abbrev main_v420 : Ref sig .tc := ⟨.hbm, 487, rfl⟩
abbrev main_v421 : Ref sig .tc := ⟨.hbm, 488, rfl⟩
abbrev main_v422 : Ref sig .tc := ⟨.hbm, 489, rfl⟩
abbrev main_v423 : Ref sig .tc := ⟨.hbm, 490, rfl⟩
abbrev main_v424 : Ref sig .tc := ⟨.hbm, 491, rfl⟩
abbrev main_v425 : Ref sig .tc := ⟨.hbm, 492, rfl⟩
abbrev main_v426 : Ref sig .tc := ⟨.hbm, 493, rfl⟩
abbrev main_v427 : Ref sig .tc := ⟨.hbm, 494, rfl⟩
abbrev main_v428 : Ref sig .tc := ⟨.hbm, 495, rfl⟩
abbrev main_v429 : Ref sig .tc := ⟨.hbm, 496, rfl⟩
abbrev main_cst_61 : Ref sig .tc := ⟨.hbm, 497, rfl⟩
abbrev main_v430 : Ref sig .tc := ⟨.hbm, 498, rfl⟩
abbrev main_v431 : Ref sig .tc := ⟨.hbm, 499, rfl⟩
abbrev main_cst_62 : Ref sig .tc := ⟨.hbm, 500, rfl⟩
abbrev main_v432 : Ref sig .tc := ⟨.hbm, 501, rfl⟩
abbrev main_v433 : Ref sig .tc := ⟨.hbm, 502, rfl⟩
abbrev main_v434 : Ref sig .tc := ⟨.hbm, 503, rfl⟩
abbrev main_v435 : Ref sig .tc := ⟨.hbm, 504, rfl⟩
abbrev main_v436 : Ref sig .tc := ⟨.hbm, 505, rfl⟩
abbrev main_cst_63 : Ref sig .tc := ⟨.hbm, 506, rfl⟩
abbrev main_v437 : Ref sig .tc := ⟨.hbm, 507, rfl⟩
abbrev main_v438 : Ref sig .tc := ⟨.hbm, 508, rfl⟩
abbrev main_cst_64 : Ref sig .tc := ⟨.hbm, 509, rfl⟩
abbrev main_v439 : Ref sig .tc := ⟨.hbm, 510, rfl⟩
abbrev main_v440 : Ref sig .tc := ⟨.hbm, 511, rfl⟩
abbrev main_v441 : Ref sig .tc := ⟨.hbm, 512, rfl⟩
abbrev main_v442 : Ref sig .tc := ⟨.hbm, 513, rfl⟩
abbrev main_v443 : Ref sig .tc := ⟨.hbm, 514, rfl⟩
abbrev main_v444 : Ref sig .tc := ⟨.hbm, 515, rfl⟩
abbrev main_v445 : Ref sig .tc := ⟨.hbm, 516, rfl⟩
abbrev main_cst_65 : Ref sig .tc := ⟨.hbm, 517, rfl⟩
abbrev main_v446 : Ref sig .tc := ⟨.hbm, 518, rfl⟩
abbrev main_v447 : Ref sig .tc := ⟨.hbm, 519, rfl⟩
abbrev main_cst_66 : Ref sig .tc := ⟨.hbm, 520, rfl⟩
abbrev main_v448 : Ref sig .tc := ⟨.hbm, 521, rfl⟩
abbrev main_v449 : Ref sig .tc := ⟨.hbm, 522, rfl⟩
abbrev main_v450 : Ref sig .tc := ⟨.hbm, 523, rfl⟩
abbrev main_v451 : Ref sig .tc := ⟨.hbm, 524, rfl⟩
abbrev main_v452 : Ref sig .tc := ⟨.hbm, 525, rfl⟩
abbrev main_v453 : Ref sig .tc := ⟨.hbm, 526, rfl⟩
abbrev main_v454 : Ref sig .tc := ⟨.hbm, 527, rfl⟩
abbrev main_v455 : Ref sig .tc := ⟨.hbm, 528, rfl⟩
abbrev main_v456 : Ref sig .tc := ⟨.hbm, 529, rfl⟩
abbrev main_v457 : Ref sig .tc := ⟨.hbm, 530, rfl⟩
abbrev main_v458 : Ref sig .tc := ⟨.hbm, 531, rfl⟩
abbrev main_v459 : Ref sig .tc := ⟨.hbm, 532, rfl⟩
abbrev main_v460 : Ref sig .tc := ⟨.hbm, 533, rfl⟩
abbrev main_v461 : Ref sig .tc := ⟨.hbm, 534, rfl⟩
abbrev main_v462 : Ref sig .tc := ⟨.hbm, 535, rfl⟩
abbrev main_v463 : Ref sig .tc := ⟨.hbm, 536, rfl⟩
abbrev main_v464 : Ref sig .tc := ⟨.hbm, 537, rfl⟩
abbrev main_v465 : Ref sig .tc := ⟨.hbm, 538, rfl⟩
abbrev main_v466 : Ref sig .tc := ⟨.hbm, 539, rfl⟩
abbrev main_v467 : Ref sig .tc := ⟨.hbm, 540, rfl⟩
abbrev main_v468 : Ref sig .tc := ⟨.hbm, 541, rfl⟩
abbrev main_v469 : Ref sig .tc := ⟨.hbm, 542, rfl⟩
abbrev main_cst_67 : Ref sig .tc := ⟨.hbm, 543, rfl⟩
abbrev main_v470 : Ref sig .tc := ⟨.hbm, 544, rfl⟩
abbrev main_v471 : Ref sig .tc := ⟨.hbm, 545, rfl⟩
abbrev main_cst_68 : Ref sig .tc := ⟨.hbm, 546, rfl⟩
abbrev main_v472 : Ref sig .tc := ⟨.hbm, 547, rfl⟩
abbrev main_v473 : Ref sig .tc := ⟨.hbm, 548, rfl⟩
abbrev main_v474 : Ref sig .tc := ⟨.hbm, 549, rfl⟩
abbrev main_v475 : Ref sig .tc := ⟨.hbm, 550, rfl⟩
abbrev main_v476 : Ref sig .tc := ⟨.hbm, 551, rfl⟩
abbrev main_cst_69 : Ref sig .tc := ⟨.hbm, 552, rfl⟩
abbrev main_v477 : Ref sig .tc := ⟨.hbm, 553, rfl⟩
abbrev main_v478 : Ref sig .tc := ⟨.hbm, 554, rfl⟩
abbrev main_cst_70 : Ref sig .tc := ⟨.hbm, 555, rfl⟩
abbrev main_v479 : Ref sig .tc := ⟨.hbm, 556, rfl⟩
abbrev main_v480 : Ref sig .tc := ⟨.hbm, 557, rfl⟩
abbrev main_v481 : Ref sig .tc := ⟨.hbm, 558, rfl⟩
abbrev main_v482 : Ref sig .tc := ⟨.hbm, 559, rfl⟩
abbrev main_v483 : Ref sig .tc := ⟨.hbm, 560, rfl⟩
abbrev main_v484 : Ref sig .tc := ⟨.hbm, 561, rfl⟩
abbrev main_v485 : Ref sig .tc := ⟨.hbm, 562, rfl⟩
abbrev main_cst_71 : Ref sig .tc := ⟨.hbm, 563, rfl⟩
abbrev main_v486 : Ref sig .tc := ⟨.hbm, 564, rfl⟩
abbrev main_v487 : Ref sig .tc := ⟨.hbm, 565, rfl⟩
abbrev main_cst_72 : Ref sig .tc := ⟨.hbm, 566, rfl⟩
abbrev main_v488 : Ref sig .tc := ⟨.hbm, 567, rfl⟩
abbrev main_v489 : Ref sig .tc := ⟨.hbm, 568, rfl⟩
abbrev main_v490 : Ref sig .tc := ⟨.hbm, 569, rfl⟩
abbrev main_v491 : Ref sig .tc := ⟨.hbm, 570, rfl⟩
abbrev main_v492 : Ref sig .tc := ⟨.hbm, 571, rfl⟩
abbrev main_v493 : Ref sig .tc := ⟨.hbm, 572, rfl⟩
abbrev main_v494 : Ref sig .tc := ⟨.hbm, 573, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  shapeCasts_S4096x1024_S2048x2048 : S4096x1024.ShapeCasts S2048x2048
  slices_S4095x1024_S2048x1024_2047_0 : S4095x1024.Slices ![2047, 0] S2048x1024
  transposes_S8192x1024_S1024x8192_1_0 : S8192x1024.Transposes [1, 0] S1024x8192
  transposes_S8192x2048_S2048x8192_1_0 : S8192x2048.Transposes [1, 0] S2048x8192
  bcast_S8192_S1x8192_1 : S8192.BroadcastsInDim S1x8192 (![1] : Fin 1 → Fin S1x8192.rank)
  bcast_S1x8192_S2048x8192_0_1 : S1x8192.BroadcastsInDim S2048x8192 (![0, 1] : Fin 2 → Fin S2048x8192.rank)
  slices_S2048x8192_S2048x2048_0_0 : S2048x8192.Slices ![0, 0] S2048x2048
  slices_S2048x8192_S2048x2048_0_2048 : S2048x8192.Slices ![0, 2048] S2048x2048
  slices_S2048x8192_S2048x2048_0_4096 : S2048x8192.Slices ![0, 4096] S2048x2048
  slices_S2048x8192_S2048x2048_0_6144 : S2048x8192.Slices ![0, 6144] S2048x2048
  bcast_S_S2048x2048 : S_.BroadcastsInDim S2048x2048 (![] : Fin 0 → Fin S2048x2048.rank)
  slices_S2048x2048_S2048x1024_0_0 : S2048x2048.Slices ![0, 0] S2048x1024
  shapeCasts_S2048x1024_S1024x2048 : S2048x1024.ShapeCasts S1024x2048
  slices_S4095x1024_S1024x1024_1023_0 : S4095x1024.Slices ![1023, 0] S1024x1024
  bcast_S1x8192_S1024x8192_0_1 : S1x8192.BroadcastsInDim S1024x8192 (![0, 1] : Fin 2 → Fin S1024x8192.rank)
  slices_S1024x8192_S1024x2048_0_0 : S1024x8192.Slices ![0, 0] S1024x2048
  slices_S1024x8192_S1024x2048_0_2048 : S1024x8192.Slices ![0, 2048] S1024x2048
  slices_S1024x8192_S1024x2048_0_4096 : S1024x8192.Slices ![0, 4096] S1024x2048
  slices_S1024x8192_S1024x2048_0_6144 : S1024x8192.Slices ![0, 6144] S1024x2048
  bcast_S_S1024x2048 : S_.BroadcastsInDim S1024x2048 (![] : Fin 0 → Fin S1024x2048.rank)
  slices_S1024x2048_S1024x1024_0_0 : S1024x2048.Slices ![0, 0] S1024x1024
  shapeCasts_S1024x1024_S512x2048 : S1024x1024.ShapeCasts S512x2048
  slices_S4095x1024_S512x1024_511_0 : S4095x1024.Slices ![511, 0] S512x1024
  bcast_S1x8192_S512x8192_0_1 : S1x8192.BroadcastsInDim S512x8192 (![0, 1] : Fin 2 → Fin S512x8192.rank)
  slices_S512x8192_S512x2048_0_0 : S512x8192.Slices ![0, 0] S512x2048
  slices_S512x8192_S512x2048_0_2048 : S512x8192.Slices ![0, 2048] S512x2048
  slices_S512x8192_S512x2048_0_4096 : S512x8192.Slices ![0, 4096] S512x2048
  slices_S512x8192_S512x2048_0_6144 : S512x8192.Slices ![0, 6144] S512x2048
  bcast_S_S512x2048 : S_.BroadcastsInDim S512x2048 (![] : Fin 0 → Fin S512x2048.rank)
  slices_S512x2048_S512x1024_0_0 : S512x2048.Slices ![0, 0] S512x1024
  shapeCasts_S512x1024_S256x2048 : S512x1024.ShapeCasts S256x2048
  slices_S4095x1024_S256x1024_255_0 : S4095x1024.Slices ![255, 0] S256x1024
  bcast_S1x8192_S256x8192_0_1 : S1x8192.BroadcastsInDim S256x8192 (![0, 1] : Fin 2 → Fin S256x8192.rank)
  slices_S256x8192_S256x2048_0_0 : S256x8192.Slices ![0, 0] S256x2048
  slices_S256x8192_S256x2048_0_2048 : S256x8192.Slices ![0, 2048] S256x2048
  slices_S256x8192_S256x2048_0_4096 : S256x8192.Slices ![0, 4096] S256x2048
  slices_S256x8192_S256x2048_0_6144 : S256x8192.Slices ![0, 6144] S256x2048
  bcast_S_S256x2048 : S_.BroadcastsInDim S256x2048 (![] : Fin 0 → Fin S256x2048.rank)
  slices_S256x2048_S256x1024_0_0 : S256x2048.Slices ![0, 0] S256x1024
  shapeCasts_S256x1024_S128x2048 : S256x1024.ShapeCasts S128x2048
  slices_S4095x1024_S128x1024_127_0 : S4095x1024.Slices ![127, 0] S128x1024
  bcast_S1x8192_S128x8192_0_1 : S1x8192.BroadcastsInDim S128x8192 (![0, 1] : Fin 2 → Fin S128x8192.rank)
  slices_S128x8192_S128x2048_0_0 : S128x8192.Slices ![0, 0] S128x2048
  slices_S128x8192_S128x2048_0_2048 : S128x8192.Slices ![0, 2048] S128x2048
  slices_S128x8192_S128x2048_0_4096 : S128x8192.Slices ![0, 4096] S128x2048
  slices_S128x8192_S128x2048_0_6144 : S128x8192.Slices ![0, 6144] S128x2048
  bcast_S_S128x2048 : S_.BroadcastsInDim S128x2048 (![] : Fin 0 → Fin S128x2048.rank)
  slices_S128x2048_S128x1024_0_0 : S128x2048.Slices ![0, 0] S128x1024
  shapeCasts_S128x1024_S64x2048 : S128x1024.ShapeCasts S64x2048
  slices_S4095x1024_S64x1024_63_0 : S4095x1024.Slices ![63, 0] S64x1024
  bcast_S1x8192_S64x8192_0_1 : S1x8192.BroadcastsInDim S64x8192 (![0, 1] : Fin 2 → Fin S64x8192.rank)
  slices_S64x8192_S64x2048_0_0 : S64x8192.Slices ![0, 0] S64x2048
  slices_S64x8192_S64x2048_0_2048 : S64x8192.Slices ![0, 2048] S64x2048
  slices_S64x8192_S64x2048_0_4096 : S64x8192.Slices ![0, 4096] S64x2048
  slices_S64x8192_S64x2048_0_6144 : S64x8192.Slices ![0, 6144] S64x2048
  bcast_S_S64x2048 : S_.BroadcastsInDim S64x2048 (![] : Fin 0 → Fin S64x2048.rank)
  slices_S64x2048_S64x1024_0_0 : S64x2048.Slices ![0, 0] S64x1024
  shapeCasts_S64x1024_S32x2048 : S64x1024.ShapeCasts S32x2048
  slices_S4095x1024_S32x1024_31_0 : S4095x1024.Slices ![31, 0] S32x1024
  bcast_S1x8192_S32x8192_0_1 : S1x8192.BroadcastsInDim S32x8192 (![0, 1] : Fin 2 → Fin S32x8192.rank)
  slices_S32x8192_S32x2048_0_0 : S32x8192.Slices ![0, 0] S32x2048
  slices_S32x8192_S32x2048_0_2048 : S32x8192.Slices ![0, 2048] S32x2048
  slices_S32x8192_S32x2048_0_4096 : S32x8192.Slices ![0, 4096] S32x2048
  slices_S32x8192_S32x2048_0_6144 : S32x8192.Slices ![0, 6144] S32x2048
  bcast_S_S32x2048 : S_.BroadcastsInDim S32x2048 (![] : Fin 0 → Fin S32x2048.rank)
  slices_S32x2048_S32x1024_0_0 : S32x2048.Slices ![0, 0] S32x1024
  shapeCasts_S32x1024_S16x2048 : S32x1024.ShapeCasts S16x2048
  slices_S4095x1024_S16x1024_15_0 : S4095x1024.Slices ![15, 0] S16x1024
  bcast_S1x8192_S16x8192_0_1 : S1x8192.BroadcastsInDim S16x8192 (![0, 1] : Fin 2 → Fin S16x8192.rank)
  slices_S16x8192_S16x2048_0_0 : S16x8192.Slices ![0, 0] S16x2048
  slices_S16x8192_S16x2048_0_2048 : S16x8192.Slices ![0, 2048] S16x2048
  slices_S16x8192_S16x2048_0_4096 : S16x8192.Slices ![0, 4096] S16x2048
  slices_S16x8192_S16x2048_0_6144 : S16x8192.Slices ![0, 6144] S16x2048
  bcast_S_S16x2048 : S_.BroadcastsInDim S16x2048 (![] : Fin 0 → Fin S16x2048.rank)
  slices_S16x2048_S16x1024_0_0 : S16x2048.Slices ![0, 0] S16x1024
  shapeCasts_S16x1024_S8x2048 : S16x1024.ShapeCasts S8x2048
  slices_S4095x1024_S8x1024_7_0 : S4095x1024.Slices ![7, 0] S8x1024
  bcast_S1x8192_S8x8192_0_1 : S1x8192.BroadcastsInDim S8x8192 (![0, 1] : Fin 2 → Fin S8x8192.rank)
  slices_S8x8192_S8x2048_0_0 : S8x8192.Slices ![0, 0] S8x2048
  slices_S8x8192_S8x2048_0_2048 : S8x8192.Slices ![0, 2048] S8x2048
  slices_S8x8192_S8x2048_0_4096 : S8x8192.Slices ![0, 4096] S8x2048
  slices_S8x8192_S8x2048_0_6144 : S8x8192.Slices ![0, 6144] S8x2048
  bcast_S_S8x2048 : S_.BroadcastsInDim S8x2048 (![] : Fin 0 → Fin S8x2048.rank)
  slices_S8x2048_S8x1024_0_0 : S8x2048.Slices ![0, 0] S8x1024
  shapeCasts_S8x1024_S4x2048 : S8x1024.ShapeCasts S4x2048
  slices_S4095x1024_S4x1024_3_0 : S4095x1024.Slices ![3, 0] S4x1024
  bcast_S1x8192_S4x8192_0_1 : S1x8192.BroadcastsInDim S4x8192 (![0, 1] : Fin 2 → Fin S4x8192.rank)
  slices_S4x8192_S4x2048_0_0 : S4x8192.Slices ![0, 0] S4x2048
  slices_S4x8192_S4x2048_0_2048 : S4x8192.Slices ![0, 2048] S4x2048
  slices_S4x8192_S4x2048_0_4096 : S4x8192.Slices ![0, 4096] S4x2048
  slices_S4x8192_S4x2048_0_6144 : S4x8192.Slices ![0, 6144] S4x2048
  bcast_S_S4x2048 : S_.BroadcastsInDim S4x2048 (![] : Fin 0 → Fin S4x2048.rank)
  slices_S4x2048_S4x1024_0_0 : S4x2048.Slices ![0, 0] S4x1024
  shapeCasts_S4x1024_S2x2048 : S4x1024.ShapeCasts S2x2048
  slices_S4095x1024_S2x1024_1_0 : S4095x1024.Slices ![1, 0] S2x1024
  bcast_S1x8192_S2x8192_0_1 : S1x8192.BroadcastsInDim S2x8192 (![0, 1] : Fin 2 → Fin S2x8192.rank)
  slices_S2x8192_S2x2048_0_0 : S2x8192.Slices ![0, 0] S2x2048
  slices_S2x8192_S2x2048_0_2048 : S2x8192.Slices ![0, 2048] S2x2048
  slices_S2x8192_S2x2048_0_4096 : S2x8192.Slices ![0, 4096] S2x2048
  slices_S2x8192_S2x2048_0_6144 : S2x8192.Slices ![0, 6144] S2x2048
  bcast_S_S2x2048 : S_.BroadcastsInDim S2x2048 (![] : Fin 0 → Fin S2x2048.rank)
  slices_S2x2048_S2x1024_0_0 : S2x2048.Slices ![0, 0] S2x1024
  shapeCasts_S2x1024_S1x2048 : S2x1024.ShapeCasts S1x2048
  slices_S4095x1024_S1x1024_0_0 : S4095x1024.Slices ![0, 0] S1x1024
  slices_S1x8192_S1x2048_0_0 : S1x8192.Slices ![0, 0] S1x2048
  slices_S1x8192_S1x2048_0_2048 : S1x8192.Slices ![0, 2048] S1x2048
  slices_S1x8192_S1x2048_0_4096 : S1x8192.Slices ![0, 4096] S1x2048
  slices_S1x8192_S1x2048_0_6144 : S1x8192.Slices ![0, 6144] S1x2048
  bcast_S_S1x2048 : S_.BroadcastsInDim S1x2048 (![] : Fin 0 → Fin S1x2048.rank)
  slices_S1x2048_S1x1024_0_0 : S1x2048.Slices ![0, 0] S1x1024
  concatenates_S1x1024_S1x1024_S1x2048_d1 : Shape.Concatenates [S1x1024, S1x1024] S1x2048 1
  dot_S2048x1024_S1024x8192_S2048x8192_1_0_0_1_n_n_wf : DotDims.WF S2048x1024 S1024x8192 S2048x8192 [1] [0] [0] [1] [] []
  dot_S2048x2048_S2048x8192_S2048x8192_1_0_0_1_n_n_wf : DotDims.WF S2048x2048 S2048x8192 S2048x8192 [1] [0] [0] [1] [] []
  dot_S1024x1024_S1024x8192_S1024x8192_1_0_0_1_n_n_wf : DotDims.WF S1024x1024 S1024x8192 S1024x8192 [1] [0] [0] [1] [] []
  dot_S1024x2048_S2048x8192_S1024x8192_1_0_0_1_n_n_wf : DotDims.WF S1024x2048 S2048x8192 S1024x8192 [1] [0] [0] [1] [] []
  dot_S512x1024_S1024x8192_S512x8192_1_0_0_1_n_n_wf : DotDims.WF S512x1024 S1024x8192 S512x8192 [1] [0] [0] [1] [] []
  dot_S512x2048_S2048x8192_S512x8192_1_0_0_1_n_n_wf : DotDims.WF S512x2048 S2048x8192 S512x8192 [1] [0] [0] [1] [] []
  dot_S256x1024_S1024x8192_S256x8192_1_0_0_1_n_n_wf : DotDims.WF S256x1024 S1024x8192 S256x8192 [1] [0] [0] [1] [] []
  dot_S256x2048_S2048x8192_S256x8192_1_0_0_1_n_n_wf : DotDims.WF S256x2048 S2048x8192 S256x8192 [1] [0] [0] [1] [] []
  dot_S128x1024_S1024x8192_S128x8192_1_0_0_1_n_n_wf : DotDims.WF S128x1024 S1024x8192 S128x8192 [1] [0] [0] [1] [] []
  dot_S128x2048_S2048x8192_S128x8192_1_0_0_1_n_n_wf : DotDims.WF S128x2048 S2048x8192 S128x8192 [1] [0] [0] [1] [] []
  dot_S64x1024_S1024x8192_S64x8192_1_0_0_1_n_n_wf : DotDims.WF S64x1024 S1024x8192 S64x8192 [1] [0] [0] [1] [] []
  dot_S64x2048_S2048x8192_S64x8192_1_0_0_1_n_n_wf : DotDims.WF S64x2048 S2048x8192 S64x8192 [1] [0] [0] [1] [] []
  dot_S32x1024_S1024x8192_S32x8192_1_0_0_1_n_n_wf : DotDims.WF S32x1024 S1024x8192 S32x8192 [1] [0] [0] [1] [] []
  dot_S32x2048_S2048x8192_S32x8192_1_0_0_1_n_n_wf : DotDims.WF S32x2048 S2048x8192 S32x8192 [1] [0] [0] [1] [] []
  dot_S16x1024_S1024x8192_S16x8192_1_0_0_1_n_n_wf : DotDims.WF S16x1024 S1024x8192 S16x8192 [1] [0] [0] [1] [] []
  dot_S16x2048_S2048x8192_S16x8192_1_0_0_1_n_n_wf : DotDims.WF S16x2048 S2048x8192 S16x8192 [1] [0] [0] [1] [] []
  dot_S8x1024_S1024x8192_S8x8192_1_0_0_1_n_n_wf : DotDims.WF S8x1024 S1024x8192 S8x8192 [1] [0] [0] [1] [] []
  dot_S8x2048_S2048x8192_S8x8192_1_0_0_1_n_n_wf : DotDims.WF S8x2048 S2048x8192 S8x8192 [1] [0] [0] [1] [] []
  dot_S4x1024_S1024x8192_S4x8192_1_0_0_1_n_n_wf : DotDims.WF S4x1024 S1024x8192 S4x8192 [1] [0] [0] [1] [] []
  dot_S4x2048_S2048x8192_S4x8192_1_0_0_1_n_n_wf : DotDims.WF S4x2048 S2048x8192 S4x8192 [1] [0] [0] [1] [] []
  dot_S2x1024_S1024x8192_S2x8192_1_0_0_1_n_n_wf : DotDims.WF S2x1024 S1024x8192 S2x8192 [1] [0] [0] [1] [] []
  dot_S2x2048_S2048x8192_S2x8192_1_0_0_1_n_n_wf : DotDims.WF S2x2048 S2048x8192 S2x8192 [1] [0] [0] [1] [] []
  dot_S1x1024_S1024x8192_S1x8192_1_0_0_1_n_n_wf : DotDims.WF S1x1024 S1024x8192 S1x8192 [1] [0] [0] [1] [] []
  dot_S1x2048_S2048x8192_S1x8192_1_0_0_1_n_n_wf : DotDims.WF S1x2048 S2048x8192 S1x8192 [1] [0] [0] [1] [] []

variable [Facts₀]

def dot_S2048x1024_S1024x8192_S2048x8192_1_0_0_1_n_n : DotDims S2048x1024 S1024x8192 S2048x8192 where
  lhsContracting := [1]
  rhsContracting := [0]
  lhsNonContracting := [0]
  rhsNonContracting := [1]
  lhsBatch := []
  rhsBatch := []
  wf := dot_S2048x1024_S1024x8192_S2048x8192_1_0_0_1_n_n_wf
def dot_S2048x2048_S2048x8192_S2048x8192_1_0_0_1_n_n : DotDims S2048x2048 S2048x8192 S2048x8192 where
  lhsContracting := [1]
  rhsContracting := [0]
  lhsNonContracting := [0]
  rhsNonContracting := [1]
  lhsBatch := []
  rhsBatch := []
  wf := dot_S2048x2048_S2048x8192_S2048x8192_1_0_0_1_n_n_wf
def dot_S1024x1024_S1024x8192_S1024x8192_1_0_0_1_n_n : DotDims S1024x1024 S1024x8192 S1024x8192 where
  lhsContracting := [1]
  rhsContracting := [0]
  lhsNonContracting := [0]
  rhsNonContracting := [1]
  lhsBatch := []
  rhsBatch := []
  wf := dot_S1024x1024_S1024x8192_S1024x8192_1_0_0_1_n_n_wf
def dot_S1024x2048_S2048x8192_S1024x8192_1_0_0_1_n_n : DotDims S1024x2048 S2048x8192 S1024x8192 where
  lhsContracting := [1]
  rhsContracting := [0]
  lhsNonContracting := [0]
  rhsNonContracting := [1]
  lhsBatch := []
  rhsBatch := []
  wf := dot_S1024x2048_S2048x8192_S1024x8192_1_0_0_1_n_n_wf
def dot_S512x1024_S1024x8192_S512x8192_1_0_0_1_n_n : DotDims S512x1024 S1024x8192 S512x8192 where
  lhsContracting := [1]
  rhsContracting := [0]
  lhsNonContracting := [0]
  rhsNonContracting := [1]
  lhsBatch := []
  rhsBatch := []
  wf := dot_S512x1024_S1024x8192_S512x8192_1_0_0_1_n_n_wf
def dot_S512x2048_S2048x8192_S512x8192_1_0_0_1_n_n : DotDims S512x2048 S2048x8192 S512x8192 where
  lhsContracting := [1]
  rhsContracting := [0]
  lhsNonContracting := [0]
  rhsNonContracting := [1]
  lhsBatch := []
  rhsBatch := []
  wf := dot_S512x2048_S2048x8192_S512x8192_1_0_0_1_n_n_wf
def dot_S256x1024_S1024x8192_S256x8192_1_0_0_1_n_n : DotDims S256x1024 S1024x8192 S256x8192 where
  lhsContracting := [1]
  rhsContracting := [0]
  lhsNonContracting := [0]
  rhsNonContracting := [1]
  lhsBatch := []
  rhsBatch := []
  wf := dot_S256x1024_S1024x8192_S256x8192_1_0_0_1_n_n_wf
def dot_S256x2048_S2048x8192_S256x8192_1_0_0_1_n_n : DotDims S256x2048 S2048x8192 S256x8192 where
  lhsContracting := [1]
  rhsContracting := [0]
  lhsNonContracting := [0]
  rhsNonContracting := [1]
  lhsBatch := []
  rhsBatch := []
  wf := dot_S256x2048_S2048x8192_S256x8192_1_0_0_1_n_n_wf
def dot_S128x1024_S1024x8192_S128x8192_1_0_0_1_n_n : DotDims S128x1024 S1024x8192 S128x8192 where
  lhsContracting := [1]
  rhsContracting := [0]
  lhsNonContracting := [0]
  rhsNonContracting := [1]
  lhsBatch := []
  rhsBatch := []
  wf := dot_S128x1024_S1024x8192_S128x8192_1_0_0_1_n_n_wf
def dot_S128x2048_S2048x8192_S128x8192_1_0_0_1_n_n : DotDims S128x2048 S2048x8192 S128x8192 where
  lhsContracting := [1]
  rhsContracting := [0]
  lhsNonContracting := [0]
  rhsNonContracting := [1]
  lhsBatch := []
  rhsBatch := []
  wf := dot_S128x2048_S2048x8192_S128x8192_1_0_0_1_n_n_wf
def dot_S64x1024_S1024x8192_S64x8192_1_0_0_1_n_n : DotDims S64x1024 S1024x8192 S64x8192 where
  lhsContracting := [1]
  rhsContracting := [0]
  lhsNonContracting := [0]
  rhsNonContracting := [1]
  lhsBatch := []
  rhsBatch := []
  wf := dot_S64x1024_S1024x8192_S64x8192_1_0_0_1_n_n_wf
def dot_S64x2048_S2048x8192_S64x8192_1_0_0_1_n_n : DotDims S64x2048 S2048x8192 S64x8192 where
  lhsContracting := [1]
  rhsContracting := [0]
  lhsNonContracting := [0]
  rhsNonContracting := [1]
  lhsBatch := []
  rhsBatch := []
  wf := dot_S64x2048_S2048x8192_S64x8192_1_0_0_1_n_n_wf
def dot_S32x1024_S1024x8192_S32x8192_1_0_0_1_n_n : DotDims S32x1024 S1024x8192 S32x8192 where
  lhsContracting := [1]
  rhsContracting := [0]
  lhsNonContracting := [0]
  rhsNonContracting := [1]
  lhsBatch := []
  rhsBatch := []
  wf := dot_S32x1024_S1024x8192_S32x8192_1_0_0_1_n_n_wf
def dot_S32x2048_S2048x8192_S32x8192_1_0_0_1_n_n : DotDims S32x2048 S2048x8192 S32x8192 where
  lhsContracting := [1]
  rhsContracting := [0]
  lhsNonContracting := [0]
  rhsNonContracting := [1]
  lhsBatch := []
  rhsBatch := []
  wf := dot_S32x2048_S2048x8192_S32x8192_1_0_0_1_n_n_wf
def dot_S16x1024_S1024x8192_S16x8192_1_0_0_1_n_n : DotDims S16x1024 S1024x8192 S16x8192 where
  lhsContracting := [1]
  rhsContracting := [0]
  lhsNonContracting := [0]
  rhsNonContracting := [1]
  lhsBatch := []
  rhsBatch := []
  wf := dot_S16x1024_S1024x8192_S16x8192_1_0_0_1_n_n_wf
def dot_S16x2048_S2048x8192_S16x8192_1_0_0_1_n_n : DotDims S16x2048 S2048x8192 S16x8192 where
  lhsContracting := [1]
  rhsContracting := [0]
  lhsNonContracting := [0]
  rhsNonContracting := [1]
  lhsBatch := []
  rhsBatch := []
  wf := dot_S16x2048_S2048x8192_S16x8192_1_0_0_1_n_n_wf
def dot_S8x1024_S1024x8192_S8x8192_1_0_0_1_n_n : DotDims S8x1024 S1024x8192 S8x8192 where
  lhsContracting := [1]
  rhsContracting := [0]
  lhsNonContracting := [0]
  rhsNonContracting := [1]
  lhsBatch := []
  rhsBatch := []
  wf := dot_S8x1024_S1024x8192_S8x8192_1_0_0_1_n_n_wf
def dot_S8x2048_S2048x8192_S8x8192_1_0_0_1_n_n : DotDims S8x2048 S2048x8192 S8x8192 where
  lhsContracting := [1]
  rhsContracting := [0]
  lhsNonContracting := [0]
  rhsNonContracting := [1]
  lhsBatch := []
  rhsBatch := []
  wf := dot_S8x2048_S2048x8192_S8x8192_1_0_0_1_n_n_wf
def dot_S4x1024_S1024x8192_S4x8192_1_0_0_1_n_n : DotDims S4x1024 S1024x8192 S4x8192 where
  lhsContracting := [1]
  rhsContracting := [0]
  lhsNonContracting := [0]
  rhsNonContracting := [1]
  lhsBatch := []
  rhsBatch := []
  wf := dot_S4x1024_S1024x8192_S4x8192_1_0_0_1_n_n_wf
def dot_S4x2048_S2048x8192_S4x8192_1_0_0_1_n_n : DotDims S4x2048 S2048x8192 S4x8192 where
  lhsContracting := [1]
  rhsContracting := [0]
  lhsNonContracting := [0]
  rhsNonContracting := [1]
  lhsBatch := []
  rhsBatch := []
  wf := dot_S4x2048_S2048x8192_S4x8192_1_0_0_1_n_n_wf
def dot_S2x1024_S1024x8192_S2x8192_1_0_0_1_n_n : DotDims S2x1024 S1024x8192 S2x8192 where
  lhsContracting := [1]
  rhsContracting := [0]
  lhsNonContracting := [0]
  rhsNonContracting := [1]
  lhsBatch := []
  rhsBatch := []
  wf := dot_S2x1024_S1024x8192_S2x8192_1_0_0_1_n_n_wf
def dot_S2x2048_S2048x8192_S2x8192_1_0_0_1_n_n : DotDims S2x2048 S2048x8192 S2x8192 where
  lhsContracting := [1]
  rhsContracting := [0]
  lhsNonContracting := [0]
  rhsNonContracting := [1]
  lhsBatch := []
  rhsBatch := []
  wf := dot_S2x2048_S2048x8192_S2x8192_1_0_0_1_n_n_wf
def dot_S1x1024_S1024x8192_S1x8192_1_0_0_1_n_n : DotDims S1x1024 S1024x8192 S1x8192 where
  lhsContracting := [1]
  rhsContracting := [0]
  lhsNonContracting := [0]
  rhsNonContracting := [1]
  lhsBatch := []
  rhsBatch := []
  wf := dot_S1x1024_S1024x8192_S1x8192_1_0_0_1_n_n_wf
def dot_S1x2048_S2048x8192_S1x8192_1_0_0_1_n_n : DotDims S1x2048 S2048x8192 S1x8192 where
  lhsContracting := [1]
  rhsContracting := [0]
  lhsNonContracting := [0]
  rhsNonContracting := [1]
  lhsBatch := []
  rhsBatch := []
  wf := dot_S1x2048_S2048x8192_S1x8192_1_0_0_1_n_n_wf

class Facts : Prop extends Facts₀ where

variable [Facts]
-- ==== Proof.KernelRun.lean ====
/-
  The kernel's run with its result named.

  The program is twelve pipelined regions among stretches of host operations. Its run leaves every unscoped buffer at
  the contents the last boundary of that chain of segments gives it; here that is said of the result buffer too, beside
  the five argument arrays, which end as launched.
-/
import proofs.«112656_j36661840839776_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at what the last host
    operation leaves in it and the argument arrays as launched. -/
theorem run_final : θ_run defs (onTc (τ := τ) (main (F := F))) ⟨m, fun _ => 0, ρ⟩ (fun r => ∀ c : Dev nD,
      r.2.mem ((c.tc : Thread nD τ).loc main_v53) = W25 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v53 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c)⟩)

end Cert.KernelIdeal.Gen

end
-- ==== Proof.LibTreeCell.lean ====
/-
  One level of a binary tree-LSTM over row-major matrices, at the extended reals.

  A level holds M nodes. Node i has an input row x(i, ·) of 1024 entries, the concatenated hidden rows of its two
  children hc(i, ·) and their concatenated cell rows cc(i, ·), 2048 entries each. With the transposed weights
  wt (1024 × 8192), ut (2048 × 8192) and the bias row bb (1 × 8192), the pre-activation of column j is

      gate(i, j) = (Σ_k x(i,k) · wt(k,j) + Σ_k hc(i,k) · ut(k,j)) + bb(0,j),

  the 8192 columns being four blocks of 2048: input, forget, cell and output gate. For q < 2048

      c(i, q) = σ(gate(i, 2048+q)) · cc(i, q) + σ(gate(i, q)) · tanh(gate(i, 4096+q))
      h(i, q) = σ(gate(i, 6144+q)) · tanh(c(i, q)),

  σ(z) = 1 / (1 + e^(-z)), and the level hands its parent the first 1024 columns of h and of c.
  Everything here depends on row i of x, hc and cc only: that is why a computation done on blocks of rows is the
  restriction of the computation done on all rows at once. This file reads both spellings of the level at an index —
  a matrix unit's product into a zero accumulator with a lane-wise logistic, and the host's dot_general with the
  logistic spelled as negate, exponential, add and divide — and finds the formulas above under each.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost
import Idealize.ShloMosaic.Lib.StackMember

noncomputable section

open scoped BigOperators

namespace Cert.TreeCell

open Idealize.ShloMosaic Idealize.ShloMosaic.ValueIdx

/-- The shape of an a × b matrix. -/
abbrev Sh (a b : Nat) : Shape := ⟨2, ![a, b]⟩

/-! ## The level's formulas, entry by entry -/

section Formulas
variable {M : Nat} (x : (Sh M 1024).Idx → EReal) (hc cc : (Sh M 2048).Idx → EReal)
  (wt : (Sh 1024 8192).Idx → EReal) (ut : (Sh 2048 8192).Idx → EReal) (bb : (Sh 1 8192).Idx → EReal)

/-- The pre-activation of column j at node i. -/
def gateAt (i : Fin M) (j : Fin 8192) : EReal :=
  ((∑ k : Fin 1024, x (ix2 i k) * wt (ix2 k j)) + (∑ k : Fin 2048, hc (ix2 i k) * ut (ix2 k j))) + bb (ix2 0 j)

/-- The new cell entry q of node i. -/
def cAt (i : Fin M) (q : Fin 2048) : EReal :=
  Ideal.logistic (gateAt x hc wt ut bb i ⟨2048 + q.val, by omega⟩) * cc (ix2 i q)
    + Ideal.logistic (gateAt x hc wt ut bb i ⟨0 + q.val, by omega⟩) * Ideal.tanh (gateAt x hc wt ut bb i ⟨4096 + q.val, by omega⟩)

/-- The new hidden entry q of node i. -/
def hAt (i : Fin M) (q : Fin 2048) : EReal :=
  Ideal.logistic (gateAt x hc wt ut bb i ⟨6144 + q.val, by omega⟩) * Ideal.tanh (cAt x hc cc wt ut bb i q)

/-- What the level hands upward as hidden state: the first 1024 columns of h, as an M × 1024 matrix. -/
def HArr : (Sh M 1024).Idx → EReal := fun y => hAt x hc cc wt ut bb (y 0) ⟨0 + (y 1).val, by have h : (y 1).val < 1024 := (y 1).isLt; omega⟩

/-- What the level hands upward as cell state: the first 1024 columns of c. -/
def CArr : (Sh M 1024).Idx → EReal := fun y => cAt x hc cc wt ut bb (y 0) ⟨0 + (y 1).val, by have h : (y 1).val < 1024 := (y 1).isLt; omega⟩

end Formulas

/-! ## Rows: the formulas at node i read row i only -/

section Rows
variable {M T : Nat} (x : (Sh M 1024).Idx → EReal) (hc cc : (Sh M 2048).Idx → EReal)
  (xb : (Sh T 1024).Idx → EReal) (hb cb : (Sh T 2048).Idx → EReal)
  (wt : (Sh 1024 8192).Idx → EReal) (ut : (Sh 2048 8192).Idx → EReal) (bb : (Sh 1 8192).Idx → EReal)

theorem gateAt_row (p : Fin T) (i : Fin M) (hx : ∀ k, xb (ix2 p k) = x (ix2 i k)) (hh : ∀ k, hb (ix2 p k) = hc (ix2 i k))
    (j : Fin 8192) : gateAt xb hb wt ut bb p j = gateAt x hc wt ut bb i j := by
  unfold gateAt
  simp only [hx, hh]

theorem cAt_row (p : Fin T) (i : Fin M) (hx : ∀ k, xb (ix2 p k) = x (ix2 i k)) (hh : ∀ k, hb (ix2 p k) = hc (ix2 i k))
    (hcc : ∀ k, cb (ix2 p k) = cc (ix2 i k)) (q : Fin 2048) :
    cAt xb hb cb wt ut bb p q = cAt x hc cc wt ut bb i q := by
  unfold cAt
  simp only [gateAt_row x hc xb hb wt ut bb p i hx hh, hcc]

theorem hAt_row (p : Fin T) (i : Fin M) (hx : ∀ k, xb (ix2 p k) = x (ix2 i k)) (hh : ∀ k, hb (ix2 p k) = hc (ix2 i k))
    (hcc : ∀ k, cb (ix2 p k) = cc (ix2 i k)) (q : Fin 2048) :
    hAt xb hb cb wt ut bb p q = hAt x hc cc wt ut bb i q := by
  unfold hAt
  simp only [gateAt_row x hc xb hb wt ut bb p i hx hh, cAt_row x hc cc xb hb cb wt ut bb p i hx hh hcc]

/-- A block of rows computed from blocks of rows of the inputs, the whole weights and the bias row, is that block of
    rows of the level's hidden matrix. -/
theorem HArr_block (wb : (Sh 1024 8192).Idx → EReal) (ub : (Sh 2048 8192).Idx → EReal) (bk : (Sh 1 8192).Idx → EReal)
    (p : Fin T) (i : Fin M) (q : Fin 1024) (hx : ∀ k, xb (ix2 p k) = x (ix2 i k)) (hh : ∀ k, hb (ix2 p k) = hc (ix2 i k))
    (hcc : ∀ k, cb (ix2 p k) = cc (ix2 i k)) (hw : wb = wt) (hu : ub = ut) (hbk : bk = bb) :
    HArr xb hb cb wb ub bk (ix2 p q) = HArr x hc cc wt ut bb (ix2 i q) := by
  subst hw hu hbk
  exact hAt_row x hc cc xb hb cb wb ub bk p i hx hh hcc _

/-- The same for the cell matrix. -/
theorem CArr_block (wb : (Sh 1024 8192).Idx → EReal) (ub : (Sh 2048 8192).Idx → EReal) (bk : (Sh 1 8192).Idx → EReal)
    (p : Fin T) (i : Fin M) (q : Fin 1024) (hx : ∀ k, xb (ix2 p k) = x (ix2 i k)) (hh : ∀ k, hb (ix2 p k) = hc (ix2 i k))
    (hcc : ∀ k, cb (ix2 p k) = cc (ix2 i k)) (hw : wb = wt) (hu : ub = ut) (hbk : bk = bb) :
    CArr xb hb cb wb ub bk (ix2 p q) = CArr x hc cc wt ut bb (ix2 i q) := by
  subst hw hu hbk
  exact cAt_row x hc cc xb hb cb wb ub bk p i hx hh hcc _

end Rows

/-! ## Single operations read at an entry -/

section Ops
variable {α : Type}

/-- A matrix product into the zero accumulator is the sum over the contracted coordinate. -/
theorem matmul_plain_zero_apply {M K N : Nat} {φ₁ φ₂ : FTy} (prec : Option ContractPrecision)
    (A : FVec Ideal (Sh M K) φ₁) (B : FVec Ideal (Sh K N) φ₂) (a : Fin M) (b : Fin N) :
    matmul (DotDims.plain M K N) prec A B (constant (Sh M N) .f32 0x00000000#32) (ix2 a b)
      = ∑ c : Fin K, A (ix2 a c) * B (ix2 c b) := by
  show FloatOps.matmul _ prec A B (constant (Sh M N) .f32 0x00000000#32) (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A block of B columns starting at column o. -/
theorem slice_cols_apply {M A B : Nat} (o : Nat) (v : (Sh M A).Idx → α) (h : (Sh M A).Slices ![0, o] (Sh M B))
    (p : Fin M) (q : Fin B) (hq : o + q.val < A) :
    extractStridedSlice (Sh M B) ![0, o] v h (ix2 p q) = v (ix2 p ⟨o + q.val, hq⟩) :=
  extractStridedSlice_apply _ v h _ _ fun a => by
    match a with
    | ⟨0, _⟩ => show p.val = 0 + p.val; omega
    | ⟨1, _⟩ => rfl

/-- A row repeated down M rows. -/
theorem broadcastTo_row_apply {M : Nat} (v : (Sh 1 8192).Idx → α) (h : (Sh 1 8192).Broadcasts (Sh M 8192))
    (p : Fin M) (j : Fin 8192) : broadcastTo (Sh M 8192) v h (ix2 p j) = v (ix2 0 j) :=
  broadcastTo_apply v h _ _ fun a => by
    match a with
    | ⟨0, _⟩ => rfl
    | ⟨1, _⟩ => rfl

/-- The host's spelling of the same. -/
theorem broadcastInDim_row_apply {M : Nat} (v : (Sh 1 8192).Idx → α) (h : (Sh 1 8192).BroadcastsInDim (Sh M 8192) ![0, 1])
    (p : Fin M) (j : Fin 8192) : broadcastInDim (Sh M 8192) ![0, 1] h v (ix2 p j) = v (ix2 0 j) :=
  broadcastInDim_apply _ h v _ _ fun a => by
    match a with
    | ⟨0, _⟩ => rfl
    | ⟨1, _⟩ => rfl

end Ops

/-! ## The matrix unit's spelling (blocks of T rows) -/

section Kernel
variable {T : Nat} (x0 : FVec Ideal (Sh T 1024) .bf16) (x1 x2 : FVec Ideal (Sh T 2048) .f32)
  (w : FVec Ideal (Sh 1024 8192) .bf16) (u : FVec Ideal (Sh 2048 8192) .bf16) (b : FVec Ideal (Sh 1 8192) .f32)

/-- The pre-activations of a block: two products into zero accumulators, added, plus the bias row. -/
theorem kGates_apply (h0 : (Sh T 1024).ShapeCasts (Sh T 1024)) (h1 : (Sh T 2048).ShapeCasts (Sh T 2048))
    (hw : (Sh 1024 8192).ShapeCasts (Sh 1024 8192)) (hu : (Sh 2048 8192).ShapeCasts (Sh 2048 8192))
    (hb : (Sh 1 8192).ShapeCasts (Sh 1 8192)) (hlt : FTy.bits .bf16 < FTy.bits .f32)
    (hbc : (Sh 1 8192).Broadcasts (Sh T 8192)) (p : Fin T) (j : Fin 8192) :
    addf (addf (matmul (DotDims.plain T 1024 8192) none (shapeCast (Sh T 1024) x0 h0) (shapeCast (Sh 1024 8192) w hw)
          (constant (Sh T 8192) .f32 0x00000000#32))
        (matmul (DotDims.plain T 2048 8192) none (truncf .bf16 (shapeCast (Sh T 2048) x1 h1) hlt) (shapeCast (Sh 2048 8192) u hu)
          (constant (Sh T 8192) .f32 0x00000000#32)))
      (broadcastTo (Sh T 8192) (shapeCast (Sh 1 8192) b hb) hbc) (ix2 p j)
    = gateAt x0 x1 w u b p j := by
  rw [shapeCast_self, shapeCast_self, shapeCast_self, shapeCast_self, shapeCast_self]
  show (matmul (DotDims.plain T 1024 8192) none x0 w (constant (Sh T 8192) .f32 0x00000000#32) (ix2 p j)
      + matmul (DotDims.plain T 2048 8192) none (truncf .bf16 x1 hlt) u (constant (Sh T 8192) .f32 0x00000000#32) (ix2 p j))
    + broadcastTo (Sh T 8192) b hbc (ix2 p j) = _
  rw [matmul_plain_zero_apply, matmul_plain_zero_apply, broadcastTo_row_apply]
  rfl

/-- A block of one row: the bias row is added as it is, with no broadcast. -/
theorem kGates_one_apply (y0 : FVec Ideal (Sh 1 1024) .bf16) (y1 : FVec Ideal (Sh 1 2048) .f32)
    (h0 : (Sh 1 1024).ShapeCasts (Sh 1 1024)) (h1 : (Sh 1 2048).ShapeCasts (Sh 1 2048))
    (hw : (Sh 1024 8192).ShapeCasts (Sh 1024 8192)) (hu : (Sh 2048 8192).ShapeCasts (Sh 2048 8192))
    (hb : (Sh 1 8192).ShapeCasts (Sh 1 8192)) (hlt : FTy.bits .bf16 < FTy.bits .f32) (p : Fin 1) (j : Fin 8192) :
    addf (addf (matmul (DotDims.plain 1 1024 8192) none (shapeCast (Sh 1 1024) y0 h0) (shapeCast (Sh 1024 8192) w hw)
          (constant (Sh 1 8192) .f32 0x00000000#32))
        (matmul (DotDims.plain 1 2048 8192) none (truncf .bf16 (shapeCast (Sh 1 2048) y1 h1) hlt) (shapeCast (Sh 2048 8192) u hu)
          (constant (Sh 1 8192) .f32 0x00000000#32)))
      (shapeCast (Sh 1 8192) b hb) (ix2 p j)
    = gateAt y0 y1 w u b p j := by
  rw [shapeCast_self, shapeCast_self, shapeCast_self, shapeCast_self, shapeCast_self]
  show (matmul (DotDims.plain 1 1024 8192) none y0 w (constant (Sh 1 8192) .f32 0x00000000#32) (ix2 p j)
      + matmul (DotDims.plain 1 2048 8192) none (truncf .bf16 y1 hlt) u (constant (Sh 1 8192) .f32 0x00000000#32) (ix2 p j))
    + b (ix2 p j) = _
  rw [matmul_plain_zero_apply, matmul_plain_zero_apply]
  have hp : p = 0 := Subsingleton.elim _ _
  subst hp
  rfl

/-- The same with no children: one product plus the bias row; the missing product is a sum of zeros. -/
theorem kLeafGates_apply (h0 : (Sh T 1024).ShapeCasts (Sh T 1024))
    (hw : (Sh 1024 8192).ShapeCasts (Sh 1024 8192)) (hb : (Sh 1 8192).ShapeCasts (Sh 1 8192))
    (hbc : (Sh 1 8192).Broadcasts (Sh T 8192)) (p : Fin T) (j : Fin 8192) :
    addf (matmul (DotDims.plain T 1024 8192) none (shapeCast (Sh T 1024) x0 h0) (shapeCast (Sh 1024 8192) w hw)
          (constant (Sh T 8192) .f32 0x00000000#32))
      (broadcastTo (Sh T 8192) (shapeCast (Sh 1 8192) b hb) hbc) (ix2 p j)
    = gateAt x0 (fun _ => 0) w u b p j := by
  rw [shapeCast_self, shapeCast_self, shapeCast_self]
  show matmul (DotDims.plain T 1024 8192) none x0 w (constant (Sh T 8192) .f32 0x00000000#32) (ix2 p j)
    + broadcastTo (Sh T 8192) b hbc (ix2 p j) = _
  rw [matmul_plain_zero_apply, broadcastTo_row_apply]
  unfold gateAt
  simp only [zero_mul, Finset.sum_const_zero, add_zero]

variable (G : FVec Ideal (Sh T 8192) .f32) (gate : Fin T → Fin 8192 → EReal) (hG : ∀ i j, G (ix2 i j) = gate i j)
include hG

/-- The new cell of a block, from its pre-activations and the children's cells. -/
theorem kC_apply (cprev : Fin T → Fin 2048 → EReal) (hx2 : ∀ i q, x2 (ix2 i q) = cprev i q)
    (s0 : (Sh T 8192).Slices ![0, 0] (Sh T 2048)) (s1 : (Sh T 8192).Slices ![0, 2048] (Sh T 2048))
    (s2 : (Sh T 8192).Slices ![0, 4096] (Sh T 2048)) (h1 : (Sh T 2048).ShapeCasts (Sh T 2048)) (p : Fin T) (q : Fin 2048) :
    addf (mulf (logistic (extractStridedSlice (Sh T 2048) ![0, 2048] G s1)) (shapeCast (Sh T 2048) x2 h1))
      (mulf (logistic (extractStridedSlice (Sh T 2048) ![0, 0] G s0)) (tanh (extractStridedSlice (Sh T 2048) ![0, 4096] G s2)))
      (ix2 p q)
    = Ideal.logistic (gate p ⟨2048 + q.val, by omega⟩) * cprev p q
      + Ideal.logistic (gate p ⟨0 + q.val, by omega⟩) * Ideal.tanh (gate p ⟨4096 + q.val, by omega⟩) := by
  rw [shapeCast_self]
  show Ideal.logistic (extractStridedSlice (Sh T 2048) ![0, 2048] G s1 (ix2 p q)) * x2 (ix2 p q)
    + Ideal.logistic (extractStridedSlice (Sh T 2048) ![0, 0] G s0 (ix2 p q))
      * Ideal.tanh (extractStridedSlice (Sh T 2048) ![0, 4096] G s2 (ix2 p q)) = _
  rw [slice_cols_apply 2048 G s1 p q (by omega), slice_cols_apply 0 G s0 p q (by omega),
    slice_cols_apply 4096 G s2 p q (by omega), hG, hG, hG, hx2]

/-- The new cell of a block of nodes with no children. -/
theorem kLeafC_apply (s0 : (Sh T 8192).Slices ![0, 0] (Sh T 2048)) (s2 : (Sh T 8192).Slices ![0, 4096] (Sh T 2048))
    (p : Fin T) (q : Fin 2048) :
    mulf (logistic (extractStridedSlice (Sh T 2048) ![0, 0] G s0)) (tanh (extractStridedSlice (Sh T 2048) ![0, 4096] G s2))
      (ix2 p q)
    = Ideal.logistic (gate p ⟨2048 + q.val, by omega⟩) * 0
      + Ideal.logistic (gate p ⟨0 + q.val, by omega⟩) * Ideal.tanh (gate p ⟨4096 + q.val, by omega⟩) := by
  show Ideal.logistic (extractStridedSlice (Sh T 2048) ![0, 0] G s0 (ix2 p q))
      * Ideal.tanh (extractStridedSlice (Sh T 2048) ![0, 4096] G s2 (ix2 p q)) = _
  rw [slice_cols_apply 0 G s0 p q (by omega), slice_cols_apply 4096 G s2 p q (by omega), hG, hG, mul_zero]
  exact (zero_add _).symm

/-- The hidden state a block hands upward: the first 1024 columns of σ(output gate) · tanh(cell). -/
theorem kH_apply (C : FVec Ideal (Sh T 2048) .f32) (cnew : Fin T → Fin 2048 → EReal) (hC : ∀ i q, C (ix2 i q) = cnew i q)
    (s3 : (Sh T 8192).Slices ![0, 6144] (Sh T 2048)) (so : (Sh T 2048).Slices ![0, 0] (Sh T 1024)) (p : Fin T) (q : Fin 1024) :
    extractStridedSlice (Sh T 1024) ![0, 0] (mulf (logistic (extractStridedSlice (Sh T 2048) ![0, 6144] G s3)) (tanh C)) so (ix2 p q)
    = Ideal.logistic (gate p ⟨6144 + (0 + q.val), by omega⟩) * Ideal.tanh (cnew p ⟨0 + q.val, by omega⟩) := by
  rw [slice_cols_apply 0 _ so p q (by omega)]
  show Ideal.logistic (extractStridedSlice (Sh T 2048) ![0, 6144] G s3 (ix2 p ⟨0 + q.val, by omega⟩))
      * Ideal.tanh (C (ix2 p ⟨0 + q.val, by omega⟩)) = _
  rw [slice_cols_apply 6144 G s3 p _ (by show 6144 + (0 + q.val) < 8192; omega), hG, hC]

omit hG in
/-- The cell state a block hands upward: the first 1024 columns of the cell. -/
theorem kCout_apply (C : FVec Ideal (Sh T 2048) .f32) (cnew : Fin T → Fin 2048 → EReal) (hC : ∀ i q, C (ix2 i q) = cnew i q)
    (so : (Sh T 2048).Slices ![0, 0] (Sh T 1024)) (p : Fin T) (q : Fin 1024) :
    extractStridedSlice (Sh T 1024) ![0, 0] C so (ix2 p q) = cnew p ⟨0 + q.val, by omega⟩ := by
  rw [slice_cols_apply 0 _ so p q (by omega), hC]

end Kernel

end Cert.TreeCell

end
-- ==== Proof.Level0.lean ====
/-
  Region 0 of the kernel: the tree level of 2048 nodes whose children are leaves, computed 512 rows at a time.

  The children's states are zero, so the kernel leaves out the product with the second weight matrix and the forget
  gate's term: a sum of zeros and a product with zero. A grid point t works on rows 512·t … 512·t + 511; what it writes
  back is its block of rows of the level's matrices HArr and CArr of the whole inputs with zero children, whatever the
  second weight matrix is; the blocks tile the rows.
-/
import proofs.«112656_j36661840839776_1_alg».proof.Proof.Gen.KernelIdeal.Frame
import proofs.«112656_j36661840839776_1_alg».proof.Proof.LibTreeCell

set_option maxRecDepth 16384

noncomputable section

namespace Cert.KernelIdeal.Level0

open Cert.KernelIdeal Cert.KernelIdeal.Gen Idealize.ShloMosaic Idealize.ShloMosaic.TcCoe Idealize.ShloMosaic.ValueIdx
open Idealize.SL.Sem Cert.TreeCell
open Idealize.ShloMosaic.Pipeline (Dat Cfg Window)

/-! ## The body's values at an entry of a block -/

section Payloads
variable (x0 : Vec Ideal S512x1024 .bf16) (w : Vec Ideal S1024x8192 .bf16) (u : (Sh 2048 8192).Idx → EReal)
  (b : Vec Ideal S1x8192 .f32)

theorem gates_apply (p : Fin 512) (j : Fin 8192) :
    k0_pay1 (F := Ideal) x0 w b (ix2 p j) = gateAt x0 (fun _ => 0) w u b p j :=
  kLeafGates_apply (T := 512) x0 w u b _ _ _ _ p j

theorem cell_apply (p : Fin 512) (q : Fin 2048) :
    k0_pay2 (F := Ideal) x0 w b (ix2 p q) = cAt x0 (fun _ => 0) (fun _ => 0) w u b p q :=
  kLeafC_apply (T := 512) (k0_pay1 (F := Ideal) x0 w b) (gateAt x0 (fun _ => 0) w u b) (gates_apply x0 w u b) _ _ p q

theorem hout_apply (p : Fin 512) (q : Fin 1024) :
    k0_pay3 (F := Ideal) x0 w b (ix2 p q) = HArr x0 (fun _ => 0) (fun _ => 0) w u b (ix2 p q) :=
  kH_apply (T := 512) (k0_pay1 (F := Ideal) x0 w b) (gateAt x0 (fun _ => 0) w u b) (gates_apply x0 w u b)
    (k0_pay2 (F := Ideal) x0 w b) (cAt x0 (fun _ => 0) (fun _ => 0) w u b) (cell_apply x0 w u b) _ (by decide) p q

theorem cout_apply (p : Fin 512) (q : Fin 1024) :
    k0_pay4 (F := Ideal) x0 w b (ix2 p q) = CArr x0 (fun _ => 0) (fun _ => 0) w u b (ix2 p q) :=
  kCout_apply (T := 512) (k0_pay2 (F := Ideal) x0 w b) (cAt x0 (fun _ => 0) (fun _ => 0) w u b) (cell_apply x0 w u b) (by decide) p q

end Payloads

/-! ## From blocks to the arrays -/

section Blocks
variable (V : (c : Dev nD) → (b : Ref sig .tc) → Buf (Elt Ideal) ((c : Thread nD τ).loc b)) (U : (Sh 2048 8192).Idx → EReal)

omit V U in
theorem hz : (![0, 0] : Fin 2 → Nat) = fun _ => 0 := funext fun a => by fin_cases a <;> rfl

omit V U in
/-- The index maps over the grid: the row-blocked windows sit at block row t, the weights and the bias at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

omit U in
theorem rows_x (c : Dev nD) (t : Fin cfg0.N) (ht : t.val < 4) (p : Fin 512) (k : Fin 1024) :
    iblk0 V c 0 t (ix2 p k) = V c main_v7 (ix2 ⟨t.val * 512 + p.val, by omega⟩ k) := by
  obtain ⟨e00, e01, e10, e11, e20, e21, e30, e31, e40, e41⟩ := idx_facts t
  show V c main_v7 (((cfg0.win 0).blk t).view.emb (ix2 p k)) = _
  refine congrArg (V c main_v7) (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * k.val = k.val; omega

omit U in
theorem whole_w (c : Dev nD) (t : Fin cfg0.N) : iblk0 V c 1 t = V c main_v1 := by
  obtain ⟨e00, e01, e10, e11, e20, e21, e30, e31, e40, e41⟩ := idx_facts t
  funext y
  show V c main_v1 (((cfg0.win 1).blk t).view.emb y) = V c main_v1 y
  refine congrArg (V c main_v1) (funext fun a => Fin.ext ?_)
  match a with
  | ⟨0, _⟩ => show win0_1.index t (0 : Fin 2) * 1024 + 1 * (y 0).val = (y 0).val; omega
  | ⟨1, _⟩ => show win0_1.index t (1 : Fin 2) * 8192 + 1 * (y 1).val = (y 1).val; omega

omit U in
theorem whole_b (c : Dev nD) (t : Fin cfg0.N) : iblk0 V c 2 t = V c main_v5 := by
  obtain ⟨e00, e01, e10, e11, e20, e21, e30, e31, e40, e41⟩ := idx_facts t
  funext y
  show V c main_v5 (((cfg0.win 2).blk t).view.emb y) = V c main_v5 y
  refine congrArg (V c main_v5) (funext fun a => Fin.ext ?_)
  match a with
  | ⟨0, _⟩ => show win0_2.index t (0 : Fin 2) * 1 + 1 * (y 0).val = (y 0).val; omega
  | ⟨1, _⟩ => show win0_2.index t (1 : Fin 2) * 8192 + 1 * (y 1).val = (y 1).val; omega

/-- What point t writes back through window 3 is its block of rows of HArr of the whole arrays. -/
theorem flushedH (c : Dev nD) (t : Fin cfg0.N) :
    (dat0 V c).flushed 3 t = ((cfg0.win 3).blk t).view.read (Elt Ideal)
      (HArr (V c main_v7) (fun _ => 0) (fun _ => 0) (V c main_v1) U (V c main_v5)) := by
  show (cfg0.win 3).cut (grid0.coords t) ((dat0 V c).after 3 t) = _
  rw [after0_3]
  unfold out0_3
  rw [View.canon_unit_zero hz]
  simp only [View.ld_unit_zero (S := S512x1024) hz, View.ld_unit_zero (S := S1024x8192) hz, View.ld_unit_zero (S := S1x8192) hz]
  have ht : t.val < 4 := lt_of_lt_of_eq t.isLt N_0
  obtain ⟨e00, e01, e10, e11, e20, e21, e30, e31, e40, e41⟩ := idx_facts t
  funext y
  obtain ⟨p, q, rfl⟩ : ∃ (p : Fin 512) (q : Fin 1024), y = ix2 p q := ⟨y 0, y 1, eq_ix2 y⟩
  show k0_pay3 (iblk0 V c 0 t) (iblk0 V c 1 t) (iblk0 V c 2 t) (ix2 p q)
    = HArr (V c main_v7) (fun _ => 0) (fun _ => 0) (V c main_v1) U (V c main_v5) (((cfg0.win 3).blk t).view.emb (ix2 p q))
  have hi : ((cfg0.win 3).blk t).view.emb (ix2 p q) = ix2 ⟨t.val * 512 + p.val, by omega⟩ q := by
    funext a; apply Fin.ext
    match a with
    | ⟨0, _⟩ => show win0_3.index t (0 : Fin 2) * 512 + 1 * p.val = t.val * 512 + p.val; omega
    | ⟨1, _⟩ => show win0_3.index t (1 : Fin 2) * 1024 + 1 * q.val = q.val; omega
  rw [hi, hout_apply (u := U)]
  exact HArr_block (V c main_v7) (fun _ => 0) (fun _ => 0) (iblk0 V c 0 t) (fun _ => 0) (fun _ => 0)
    (V c main_v1) U (V c main_v5) (iblk0 V c 1 t) U (iblk0 V c 2 t) p ⟨t.val * 512 + p.val, by omega⟩ q
    (rows_x V c t ht p) (fun _ => rfl) (fun _ => rfl) (whole_w V c t) rfl (whole_b V c t)

/-- What point t writes back through window 4 is its block of rows of CArr of the whole arrays. -/
theorem flushedC (c : Dev nD) (t : Fin cfg0.N) :
    (dat0 V c).flushed 4 t = ((cfg0.win 4).blk t).view.read (Elt Ideal)
      (CArr (V c main_v7) (fun _ => 0) (fun _ => 0) (V c main_v1) U (V c main_v5)) := by
  show (cfg0.win 4).cut (grid0.coords t) ((dat0 V c).after 4 t) = _
  rw [after0_4]
  unfold out0_4
  rw [View.canon_unit_zero hz]
  simp only [View.ld_unit_zero (S := S512x1024) hz, View.ld_unit_zero (S := S1024x8192) hz, View.ld_unit_zero (S := S1x8192) hz]
  have ht : t.val < 4 := lt_of_lt_of_eq t.isLt N_0
  obtain ⟨e00, e01, e10, e11, e20, e21, e30, e31, e40, e41⟩ := idx_facts t
  funext y
  obtain ⟨p, q, rfl⟩ : ∃ (p : Fin 512) (q : Fin 1024), y = ix2 p q := ⟨y 0, y 1, eq_ix2 y⟩
  show k0_pay4 (iblk0 V c 0 t) (iblk0 V c 1 t) (iblk0 V c 2 t) (ix2 p q)
    = CArr (V c main_v7) (fun _ => 0) (fun _ => 0) (V c main_v1) U (V c main_v5) (((cfg0.win 4).blk t).view.emb (ix2 p q))
  have hi : ((cfg0.win 4).blk t).view.emb (ix2 p q) = ix2 ⟨t.val * 512 + p.val, by omega⟩ q := by
    funext a; apply Fin.ext
    match a with
    | ⟨0, _⟩ => show win0_4.index t (0 : Fin 2) * 512 + 1 * p.val = t.val * 512 + p.val; omega
    | ⟨1, _⟩ => show win0_4.index t (1 : Fin 2) * 1024 + 1 * q.val = q.val; omega
  rw [hi, cout_apply (u := U)]
  exact CArr_block (V c main_v7) (fun _ => 0) (fun _ => 0) (iblk0 V c 0 t) (fun _ => 0) (fun _ => 0)
    (V c main_v1) U (V c main_v5) (iblk0 V c 1 t) U (iblk0 V c 2 t) p ⟨t.val * 512 + p.val, by omega⟩ q
    (rows_x V c t ht p) (fun _ => rfl) (fun _ => rfl) (whole_w V c t) rfl (whole_b V c t)

omit V U in
/-- Every row of the level is in some point's block: row r in the block of point r / 512. -/
theorem coverH (i : S2048x1024.Idx) : ∃ t : Fin cfg0.N, (cfg0.win 3).flush t = true ∧ i ∈ ((cfg0.win 3).blk t).view.set := by
  have hi0 : (i 0).val < 2048 := (i 0).isLt
  have hi1 : (i 1).val < 1024 := (i 1).isLt
  let t : Fin cfg0.N := ⟨(i 0).val / 512, by rw [show cfg0.N = 4 from N_0]; omega⟩
  obtain ⟨e00, e01, e10, e11, e20, e21, e30, e31, e40, e41⟩ := idx_facts t
  have tv : t.val = (i 0).val / 512 := rfl
  refine ⟨t, flush0_3 t, ?_⟩
  show i ∈ ((View.whole main_v8_0).slice (win0_3.rect t)).set
  rw [View.set_slice_whole, Rect.mem_set_unit]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

omit V U in
/-- Every row of the level is in some point's block: row r in the block of point r / 512. -/
theorem coverC (i : S2048x1024.Idx) : ∃ t : Fin cfg0.N, (cfg0.win 4).flush t = true ∧ i ∈ ((cfg0.win 4).blk t).view.set := by
  have hi0 : (i 0).val < 2048 := (i 0).isLt
  have hi1 : (i 1).val < 1024 := (i 1).isLt
  let t : Fin cfg0.N := ⟨(i 0).val / 512, by rw [show cfg0.N = 4 from N_0]; omega⟩
  obtain ⟨e00, e01, e10, e11, e20, e21, e30, e31, e40, e41⟩ := idx_facts t
  have tv : t.val = (i 0).val / 512 := rfl
  refine ⟨t, flush0_4 t, ?_⟩
  show i ∈ ((View.whole main_v8_1).slice (win0_4.rect t)).set
  rw [View.set_slice_whole, Rect.mem_set_unit]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The hidden-state array after the region. -/
theorem finalH (c : Dev nD) : (dat0 V c).arrAt 3 cfg0.N
    = HArr (V c main_v7) (fun _ => 0) (fun _ => 0) (V c main_v1) U (V c main_v5) :=
  (dat0 V c).arrAt_eq_of_cover 3 _ (fun t _ => flushedH V U c t) coverH

/-- The cell-state array after the region. -/
theorem finalC (c : Dev nD) : (dat0 V c).arrAt 4 cfg0.N
    = CArr (V c main_v7) (fun _ => 0) (fun _ => 0) (V c main_v1) U (V c main_v5) :=
  (dat0 V c).arrAt_eq_of_cover 4 _ (fun t _ => flushedC V U c t) coverC

end Blocks

end Cert.KernelIdeal.Level0

end
-- ==== Proof.Level1.lean ====
/-
  Region 1 of the kernel: the tree level of 1024 nodes, computed 64 rows at a time.

  A grid point t works on rows 64·t … 64·t + 63 of the level: it reads those rows of the inputs and of the children's
  states, the whole weight matrices and the bias row, and writes those rows of the two results. Since an entry of the
  level's results depends on its own row only (LibTreeCell), what the point writes back is its block of rows of the
  level's matrices HArr and CArr of the WHOLE inputs; the blocks tile the rows, so the two result arrays end as HArr and CArr.
-/
import proofs.«112656_j36661840839776_1_alg».proof.Proof.Gen.KernelIdeal.Frame
import proofs.«112656_j36661840839776_1_alg».proof.Proof.LibTreeCell

set_option maxRecDepth 16384

noncomputable section

namespace Cert.KernelIdeal.Level1

open Cert.KernelIdeal Cert.KernelIdeal.Gen Idealize.ShloMosaic Idealize.ShloMosaic.TcCoe Idealize.ShloMosaic.ValueIdx
open Idealize.SL.Sem Cert.TreeCell
open Idealize.ShloMosaic.Pipeline (Dat Cfg Window)

/-! ## The body's values at an entry of a block -/

section Payloads
variable (x0 : Vec Ideal S64x1024 .bf16) (x1 x2 : Vec Ideal S64x2048 .f32) (w : Vec Ideal S1024x8192 .bf16)
  (u : Vec Ideal S2048x8192 .bf16) (b : Vec Ideal S1x8192 .f32)

theorem gates_apply (p : Fin 64) (j : Fin 8192) : k1_pay1 (F := Ideal) x0 x1 w u b (ix2 p j) = gateAt x0 x1 w u b p j :=
  kGates_apply (T := 64) x0 x1 w u b _ _ _ _ _ _ _ p j

theorem cell_apply (p : Fin 64) (q : Fin 2048) : k1_pay2 (F := Ideal) x0 x1 w u b x2 (ix2 p q) = cAt x0 x1 x2 w u b p q :=
  kC_apply (T := 64) x2 (k1_pay1 (F := Ideal) x0 x1 w u b) (gateAt x0 x1 w u b) (gates_apply x0 x1 w u b) (fun i q => x2 (ix2 i q))
    (fun _ _ => rfl) _ _ _ _ p q

theorem hout_apply (p : Fin 64) (q : Fin 1024) :
    k1_pay3 (F := Ideal) x0 x1 w u b x2 (ix2 p q) = HArr x0 x1 x2 w u b (ix2 p q) :=
  kH_apply (T := 64) (k1_pay1 (F := Ideal) x0 x1 w u b) (gateAt x0 x1 w u b) (gates_apply x0 x1 w u b)
    (k1_pay2 (F := Ideal) x0 x1 w u b x2) (cAt x0 x1 x2 w u b) (cell_apply x0 x1 x2 w u b) _ (by decide) p q

theorem cout_apply (p : Fin 64) (q : Fin 1024) :
    k1_pay4 (F := Ideal) x0 x1 w u b x2 (ix2 p q) = CArr x0 x1 x2 w u b (ix2 p q) :=
  kCout_apply (T := 64) (k1_pay2 (F := Ideal) x0 x1 w u b x2) (cAt x0 x1 x2 w u b) (cell_apply x0 x1 x2 w u b) (by decide) p q

end Payloads

/-! ## From blocks to the arrays -/

section Blocks
variable (V : (c : Dev nD) → (b : Ref sig .tc) → Buf (Elt Ideal) ((c : Thread nD τ).loc b))

omit V in
theorem hz : (![0, 0] : Fin 2 → Nat) = fun _ => 0 := funext fun a => by fin_cases a <;> rfl

omit V in
/-- The index maps over the grid: the row-blocked windows sit at block row t, the weights and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem rows_x (c : Dev nD) (t : Fin cfg1.N) (ht : t.val < 16) (p : Fin 64) (k : Fin 1024) :
    iblk1 V c 0 t (ix2 p k) = V c main_v9 (ix2 ⟨t.val * 64 + p.val, by omega⟩ k) := by
  obtain ⟨e00, e01, e10, e11, e20, e21, e30, e31, e40, e41, e50, e51, e60, e61, e70, e71⟩ := idx_facts t
  show V c main_v9 (((cfg1.win 0).blk t).view.emb (ix2 p k)) = _
  refine congrArg (V c main_v9) (funext fun a => Fin.ext ?_)
  match a with
  | ⟨0, _⟩ => show win1_0.index t (0 : Fin 2) * 64 + 1 * p.val = t.val * 64 + p.val; omega
  | ⟨1, _⟩ => show win1_0.index t (1 : Fin 2) * 1024 + 1 * k.val = k.val; omega

theorem rows_h (c : Dev nD) (t : Fin cfg1.N) (ht : t.val < 16) (p : Fin 64) (k : Fin 2048) :
    iblk1 V c 1 t (ix2 p k) = V c main_v10 (ix2 ⟨t.val * 64 + p.val, by omega⟩ k) := by
  obtain ⟨e00, e01, e10, e11, e20, e21, e30, e31, e40, e41, e50, e51, e60, e61, e70, e71⟩ := idx_facts t
  show V c main_v10 (((cfg1.win 1).blk t).view.emb (ix2 p k)) = _
  refine congrArg (V c main_v10) (funext fun a => Fin.ext ?_)
  match a with
  | ⟨0, _⟩ => show win1_1.index t (0 : Fin 2) * 64 + 1 * p.val = t.val * 64 + p.val; omega
  | ⟨1, _⟩ => show win1_1.index t (1 : Fin 2) * 2048 + 1 * k.val = k.val; omega

theorem rows_c (c : Dev nD) (t : Fin cfg1.N) (ht : t.val < 16) (p : Fin 64) (k : Fin 2048) :
    iblk1 V c 2 t (ix2 p k) = V c main_v11 (ix2 ⟨t.val * 64 + p.val, by omega⟩ k) := by
  obtain ⟨e00, e01, e10, e11, e20, e21, e30, e31, e40, e41, e50, e51, e60, e61, e70, e71⟩ := idx_facts t
  show V c main_v11 (((cfg1.win 2).blk t).view.emb (ix2 p k)) = _
  refine congrArg (V c main_v11) (funext fun a => Fin.ext ?_)
  match a with
  | ⟨0, _⟩ => show win1_2.index t (0 : Fin 2) * 64 + 1 * p.val = t.val * 64 + p.val; omega
  | ⟨1, _⟩ => show win1_2.index t (1 : Fin 2) * 2048 + 1 * k.val = k.val; omega

theorem whole_w (c : Dev nD) (t : Fin cfg1.N) : iblk1 V c 3 t = V c main_v1 := by
  obtain ⟨e00, e01, e10, e11, e20, e21, e30, e31, e40, e41, e50, e51, e60, e61, e70, e71⟩ := idx_facts t
  funext y
  show V c main_v1 (((cfg1.win 3).blk t).view.emb y) = V c main_v1 y
  refine congrArg (V c main_v1) (funext fun a => Fin.ext ?_)
  match a with
  | ⟨0, _⟩ => show win1_3.index t (0 : Fin 2) * 1024 + 1 * (y 0).val = (y 0).val; omega
  | ⟨1, _⟩ => show win1_3.index t (1 : Fin 2) * 8192 + 1 * (y 1).val = (y 1).val; omega

theorem whole_u (c : Dev nD) (t : Fin cfg1.N) : iblk1 V c 4 t = V c main_v3 := by
  obtain ⟨e00, e01, e10, e11, e20, e21, e30, e31, e40, e41, e50, e51, e60, e61, e70, e71⟩ := idx_facts t
  funext y
  show V c main_v3 (((cfg1.win 4).blk t).view.emb y) = V c main_v3 y
  refine congrArg (V c main_v3) (funext fun a => Fin.ext ?_)
  match a with
  | ⟨0, _⟩ => show win1_4.index t (0 : Fin 2) * 2048 + 1 * (y 0).val = (y 0).val; omega
  | ⟨1, _⟩ => show win1_4.index t (1 : Fin 2) * 8192 + 1 * (y 1).val = (y 1).val; omega

theorem whole_b (c : Dev nD) (t : Fin cfg1.N) : iblk1 V c 5 t = V c main_v5 := by
  obtain ⟨e00, e01, e10, e11, e20, e21, e30, e31, e40, e41, e50, e51, e60, e61, e70, e71⟩ := idx_facts t
  funext y
  show V c main_v5 (((cfg1.win 5).blk t).view.emb y) = V c main_v5 y
  refine congrArg (V c main_v5) (funext fun a => Fin.ext ?_)
  match a with
  | ⟨0, _⟩ => show win1_5.index t (0 : Fin 2) * 1 + 1 * (y 0).val = (y 0).val; omega
  | ⟨1, _⟩ => show win1_5.index t (1 : Fin 2) * 8192 + 1 * (y 1).val = (y 1).val; omega

/-- What point t writes back through window 6 is its block of rows of HArr of the whole arrays. -/
theorem flushedH (c : Dev nD) (t : Fin cfg1.N) :
    (dat1 V c).flushed 6 t = ((cfg1.win 6).blk t).view.read (Elt Ideal)
      (HArr (V c main_v9) (V c main_v10) (V c main_v11) (V c main_v1) (V c main_v3) (V c main_v5)) := by
  show (cfg1.win 6).cut (grid1.coords t) ((dat1 V c).after 6 t) = _
  rw [after1_6]
  unfold out1_6
  rw [View.canon_unit_zero hz]
  simp only [View.ld_unit_zero (S := S64x1024) hz, View.ld_unit_zero (S := S64x2048) hz,
    View.ld_unit_zero (S := S1024x8192) hz, View.ld_unit_zero (S := S2048x8192) hz, View.ld_unit_zero (S := S1x8192) hz]
  have ht : t.val < 16 := lt_of_lt_of_eq t.isLt N_1
  obtain ⟨e00, e01, e10, e11, e20, e21, e30, e31, e40, e41, e50, e51, e60, e61, e70, e71⟩ := idx_facts t
  funext y
  obtain ⟨p, q, rfl⟩ : ∃ (p : Fin 64) (q : Fin 1024), y = ix2 p q := ⟨y 0, y 1, eq_ix2 y⟩
  show k1_pay3 (iblk1 V c 0 t) (iblk1 V c 1 t) (iblk1 V c 3 t) (iblk1 V c 4 t) (iblk1 V c 5 t) (iblk1 V c 2 t) (ix2 p q)
    = HArr (V c main_v9) (V c main_v10) (V c main_v11) (V c main_v1) (V c main_v3) (V c main_v5)
        (((cfg1.win 6).blk t).view.emb (ix2 p q))
  have hi : ((cfg1.win 6).blk t).view.emb (ix2 p q) = ix2 ⟨t.val * 64 + p.val, by omega⟩ q := by
    funext a; apply Fin.ext
    match a with
    | ⟨0, _⟩ => show win1_6.index t (0 : Fin 2) * 64 + 1 * p.val = t.val * 64 + p.val; omega
    | ⟨1, _⟩ => show win1_6.index t (1 : Fin 2) * 1024 + 1 * q.val = q.val; omega
  rw [hi, hout_apply]
  exact HArr_block (V c main_v9) (V c main_v10) (V c main_v11) (iblk1 V c 0 t) (iblk1 V c 1 t) (iblk1 V c 2 t)
    (V c main_v1) (V c main_v3) (V c main_v5) (iblk1 V c 3 t) (iblk1 V c 4 t) (iblk1 V c 5 t) p ⟨t.val * 64 + p.val, by omega⟩ q
    (rows_x V c t ht p) (rows_h V c t ht p) (rows_c V c t ht p) (whole_w V c t) (whole_u V c t) (whole_b V c t)

/-- What point t writes back through window 7 is its block of rows of CArr of the whole arrays. -/
theorem flushedC (c : Dev nD) (t : Fin cfg1.N) :
    (dat1 V c).flushed 7 t = ((cfg1.win 7).blk t).view.read (Elt Ideal)
      (CArr (V c main_v9) (V c main_v10) (V c main_v11) (V c main_v1) (V c main_v3) (V c main_v5)) := by
  show (cfg1.win 7).cut (grid1.coords t) ((dat1 V c).after 7 t) = _
  rw [after1_7]
  unfold out1_7
  rw [View.canon_unit_zero hz]
  simp only [View.ld_unit_zero (S := S64x1024) hz, View.ld_unit_zero (S := S64x2048) hz,
    View.ld_unit_zero (S := S1024x8192) hz, View.ld_unit_zero (S := S2048x8192) hz, View.ld_unit_zero (S := S1x8192) hz]
  have ht : t.val < 16 := lt_of_lt_of_eq t.isLt N_1
  obtain ⟨e00, e01, e10, e11, e20, e21, e30, e31, e40, e41, e50, e51, e60, e61, e70, e71⟩ := idx_facts t
  funext y
  obtain ⟨p, q, rfl⟩ : ∃ (p : Fin 64) (q : Fin 1024), y = ix2 p q := ⟨y 0, y 1, eq_ix2 y⟩
  show k1_pay4 (iblk1 V c 0 t) (iblk1 V c 1 t) (iblk1 V c 3 t) (iblk1 V c 4 t) (iblk1 V c 5 t) (iblk1 V c 2 t) (ix2 p q)
    = CArr (V c main_v9) (V c main_v10) (V c main_v11) (V c main_v1) (V c main_v3) (V c main_v5)
        (((cfg1.win 7).blk t).view.emb (ix2 p q))
  have hi : ((cfg1.win 7).blk t).view.emb (ix2 p q) = ix2 ⟨t.val * 64 + p.val, by omega⟩ q := by
    funext a; apply Fin.ext
    match a with
    | ⟨0, _⟩ => show win1_7.index t (0 : Fin 2) * 64 + 1 * p.val = t.val * 64 + p.val; omega
    | ⟨1, _⟩ => show win1_7.index t (1 : Fin 2) * 1024 + 1 * q.val = q.val; omega
  rw [hi, cout_apply]
  exact CArr_block (V c main_v9) (V c main_v10) (V c main_v11) (iblk1 V c 0 t) (iblk1 V c 1 t) (iblk1 V c 2 t)
    (V c main_v1) (V c main_v3) (V c main_v5) (iblk1 V c 3 t) (iblk1 V c 4 t) (iblk1 V c 5 t) p ⟨t.val * 64 + p.val, by omega⟩ q
    (rows_x V c t ht p) (rows_h V c t ht p) (rows_c V c t ht p) (whole_w V c t) (whole_u V c t) (whole_b V c t)

/-- Every row of the level is in some point's block: row r in the block of point r / 64. -/
theorem coverH (i : S1024x1024.Idx) : ∃ t : Fin cfg1.N, (cfg1.win 6).flush t = true ∧ i ∈ ((cfg1.win 6).blk t).view.set := by
  have hi0 : (i 0).val < 1024 := (i 0).isLt
  have hi1 : (i 1).val < 1024 := (i 1).isLt
  let t : Fin cfg1.N := ⟨(i 0).val / 64, by rw [show cfg1.N = 16 from N_1]; omega⟩
  obtain ⟨e00, e01, e10, e11, e20, e21, e30, e31, e40, e41, e50, e51, e60, e61, e70, e71⟩ := idx_facts t
  have tv : t.val = (i 0).val / 64 := rfl
  refine ⟨t, flush1_6 t, ?_⟩
  show i ∈ ((View.whole main_v12_0).slice (win1_6.rect t)).set
  rw [View.set_slice_whole, Rect.mem_set_unit]
  intro a
  match a with
  | ⟨0, _⟩ => show win1_6.index t (0 : Fin 2) * 64 ≤ (i 0).val ∧ (i 0).val < win1_6.index t (0 : Fin 2) * 64 + 64; omega
  | ⟨1, _⟩ => show win1_6.index t (1 : Fin 2) * 1024 ≤ (i 1).val ∧ (i 1).val < win1_6.index t (1 : Fin 2) * 1024 + 1024; omega

/-- Every row of the level is in some point's block: row r in the block of point r / 64. -/
theorem coverC (i : S1024x1024.Idx) : ∃ t : Fin cfg1.N, (cfg1.win 7).flush t = true ∧ i ∈ ((cfg1.win 7).blk t).view.set := by
  have hi0 : (i 0).val < 1024 := (i 0).isLt
  have hi1 : (i 1).val < 1024 := (i 1).isLt
  let t : Fin cfg1.N := ⟨(i 0).val / 64, by rw [show cfg1.N = 16 from N_1]; omega⟩
  obtain ⟨e00, e01, e10, e11, e20, e21, e30, e31, e40, e41, e50, e51, e60, e61, e70, e71⟩ := idx_facts t
  have tv : t.val = (i 0).val / 64 := rfl
  refine ⟨t, flush1_7 t, ?_⟩
  show i ∈ ((View.whole main_v12_1).slice (win1_7.rect t)).set
  rw [View.set_slice_whole, Rect.mem_set_unit]
  intro a
  match a with
  | ⟨0, _⟩ => show win1_7.index t (0 : Fin 2) * 64 ≤ (i 0).val ∧ (i 0).val < win1_7.index t (0 : Fin 2) * 64 + 64; omega
  | ⟨1, _⟩ => show win1_7.index t (1 : Fin 2) * 1024 ≤ (i 1).val ∧ (i 1).val < win1_7.index t (1 : Fin 2) * 1024 + 1024; omega

/-- The hidden-state array after the region. -/
theorem finalH (c : Dev nD) : (dat1 V c).arrAt 6 cfg1.N
    = HArr (V c main_v9) (V c main_v10) (V c main_v11) (V c main_v1) (V c main_v3) (V c main_v5) :=
  (dat1 V c).arrAt_eq_of_cover 6 _ (fun t _ => flushedH V c t) coverH

/-- The cell-state array after the region. -/
theorem finalC (c : Dev nD) : (dat1 V c).arrAt 7 cfg1.N
    = CArr (V c main_v9) (V c main_v10) (V c main_v11) (V c main_v1) (V c main_v3) (V c main_v5) :=
  (dat1 V c).arrAt_eq_of_cover 7 _ (fun t _ => flushedC V c t) coverC

end Blocks

end Cert.KernelIdeal.Level1

end
-- ==== Proof.Level2.lean ====
/-
  Region 2 of the kernel: the tree level of 512 nodes, computed 64 rows at a time.

  A grid point t works on rows 64·t … 64·t + 63 of the level: it reads those rows of the inputs and of the children's
  states, the whole weight matrices and the bias row, and writes those rows of the two results. Since an entry of the
  level's results depends on its own row only (LibTreeCell), what the point writes back is its block of rows of the
  level's matrices HArr and CArr of the WHOLE inputs; the blocks tile the rows, so the two result arrays end as HArr and CArr.
-/
import proofs.«112656_j36661840839776_1_alg».proof.Proof.Gen.KernelIdeal.Frame
import proofs.«112656_j36661840839776_1_alg».proof.Proof.LibTreeCell

set_option maxRecDepth 16384

noncomputable section

namespace Cert.KernelIdeal.Level2

open Cert.KernelIdeal Cert.KernelIdeal.Gen Idealize.ShloMosaic Idealize.ShloMosaic.TcCoe Idealize.ShloMosaic.ValueIdx
open Idealize.SL.Sem Cert.TreeCell
open Idealize.ShloMosaic.Pipeline (Dat Cfg Window)

/-! ## The body's values at an entry of a block -/

section Payloads
variable (x0 : Vec Ideal S64x1024 .bf16) (x1 x2 : Vec Ideal S64x2048 .f32) (w : Vec Ideal S1024x8192 .bf16)
  (u : Vec Ideal S2048x8192 .bf16) (b : Vec Ideal S1x8192 .f32)

theorem gates_apply (p : Fin 64) (j : Fin 8192) : k2_pay1 (F := Ideal) x0 x1 w u b (ix2 p j) = gateAt x0 x1 w u b p j :=
  kGates_apply (T := 64) x0 x1 w u b _ _ _ _ _ _ _ p j

theorem cell_apply (p : Fin 64) (q : Fin 2048) : k2_pay2 (F := Ideal) x0 x1 w u b x2 (ix2 p q) = cAt x0 x1 x2 w u b p q :=
  kC_apply (T := 64) x2 (k2_pay1 (F := Ideal) x0 x1 w u b) (gateAt x0 x1 w u b) (gates_apply x0 x1 w u b) (fun i q => x2 (ix2 i q))
    (fun _ _ => rfl) _ _ _ _ p q

theorem hout_apply (p : Fin 64) (q : Fin 1024) :
    k2_pay3 (F := Ideal) x0 x1 w u b x2 (ix2 p q) = HArr x0 x1 x2 w u b (ix2 p q) :=
  kH_apply (T := 64) (k2_pay1 (F := Ideal) x0 x1 w u b) (gateAt x0 x1 w u b) (gates_apply x0 x1 w u b)
    (k2_pay2 (F := Ideal) x0 x1 w u b x2) (cAt x0 x1 x2 w u b) (cell_apply x0 x1 x2 w u b) _ (by decide) p q

theorem cout_apply (p : Fin 64) (q : Fin 1024) :
    k2_pay4 (F := Ideal) x0 x1 w u b x2 (ix2 p q) = CArr x0 x1 x2 w u b (ix2 p q) :=
  kCout_apply (T := 64) (k2_pay2 (F := Ideal) x0 x1 w u b x2) (cAt x0 x1 x2 w u b) (cell_apply x0 x1 x2 w u b) (by decide) p q

end Payloads

/-! ## From blocks to the arrays -/

section Blocks
variable (V : (c : Dev nD) → (b : Ref sig .tc) → Buf (Elt Ideal) ((c : Thread nD τ).loc b))

omit V in
theorem hz : (![0, 0] : Fin 2 → Nat) = fun _ => 0 := funext fun a => by fin_cases a <;> rfl

omit V in
/-- The index maps over the grid: the row-blocked windows sit at block row t, the weights and the bias at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

theorem rows_x (c : Dev nD) (t : Fin cfg2.N) (ht : t.val < 8) (p : Fin 64) (k : Fin 1024) :
    iblk2 V c 0 t (ix2 p k) = V c main_v13 (ix2 ⟨t.val * 64 + p.val, by omega⟩ k) := by
  obtain ⟨e00, e01, e10, e11, e20, e21, e30, e31, e40, e41, e50, e51, e60, e61, e70, e71⟩ := idx_facts t
  show V c main_v13 (((cfg2.win 0).blk t).view.emb (ix2 p k)) = _
  refine congrArg (V c main_v13) (funext fun a => Fin.ext ?_)
  match a with
  | ⟨0, _⟩ => show win2_0.index t (0 : Fin 2) * 64 + 1 * p.val = t.val * 64 + p.val; omega
  | ⟨1, _⟩ => show win2_0.index t (1 : Fin 2) * 1024 + 1 * k.val = k.val; omega

theorem rows_h (c : Dev nD) (t : Fin cfg2.N) (ht : t.val < 8) (p : Fin 64) (k : Fin 2048) :
    iblk2 V c 1 t (ix2 p k) = V c main_v14 (ix2 ⟨t.val * 64 + p.val, by omega⟩ k) := by
  obtain ⟨e00, e01, e10, e11, e20, e21, e30, e31, e40, e41, e50, e51, e60, e61, e70, e71⟩ := idx_facts t
  show V c main_v14 (((cfg2.win 1).blk t).view.emb (ix2 p k)) = _
  refine congrArg (V c main_v14) (funext fun a => Fin.ext ?_)
  match a with
  | ⟨0, _⟩ => show win2_1.index t (0 : Fin 2) * 64 + 1 * p.val = t.val * 64 + p.val; omega
  | ⟨1, _⟩ => show win2_1.index t (1 : Fin 2) * 2048 + 1 * k.val = k.val; omega

theorem rows_c (c : Dev nD) (t : Fin cfg2.N) (ht : t.val < 8) (p : Fin 64) (k : Fin 2048) :
    iblk2 V c 2 t (ix2 p k) = V c main_v15 (ix2 ⟨t.val * 64 + p.val, by omega⟩ k) := by
  obtain ⟨e00, e01, e10, e11, e20, e21, e30, e31, e40, e41, e50, e51, e60, e61, e70, e71⟩ := idx_facts t
  show V c main_v15 (((cfg2.win 2).blk t).view.emb (ix2 p k)) = _
  refine congrArg (V c main_v15) (funext fun a => Fin.ext ?_)
  match a with
  | ⟨0, _⟩ => show win2_2.index t (0 : Fin 2) * 64 + 1 * p.val = t.val * 64 + p.val; omega
  | ⟨1, _⟩ => show win2_2.index t (1 : Fin 2) * 2048 + 1 * k.val = k.val; omega

theorem whole_w (c : Dev nD) (t : Fin cfg2.N) : iblk2 V c 3 t = V c main_v1 := by
  obtain ⟨e00, e01, e10, e11, e20, e21, e30, e31, e40, e41, e50, e51, e60, e61, e70, e71⟩ := idx_facts t
  funext y
  show V c main_v1 (((cfg2.win 3).blk t).view.emb y) = V c main_v1 y
  refine congrArg (V c main_v1) (funext fun a => Fin.ext ?_)
  match a with
  | ⟨0, _⟩ => show win2_3.index t (0 : Fin 2) * 1024 + 1 * (y 0).val = (y 0).val; omega
  | ⟨1, _⟩ => show win2_3.index t (1 : Fin 2) * 8192 + 1 * (y 1).val = (y 1).val; omega

theorem whole_u (c : Dev nD) (t : Fin cfg2.N) : iblk2 V c 4 t = V c main_v3 := by
  obtain ⟨e00, e01, e10, e11, e20, e21, e30, e31, e40, e41, e50, e51, e60, e61, e70, e71⟩ := idx_facts t
  funext y
  show V c main_v3 (((cfg2.win 4).blk t).view.emb y) = V c main_v3 y
  refine congrArg (V c main_v3) (funext fun a => Fin.ext ?_)
  match a with
  | ⟨0, _⟩ => show win2_4.index t (0 : Fin 2) * 2048 + 1 * (y 0).val = (y 0).val; omega
  | ⟨1, _⟩ => show win2_4.index t (1 : Fin 2) * 8192 + 1 * (y 1).val = (y 1).val; omega

theorem whole_b (c : Dev nD) (t : Fin cfg2.N) : iblk2 V c 5 t = V c main_v5 := by
  obtain ⟨e00, e01, e10, e11, e20, e21, e30, e31, e40, e41, e50, e51, e60, e61, e70, e71⟩ := idx_facts t
  funext y
  show V c main_v5 (((cfg2.win 5).blk t).view.emb y) = V c main_v5 y
  refine congrArg (V c main_v5) (funext fun a => Fin.ext ?_)
  match a with
  | ⟨0, _⟩ => show win2_5.index t (0 : Fin 2) * 1 + 1 * (y 0).val = (y 0).val; omega
  | ⟨1, _⟩ => show win2_5.index t (1 : Fin 2) * 8192 + 1 * (y 1).val = (y 1).val; omega

/-- What point t writes back through window 6 is its block of rows of HArr of the whole arrays. -/
theorem flushedH (c : Dev nD) (t : Fin cfg2.N) :
    (dat2 V c).flushed 6 t = ((cfg2.win 6).blk t).view.read (Elt Ideal)
      (HArr (V c main_v13) (V c main_v14) (V c main_v15) (V c main_v1) (V c main_v3) (V c main_v5)) := by
  show (cfg2.win 6).cut (grid2.coords t) ((dat2 V c).after 6 t) = _
  rw [after2_6]
  unfold out2_6
  rw [View.canon_unit_zero hz]
  simp only [View.ld_unit_zero (S := S64x1024) hz, View.ld_unit_zero (S := S64x2048) hz,
    View.ld_unit_zero (S := S1024x8192) hz, View.ld_unit_zero (S := S2048x8192) hz, View.ld_unit_zero (S := S1x8192) hz]
  have ht : t.val < 8 := lt_of_lt_of_eq t.isLt N_2
  obtain ⟨e00, e01, e10, e11, e20, e21, e30, e31, e40, e41, e50, e51, e60, e61, e70, e71⟩ := idx_facts t
  funext y
  obtain ⟨p, q, rfl⟩ : ∃ (p : Fin 64) (q : Fin 1024), y = ix2 p q := ⟨y 0, y 1, eq_ix2 y⟩
  show k2_pay3 (iblk2 V c 0 t) (iblk2 V c 1 t) (iblk2 V c 3 t) (iblk2 V c 4 t) (iblk2 V c 5 t) (iblk2 V c 2 t) (ix2 p q)
    = HArr (V c main_v13) (V c main_v14) (V c main_v15) (V c main_v1) (V c main_v3) (V c main_v5)
        (((cfg2.win 6).blk t).view.emb (ix2 p q))
  have hi : ((cfg2.win 6).blk t).view.emb (ix2 p q) = ix2 ⟨t.val * 64 + p.val, by omega⟩ q := by
    funext a; apply Fin.ext
    match a with
    | ⟨0, _⟩ => show win2_6.index t (0 : Fin 2) * 64 + 1 * p.val = t.val * 64 + p.val; omega
    | ⟨1, _⟩ => show win2_6.index t (1 : Fin 2) * 1024 + 1 * q.val = q.val; omega
  rw [hi, hout_apply]
  exact HArr_block (V c main_v13) (V c main_v14) (V c main_v15) (iblk2 V c 0 t) (iblk2 V c 1 t) (iblk2 V c 2 t)
    (V c main_v1) (V c main_v3) (V c main_v5) (iblk2 V c 3 t) (iblk2 V c 4 t) (iblk2 V c 5 t) p ⟨t.val * 64 + p.val, by omega⟩ q
    (rows_x V c t ht p) (rows_h V c t ht p) (rows_c V c t ht p) (whole_w V c t) (whole_u V c t) (whole_b V c t)

/-- What point t writes back through window 7 is its block of rows of CArr of the whole arrays. -/
theorem flushedC (c : Dev nD) (t : Fin cfg2.N) :
    (dat2 V c).flushed 7 t = ((cfg2.win 7).blk t).view.read (Elt Ideal)
      (CArr (V c main_v13) (V c main_v14) (V c main_v15) (V c main_v1) (V c main_v3) (V c main_v5)) := by
  show (cfg2.win 7).cut (grid2.coords t) ((dat2 V c).after 7 t) = _
  rw [after2_7]
  unfold out2_7
  rw [View.canon_unit_zero hz]
  simp only [View.ld_unit_zero (S := S64x1024) hz, View.ld_unit_zero (S := S64x2048) hz,
    View.ld_unit_zero (S := S1024x8192) hz, View.ld_unit_zero (S := S2048x8192) hz, View.ld_unit_zero (S := S1x8192) hz]
  have ht : t.val < 8 := lt_of_lt_of_eq t.isLt N_2
  obtain ⟨e00, e01, e10, e11, e20, e21, e30, e31, e40, e41, e50, e51, e60, e61, e70, e71⟩ := idx_facts t
  funext y
  obtain ⟨p, q, rfl⟩ : ∃ (p : Fin 64) (q : Fin 1024), y = ix2 p q := ⟨y 0, y 1, eq_ix2 y⟩
  show k2_pay4 (iblk2 V c 0 t) (iblk2 V c 1 t) (iblk2 V c 3 t) (iblk2 V c 4 t) (iblk2 V c 5 t) (iblk2 V c 2 t) (ix2 p q)
    = CArr (V c main_v13) (V c main_v14) (V c main_v15) (V c main_v1) (V c main_v3) (V c main_v5)
        (((cfg2.win 7).blk t).view.emb (ix2 p q))
  have hi : ((cfg2.win 7).blk t).view.emb (ix2 p q) = ix2 ⟨t.val * 64 + p.val, by omega⟩ q := by
    funext a; apply Fin.ext
    match a with
    | ⟨0, _⟩ => show win2_7.index t (0 : Fin 2) * 64 + 1 * p.val = t.val * 64 + p.val; omega
    | ⟨1, _⟩ => show win2_7.index t (1 : Fin 2) * 1024 + 1 * q.val = q.val; omega
  rw [hi, cout_apply]
  exact CArr_block (V c main_v13) (V c main_v14) (V c main_v15) (iblk2 V c 0 t) (iblk2 V c 1 t) (iblk2 V c 2 t)
    (V c main_v1) (V c main_v3) (V c main_v5) (iblk2 V c 3 t) (iblk2 V c 4 t) (iblk2 V c 5 t) p ⟨t.val * 64 + p.val, by omega⟩ q
    (rows_x V c t ht p) (rows_h V c t ht p) (rows_c V c t ht p) (whole_w V c t) (whole_u V c t) (whole_b V c t)

/-- Every row of the level is in some point's block: row r in the block of point r / 64. -/
theorem coverH (i : S512x1024.Idx) : ∃ t : Fin cfg2.N, (cfg2.win 6).flush t = true ∧ i ∈ ((cfg2.win 6).blk t).view.set := by
  have hi0 : (i 0).val < 512 := (i 0).isLt
  have hi1 : (i 1).val < 1024 := (i 1).isLt
  let t : Fin cfg2.N := ⟨(i 0).val / 64, by rw [show cfg2.N = 8 from N_2]; omega⟩
  obtain ⟨e00, e01, e10, e11, e20, e21, e30, e31, e40, e41, e50, e51, e60, e61, e70, e71⟩ := idx_facts t
  have tv : t.val = (i 0).val / 64 := rfl
  refine ⟨t, flush2_6 t, ?_⟩
  show i ∈ ((View.whole main_v16_0).slice (win2_6.rect t)).set
  rw [View.set_slice_whole, Rect.mem_set_unit]
  intro a
  match a with
  | ⟨0, _⟩ => show win2_6.index t (0 : Fin 2) * 64 ≤ (i 0).val ∧ (i 0).val < win2_6.index t (0 : Fin 2) * 64 + 64; omega
  | ⟨1, _⟩ => show win2_6.index t (1 : Fin 2) * 1024 ≤ (i 1).val ∧ (i 1).val < win2_6.index t (1 : Fin 2) * 1024 + 1024; omega

/-- Every row of the level is in some point's block: row r in the block of point r / 64. -/
theorem coverC (i : S512x1024.Idx) : ∃ t : Fin cfg2.N, (cfg2.win 7).flush t = true ∧ i ∈ ((cfg2.win 7).blk t).view.set := by
  have hi0 : (i 0).val < 512 := (i 0).isLt
  have hi1 : (i 1).val < 1024 := (i 1).isLt
  let t : Fin cfg2.N := ⟨(i 0).val / 64, by rw [show cfg2.N = 8 from N_2]; omega⟩
  obtain ⟨e00, e01, e10, e11, e20, e21, e30, e31, e40, e41, e50, e51, e60, e61, e70, e71⟩ := idx_facts t
  have tv : t.val = (i 0).val / 64 := rfl
  refine ⟨t, flush2_7 t, ?_⟩
  show i ∈ ((View.whole main_v16_1).slice (win2_7.rect t)).set
  rw [View.set_slice_whole, Rect.mem_set_unit]
  intro a
  match a with
  | ⟨0, _⟩ => show win2_7.index t (0 : Fin 2) * 64 ≤ (i 0).val ∧ (i 0).val < win2_7.index t (0 : Fin 2) * 64 + 64; omega
  | ⟨1, _⟩ => show win2_7.index t (1 : Fin 2) * 1024 ≤ (i 1).val ∧ (i 1).val < win2_7.index t (1 : Fin 2) * 1024 + 1024; omega

/-- The hidden-state array after the region. -/
theorem finalH (c : Dev nD) : (dat2 V c).arrAt 6 cfg2.N
    = HArr (V c main_v13) (V c main_v14) (V c main_v15) (V c main_v1) (V c main_v3) (V c main_v5) :=
  (dat2 V c).arrAt_eq_of_cover 6 _ (fun t _ => flushedH V c t) coverH

/-- The cell-state array after the region. -/
theorem finalC (c : Dev nD) : (dat2 V c).arrAt 7 cfg2.N
    = CArr (V c main_v13) (V c main_v14) (V c main_v15) (V c main_v1) (V c main_v3) (V c main_v5) :=
  (dat2 V c).arrAt_eq_of_cover 7 _ (fun t _ => flushedC V c t) coverC

end Blocks

end Cert.KernelIdeal.Level2

end
-- ==== Proof.Level3.lean ====
/-
  Region 3 of the kernel: the tree level of 256 nodes, computed 64 rows at a time.

  A grid point t works on rows 64·t … 64·t + 63 of the level: it reads those rows of the inputs and of the children's
  states, the whole weight matrices and the bias row, and writes those rows of the two results. Since an entry of the
  level's results depends on its own row only (LibTreeCell), what the point writes back is its block of rows of the
  level's matrices HArr and CArr of the WHOLE inputs; the blocks tile the rows, so the two result arrays end as HArr and CArr.
-/
import proofs.«112656_j36661840839776_1_alg».proof.Proof.Gen.KernelIdeal.Frame
import proofs.«112656_j36661840839776_1_alg».proof.Proof.LibTreeCell

set_option maxRecDepth 16384

noncomputable section

namespace Cert.KernelIdeal.Level3

open Cert.KernelIdeal Cert.KernelIdeal.Gen Idealize.ShloMosaic Idealize.ShloMosaic.TcCoe Idealize.ShloMosaic.ValueIdx
open Idealize.SL.Sem Cert.TreeCell
open Idealize.ShloMosaic.Pipeline (Dat Cfg Window)

/-! ## The body's values at an entry of a block -/

section Payloads
variable (x0 : Vec Ideal S64x1024 .bf16) (x1 x2 : Vec Ideal S64x2048 .f32) (w : Vec Ideal S1024x8192 .bf16)
  (u : Vec Ideal S2048x8192 .bf16) (b : Vec Ideal S1x8192 .f32)

theorem gates_apply (p : Fin 64) (j : Fin 8192) : k3_pay1 (F := Ideal) x0 x1 w u b (ix2 p j) = gateAt x0 x1 w u b p j :=
  kGates_apply (T := 64) x0 x1 w u b _ _ _ _ _ _ _ p j

theorem cell_apply (p : Fin 64) (q : Fin 2048) : k3_pay2 (F := Ideal) x0 x1 w u b x2 (ix2 p q) = cAt x0 x1 x2 w u b p q :=
  kC_apply (T := 64) x2 (k3_pay1 (F := Ideal) x0 x1 w u b) (gateAt x0 x1 w u b) (gates_apply x0 x1 w u b) (fun i q => x2 (ix2 i q))
    (fun _ _ => rfl) _ _ _ _ p q

theorem hout_apply (p : Fin 64) (q : Fin 1024) :
    k3_pay3 (F := Ideal) x0 x1 w u b x2 (ix2 p q) = HArr x0 x1 x2 w u b (ix2 p q) :=
  kH_apply (T := 64) (k3_pay1 (F := Ideal) x0 x1 w u b) (gateAt x0 x1 w u b) (gates_apply x0 x1 w u b)
    (k3_pay2 (F := Ideal) x0 x1 w u b x2) (cAt x0 x1 x2 w u b) (cell_apply x0 x1 x2 w u b) _ (by decide) p q

theorem cout_apply (p : Fin 64) (q : Fin 1024) :
    k3_pay4 (F := Ideal) x0 x1 w u b x2 (ix2 p q) = CArr x0 x1 x2 w u b (ix2 p q) :=
  kCout_apply (T := 64) (k3_pay2 (F := Ideal) x0 x1 w u b x2) (cAt x0 x1 x2 w u b) (cell_apply x0 x1 x2 w u b) (by decide) p q

end Payloads

/-! ## From blocks to the arrays -/

section Blocks
variable (V : (c : Dev nD) → (b : Ref sig .tc) → Buf (Elt Ideal) ((c : Thread nD τ).loc b))

omit V in
theorem hz : (![0, 0] : Fin 2 → Nat) = fun _ => 0 := funext fun a => by fin_cases a <;> rfl

omit V in
/-- The index maps over the grid: the row-blocked windows sit at block row t, the weights and the bias at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

theorem rows_x (c : Dev nD) (t : Fin cfg3.N) (ht : t.val < 4) (p : Fin 64) (k : Fin 1024) :
    iblk3 V c 0 t (ix2 p k) = V c main_v17 (ix2 ⟨t.val * 64 + p.val, by omega⟩ k) := by
  obtain ⟨e00, e01, e10, e11, e20, e21, e30, e31, e40, e41, e50, e51, e60, e61, e70, e71⟩ := idx_facts t
  show V c main_v17 (((cfg3.win 0).blk t).view.emb (ix2 p k)) = _
  refine congrArg (V c main_v17) (funext fun a => Fin.ext ?_)
  match a with
  | ⟨0, _⟩ => show win3_0.index t (0 : Fin 2) * 64 + 1 * p.val = t.val * 64 + p.val; omega
  | ⟨1, _⟩ => show win3_0.index t (1 : Fin 2) * 1024 + 1 * k.val = k.val; omega

theorem rows_h (c : Dev nD) (t : Fin cfg3.N) (ht : t.val < 4) (p : Fin 64) (k : Fin 2048) :
    iblk3 V c 1 t (ix2 p k) = V c main_v18 (ix2 ⟨t.val * 64 + p.val, by omega⟩ k) := by
  obtain ⟨e00, e01, e10, e11, e20, e21, e30, e31, e40, e41, e50, e51, e60, e61, e70, e71⟩ := idx_facts t
  show V c main_v18 (((cfg3.win 1).blk t).view.emb (ix2 p k)) = _
  refine congrArg (V c main_v18) (funext fun a => Fin.ext ?_)
  match a with
  | ⟨0, _⟩ => show win3_1.index t (0 : Fin 2) * 64 + 1 * p.val = t.val * 64 + p.val; omega
  | ⟨1, _⟩ => show win3_1.index t (1 : Fin 2) * 2048 + 1 * k.val = k.val; omega

theorem rows_c (c : Dev nD) (t : Fin cfg3.N) (ht : t.val < 4) (p : Fin 64) (k : Fin 2048) :
    iblk3 V c 2 t (ix2 p k) = V c main_v19 (ix2 ⟨t.val * 64 + p.val, by omega⟩ k) := by
  obtain ⟨e00, e01, e10, e11, e20, e21, e30, e31, e40, e41, e50, e51, e60, e61, e70, e71⟩ := idx_facts t
  show V c main_v19 (((cfg3.win 2).blk t).view.emb (ix2 p k)) = _
  refine congrArg (V c main_v19) (funext fun a => Fin.ext ?_)
  match a with
  | ⟨0, _⟩ => show win3_2.index t (0 : Fin 2) * 64 + 1 * p.val = t.val * 64 + p.val; omega
  | ⟨1, _⟩ => show win3_2.index t (1 : Fin 2) * 2048 + 1 * k.val = k.val; omega

theorem whole_w (c : Dev nD) (t : Fin cfg3.N) : iblk3 V c 3 t = V c main_v1 := by
  obtain ⟨e00, e01, e10, e11, e20, e21, e30, e31, e40, e41, e50, e51, e60, e61, e70, e71⟩ := idx_facts t
  funext y
  show V c main_v1 (((cfg3.win 3).blk t).view.emb y) = V c main_v1 y
  refine congrArg (V c main_v1) (funext fun a => Fin.ext ?_)
  match a with
  | ⟨0, _⟩ => show win3_3.index t (0 : Fin 2) * 1024 + 1 * (y 0).val = (y 0).val; omega
  | ⟨1, _⟩ => show win3_3.index t (1 : Fin 2) * 8192 + 1 * (y 1).val = (y 1).val; omega

theorem whole_u (c : Dev nD) (t : Fin cfg3.N) : iblk3 V c 4 t = V c main_v3 := by
  obtain ⟨e00, e01, e10, e11, e20, e21, e30, e31, e40, e41, e50, e51, e60, e61, e70, e71⟩ := idx_facts t
  funext y
  show V c main_v3 (((cfg3.win 4).blk t).view.emb y) = V c main_v3 y
  refine congrArg (V c main_v3) (funext fun a => Fin.ext ?_)
  match a with
  | ⟨0, _⟩ => show win3_4.index t (0 : Fin 2) * 2048 + 1 * (y 0).val = (y 0).val; omega
  | ⟨1, _⟩ => show win3_4.index t (1 : Fin 2) * 8192 + 1 * (y 1).val = (y 1).val; omega

theorem whole_b (c : Dev nD) (t : Fin cfg3.N) : iblk3 V c 5 t = V c main_v5 := by
  obtain ⟨e00, e01, e10, e11, e20, e21, e30, e31, e40, e41, e50, e51, e60, e61, e70, e71⟩ := idx_facts t
  funext y
  show V c main_v5 (((cfg3.win 5).blk t).view.emb y) = V c main_v5 y
  refine congrArg (V c main_v5) (funext fun a => Fin.ext ?_)
  match a with
  | ⟨0, _⟩ => show win3_5.index t (0 : Fin 2) * 1 + 1 * (y 0).val = (y 0).val; omega
  | ⟨1, _⟩ => show win3_5.index t (1 : Fin 2) * 8192 + 1 * (y 1).val = (y 1).val; omega

/-- What point t writes back through window 6 is its block of rows of HArr of the whole arrays. -/
theorem flushedH (c : Dev nD) (t : Fin cfg3.N) :
    (dat3 V c).flushed 6 t = ((cfg3.win 6).blk t).view.read (Elt Ideal)
      (HArr (V c main_v17) (V c main_v18) (V c main_v19) (V c main_v1) (V c main_v3) (V c main_v5)) := by
  show (cfg3.win 6).cut (grid3.coords t) ((dat3 V c).after 6 t) = _
  rw [after3_6]
  unfold out3_6
  rw [View.canon_unit_zero hz]
  simp only [View.ld_unit_zero (S := S64x1024) hz, View.ld_unit_zero (S := S64x2048) hz,
    View.ld_unit_zero (S := S1024x8192) hz, View.ld_unit_zero (S := S2048x8192) hz, View.ld_unit_zero (S := S1x8192) hz]
  have ht : t.val < 4 := lt_of_lt_of_eq t.isLt N_3
  obtain ⟨e00, e01, e10, e11, e20, e21, e30, e31, e40, e41, e50, e51, e60, e61, e70, e71⟩ := idx_facts t
  funext y
  obtain ⟨p, q, rfl⟩ : ∃ (p : Fin 64) (q : Fin 1024), y = ix2 p q := ⟨y 0, y 1, eq_ix2 y⟩
  show k3_pay3 (iblk3 V c 0 t) (iblk3 V c 1 t) (iblk3 V c 3 t) (iblk3 V c 4 t) (iblk3 V c 5 t) (iblk3 V c 2 t) (ix2 p q)
    = HArr (V c main_v17) (V c main_v18) (V c main_v19) (V c main_v1) (V c main_v3) (V c main_v5)
        (((cfg3.win 6).blk t).view.emb (ix2 p q))
  have hi : ((cfg3.win 6).blk t).view.emb (ix2 p q) = ix2 ⟨t.val * 64 + p.val, by omega⟩ q := by
    funext a; apply Fin.ext
    match a with
    | ⟨0, _⟩ => show win3_6.index t (0 : Fin 2) * 64 + 1 * p.val = t.val * 64 + p.val; omega
    | ⟨1, _⟩ => show win3_6.index t (1 : Fin 2) * 1024 + 1 * q.val = q.val; omega
  rw [hi, hout_apply]
  exact HArr_block (V c main_v17) (V c main_v18) (V c main_v19) (iblk3 V c 0 t) (iblk3 V c 1 t) (iblk3 V c 2 t)
    (V c main_v1) (V c main_v3) (V c main_v5) (iblk3 V c 3 t) (iblk3 V c 4 t) (iblk3 V c 5 t) p ⟨t.val * 64 + p.val, by omega⟩ q
    (rows_x V c t ht p) (rows_h V c t ht p) (rows_c V c t ht p) (whole_w V c t) (whole_u V c t) (whole_b V c t)

/-- What point t writes back through window 7 is its block of rows of CArr of the whole arrays. -/
theorem flushedC (c : Dev nD) (t : Fin cfg3.N) :
    (dat3 V c).flushed 7 t = ((cfg3.win 7).blk t).view.read (Elt Ideal)
      (CArr (V c main_v17) (V c main_v18) (V c main_v19) (V c main_v1) (V c main_v3) (V c main_v5)) := by
  show (cfg3.win 7).cut (grid3.coords t) ((dat3 V c).after 7 t) = _
  rw [after3_7]
  unfold out3_7
  rw [View.canon_unit_zero hz]
  simp only [View.ld_unit_zero (S := S64x1024) hz, View.ld_unit_zero (S := S64x2048) hz,
    View.ld_unit_zero (S := S1024x8192) hz, View.ld_unit_zero (S := S2048x8192) hz, View.ld_unit_zero (S := S1x8192) hz]
  have ht : t.val < 4 := lt_of_lt_of_eq t.isLt N_3
  obtain ⟨e00, e01, e10, e11, e20, e21, e30, e31, e40, e41, e50, e51, e60, e61, e70, e71⟩ := idx_facts t
  funext y
  obtain ⟨p, q, rfl⟩ : ∃ (p : Fin 64) (q : Fin 1024), y = ix2 p q := ⟨y 0, y 1, eq_ix2 y⟩
  show k3_pay4 (iblk3 V c 0 t) (iblk3 V c 1 t) (iblk3 V c 3 t) (iblk3 V c 4 t) (iblk3 V c 5 t) (iblk3 V c 2 t) (ix2 p q)
    = CArr (V c main_v17) (V c main_v18) (V c main_v19) (V c main_v1) (V c main_v3) (V c main_v5)
        (((cfg3.win 7).blk t).view.emb (ix2 p q))
  have hi : ((cfg3.win 7).blk t).view.emb (ix2 p q) = ix2 ⟨t.val * 64 + p.val, by omega⟩ q := by
    funext a; apply Fin.ext
    match a with
    | ⟨0, _⟩ => show win3_7.index t (0 : Fin 2) * 64 + 1 * p.val = t.val * 64 + p.val; omega
    | ⟨1, _⟩ => show win3_7.index t (1 : Fin 2) * 1024 + 1 * q.val = q.val; omega
  rw [hi, cout_apply]
  exact CArr_block (V c main_v17) (V c main_v18) (V c main_v19) (iblk3 V c 0 t) (iblk3 V c 1 t) (iblk3 V c 2 t)
    (V c main_v1) (V c main_v3) (V c main_v5) (iblk3 V c 3 t) (iblk3 V c 4 t) (iblk3 V c 5 t) p ⟨t.val * 64 + p.val, by omega⟩ q
    (rows_x V c t ht p) (rows_h V c t ht p) (rows_c V c t ht p) (whole_w V c t) (whole_u V c t) (whole_b V c t)

/-- Every row of the level is in some point's block: row r in the block of point r / 64. -/
theorem coverH (i : S256x1024.Idx) : ∃ t : Fin cfg3.N, (cfg3.win 6).flush t = true ∧ i ∈ ((cfg3.win 6).blk t).view.set := by
  have hi0 : (i 0).val < 256 := (i 0).isLt
  have hi1 : (i 1).val < 1024 := (i 1).isLt
  let t : Fin cfg3.N := ⟨(i 0).val / 64, by rw [show cfg3.N = 4 from N_3]; omega⟩
  obtain ⟨e00, e01, e10, e11, e20, e21, e30, e31, e40, e41, e50, e51, e60, e61, e70, e71⟩ := idx_facts t
  have tv : t.val = (i 0).val / 64 := rfl
  refine ⟨t, flush3_6 t, ?_⟩
  show i ∈ ((View.whole main_v20_0).slice (win3_6.rect t)).set
  rw [View.set_slice_whole, Rect.mem_set_unit]
  intro a
  match a with
  | ⟨0, _⟩ => show win3_6.index t (0 : Fin 2) * 64 ≤ (i 0).val ∧ (i 0).val < win3_6.index t (0 : Fin 2) * 64 + 64; omega
  | ⟨1, _⟩ => show win3_6.index t (1 : Fin 2) * 1024 ≤ (i 1).val ∧ (i 1).val < win3_6.index t (1 : Fin 2) * 1024 + 1024; omega

/-- Every row of the level is in some point's block: row r in the block of point r / 64. -/
theorem coverC (i : S256x1024.Idx) : ∃ t : Fin cfg3.N, (cfg3.win 7).flush t = true ∧ i ∈ ((cfg3.win 7).blk t).view.set := by
  have hi0 : (i 0).val < 256 := (i 0).isLt
  have hi1 : (i 1).val < 1024 := (i 1).isLt
  let t : Fin cfg3.N := ⟨(i 0).val / 64, by rw [show cfg3.N = 4 from N_3]; omega⟩
  obtain ⟨e00, e01, e10, e11, e20, e21, e30, e31, e40, e41, e50, e51, e60, e61, e70, e71⟩ := idx_facts t
  have tv : t.val = (i 0).val / 64 := rfl
  refine ⟨t, flush3_7 t, ?_⟩
  show i ∈ ((View.whole main_v20_1).slice (win3_7.rect t)).set
  rw [View.set_slice_whole, Rect.mem_set_unit]
  intro a
  match a with
  | ⟨0, _⟩ => show win3_7.index t (0 : Fin 2) * 64 ≤ (i 0).val ∧ (i 0).val < win3_7.index t (0 : Fin 2) * 64 + 64; omega
  | ⟨1, _⟩ => show win3_7.index t (1 : Fin 2) * 1024 ≤ (i 1).val ∧ (i 1).val < win3_7.index t (1 : Fin 2) * 1024 + 1024; omega

/-- The hidden-state array after the region. -/
theorem finalH (c : Dev nD) : (dat3 V c).arrAt 6 cfg3.N
    = HArr (V c main_v17) (V c main_v18) (V c main_v19) (V c main_v1) (V c main_v3) (V c main_v5) :=
  (dat3 V c).arrAt_eq_of_cover 6 _ (fun t _ => flushedH V c t) coverH

/-- The cell-state array after the region. -/
theorem finalC (c : Dev nD) : (dat3 V c).arrAt 7 cfg3.N
    = CArr (V c main_v17) (V c main_v18) (V c main_v19) (V c main_v1) (V c main_v3) (V c main_v5) :=
  (dat3 V c).arrAt_eq_of_cover 7 _ (fun t _ => flushedC V c t) coverC

end Blocks

end Cert.KernelIdeal.Level3

end
-- ==== Proof.Level4.lean ====
/-
  Region 4 of the kernel: the tree level of 128 nodes, computed 64 rows at a time.

  A grid point t works on rows 64·t … 64·t + 63 of the level: it reads those rows of the inputs and of the children's
  states, the whole weight matrices and the bias row, and writes those rows of the two results. Since an entry of the
  level's results depends on its own row only (LibTreeCell), what the point writes back is its block of rows of the
  level's matrices HArr and CArr of the WHOLE inputs; the blocks tile the rows, so the two result arrays end as HArr and CArr.
-/
import proofs.«112656_j36661840839776_1_alg».proof.Proof.Gen.KernelIdeal.Frame
import proofs.«112656_j36661840839776_1_alg».proof.Proof.LibTreeCell

set_option maxRecDepth 16384

noncomputable section

namespace Cert.KernelIdeal.Level4

open Cert.KernelIdeal Cert.KernelIdeal.Gen Idealize.ShloMosaic Idealize.ShloMosaic.TcCoe Idealize.ShloMosaic.ValueIdx
open Idealize.SL.Sem Cert.TreeCell
open Idealize.ShloMosaic.Pipeline (Dat Cfg Window)

/-! ## The body's values at an entry of a block -/

section Payloads
variable (x0 : Vec Ideal S64x1024 .bf16) (x1 x2 : Vec Ideal S64x2048 .f32) (w : Vec Ideal S1024x8192 .bf16)
  (u : Vec Ideal S2048x8192 .bf16) (b : Vec Ideal S1x8192 .f32)

theorem gates_apply (p : Fin 64) (j : Fin 8192) : k4_pay1 (F := Ideal) x0 x1 w u b (ix2 p j) = gateAt x0 x1 w u b p j :=
  kGates_apply (T := 64) x0 x1 w u b _ _ _ _ _ _ _ p j

theorem cell_apply (p : Fin 64) (q : Fin 2048) : k4_pay2 (F := Ideal) x0 x1 w u b x2 (ix2 p q) = cAt x0 x1 x2 w u b p q :=
  kC_apply (T := 64) x2 (k4_pay1 (F := Ideal) x0 x1 w u b) (gateAt x0 x1 w u b) (gates_apply x0 x1 w u b) (fun i q => x2 (ix2 i q))
    (fun _ _ => rfl) _ _ _ _ p q

theorem hout_apply (p : Fin 64) (q : Fin 1024) :
    k4_pay3 (F := Ideal) x0 x1 w u b x2 (ix2 p q) = HArr x0 x1 x2 w u b (ix2 p q) :=
  kH_apply (T := 64) (k4_pay1 (F := Ideal) x0 x1 w u b) (gateAt x0 x1 w u b) (gates_apply x0 x1 w u b)
    (k4_pay2 (F := Ideal) x0 x1 w u b x2) (cAt x0 x1 x2 w u b) (cell_apply x0 x1 x2 w u b) _ (by decide) p q

theorem cout_apply (p : Fin 64) (q : Fin 1024) :
    k4_pay4 (F := Ideal) x0 x1 w u b x2 (ix2 p q) = CArr x0 x1 x2 w u b (ix2 p q) :=
  kCout_apply (T := 64) (k4_pay2 (F := Ideal) x0 x1 w u b x2) (cAt x0 x1 x2 w u b) (cell_apply x0 x1 x2 w u b) (by decide) p q

end Payloads

/-! ## From blocks to the arrays -/

section Blocks
variable (V : (c : Dev nD) → (b : Ref sig .tc) → Buf (Elt Ideal) ((c : Thread nD τ).loc b))

omit V in
theorem hz : (![0, 0] : Fin 2 → Nat) = fun _ => 0 := funext fun a => by fin_cases a <;> rfl

omit V in
/-- The index maps over the grid: the row-blocked windows sit at block row t, the weights and the bias at block 0. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

theorem rows_x (c : Dev nD) (t : Fin cfg4.N) (ht : t.val < 2) (p : Fin 64) (k : Fin 1024) :
    iblk4 V c 0 t (ix2 p k) = V c main_v21 (ix2 ⟨t.val * 64 + p.val, by omega⟩ k) := by
  obtain ⟨e00, e01, e10, e11, e20, e21, e30, e31, e40, e41, e50, e51, e60, e61, e70, e71⟩ := idx_facts t
  show V c main_v21 (((cfg4.win 0).blk t).view.emb (ix2 p k)) = _
  refine congrArg (V c main_v21) (funext fun a => Fin.ext ?_)
  match a with
  | ⟨0, _⟩ => show win4_0.index t (0 : Fin 2) * 64 + 1 * p.val = t.val * 64 + p.val; omega
  | ⟨1, _⟩ => show win4_0.index t (1 : Fin 2) * 1024 + 1 * k.val = k.val; omega

theorem rows_h (c : Dev nD) (t : Fin cfg4.N) (ht : t.val < 2) (p : Fin 64) (k : Fin 2048) :
    iblk4 V c 1 t (ix2 p k) = V c main_v22 (ix2 ⟨t.val * 64 + p.val, by omega⟩ k) := by
  obtain ⟨e00, e01, e10, e11, e20, e21, e30, e31, e40, e41, e50, e51, e60, e61, e70, e71⟩ := idx_facts t
  show V c main_v22 (((cfg4.win 1).blk t).view.emb (ix2 p k)) = _
  refine congrArg (V c main_v22) (funext fun a => Fin.ext ?_)
  match a with
  | ⟨0, _⟩ => show win4_1.index t (0 : Fin 2) * 64 + 1 * p.val = t.val * 64 + p.val; omega
  | ⟨1, _⟩ => show win4_1.index t (1 : Fin 2) * 2048 + 1 * k.val = k.val; omega

theorem rows_c (c : Dev nD) (t : Fin cfg4.N) (ht : t.val < 2) (p : Fin 64) (k : Fin 2048) :
    iblk4 V c 2 t (ix2 p k) = V c main_v23 (ix2 ⟨t.val * 64 + p.val, by omega⟩ k) := by
  obtain ⟨e00, e01, e10, e11, e20, e21, e30, e31, e40, e41, e50, e51, e60, e61, e70, e71⟩ := idx_facts t
  show V c main_v23 (((cfg4.win 2).blk t).view.emb (ix2 p k)) = _
  refine congrArg (V c main_v23) (funext fun a => Fin.ext ?_)
  match a with
  | ⟨0, _⟩ => show win4_2.index t (0 : Fin 2) * 64 + 1 * p.val = t.val * 64 + p.val; omega
  | ⟨1, _⟩ => show win4_2.index t (1 : Fin 2) * 2048 + 1 * k.val = k.val; omega

theorem whole_w (c : Dev nD) (t : Fin cfg4.N) : iblk4 V c 3 t = V c main_v1 := by
  obtain ⟨e00, e01, e10, e11, e20, e21, e30, e31, e40, e41, e50, e51, e60, e61, e70, e71⟩ := idx_facts t
  funext y
  show V c main_v1 (((cfg4.win 3).blk t).view.emb y) = V c main_v1 y
  refine congrArg (V c main_v1) (funext fun a => Fin.ext ?_)
  match a with
  | ⟨0, _⟩ => show win4_3.index t (0 : Fin 2) * 1024 + 1 * (y 0).val = (y 0).val; omega
  | ⟨1, _⟩ => show win4_3.index t (1 : Fin 2) * 8192 + 1 * (y 1).val = (y 1).val; omega

theorem whole_u (c : Dev nD) (t : Fin cfg4.N) : iblk4 V c 4 t = V c main_v3 := by
  obtain ⟨e00, e01, e10, e11, e20, e21, e30, e31, e40, e41, e50, e51, e60, e61, e70, e71⟩ := idx_facts t
  funext y
  show V c main_v3 (((cfg4.win 4).blk t).view.emb y) = V c main_v3 y
  refine congrArg (V c main_v3) (funext fun a => Fin.ext ?_)
  match a with
  | ⟨0, _⟩ => show win4_4.index t (0 : Fin 2) * 2048 + 1 * (y 0).val = (y 0).val; omega
  | ⟨1, _⟩ => show win4_4.index t (1 : Fin 2) * 8192 + 1 * (y 1).val = (y 1).val; omega

theorem whole_b (c : Dev nD) (t : Fin cfg4.N) : iblk4 V c 5 t = V c main_v5 := by
  obtain ⟨e00, e01, e10, e11, e20, e21, e30, e31, e40, e41, e50, e51, e60, e61, e70, e71⟩ := idx_facts t
  funext y
  show V c main_v5 (((cfg4.win 5).blk t).view.emb y) = V c main_v5 y
  refine congrArg (V c main_v5) (funext fun a => Fin.ext ?_)
  match a with
  | ⟨0, _⟩ => show win4_5.index t (0 : Fin 2) * 1 + 1 * (y 0).val = (y 0).val; omega
  | ⟨1, _⟩ => show win4_5.index t (1 : Fin 2) * 8192 + 1 * (y 1).val = (y 1).val; omega

/-- What point t writes back through window 6 is its block of rows of HArr of the whole arrays. -/
theorem flushedH (c : Dev nD) (t : Fin cfg4.N) :
    (dat4 V c).flushed 6 t = ((cfg4.win 6).blk t).view.read (Elt Ideal)
      (HArr (V c main_v21) (V c main_v22) (V c main_v23) (V c main_v1) (V c main_v3) (V c main_v5)) := by
  show (cfg4.win 6).cut (grid4.coords t) ((dat4 V c).after 6 t) = _
  rw [after4_6]
  unfold out4_6
  rw [View.canon_unit_zero hz]
  simp only [View.ld_unit_zero (S := S64x1024) hz, View.ld_unit_zero (S := S64x2048) hz,
    View.ld_unit_zero (S := S1024x8192) hz, View.ld_unit_zero (S := S2048x8192) hz, View.ld_unit_zero (S := S1x8192) hz]
  have ht : t.val < 2 := lt_of_lt_of_eq t.isLt N_4
  obtain ⟨e00, e01, e10, e11, e20, e21, e30, e31, e40, e41, e50, e51, e60, e61, e70, e71⟩ := idx_facts t
  funext y
  obtain ⟨p, q, rfl⟩ : ∃ (p : Fin 64) (q : Fin 1024), y = ix2 p q := ⟨y 0, y 1, eq_ix2 y⟩
  show k4_pay3 (iblk4 V c 0 t) (iblk4 V c 1 t) (iblk4 V c 3 t) (iblk4 V c 4 t) (iblk4 V c 5 t) (iblk4 V c 2 t) (ix2 p q)
    = HArr (V c main_v21) (V c main_v22) (V c main_v23) (V c main_v1) (V c main_v3) (V c main_v5)
        (((cfg4.win 6).blk t).view.emb (ix2 p q))
  have hi : ((cfg4.win 6).blk t).view.emb (ix2 p q) = ix2 ⟨t.val * 64 + p.val, by omega⟩ q := by
    funext a; apply Fin.ext
    match a with
    | ⟨0, _⟩ => show win4_6.index t (0 : Fin 2) * 64 + 1 * p.val = t.val * 64 + p.val; omega
    | ⟨1, _⟩ => show win4_6.index t (1 : Fin 2) * 1024 + 1 * q.val = q.val; omega
  rw [hi, hout_apply]
  exact HArr_block (V c main_v21) (V c main_v22) (V c main_v23) (iblk4 V c 0 t) (iblk4 V c 1 t) (iblk4 V c 2 t)
    (V c main_v1) (V c main_v3) (V c main_v5) (iblk4 V c 3 t) (iblk4 V c 4 t) (iblk4 V c 5 t) p ⟨t.val * 64 + p.val, by omega⟩ q
    (rows_x V c t ht p) (rows_h V c t ht p) (rows_c V c t ht p) (whole_w V c t) (whole_u V c t) (whole_b V c t)

/-- What point t writes back through window 7 is its block of rows of CArr of the whole arrays. -/
theorem flushedC (c : Dev nD) (t : Fin cfg4.N) :
    (dat4 V c).flushed 7 t = ((cfg4.win 7).blk t).view.read (Elt Ideal)
      (CArr (V c main_v21) (V c main_v22) (V c main_v23) (V c main_v1) (V c main_v3) (V c main_v5)) := by
  show (cfg4.win 7).cut (grid4.coords t) ((dat4 V c).after 7 t) = _
  rw [after4_7]
  unfold out4_7
  rw [View.canon_unit_zero hz]
  simp only [View.ld_unit_zero (S := S64x1024) hz, View.ld_unit_zero (S := S64x2048) hz,
    View.ld_unit_zero (S := S1024x8192) hz, View.ld_unit_zero (S := S2048x8192) hz, View.ld_unit_zero (S := S1x8192) hz]
  have ht : t.val < 2 := lt_of_lt_of_eq t.isLt N_4
  obtain ⟨e00, e01, e10, e11, e20, e21, e30, e31, e40, e41, e50, e51, e60, e61, e70, e71⟩ := idx_facts t
  funext y
  obtain ⟨p, q, rfl⟩ : ∃ (p : Fin 64) (q : Fin 1024), y = ix2 p q := ⟨y 0, y 1, eq_ix2 y⟩
  show k4_pay4 (iblk4 V c 0 t) (iblk4 V c 1 t) (iblk4 V c 3 t) (iblk4 V c 4 t) (iblk4 V c 5 t) (iblk4 V c 2 t) (ix2 p q)
    = CArr (V c main_v21) (V c main_v22) (V c main_v23) (V c main_v1) (V c main_v3) (V c main_v5)
        (((cfg4.win 7).blk t).view.emb (ix2 p q))
  have hi : ((cfg4.win 7).blk t).view.emb (ix2 p q) = ix2 ⟨t.val * 64 + p.val, by omega⟩ q := by
    funext a; apply Fin.ext
    match a with
    | ⟨0, _⟩ => show win4_7.index t (0 : Fin 2) * 64 + 1 * p.val = t.val * 64 + p.val; omega
    | ⟨1, _⟩ => show win4_7.index t (1 : Fin 2) * 1024 + 1 * q.val = q.val; omega
  rw [hi, cout_apply]
  exact CArr_block (V c main_v21) (V c main_v22) (V c main_v23) (iblk4 V c 0 t) (iblk4 V c 1 t) (iblk4 V c 2 t)
    (V c main_v1) (V c main_v3) (V c main_v5) (iblk4 V c 3 t) (iblk4 V c 4 t) (iblk4 V c 5 t) p ⟨t.val * 64 + p.val, by omega⟩ q
    (rows_x V c t ht p) (rows_h V c t ht p) (rows_c V c t ht p) (whole_w V c t) (whole_u V c t) (whole_b V c t)

/-- Every row of the level is in some point's block: row r in the block of point r / 64. -/
theorem coverH (i : S128x1024.Idx) : ∃ t : Fin cfg4.N, (cfg4.win 6).flush t = true ∧ i ∈ ((cfg4.win 6).blk t).view.set := by
  have hi0 : (i 0).val < 128 := (i 0).isLt
  have hi1 : (i 1).val < 1024 := (i 1).isLt
  let t : Fin cfg4.N := ⟨(i 0).val / 64, by rw [show cfg4.N = 2 from N_4]; omega⟩
  obtain ⟨e00, e01, e10, e11, e20, e21, e30, e31, e40, e41, e50, e51, e60, e61, e70, e71⟩ := idx_facts t
  have tv : t.val = (i 0).val / 64 := rfl
  refine ⟨t, flush4_6 t, ?_⟩
  show i ∈ ((View.whole main_v24_0).slice (win4_6.rect t)).set
  rw [View.set_slice_whole, Rect.mem_set_unit]
  intro a
  match a with
  | ⟨0, _⟩ => show win4_6.index t (0 : Fin 2) * 64 ≤ (i 0).val ∧ (i 0).val < win4_6.index t (0 : Fin 2) * 64 + 64; omega
  | ⟨1, _⟩ => show win4_6.index t (1 : Fin 2) * 1024 ≤ (i 1).val ∧ (i 1).val < win4_6.index t (1 : Fin 2) * 1024 + 1024; omega

/-- Every row of the level is in some point's block: row r in the block of point r / 64. -/
theorem coverC (i : S128x1024.Idx) : ∃ t : Fin cfg4.N, (cfg4.win 7).flush t = true ∧ i ∈ ((cfg4.win 7).blk t).view.set := by
  have hi0 : (i 0).val < 128 := (i 0).isLt
  have hi1 : (i 1).val < 1024 := (i 1).isLt
  let t : Fin cfg4.N := ⟨(i 0).val / 64, by rw [show cfg4.N = 2 from N_4]; omega⟩
  obtain ⟨e00, e01, e10, e11, e20, e21, e30, e31, e40, e41, e50, e51, e60, e61, e70, e71⟩ := idx_facts t
  have tv : t.val = (i 0).val / 64 := rfl
  refine ⟨t, flush4_7 t, ?_⟩
  show i ∈ ((View.whole main_v24_1).slice (win4_7.rect t)).set
  rw [View.set_slice_whole, Rect.mem_set_unit]
  intro a
  match a with
  | ⟨0, _⟩ => show win4_7.index t (0 : Fin 2) * 64 ≤ (i 0).val ∧ (i 0).val < win4_7.index t (0 : Fin 2) * 64 + 64; omega
  | ⟨1, _⟩ => show win4_7.index t (1 : Fin 2) * 1024 ≤ (i 1).val ∧ (i 1).val < win4_7.index t (1 : Fin 2) * 1024 + 1024; omega

/-- The hidden-state array after the region. -/
theorem finalH (c : Dev nD) : (dat4 V c).arrAt 6 cfg4.N
    = HArr (V c main_v21) (V c main_v22) (V c main_v23) (V c main_v1) (V c main_v3) (V c main_v5) :=
  (dat4 V c).arrAt_eq_of_cover 6 _ (fun t _ => flushedH V c t) coverH

/-- The cell-state array after the region. -/
theorem finalC (c : Dev nD) : (dat4 V c).arrAt 7 cfg4.N
    = CArr (V c main_v21) (V c main_v22) (V c main_v23) (V c main_v1) (V c main_v3) (V c main_v5) :=
  (dat4 V c).arrAt_eq_of_cover 7 _ (fun t _ => flushedC V c t) coverC

end Blocks

end Cert.KernelIdeal.Level4

end
-- ==== Proof.Level5.lean ====
/-
  Region 5 of the kernel: the tree level of 64 nodes, computed 64 rows at a time.

  A grid point t works on rows 64·t … 64·t + 63 of the level: it reads those rows of the inputs and of the children's
  states, the whole weight matrices and the bias row, and writes those rows of the two results. Since an entry of the
  level's results depends on its own row only (LibTreeCell), what the point writes back is its block of rows of the
  level's matrices HArr and CArr of the WHOLE inputs; the blocks tile the rows, so the two result arrays end as HArr and CArr.
-/
import proofs.«112656_j36661840839776_1_alg».proof.Proof.Gen.KernelIdeal.Frame
import proofs.«112656_j36661840839776_1_alg».proof.Proof.LibTreeCell

set_option maxRecDepth 16384

noncomputable section

namespace Cert.KernelIdeal.Level5

open Cert.KernelIdeal Cert.KernelIdeal.Gen Idealize.ShloMosaic Idealize.ShloMosaic.TcCoe Idealize.ShloMosaic.ValueIdx
open Idealize.SL.Sem Cert.TreeCell
open Idealize.ShloMosaic.Pipeline (Dat Cfg Window)

/-! ## The body's values at an entry of a block -/

section Payloads
variable (x0 : Vec Ideal S64x1024 .bf16) (x1 x2 : Vec Ideal S64x2048 .f32) (w : Vec Ideal S1024x8192 .bf16)
  (u : Vec Ideal S2048x8192 .bf16) (b : Vec Ideal S1x8192 .f32)

theorem gates_apply (p : Fin 64) (j : Fin 8192) : k5_pay1 (F := Ideal) x0 x1 w u b (ix2 p j) = gateAt x0 x1 w u b p j :=
  kGates_apply (T := 64) x0 x1 w u b _ _ _ _ _ _ _ p j

theorem cell_apply (p : Fin 64) (q : Fin 2048) : k5_pay2 (F := Ideal) x0 x1 w u b x2 (ix2 p q) = cAt x0 x1 x2 w u b p q :=
  kC_apply (T := 64) x2 (k5_pay1 (F := Ideal) x0 x1 w u b) (gateAt x0 x1 w u b) (gates_apply x0 x1 w u b) (fun i q => x2 (ix2 i q))
    (fun _ _ => rfl) _ _ _ _ p q

theorem hout_apply (p : Fin 64) (q : Fin 1024) :
    k5_pay3 (F := Ideal) x0 x1 w u b x2 (ix2 p q) = HArr x0 x1 x2 w u b (ix2 p q) :=
  kH_apply (T := 64) (k5_pay1 (F := Ideal) x0 x1 w u b) (gateAt x0 x1 w u b) (gates_apply x0 x1 w u b)
    (k5_pay2 (F := Ideal) x0 x1 w u b x2) (cAt x0 x1 x2 w u b) (cell_apply x0 x1 x2 w u b) _ (by decide) p q

theorem cout_apply (p : Fin 64) (q : Fin 1024) :
    k5_pay4 (F := Ideal) x0 x1 w u b x2 (ix2 p q) = CArr x0 x1 x2 w u b (ix2 p q) :=
  kCout_apply (T := 64) (k5_pay2 (F := Ideal) x0 x1 w u b x2) (cAt x0 x1 x2 w u b) (cell_apply x0 x1 x2 w u b) (by decide) p q

end Payloads

/-! ## From blocks to the arrays -/

section Blocks
variable (V : (c : Dev nD) → (b : Ref sig .tc) → Buf (Elt Ideal) ((c : Thread nD τ).loc b))

omit V in
theorem hz : (![0, 0] : Fin 2 → Nat) = fun _ => 0 := funext fun a => by fin_cases a <;> rfl

omit V in
/-- The index maps over the grid: the row-blocked windows sit at block row t, the weights and the bias at block 0. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0
    ∧ win5_7.index t (0 : Fin 2) = t.val ∧ win5_7.index t (1 : Fin 2) = 0 :=
  (by decide +kernel : ∀ t : Fin grid5.N, _)

theorem rows_x (c : Dev nD) (t : Fin cfg5.N) (ht : t.val < 1) (p : Fin 64) (k : Fin 1024) :
    iblk5 V c 0 t (ix2 p k) = V c main_v25 (ix2 ⟨t.val * 64 + p.val, by omega⟩ k) := by
  obtain ⟨e00, e01, e10, e11, e20, e21, e30, e31, e40, e41, e50, e51, e60, e61, e70, e71⟩ := idx_facts t
  show V c main_v25 (((cfg5.win 0).blk t).view.emb (ix2 p k)) = _
  refine congrArg (V c main_v25) (funext fun a => Fin.ext ?_)
  match a with
  | ⟨0, _⟩ => show win5_0.index t (0 : Fin 2) * 64 + 1 * p.val = t.val * 64 + p.val; omega
  | ⟨1, _⟩ => show win5_0.index t (1 : Fin 2) * 1024 + 1 * k.val = k.val; omega

theorem rows_h (c : Dev nD) (t : Fin cfg5.N) (ht : t.val < 1) (p : Fin 64) (k : Fin 2048) :
    iblk5 V c 1 t (ix2 p k) = V c main_v26 (ix2 ⟨t.val * 64 + p.val, by omega⟩ k) := by
  obtain ⟨e00, e01, e10, e11, e20, e21, e30, e31, e40, e41, e50, e51, e60, e61, e70, e71⟩ := idx_facts t
  show V c main_v26 (((cfg5.win 1).blk t).view.emb (ix2 p k)) = _
  refine congrArg (V c main_v26) (funext fun a => Fin.ext ?_)
  match a with
  | ⟨0, _⟩ => show win5_1.index t (0 : Fin 2) * 64 + 1 * p.val = t.val * 64 + p.val; omega
  | ⟨1, _⟩ => show win5_1.index t (1 : Fin 2) * 2048 + 1 * k.val = k.val; omega

theorem rows_c (c : Dev nD) (t : Fin cfg5.N) (ht : t.val < 1) (p : Fin 64) (k : Fin 2048) :
    iblk5 V c 2 t (ix2 p k) = V c main_v27 (ix2 ⟨t.val * 64 + p.val, by omega⟩ k) := by
  obtain ⟨e00, e01, e10, e11, e20, e21, e30, e31, e40, e41, e50, e51, e60, e61, e70, e71⟩ := idx_facts t
  show V c main_v27 (((cfg5.win 2).blk t).view.emb (ix2 p k)) = _
  refine congrArg (V c main_v27) (funext fun a => Fin.ext ?_)
  match a with
  | ⟨0, _⟩ => show win5_2.index t (0 : Fin 2) * 64 + 1 * p.val = t.val * 64 + p.val; omega
  | ⟨1, _⟩ => show win5_2.index t (1 : Fin 2) * 2048 + 1 * k.val = k.val; omega

theorem whole_w (c : Dev nD) (t : Fin cfg5.N) : iblk5 V c 3 t = V c main_v1 := by
  obtain ⟨e00, e01, e10, e11, e20, e21, e30, e31, e40, e41, e50, e51, e60, e61, e70, e71⟩ := idx_facts t
  funext y
  show V c main_v1 (((cfg5.win 3).blk t).view.emb y) = V c main_v1 y
  refine congrArg (V c main_v1) (funext fun a => Fin.ext ?_)
  match a with
  | ⟨0, _⟩ => show win5_3.index t (0 : Fin 2) * 1024 + 1 * (y 0).val = (y 0).val; omega
  | ⟨1, _⟩ => show win5_3.index t (1 : Fin 2) * 8192 + 1 * (y 1).val = (y 1).val; omega

theorem whole_u (c : Dev nD) (t : Fin cfg5.N) : iblk5 V c 4 t = V c main_v3 := by
  obtain ⟨e00, e01, e10, e11, e20, e21, e30, e31, e40, e41, e50, e51, e60, e61, e70, e71⟩ := idx_facts t
  funext y
  show V c main_v3 (((cfg5.win 4).blk t).view.emb y) = V c main_v3 y
  refine congrArg (V c main_v3) (funext fun a => Fin.ext ?_)
  match a with
  | ⟨0, _⟩ => show win5_4.index t (0 : Fin 2) * 2048 + 1 * (y 0).val = (y 0).val; omega
  | ⟨1, _⟩ => show win5_4.index t (1 : Fin 2) * 8192 + 1 * (y 1).val = (y 1).val; omega

theorem whole_b (c : Dev nD) (t : Fin cfg5.N) : iblk5 V c 5 t = V c main_v5 := by
  obtain ⟨e00, e01, e10, e11, e20, e21, e30, e31, e40, e41, e50, e51, e60, e61, e70, e71⟩ := idx_facts t
  funext y
  show V c main_v5 (((cfg5.win 5).blk t).view.emb y) = V c main_v5 y
  refine congrArg (V c main_v5) (funext fun a => Fin.ext ?_)
  match a with
  | ⟨0, _⟩ => show win5_5.index t (0 : Fin 2) * 1 + 1 * (y 0).val = (y 0).val; omega
  | ⟨1, _⟩ => show win5_5.index t (1 : Fin 2) * 8192 + 1 * (y 1).val = (y 1).val; omega

/-- What point t writes back through window 6 is its block of rows of HArr of the whole arrays. -/
theorem flushedH (c : Dev nD) (t : Fin cfg5.N) :
    (dat5 V c).flushed 6 t = ((cfg5.win 6).blk t).view.read (Elt Ideal)
      (HArr (V c main_v25) (V c main_v26) (V c main_v27) (V c main_v1) (V c main_v3) (V c main_v5)) := by
  show (cfg5.win 6).cut (grid5.coords t) ((dat5 V c).after 6 t) = _
  rw [after5_6]
  unfold out5_6
  rw [View.canon_unit_zero hz]
  simp only [View.ld_unit_zero (S := S64x1024) hz, View.ld_unit_zero (S := S64x2048) hz,
    View.ld_unit_zero (S := S1024x8192) hz, View.ld_unit_zero (S := S2048x8192) hz, View.ld_unit_zero (S := S1x8192) hz]
  have ht : t.val < 1 := lt_of_lt_of_eq t.isLt N_5
  obtain ⟨e00, e01, e10, e11, e20, e21, e30, e31, e40, e41, e50, e51, e60, e61, e70, e71⟩ := idx_facts t
  funext y
  obtain ⟨p, q, rfl⟩ : ∃ (p : Fin 64) (q : Fin 1024), y = ix2 p q := ⟨y 0, y 1, eq_ix2 y⟩
  show k5_pay3 (iblk5 V c 0 t) (iblk5 V c 1 t) (iblk5 V c 3 t) (iblk5 V c 4 t) (iblk5 V c 5 t) (iblk5 V c 2 t) (ix2 p q)
    = HArr (V c main_v25) (V c main_v26) (V c main_v27) (V c main_v1) (V c main_v3) (V c main_v5)
        (((cfg5.win 6).blk t).view.emb (ix2 p q))
  have hi : ((cfg5.win 6).blk t).view.emb (ix2 p q) = ix2 ⟨t.val * 64 + p.val, by omega⟩ q := by
    funext a; apply Fin.ext
    match a with
    | ⟨0, _⟩ => show win5_6.index t (0 : Fin 2) * 64 + 1 * p.val = t.val * 64 + p.val; omega
    | ⟨1, _⟩ => show win5_6.index t (1 : Fin 2) * 1024 + 1 * q.val = q.val; omega
  rw [hi, hout_apply]
  exact HArr_block (V c main_v25) (V c main_v26) (V c main_v27) (iblk5 V c 0 t) (iblk5 V c 1 t) (iblk5 V c 2 t)
    (V c main_v1) (V c main_v3) (V c main_v5) (iblk5 V c 3 t) (iblk5 V c 4 t) (iblk5 V c 5 t) p ⟨t.val * 64 + p.val, by omega⟩ q
    (rows_x V c t ht p) (rows_h V c t ht p) (rows_c V c t ht p) (whole_w V c t) (whole_u V c t) (whole_b V c t)

/-- What point t writes back through window 7 is its block of rows of CArr of the whole arrays. -/
theorem flushedC (c : Dev nD) (t : Fin cfg5.N) :
    (dat5 V c).flushed 7 t = ((cfg5.win 7).blk t).view.read (Elt Ideal)
      (CArr (V c main_v25) (V c main_v26) (V c main_v27) (V c main_v1) (V c main_v3) (V c main_v5)) := by
  show (cfg5.win 7).cut (grid5.coords t) ((dat5 V c).after 7 t) = _
  rw [after5_7]
  unfold out5_7
  rw [View.canon_unit_zero hz]
  simp only [View.ld_unit_zero (S := S64x1024) hz, View.ld_unit_zero (S := S64x2048) hz,
    View.ld_unit_zero (S := S1024x8192) hz, View.ld_unit_zero (S := S2048x8192) hz, View.ld_unit_zero (S := S1x8192) hz]
  have ht : t.val < 1 := lt_of_lt_of_eq t.isLt N_5
  obtain ⟨e00, e01, e10, e11, e20, e21, e30, e31, e40, e41, e50, e51, e60, e61, e70, e71⟩ := idx_facts t
  funext y
  obtain ⟨p, q, rfl⟩ : ∃ (p : Fin 64) (q : Fin 1024), y = ix2 p q := ⟨y 0, y 1, eq_ix2 y⟩
  show k5_pay4 (iblk5 V c 0 t) (iblk5 V c 1 t) (iblk5 V c 3 t) (iblk5 V c 4 t) (iblk5 V c 5 t) (iblk5 V c 2 t) (ix2 p q)
    = CArr (V c main_v25) (V c main_v26) (V c main_v27) (V c main_v1) (V c main_v3) (V c main_v5)
        (((cfg5.win 7).blk t).view.emb (ix2 p q))
  have hi : ((cfg5.win 7).blk t).view.emb (ix2 p q) = ix2 ⟨t.val * 64 + p.val, by omega⟩ q := by
    funext a; apply Fin.ext
    match a with
    | ⟨0, _⟩ => show win5_7.index t (0 : Fin 2) * 64 + 1 * p.val = t.val * 64 + p.val; omega
    | ⟨1, _⟩ => show win5_7.index t (1 : Fin 2) * 1024 + 1 * q.val = q.val; omega
  rw [hi, cout_apply]
  exact CArr_block (V c main_v25) (V c main_v26) (V c main_v27) (iblk5 V c 0 t) (iblk5 V c 1 t) (iblk5 V c 2 t)
    (V c main_v1) (V c main_v3) (V c main_v5) (iblk5 V c 3 t) (iblk5 V c 4 t) (iblk5 V c 5 t) p ⟨t.val * 64 + p.val, by omega⟩ q
    (rows_x V c t ht p) (rows_h V c t ht p) (rows_c V c t ht p) (whole_w V c t) (whole_u V c t) (whole_b V c t)

/-- Every row of the level is in some point's block: row r in the block of point r / 64. -/
theorem coverH (i : S64x1024.Idx) : ∃ t : Fin cfg5.N, (cfg5.win 6).flush t = true ∧ i ∈ ((cfg5.win 6).blk t).view.set := by
  have hi0 : (i 0).val < 64 := (i 0).isLt
  have hi1 : (i 1).val < 1024 := (i 1).isLt
  let t : Fin cfg5.N := ⟨(i 0).val / 64, by rw [show cfg5.N = 1 from N_5]; omega⟩
  obtain ⟨e00, e01, e10, e11, e20, e21, e30, e31, e40, e41, e50, e51, e60, e61, e70, e71⟩ := idx_facts t
  have tv : t.val = (i 0).val / 64 := rfl
  refine ⟨t, flush5_6 t, ?_⟩
  show i ∈ ((View.whole main_v28_0).slice (win5_6.rect t)).set
  rw [View.set_slice_whole, Rect.mem_set_unit]
  intro a
  match a with
  | ⟨0, _⟩ => show win5_6.index t (0 : Fin 2) * 64 ≤ (i 0).val ∧ (i 0).val < win5_6.index t (0 : Fin 2) * 64 + 64; omega
  | ⟨1, _⟩ => show win5_6.index t (1 : Fin 2) * 1024 ≤ (i 1).val ∧ (i 1).val < win5_6.index t (1 : Fin 2) * 1024 + 1024; omega

/-- Every row of the level is in some point's block: row r in the block of point r / 64. -/
theorem coverC (i : S64x1024.Idx) : ∃ t : Fin cfg5.N, (cfg5.win 7).flush t = true ∧ i ∈ ((cfg5.win 7).blk t).view.set := by
  have hi0 : (i 0).val < 64 := (i 0).isLt
  have hi1 : (i 1).val < 1024 := (i 1).isLt
  let t : Fin cfg5.N := ⟨(i 0).val / 64, by rw [show cfg5.N = 1 from N_5]; omega⟩
  obtain ⟨e00, e01, e10, e11, e20, e21, e30, e31, e40, e41, e50, e51, e60, e61, e70, e71⟩ := idx_facts t
  have tv : t.val = (i 0).val / 64 := rfl
  refine ⟨t, flush5_7 t, ?_⟩
  show i ∈ ((View.whole main_v28_1).slice (win5_7.rect t)).set
  rw [View.set_slice_whole, Rect.mem_set_unit]
  intro a
  match a with
  | ⟨0, _⟩ => show win5_7.index t (0 : Fin 2) * 64 ≤ (i 0).val ∧ (i 0).val < win5_7.index t (0 : Fin 2) * 64 + 64; omega
  | ⟨1, _⟩ => show win5_7.index t (1 : Fin 2) * 1024 ≤ (i 1).val ∧ (i 1).val < win5_7.index t (1 : Fin 2) * 1024 + 1024; omega

/-- The hidden-state array after the region. -/
theorem finalH (c : Dev nD) : (dat5 V c).arrAt 6 cfg5.N
    = HArr (V c main_v25) (V c main_v26) (V c main_v27) (V c main_v1) (V c main_v3) (V c main_v5) :=
  (dat5 V c).arrAt_eq_of_cover 6 _ (fun t _ => flushedH V c t) coverH

/-- The cell-state array after the region. -/
theorem finalC (c : Dev nD) : (dat5 V c).arrAt 7 cfg5.N
    = CArr (V c main_v25) (V c main_v26) (V c main_v27) (V c main_v1) (V c main_v3) (V c main_v5) :=
  (dat5 V c).arrAt_eq_of_cover 7 _ (fun t _ => flushedC V c t) coverC

end Blocks

end Cert.KernelIdeal.Level5

end
-- ==== Proof.Level6.lean ====
/-
  Region 6 of the kernel: the tree level of 32 nodes, computed 32 rows at a time.

  A grid point t works on rows 32·t … 32·t + 31 of the level: it reads those rows of the inputs and of the children's
  states, the whole weight matrices and the bias row, and writes those rows of the two results. Since an entry of the
  level's results depends on its own row only (LibTreeCell), what the point writes back is its block of rows of the
  level's matrices HArr and CArr of the WHOLE inputs; the blocks tile the rows, so the two result arrays end as HArr and CArr.
-/
import proofs.«112656_j36661840839776_1_alg».proof.Proof.Gen.KernelIdeal.Frame
import proofs.«112656_j36661840839776_1_alg».proof.Proof.LibTreeCell

set_option maxRecDepth 16384

noncomputable section

namespace Cert.KernelIdeal.Level6

open Cert.KernelIdeal Cert.KernelIdeal.Gen Idealize.ShloMosaic Idealize.ShloMosaic.TcCoe Idealize.ShloMosaic.ValueIdx
open Idealize.SL.Sem Cert.TreeCell
open Idealize.ShloMosaic.Pipeline (Dat Cfg Window)

/-! ## The body's values at an entry of a block -/

section Payloads
variable (x0 : Vec Ideal S32x1024 .bf16) (x1 x2 : Vec Ideal S32x2048 .f32) (w : Vec Ideal S1024x8192 .bf16)
  (u : Vec Ideal S2048x8192 .bf16) (b : Vec Ideal S1x8192 .f32)

theorem gates_apply (p : Fin 32) (j : Fin 8192) : k6_pay1 (F := Ideal) x0 x1 w u b (ix2 p j) = gateAt x0 x1 w u b p j :=
  kGates_apply (T := 32) x0 x1 w u b _ _ _ _ _ _ _ p j

theorem cell_apply (p : Fin 32) (q : Fin 2048) : k6_pay2 (F := Ideal) x0 x1 w u b x2 (ix2 p q) = cAt x0 x1 x2 w u b p q :=
  kC_apply (T := 32) x2 (k6_pay1 (F := Ideal) x0 x1 w u b) (gateAt x0 x1 w u b) (gates_apply x0 x1 w u b) (fun i q => x2 (ix2 i q))
    (fun _ _ => rfl) _ _ _ _ p q

theorem hout_apply (p : Fin 32) (q : Fin 1024) :
    k6_pay3 (F := Ideal) x0 x1 w u b x2 (ix2 p q) = HArr x0 x1 x2 w u b (ix2 p q) :=
  kH_apply (T := 32) (k6_pay1 (F := Ideal) x0 x1 w u b) (gateAt x0 x1 w u b) (gates_apply x0 x1 w u b)
    (k6_pay2 (F := Ideal) x0 x1 w u b x2) (cAt x0 x1 x2 w u b) (cell_apply x0 x1 x2 w u b) _ (by decide) p q

theorem cout_apply (p : Fin 32) (q : Fin 1024) :
    k6_pay4 (F := Ideal) x0 x1 w u b x2 (ix2 p q) = CArr x0 x1 x2 w u b (ix2 p q) :=
  kCout_apply (T := 32) (k6_pay2 (F := Ideal) x0 x1 w u b x2) (cAt x0 x1 x2 w u b) (cell_apply x0 x1 x2 w u b) (by decide) p q

end Payloads

/-! ## From blocks to the arrays -/

section Blocks
variable (V : (c : Dev nD) → (b : Ref sig .tc) → Buf (Elt Ideal) ((c : Thread nD τ).loc b))

omit V in
theorem hz : (![0, 0] : Fin 2 → Nat) = fun _ => 0 := funext fun a => by fin_cases a <;> rfl

omit V in
/-- The index maps over the grid: the row-blocked windows sit at block row t, the weights and the bias at block 0. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0
    ∧ win6_7.index t (0 : Fin 2) = t.val ∧ win6_7.index t (1 : Fin 2) = 0 :=
  (by decide +kernel : ∀ t : Fin grid6.N, _)

theorem rows_x (c : Dev nD) (t : Fin cfg6.N) (ht : t.val < 1) (p : Fin 32) (k : Fin 1024) :
    iblk6 V c 0 t (ix2 p k) = V c main_v29 (ix2 ⟨t.val * 32 + p.val, by omega⟩ k) := by
  obtain ⟨e00, e01, e10, e11, e20, e21, e30, e31, e40, e41, e50, e51, e60, e61, e70, e71⟩ := idx_facts t
  show V c main_v29 (((cfg6.win 0).blk t).view.emb (ix2 p k)) = _
  refine congrArg (V c main_v29) (funext fun a => Fin.ext ?_)
  match a with
  | ⟨0, _⟩ => show win6_0.index t (0 : Fin 2) * 32 + 1 * p.val = t.val * 32 + p.val; omega
  | ⟨1, _⟩ => show win6_0.index t (1 : Fin 2) * 1024 + 1 * k.val = k.val; omega

theorem rows_h (c : Dev nD) (t : Fin cfg6.N) (ht : t.val < 1) (p : Fin 32) (k : Fin 2048) :
    iblk6 V c 1 t (ix2 p k) = V c main_v30 (ix2 ⟨t.val * 32 + p.val, by omega⟩ k) := by
  obtain ⟨e00, e01, e10, e11, e20, e21, e30, e31, e40, e41, e50, e51, e60, e61, e70, e71⟩ := idx_facts t
  show V c main_v30 (((cfg6.win 1).blk t).view.emb (ix2 p k)) = _
  refine congrArg (V c main_v30) (funext fun a => Fin.ext ?_)
  match a with
  | ⟨0, _⟩ => show win6_1.index t (0 : Fin 2) * 32 + 1 * p.val = t.val * 32 + p.val; omega
  | ⟨1, _⟩ => show win6_1.index t (1 : Fin 2) * 2048 + 1 * k.val = k.val; omega

theorem rows_c (c : Dev nD) (t : Fin cfg6.N) (ht : t.val < 1) (p : Fin 32) (k : Fin 2048) :
    iblk6 V c 2 t (ix2 p k) = V c main_v31 (ix2 ⟨t.val * 32 + p.val, by omega⟩ k) := by
  obtain ⟨e00, e01, e10, e11, e20, e21, e30, e31, e40, e41, e50, e51, e60, e61, e70, e71⟩ := idx_facts t
  show V c main_v31 (((cfg6.win 2).blk t).view.emb (ix2 p k)) = _
  refine congrArg (V c main_v31) (funext fun a => Fin.ext ?_)
  match a with
  | ⟨0, _⟩ => show win6_2.index t (0 : Fin 2) * 32 + 1 * p.val = t.val * 32 + p.val; omega
  | ⟨1, _⟩ => show win6_2.index t (1 : Fin 2) * 2048 + 1 * k.val = k.val; omega

theorem whole_w (c : Dev nD) (t : Fin cfg6.N) : iblk6 V c 3 t = V c main_v1 := by
  obtain ⟨e00, e01, e10, e11, e20, e21, e30, e31, e40, e41, e50, e51, e60, e61, e70, e71⟩ := idx_facts t
  funext y
  show V c main_v1 (((cfg6.win 3).blk t).view.emb y) = V c main_v1 y
  refine congrArg (V c main_v1) (funext fun a => Fin.ext ?_)
  match a with
  | ⟨0, _⟩ => show win6_3.index t (0 : Fin 2) * 1024 + 1 * (y 0).val = (y 0).val; omega
  | ⟨1, _⟩ => show win6_3.index t (1 : Fin 2) * 8192 + 1 * (y 1).val = (y 1).val; omega

theorem whole_u (c : Dev nD) (t : Fin cfg6.N) : iblk6 V c 4 t = V c main_v3 := by
  obtain ⟨e00, e01, e10, e11, e20, e21, e30, e31, e40, e41, e50, e51, e60, e61, e70, e71⟩ := idx_facts t
  funext y
  show V c main_v3 (((cfg6.win 4).blk t).view.emb y) = V c main_v3 y
  refine congrArg (V c main_v3) (funext fun a => Fin.ext ?_)
  match a with
  | ⟨0, _⟩ => show win6_4.index t (0 : Fin 2) * 2048 + 1 * (y 0).val = (y 0).val; omega
  | ⟨1, _⟩ => show win6_4.index t (1 : Fin 2) * 8192 + 1 * (y 1).val = (y 1).val; omega

theorem whole_b (c : Dev nD) (t : Fin cfg6.N) : iblk6 V c 5 t = V c main_v5 := by
  obtain ⟨e00, e01, e10, e11, e20, e21, e30, e31, e40, e41, e50, e51, e60, e61, e70, e71⟩ := idx_facts t
  funext y
  show V c main_v5 (((cfg6.win 5).blk t).view.emb y) = V c main_v5 y
  refine congrArg (V c main_v5) (funext fun a => Fin.ext ?_)
  match a with
  | ⟨0, _⟩ => show win6_5.index t (0 : Fin 2) * 1 + 1 * (y 0).val = (y 0).val; omega
  | ⟨1, _⟩ => show win6_5.index t (1 : Fin 2) * 8192 + 1 * (y 1).val = (y 1).val; omega

/-- What point t writes back through window 6 is its block of rows of HArr of the whole arrays. -/
theorem flushedH (c : Dev nD) (t : Fin cfg6.N) :
    (dat6 V c).flushed 6 t = ((cfg6.win 6).blk t).view.read (Elt Ideal)
      (HArr (V c main_v29) (V c main_v30) (V c main_v31) (V c main_v1) (V c main_v3) (V c main_v5)) := by
  show (cfg6.win 6).cut (grid6.coords t) ((dat6 V c).after 6 t) = _
  rw [after6_6]
  unfold out6_6
  rw [View.canon_unit_zero hz]
  simp only [View.ld_unit_zero (S := S32x1024) hz, View.ld_unit_zero (S := S32x2048) hz,
    View.ld_unit_zero (S := S1024x8192) hz, View.ld_unit_zero (S := S2048x8192) hz, View.ld_unit_zero (S := S1x8192) hz]
  have ht : t.val < 1 := lt_of_lt_of_eq t.isLt N_6
  obtain ⟨e00, e01, e10, e11, e20, e21, e30, e31, e40, e41, e50, e51, e60, e61, e70, e71⟩ := idx_facts t
  funext y
  obtain ⟨p, q, rfl⟩ : ∃ (p : Fin 32) (q : Fin 1024), y = ix2 p q := ⟨y 0, y 1, eq_ix2 y⟩
  show k6_pay3 (iblk6 V c 0 t) (iblk6 V c 1 t) (iblk6 V c 3 t) (iblk6 V c 4 t) (iblk6 V c 5 t) (iblk6 V c 2 t) (ix2 p q)
    = HArr (V c main_v29) (V c main_v30) (V c main_v31) (V c main_v1) (V c main_v3) (V c main_v5)
        (((cfg6.win 6).blk t).view.emb (ix2 p q))
  have hi : ((cfg6.win 6).blk t).view.emb (ix2 p q) = ix2 ⟨t.val * 32 + p.val, by omega⟩ q := by
    funext a; apply Fin.ext
    match a with
    | ⟨0, _⟩ => show win6_6.index t (0 : Fin 2) * 32 + 1 * p.val = t.val * 32 + p.val; omega
    | ⟨1, _⟩ => show win6_6.index t (1 : Fin 2) * 1024 + 1 * q.val = q.val; omega
  rw [hi, hout_apply]
  exact HArr_block (V c main_v29) (V c main_v30) (V c main_v31) (iblk6 V c 0 t) (iblk6 V c 1 t) (iblk6 V c 2 t)
    (V c main_v1) (V c main_v3) (V c main_v5) (iblk6 V c 3 t) (iblk6 V c 4 t) (iblk6 V c 5 t) p ⟨t.val * 32 + p.val, by omega⟩ q
    (rows_x V c t ht p) (rows_h V c t ht p) (rows_c V c t ht p) (whole_w V c t) (whole_u V c t) (whole_b V c t)

/-- What point t writes back through window 7 is its block of rows of CArr of the whole arrays. -/
theorem flushedC (c : Dev nD) (t : Fin cfg6.N) :
    (dat6 V c).flushed 7 t = ((cfg6.win 7).blk t).view.read (Elt Ideal)
      (CArr (V c main_v29) (V c main_v30) (V c main_v31) (V c main_v1) (V c main_v3) (V c main_v5)) := by
  show (cfg6.win 7).cut (grid6.coords t) ((dat6 V c).after 7 t) = _
  rw [after6_7]
  unfold out6_7
  rw [View.canon_unit_zero hz]
  simp only [View.ld_unit_zero (S := S32x1024) hz, View.ld_unit_zero (S := S32x2048) hz,
    View.ld_unit_zero (S := S1024x8192) hz, View.ld_unit_zero (S := S2048x8192) hz, View.ld_unit_zero (S := S1x8192) hz]
  have ht : t.val < 1 := lt_of_lt_of_eq t.isLt N_6
  obtain ⟨e00, e01, e10, e11, e20, e21, e30, e31, e40, e41, e50, e51, e60, e61, e70, e71⟩ := idx_facts t
  funext y
  obtain ⟨p, q, rfl⟩ : ∃ (p : Fin 32) (q : Fin 1024), y = ix2 p q := ⟨y 0, y 1, eq_ix2 y⟩
  show k6_pay4 (iblk6 V c 0 t) (iblk6 V c 1 t) (iblk6 V c 3 t) (iblk6 V c 4 t) (iblk6 V c 5 t) (iblk6 V c 2 t) (ix2 p q)
    = CArr (V c main_v29) (V c main_v30) (V c main_v31) (V c main_v1) (V c main_v3) (V c main_v5)
        (((cfg6.win 7).blk t).view.emb (ix2 p q))
  have hi : ((cfg6.win 7).blk t).view.emb (ix2 p q) = ix2 ⟨t.val * 32 + p.val, by omega⟩ q := by
    funext a; apply Fin.ext
    match a with
    | ⟨0, _⟩ => show win6_7.index t (0 : Fin 2) * 32 + 1 * p.val = t.val * 32 + p.val; omega
    | ⟨1, _⟩ => show win6_7.index t (1 : Fin 2) * 1024 + 1 * q.val = q.val; omega
  rw [hi, cout_apply]
  exact CArr_block (V c main_v29) (V c main_v30) (V c main_v31) (iblk6 V c 0 t) (iblk6 V c 1 t) (iblk6 V c 2 t)
    (V c main_v1) (V c main_v3) (V c main_v5) (iblk6 V c 3 t) (iblk6 V c 4 t) (iblk6 V c 5 t) p ⟨t.val * 32 + p.val, by omega⟩ q
    (rows_x V c t ht p) (rows_h V c t ht p) (rows_c V c t ht p) (whole_w V c t) (whole_u V c t) (whole_b V c t)

/-- Every row of the level is in some point's block: row r in the block of point r / 32. -/
theorem coverH (i : S32x1024.Idx) : ∃ t : Fin cfg6.N, (cfg6.win 6).flush t = true ∧ i ∈ ((cfg6.win 6).blk t).view.set := by
  have hi0 : (i 0).val < 32 := (i 0).isLt
  have hi1 : (i 1).val < 1024 := (i 1).isLt
  let t : Fin cfg6.N := ⟨(i 0).val / 32, by rw [show cfg6.N = 1 from N_6]; omega⟩
  obtain ⟨e00, e01, e10, e11, e20, e21, e30, e31, e40, e41, e50, e51, e60, e61, e70, e71⟩ := idx_facts t
  have tv : t.val = (i 0).val / 32 := rfl
  refine ⟨t, flush6_6 t, ?_⟩
  show i ∈ ((View.whole main_v32_0).slice (win6_6.rect t)).set
  rw [View.set_slice_whole, Rect.mem_set_unit]
  intro a
  match a with
  | ⟨0, _⟩ => show win6_6.index t (0 : Fin 2) * 32 ≤ (i 0).val ∧ (i 0).val < win6_6.index t (0 : Fin 2) * 32 + 32; omega
  | ⟨1, _⟩ => show win6_6.index t (1 : Fin 2) * 1024 ≤ (i 1).val ∧ (i 1).val < win6_6.index t (1 : Fin 2) * 1024 + 1024; omega

/-- Every row of the level is in some point's block: row r in the block of point r / 32. -/
theorem coverC (i : S32x1024.Idx) : ∃ t : Fin cfg6.N, (cfg6.win 7).flush t = true ∧ i ∈ ((cfg6.win 7).blk t).view.set := by
  have hi0 : (i 0).val < 32 := (i 0).isLt
  have hi1 : (i 1).val < 1024 := (i 1).isLt
  let t : Fin cfg6.N := ⟨(i 0).val / 32, by rw [show cfg6.N = 1 from N_6]; omega⟩
  obtain ⟨e00, e01, e10, e11, e20, e21, e30, e31, e40, e41, e50, e51, e60, e61, e70, e71⟩ := idx_facts t
  have tv : t.val = (i 0).val / 32 := rfl
  refine ⟨t, flush6_7 t, ?_⟩
  show i ∈ ((View.whole main_v32_1).slice (win6_7.rect t)).set
  rw [View.set_slice_whole, Rect.mem_set_unit]
  intro a
  match a with
  | ⟨0, _⟩ => show win6_7.index t (0 : Fin 2) * 32 ≤ (i 0).val ∧ (i 0).val < win6_7.index t (0 : Fin 2) * 32 + 32; omega
  | ⟨1, _⟩ => show win6_7.index t (1 : Fin 2) * 1024 ≤ (i 1).val ∧ (i 1).val < win6_7.index t (1 : Fin 2) * 1024 + 1024; omega

/-- The hidden-state array after the region. -/
theorem finalH (c : Dev nD) : (dat6 V c).arrAt 6 cfg6.N
    = HArr (V c main_v29) (V c main_v30) (V c main_v31) (V c main_v1) (V c main_v3) (V c main_v5) :=
  (dat6 V c).arrAt_eq_of_cover 6 _ (fun t _ => flushedH V c t) coverH

/-- The cell-state array after the region. -/
theorem finalC (c : Dev nD) : (dat6 V c).arrAt 7 cfg6.N
    = CArr (V c main_v29) (V c main_v30) (V c main_v31) (V c main_v1) (V c main_v3) (V c main_v5) :=
  (dat6 V c).arrAt_eq_of_cover 7 _ (fun t _ => flushedC V c t) coverC

end Blocks

end Cert.KernelIdeal.Level6

end
-- ==== Proof.Level7.lean ====
/-
  Region 7 of the kernel: the tree level of 16 nodes, computed 16 rows at a time.

  A grid point t works on rows 16·t … 16·t + 15 of the level: it reads those rows of the inputs and of the children's
  states, the whole weight matrices and the bias row, and writes those rows of the two results. Since an entry of the
  level's results depends on its own row only (LibTreeCell), what the point writes back is its block of rows of the
  level's matrices HArr and CArr of the WHOLE inputs; the blocks tile the rows, so the two result arrays end as HArr and CArr.
-/
import proofs.«112656_j36661840839776_1_alg».proof.Proof.Gen.KernelIdeal.Frame
import proofs.«112656_j36661840839776_1_alg».proof.Proof.LibTreeCell

set_option maxRecDepth 16384

noncomputable section

namespace Cert.KernelIdeal.Level7

open Cert.KernelIdeal Cert.KernelIdeal.Gen Idealize.ShloMosaic Idealize.ShloMosaic.TcCoe Idealize.ShloMosaic.ValueIdx
open Idealize.SL.Sem Cert.TreeCell
open Idealize.ShloMosaic.Pipeline (Dat Cfg Window)

/-! ## The body's values at an entry of a block -/

section Payloads
variable (x0 : Vec Ideal S16x1024 .bf16) (x1 x2 : Vec Ideal S16x2048 .f32) (w : Vec Ideal S1024x8192 .bf16)
  (u : Vec Ideal S2048x8192 .bf16) (b : Vec Ideal S1x8192 .f32)

theorem gates_apply (p : Fin 16) (j : Fin 8192) : k7_pay1 (F := Ideal) x0 x1 w u b (ix2 p j) = gateAt x0 x1 w u b p j :=
  kGates_apply (T := 16) x0 x1 w u b _ _ _ _ _ _ _ p j

theorem cell_apply (p : Fin 16) (q : Fin 2048) : k7_pay2 (F := Ideal) x0 x1 w u b x2 (ix2 p q) = cAt x0 x1 x2 w u b p q :=
  kC_apply (T := 16) x2 (k7_pay1 (F := Ideal) x0 x1 w u b) (gateAt x0 x1 w u b) (gates_apply x0 x1 w u b) (fun i q => x2 (ix2 i q))
    (fun _ _ => rfl) _ _ _ _ p q

theorem hout_apply (p : Fin 16) (q : Fin 1024) :
    k7_pay3 (F := Ideal) x0 x1 w u b x2 (ix2 p q) = HArr x0 x1 x2 w u b (ix2 p q) :=
  kH_apply (T := 16) (k7_pay1 (F := Ideal) x0 x1 w u b) (gateAt x0 x1 w u b) (gates_apply x0 x1 w u b)
    (k7_pay2 (F := Ideal) x0 x1 w u b x2) (cAt x0 x1 x2 w u b) (cell_apply x0 x1 x2 w u b) _ (by decide) p q

theorem cout_apply (p : Fin 16) (q : Fin 1024) :
    k7_pay4 (F := Ideal) x0 x1 w u b x2 (ix2 p q) = CArr x0 x1 x2 w u b (ix2 p q) :=
  kCout_apply (T := 16) (k7_pay2 (F := Ideal) x0 x1 w u b x2) (cAt x0 x1 x2 w u b) (cell_apply x0 x1 x2 w u b) (by decide) p q

end Payloads

/-! ## From blocks to the arrays -/

section Blocks
variable (V : (c : Dev nD) → (b : Ref sig .tc) → Buf (Elt Ideal) ((c : Thread nD τ).loc b))

omit V in
theorem hz : (![0, 0] : Fin 2 → Nat) = fun _ => 0 := funext fun a => by fin_cases a <;> rfl

omit V in
/-- The index maps over the grid: the row-blocked windows sit at block row t, the weights and the bias at block 0. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0
    ∧ win7_7.index t (0 : Fin 2) = t.val ∧ win7_7.index t (1 : Fin 2) = 0 :=
  (by decide +kernel : ∀ t : Fin grid7.N, _)

theorem rows_x (c : Dev nD) (t : Fin cfg7.N) (ht : t.val < 1) (p : Fin 16) (k : Fin 1024) :
    iblk7 V c 0 t (ix2 p k) = V c main_v33 (ix2 ⟨t.val * 16 + p.val, by omega⟩ k) := by
  obtain ⟨e00, e01, e10, e11, e20, e21, e30, e31, e40, e41, e50, e51, e60, e61, e70, e71⟩ := idx_facts t
  show V c main_v33 (((cfg7.win 0).blk t).view.emb (ix2 p k)) = _
  refine congrArg (V c main_v33) (funext fun a => Fin.ext ?_)
  match a with
  | ⟨0, _⟩ => show win7_0.index t (0 : Fin 2) * 16 + 1 * p.val = t.val * 16 + p.val; omega
  | ⟨1, _⟩ => show win7_0.index t (1 : Fin 2) * 1024 + 1 * k.val = k.val; omega

theorem rows_h (c : Dev nD) (t : Fin cfg7.N) (ht : t.val < 1) (p : Fin 16) (k : Fin 2048) :
    iblk7 V c 1 t (ix2 p k) = V c main_v34 (ix2 ⟨t.val * 16 + p.val, by omega⟩ k) := by
  obtain ⟨e00, e01, e10, e11, e20, e21, e30, e31, e40, e41, e50, e51, e60, e61, e70, e71⟩ := idx_facts t
  show V c main_v34 (((cfg7.win 1).blk t).view.emb (ix2 p k)) = _
  refine congrArg (V c main_v34) (funext fun a => Fin.ext ?_)
  match a with
  | ⟨0, _⟩ => show win7_1.index t (0 : Fin 2) * 16 + 1 * p.val = t.val * 16 + p.val; omega
  | ⟨1, _⟩ => show win7_1.index t (1 : Fin 2) * 2048 + 1 * k.val = k.val; omega

theorem rows_c (c : Dev nD) (t : Fin cfg7.N) (ht : t.val < 1) (p : Fin 16) (k : Fin 2048) :
    iblk7 V c 2 t (ix2 p k) = V c main_v35 (ix2 ⟨t.val * 16 + p.val, by omega⟩ k) := by
  obtain ⟨e00, e01, e10, e11, e20, e21, e30, e31, e40, e41, e50, e51, e60, e61, e70, e71⟩ := idx_facts t
  show V c main_v35 (((cfg7.win 2).blk t).view.emb (ix2 p k)) = _
  refine congrArg (V c main_v35) (funext fun a => Fin.ext ?_)
  match a with
  | ⟨0, _⟩ => show win7_2.index t (0 : Fin 2) * 16 + 1 * p.val = t.val * 16 + p.val; omega
  | ⟨1, _⟩ => show win7_2.index t (1 : Fin 2) * 2048 + 1 * k.val = k.val; omega

theorem whole_w (c : Dev nD) (t : Fin cfg7.N) : iblk7 V c 3 t = V c main_v1 := by
  obtain ⟨e00, e01, e10, e11, e20, e21, e30, e31, e40, e41, e50, e51, e60, e61, e70, e71⟩ := idx_facts t
  funext y
  show V c main_v1 (((cfg7.win 3).blk t).view.emb y) = V c main_v1 y
  refine congrArg (V c main_v1) (funext fun a => Fin.ext ?_)
  match a with
  | ⟨0, _⟩ => show win7_3.index t (0 : Fin 2) * 1024 + 1 * (y 0).val = (y 0).val; omega
  | ⟨1, _⟩ => show win7_3.index t (1 : Fin 2) * 8192 + 1 * (y 1).val = (y 1).val; omega

theorem whole_u (c : Dev nD) (t : Fin cfg7.N) : iblk7 V c 4 t = V c main_v3 := by
  obtain ⟨e00, e01, e10, e11, e20, e21, e30, e31, e40, e41, e50, e51, e60, e61, e70, e71⟩ := idx_facts t
  funext y
  show V c main_v3 (((cfg7.win 4).blk t).view.emb y) = V c main_v3 y
  refine congrArg (V c main_v3) (funext fun a => Fin.ext ?_)
  match a with
  | ⟨0, _⟩ => show win7_4.index t (0 : Fin 2) * 2048 + 1 * (y 0).val = (y 0).val; omega
  | ⟨1, _⟩ => show win7_4.index t (1 : Fin 2) * 8192 + 1 * (y 1).val = (y 1).val; omega

theorem whole_b (c : Dev nD) (t : Fin cfg7.N) : iblk7 V c 5 t = V c main_v5 := by
  obtain ⟨e00, e01, e10, e11, e20, e21, e30, e31, e40, e41, e50, e51, e60, e61, e70, e71⟩ := idx_facts t
  funext y
  show V c main_v5 (((cfg7.win 5).blk t).view.emb y) = V c main_v5 y
  refine congrArg (V c main_v5) (funext fun a => Fin.ext ?_)
  match a with
  | ⟨0, _⟩ => show win7_5.index t (0 : Fin 2) * 1 + 1 * (y 0).val = (y 0).val; omega
  | ⟨1, _⟩ => show win7_5.index t (1 : Fin 2) * 8192 + 1 * (y 1).val = (y 1).val; omega

/-- What point t writes back through window 6 is its block of rows of HArr of the whole arrays. -/
theorem flushedH (c : Dev nD) (t : Fin cfg7.N) :
    (dat7 V c).flushed 6 t = ((cfg7.win 6).blk t).view.read (Elt Ideal)
      (HArr (V c main_v33) (V c main_v34) (V c main_v35) (V c main_v1) (V c main_v3) (V c main_v5)) := by
  show (cfg7.win 6).cut (grid7.coords t) ((dat7 V c).after 6 t) = _
  rw [after7_6]
  unfold out7_6
  rw [View.canon_unit_zero hz]
  simp only [View.ld_unit_zero (S := S16x1024) hz, View.ld_unit_zero (S := S16x2048) hz,
    View.ld_unit_zero (S := S1024x8192) hz, View.ld_unit_zero (S := S2048x8192) hz, View.ld_unit_zero (S := S1x8192) hz]
  have ht : t.val < 1 := lt_of_lt_of_eq t.isLt N_7
  obtain ⟨e00, e01, e10, e11, e20, e21, e30, e31, e40, e41, e50, e51, e60, e61, e70, e71⟩ := idx_facts t
  funext y
  obtain ⟨p, q, rfl⟩ : ∃ (p : Fin 16) (q : Fin 1024), y = ix2 p q := ⟨y 0, y 1, eq_ix2 y⟩
  show k7_pay3 (iblk7 V c 0 t) (iblk7 V c 1 t) (iblk7 V c 3 t) (iblk7 V c 4 t) (iblk7 V c 5 t) (iblk7 V c 2 t) (ix2 p q)
    = HArr (V c main_v33) (V c main_v34) (V c main_v35) (V c main_v1) (V c main_v3) (V c main_v5)
        (((cfg7.win 6).blk t).view.emb (ix2 p q))
  have hi : ((cfg7.win 6).blk t).view.emb (ix2 p q) = ix2 ⟨t.val * 16 + p.val, by omega⟩ q := by
    funext a; apply Fin.ext
    match a with
    | ⟨0, _⟩ => show win7_6.index t (0 : Fin 2) * 16 + 1 * p.val = t.val * 16 + p.val; omega
    | ⟨1, _⟩ => show win7_6.index t (1 : Fin 2) * 1024 + 1 * q.val = q.val; omega
  rw [hi, hout_apply]
  exact HArr_block (V c main_v33) (V c main_v34) (V c main_v35) (iblk7 V c 0 t) (iblk7 V c 1 t) (iblk7 V c 2 t)
    (V c main_v1) (V c main_v3) (V c main_v5) (iblk7 V c 3 t) (iblk7 V c 4 t) (iblk7 V c 5 t) p ⟨t.val * 16 + p.val, by omega⟩ q
    (rows_x V c t ht p) (rows_h V c t ht p) (rows_c V c t ht p) (whole_w V c t) (whole_u V c t) (whole_b V c t)

/-- What point t writes back through window 7 is its block of rows of CArr of the whole arrays. -/
theorem flushedC (c : Dev nD) (t : Fin cfg7.N) :
    (dat7 V c).flushed 7 t = ((cfg7.win 7).blk t).view.read (Elt Ideal)
      (CArr (V c main_v33) (V c main_v34) (V c main_v35) (V c main_v1) (V c main_v3) (V c main_v5)) := by
  show (cfg7.win 7).cut (grid7.coords t) ((dat7 V c).after 7 t) = _
  rw [after7_7]
  unfold out7_7
  rw [View.canon_unit_zero hz]
  simp only [View.ld_unit_zero (S := S16x1024) hz, View.ld_unit_zero (S := S16x2048) hz,
    View.ld_unit_zero (S := S1024x8192) hz, View.ld_unit_zero (S := S2048x8192) hz, View.ld_unit_zero (S := S1x8192) hz]
  have ht : t.val < 1 := lt_of_lt_of_eq t.isLt N_7
  obtain ⟨e00, e01, e10, e11, e20, e21, e30, e31, e40, e41, e50, e51, e60, e61, e70, e71⟩ := idx_facts t
  funext y
  obtain ⟨p, q, rfl⟩ : ∃ (p : Fin 16) (q : Fin 1024), y = ix2 p q := ⟨y 0, y 1, eq_ix2 y⟩
  show k7_pay4 (iblk7 V c 0 t) (iblk7 V c 1 t) (iblk7 V c 3 t) (iblk7 V c 4 t) (iblk7 V c 5 t) (iblk7 V c 2 t) (ix2 p q)
    = CArr (V c main_v33) (V c main_v34) (V c main_v35) (V c main_v1) (V c main_v3) (V c main_v5)
        (((cfg7.win 7).blk t).view.emb (ix2 p q))
  have hi : ((cfg7.win 7).blk t).view.emb (ix2 p q) = ix2 ⟨t.val * 16 + p.val, by omega⟩ q := by
    funext a; apply Fin.ext
    match a with
    | ⟨0, _⟩ => show win7_7.index t (0 : Fin 2) * 16 + 1 * p.val = t.val * 16 + p.val; omega
    | ⟨1, _⟩ => show win7_7.index t (1 : Fin 2) * 1024 + 1 * q.val = q.val; omega
  rw [hi, cout_apply]
  exact CArr_block (V c main_v33) (V c main_v34) (V c main_v35) (iblk7 V c 0 t) (iblk7 V c 1 t) (iblk7 V c 2 t)
    (V c main_v1) (V c main_v3) (V c main_v5) (iblk7 V c 3 t) (iblk7 V c 4 t) (iblk7 V c 5 t) p ⟨t.val * 16 + p.val, by omega⟩ q
    (rows_x V c t ht p) (rows_h V c t ht p) (rows_c V c t ht p) (whole_w V c t) (whole_u V c t) (whole_b V c t)

/-- Every row of the level is in some point's block: row r in the block of point r / 16. -/
theorem coverH (i : S16x1024.Idx) : ∃ t : Fin cfg7.N, (cfg7.win 6).flush t = true ∧ i ∈ ((cfg7.win 6).blk t).view.set := by
  have hi0 : (i 0).val < 16 := (i 0).isLt
  have hi1 : (i 1).val < 1024 := (i 1).isLt
  let t : Fin cfg7.N := ⟨(i 0).val / 16, by rw [show cfg7.N = 1 from N_7]; omega⟩
  obtain ⟨e00, e01, e10, e11, e20, e21, e30, e31, e40, e41, e50, e51, e60, e61, e70, e71⟩ := idx_facts t
  have tv : t.val = (i 0).val / 16 := rfl
  refine ⟨t, flush7_6 t, ?_⟩
  show i ∈ ((View.whole main_v36_0).slice (win7_6.rect t)).set
  rw [View.set_slice_whole, Rect.mem_set_unit]
  intro a
  match a with
  | ⟨0, _⟩ => show win7_6.index t (0 : Fin 2) * 16 ≤ (i 0).val ∧ (i 0).val < win7_6.index t (0 : Fin 2) * 16 + 16; omega
  | ⟨1, _⟩ => show win7_6.index t (1 : Fin 2) * 1024 ≤ (i 1).val ∧ (i 1).val < win7_6.index t (1 : Fin 2) * 1024 + 1024; omega

/-- Every row of the level is in some point's block: row r in the block of point r / 16. -/
theorem coverC (i : S16x1024.Idx) : ∃ t : Fin cfg7.N, (cfg7.win 7).flush t = true ∧ i ∈ ((cfg7.win 7).blk t).view.set := by
  have hi0 : (i 0).val < 16 := (i 0).isLt
  have hi1 : (i 1).val < 1024 := (i 1).isLt
  let t : Fin cfg7.N := ⟨(i 0).val / 16, by rw [show cfg7.N = 1 from N_7]; omega⟩
  obtain ⟨e00, e01, e10, e11, e20, e21, e30, e31, e40, e41, e50, e51, e60, e61, e70, e71⟩ := idx_facts t
  have tv : t.val = (i 0).val / 16 := rfl
  refine ⟨t, flush7_7 t, ?_⟩
  show i ∈ ((View.whole main_v36_1).slice (win7_7.rect t)).set
  rw [View.set_slice_whole, Rect.mem_set_unit]
  intro a
  match a with
  | ⟨0, _⟩ => show win7_7.index t (0 : Fin 2) * 16 ≤ (i 0).val ∧ (i 0).val < win7_7.index t (0 : Fin 2) * 16 + 16; omega
  | ⟨1, _⟩ => show win7_7.index t (1 : Fin 2) * 1024 ≤ (i 1).val ∧ (i 1).val < win7_7.index t (1 : Fin 2) * 1024 + 1024; omega

/-- The hidden-state array after the region. -/
theorem finalH (c : Dev nD) : (dat7 V c).arrAt 6 cfg7.N
    = HArr (V c main_v33) (V c main_v34) (V c main_v35) (V c main_v1) (V c main_v3) (V c main_v5) :=
  (dat7 V c).arrAt_eq_of_cover 6 _ (fun t _ => flushedH V c t) coverH

/-- The cell-state array after the region. -/
theorem finalC (c : Dev nD) : (dat7 V c).arrAt 7 cfg7.N
    = CArr (V c main_v33) (V c main_v34) (V c main_v35) (V c main_v1) (V c main_v3) (V c main_v5) :=
  (dat7 V c).arrAt_eq_of_cover 7 _ (fun t _ => flushedC V c t) coverC

end Blocks

end Cert.KernelIdeal.Level7

end
-- ==== Proof.Level8.lean ====
/-
  Region 8 of the kernel: the tree level of 8 nodes, computed 8 rows at a time.

  A grid point t works on rows 8·t … 8·t + 7 of the level: it reads those rows of the inputs and of the children's
  states, the whole weight matrices and the bias row, and writes those rows of the two results. Since an entry of the
  level's results depends on its own row only (LibTreeCell), what the point writes back is its block of rows of the
  level's matrices HArr and CArr of the WHOLE inputs; the blocks tile the rows, so the two result arrays end as HArr and CArr.
-/
import proofs.«112656_j36661840839776_1_alg».proof.Proof.Gen.KernelIdeal.Frame
import proofs.«112656_j36661840839776_1_alg».proof.Proof.LibTreeCell

set_option maxRecDepth 16384

noncomputable section

namespace Cert.KernelIdeal.Level8

open Cert.KernelIdeal Cert.KernelIdeal.Gen Idealize.ShloMosaic Idealize.ShloMosaic.TcCoe Idealize.ShloMosaic.ValueIdx
open Idealize.SL.Sem Cert.TreeCell
open Idealize.ShloMosaic.Pipeline (Dat Cfg Window)

/-! ## The body's values at an entry of a block -/

section Payloads
variable (x0 : Vec Ideal S8x1024 .bf16) (x1 x2 : Vec Ideal S8x2048 .f32) (w : Vec Ideal S1024x8192 .bf16)
  (u : Vec Ideal S2048x8192 .bf16) (b : Vec Ideal S1x8192 .f32)

theorem gates_apply (p : Fin 8) (j : Fin 8192) : k8_pay1 (F := Ideal) x0 x1 w u b (ix2 p j) = gateAt x0 x1 w u b p j :=
  kGates_apply (T := 8) x0 x1 w u b _ _ _ _ _ _ _ p j

theorem cell_apply (p : Fin 8) (q : Fin 2048) : k8_pay2 (F := Ideal) x0 x1 w u b x2 (ix2 p q) = cAt x0 x1 x2 w u b p q :=
  kC_apply (T := 8) x2 (k8_pay1 (F := Ideal) x0 x1 w u b) (gateAt x0 x1 w u b) (gates_apply x0 x1 w u b) (fun i q => x2 (ix2 i q))
    (fun _ _ => rfl) _ _ _ _ p q

theorem hout_apply (p : Fin 8) (q : Fin 1024) :
    k8_pay3 (F := Ideal) x0 x1 w u b x2 (ix2 p q) = HArr x0 x1 x2 w u b (ix2 p q) :=
  kH_apply (T := 8) (k8_pay1 (F := Ideal) x0 x1 w u b) (gateAt x0 x1 w u b) (gates_apply x0 x1 w u b)
    (k8_pay2 (F := Ideal) x0 x1 w u b x2) (cAt x0 x1 x2 w u b) (cell_apply x0 x1 x2 w u b) _ (by decide) p q

theorem cout_apply (p : Fin 8) (q : Fin 1024) :
    k8_pay4 (F := Ideal) x0 x1 w u b x2 (ix2 p q) = CArr x0 x1 x2 w u b (ix2 p q) :=
  kCout_apply (T := 8) (k8_pay2 (F := Ideal) x0 x1 w u b x2) (cAt x0 x1 x2 w u b) (cell_apply x0 x1 x2 w u b) (by decide) p q

end Payloads

/-! ## From blocks to the arrays -/

section Blocks
variable (V : (c : Dev nD) → (b : Ref sig .tc) → Buf (Elt Ideal) ((c : Thread nD τ).loc b))

omit V in
theorem hz : (![0, 0] : Fin 2 → Nat) = fun _ => 0 := funext fun a => by fin_cases a <;> rfl

omit V in
/-- The index maps over the grid: the row-blocked windows sit at block row t, the weights and the bias at block 0. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0
    ∧ win8_7.index t (0 : Fin 2) = t.val ∧ win8_7.index t (1 : Fin 2) = 0 :=
  (by decide +kernel : ∀ t : Fin grid8.N, _)

theorem rows_x (c : Dev nD) (t : Fin cfg8.N) (ht : t.val < 1) (p : Fin 8) (k : Fin 1024) :
    iblk8 V c 0 t (ix2 p k) = V c main_v37 (ix2 ⟨t.val * 8 + p.val, by omega⟩ k) := by
  obtain ⟨e00, e01, e10, e11, e20, e21, e30, e31, e40, e41, e50, e51, e60, e61, e70, e71⟩ := idx_facts t
  show V c main_v37 (((cfg8.win 0).blk t).view.emb (ix2 p k)) = _
  refine congrArg (V c main_v37) (funext fun a => Fin.ext ?_)
  match a with
  | ⟨0, _⟩ => show win8_0.index t (0 : Fin 2) * 8 + 1 * p.val = t.val * 8 + p.val; omega
  | ⟨1, _⟩ => show win8_0.index t (1 : Fin 2) * 1024 + 1 * k.val = k.val; omega

theorem rows_h (c : Dev nD) (t : Fin cfg8.N) (ht : t.val < 1) (p : Fin 8) (k : Fin 2048) :
    iblk8 V c 1 t (ix2 p k) = V c main_v38 (ix2 ⟨t.val * 8 + p.val, by omega⟩ k) := by
  obtain ⟨e00, e01, e10, e11, e20, e21, e30, e31, e40, e41, e50, e51, e60, e61, e70, e71⟩ := idx_facts t
  show V c main_v38 (((cfg8.win 1).blk t).view.emb (ix2 p k)) = _
  refine congrArg (V c main_v38) (funext fun a => Fin.ext ?_)
  match a with
  | ⟨0, _⟩ => show win8_1.index t (0 : Fin 2) * 8 + 1 * p.val = t.val * 8 + p.val; omega
  | ⟨1, _⟩ => show win8_1.index t (1 : Fin 2) * 2048 + 1 * k.val = k.val; omega

theorem rows_c (c : Dev nD) (t : Fin cfg8.N) (ht : t.val < 1) (p : Fin 8) (k : Fin 2048) :
    iblk8 V c 2 t (ix2 p k) = V c main_v39 (ix2 ⟨t.val * 8 + p.val, by omega⟩ k) := by
  obtain ⟨e00, e01, e10, e11, e20, e21, e30, e31, e40, e41, e50, e51, e60, e61, e70, e71⟩ := idx_facts t
  show V c main_v39 (((cfg8.win 2).blk t).view.emb (ix2 p k)) = _
  refine congrArg (V c main_v39) (funext fun a => Fin.ext ?_)
  match a with
  | ⟨0, _⟩ => show win8_2.index t (0 : Fin 2) * 8 + 1 * p.val = t.val * 8 + p.val; omega
  | ⟨1, _⟩ => show win8_2.index t (1 : Fin 2) * 2048 + 1 * k.val = k.val; omega

theorem whole_w (c : Dev nD) (t : Fin cfg8.N) : iblk8 V c 3 t = V c main_v1 := by
  obtain ⟨e00, e01, e10, e11, e20, e21, e30, e31, e40, e41, e50, e51, e60, e61, e70, e71⟩ := idx_facts t
  funext y
  show V c main_v1 (((cfg8.win 3).blk t).view.emb y) = V c main_v1 y
  refine congrArg (V c main_v1) (funext fun a => Fin.ext ?_)
  match a with
  | ⟨0, _⟩ => show win8_3.index t (0 : Fin 2) * 1024 + 1 * (y 0).val = (y 0).val; omega
  | ⟨1, _⟩ => show win8_3.index t (1 : Fin 2) * 8192 + 1 * (y 1).val = (y 1).val; omega

theorem whole_u (c : Dev nD) (t : Fin cfg8.N) : iblk8 V c 4 t = V c main_v3 := by
  obtain ⟨e00, e01, e10, e11, e20, e21, e30, e31, e40, e41, e50, e51, e60, e61, e70, e71⟩ := idx_facts t
  funext y
  show V c main_v3 (((cfg8.win 4).blk t).view.emb y) = V c main_v3 y
  refine congrArg (V c main_v3) (funext fun a => Fin.ext ?_)
  match a with
  | ⟨0, _⟩ => show win8_4.index t (0 : Fin 2) * 2048 + 1 * (y 0).val = (y 0).val; omega
  | ⟨1, _⟩ => show win8_4.index t (1 : Fin 2) * 8192 + 1 * (y 1).val = (y 1).val; omega

theorem whole_b (c : Dev nD) (t : Fin cfg8.N) : iblk8 V c 5 t = V c main_v5 := by
  obtain ⟨e00, e01, e10, e11, e20, e21, e30, e31, e40, e41, e50, e51, e60, e61, e70, e71⟩ := idx_facts t
  funext y
  show V c main_v5 (((cfg8.win 5).blk t).view.emb y) = V c main_v5 y
  refine congrArg (V c main_v5) (funext fun a => Fin.ext ?_)
  match a with
  | ⟨0, _⟩ => show win8_5.index t (0 : Fin 2) * 1 + 1 * (y 0).val = (y 0).val; omega
  | ⟨1, _⟩ => show win8_5.index t (1 : Fin 2) * 8192 + 1 * (y 1).val = (y 1).val; omega

/-- What point t writes back through window 6 is its block of rows of HArr of the whole arrays. -/
theorem flushedH (c : Dev nD) (t : Fin cfg8.N) :
    (dat8 V c).flushed 6 t = ((cfg8.win 6).blk t).view.read (Elt Ideal)
      (HArr (V c main_v37) (V c main_v38) (V c main_v39) (V c main_v1) (V c main_v3) (V c main_v5)) := by
  show (cfg8.win 6).cut (grid8.coords t) ((dat8 V c).after 6 t) = _
  rw [after8_6]
  unfold out8_6
  rw [View.canon_unit_zero hz]
  simp only [View.ld_unit_zero (S := S8x1024) hz, View.ld_unit_zero (S := S8x2048) hz,
    View.ld_unit_zero (S := S1024x8192) hz, View.ld_unit_zero (S := S2048x8192) hz, View.ld_unit_zero (S := S1x8192) hz]
  have ht : t.val < 1 := lt_of_lt_of_eq t.isLt N_8
  obtain ⟨e00, e01, e10, e11, e20, e21, e30, e31, e40, e41, e50, e51, e60, e61, e70, e71⟩ := idx_facts t
  funext y
  obtain ⟨p, q, rfl⟩ : ∃ (p : Fin 8) (q : Fin 1024), y = ix2 p q := ⟨y 0, y 1, eq_ix2 y⟩
  show k8_pay3 (iblk8 V c 0 t) (iblk8 V c 1 t) (iblk8 V c 3 t) (iblk8 V c 4 t) (iblk8 V c 5 t) (iblk8 V c 2 t) (ix2 p q)
    = HArr (V c main_v37) (V c main_v38) (V c main_v39) (V c main_v1) (V c main_v3) (V c main_v5)
        (((cfg8.win 6).blk t).view.emb (ix2 p q))
  have hi : ((cfg8.win 6).blk t).view.emb (ix2 p q) = ix2 ⟨t.val * 8 + p.val, by omega⟩ q := by
    funext a; apply Fin.ext
    match a with
    | ⟨0, _⟩ => show win8_6.index t (0 : Fin 2) * 8 + 1 * p.val = t.val * 8 + p.val; omega
    | ⟨1, _⟩ => show win8_6.index t (1 : Fin 2) * 1024 + 1 * q.val = q.val; omega
  rw [hi, hout_apply]
  exact HArr_block (V c main_v37) (V c main_v38) (V c main_v39) (iblk8 V c 0 t) (iblk8 V c 1 t) (iblk8 V c 2 t)
    (V c main_v1) (V c main_v3) (V c main_v5) (iblk8 V c 3 t) (iblk8 V c 4 t) (iblk8 V c 5 t) p ⟨t.val * 8 + p.val, by omega⟩ q
    (rows_x V c t ht p) (rows_h V c t ht p) (rows_c V c t ht p) (whole_w V c t) (whole_u V c t) (whole_b V c t)

/-- What point t writes back through window 7 is its block of rows of CArr of the whole arrays. -/
theorem flushedC (c : Dev nD) (t : Fin cfg8.N) :
    (dat8 V c).flushed 7 t = ((cfg8.win 7).blk t).view.read (Elt Ideal)
      (CArr (V c main_v37) (V c main_v38) (V c main_v39) (V c main_v1) (V c main_v3) (V c main_v5)) := by
  show (cfg8.win 7).cut (grid8.coords t) ((dat8 V c).after 7 t) = _
  rw [after8_7]
  unfold out8_7
  rw [View.canon_unit_zero hz]
  simp only [View.ld_unit_zero (S := S8x1024) hz, View.ld_unit_zero (S := S8x2048) hz,
    View.ld_unit_zero (S := S1024x8192) hz, View.ld_unit_zero (S := S2048x8192) hz, View.ld_unit_zero (S := S1x8192) hz]
  have ht : t.val < 1 := lt_of_lt_of_eq t.isLt N_8
  obtain ⟨e00, e01, e10, e11, e20, e21, e30, e31, e40, e41, e50, e51, e60, e61, e70, e71⟩ := idx_facts t
  funext y
  obtain ⟨p, q, rfl⟩ : ∃ (p : Fin 8) (q : Fin 1024), y = ix2 p q := ⟨y 0, y 1, eq_ix2 y⟩
  show k8_pay4 (iblk8 V c 0 t) (iblk8 V c 1 t) (iblk8 V c 3 t) (iblk8 V c 4 t) (iblk8 V c 5 t) (iblk8 V c 2 t) (ix2 p q)
    = CArr (V c main_v37) (V c main_v38) (V c main_v39) (V c main_v1) (V c main_v3) (V c main_v5)
        (((cfg8.win 7).blk t).view.emb (ix2 p q))
  have hi : ((cfg8.win 7).blk t).view.emb (ix2 p q) = ix2 ⟨t.val * 8 + p.val, by omega⟩ q := by
    funext a; apply Fin.ext
    match a with
    | ⟨0, _⟩ => show win8_7.index t (0 : Fin 2) * 8 + 1 * p.val = t.val * 8 + p.val; omega
    | ⟨1, _⟩ => show win8_7.index t (1 : Fin 2) * 1024 + 1 * q.val = q.val; omega
  rw [hi, cout_apply]
  exact CArr_block (V c main_v37) (V c main_v38) (V c main_v39) (iblk8 V c 0 t) (iblk8 V c 1 t) (iblk8 V c 2 t)
    (V c main_v1) (V c main_v3) (V c main_v5) (iblk8 V c 3 t) (iblk8 V c 4 t) (iblk8 V c 5 t) p ⟨t.val * 8 + p.val, by omega⟩ q
    (rows_x V c t ht p) (rows_h V c t ht p) (rows_c V c t ht p) (whole_w V c t) (whole_u V c t) (whole_b V c t)

/-- Every row of the level is in some point's block: row r in the block of point r / 8. -/
theorem coverH (i : S8x1024.Idx) : ∃ t : Fin cfg8.N, (cfg8.win 6).flush t = true ∧ i ∈ ((cfg8.win 6).blk t).view.set := by
  have hi0 : (i 0).val < 8 := (i 0).isLt
  have hi1 : (i 1).val < 1024 := (i 1).isLt
  let t : Fin cfg8.N := ⟨(i 0).val / 8, by rw [show cfg8.N = 1 from N_8]; omega⟩
  obtain ⟨e00, e01, e10, e11, e20, e21, e30, e31, e40, e41, e50, e51, e60, e61, e70, e71⟩ := idx_facts t
  have tv : t.val = (i 0).val / 8 := rfl
  refine ⟨t, flush8_6 t, ?_⟩
  show i ∈ ((View.whole main_v40_0).slice (win8_6.rect t)).set
  rw [View.set_slice_whole, Rect.mem_set_unit]
  intro a
  match a with
  | ⟨0, _⟩ => show win8_6.index t (0 : Fin 2) * 8 ≤ (i 0).val ∧ (i 0).val < win8_6.index t (0 : Fin 2) * 8 + 8; omega
  | ⟨1, _⟩ => show win8_6.index t (1 : Fin 2) * 1024 ≤ (i 1).val ∧ (i 1).val < win8_6.index t (1 : Fin 2) * 1024 + 1024; omega

/-- Every row of the level is in some point's block: row r in the block of point r / 8. -/
theorem coverC (i : S8x1024.Idx) : ∃ t : Fin cfg8.N, (cfg8.win 7).flush t = true ∧ i ∈ ((cfg8.win 7).blk t).view.set := by
  have hi0 : (i 0).val < 8 := (i 0).isLt
  have hi1 : (i 1).val < 1024 := (i 1).isLt
  let t : Fin cfg8.N := ⟨(i 0).val / 8, by rw [show cfg8.N = 1 from N_8]; omega⟩
  obtain ⟨e00, e01, e10, e11, e20, e21, e30, e31, e40, e41, e50, e51, e60, e61, e70, e71⟩ := idx_facts t
  have tv : t.val = (i 0).val / 8 := rfl
  refine ⟨t, flush8_7 t, ?_⟩
  show i ∈ ((View.whole main_v40_1).slice (win8_7.rect t)).set
  rw [View.set_slice_whole, Rect.mem_set_unit]
  intro a
  match a with
  | ⟨0, _⟩ => show win8_7.index t (0 : Fin 2) * 8 ≤ (i 0).val ∧ (i 0).val < win8_7.index t (0 : Fin 2) * 8 + 8; omega
  | ⟨1, _⟩ => show win8_7.index t (1 : Fin 2) * 1024 ≤ (i 1).val ∧ (i 1).val < win8_7.index t (1 : Fin 2) * 1024 + 1024; omega

/-- The hidden-state array after the region. -/
theorem finalH (c : Dev nD) : (dat8 V c).arrAt 6 cfg8.N
    = HArr (V c main_v37) (V c main_v38) (V c main_v39) (V c main_v1) (V c main_v3) (V c main_v5) :=
  (dat8 V c).arrAt_eq_of_cover 6 _ (fun t _ => flushedH V c t) coverH

/-- The cell-state array after the region. -/
theorem finalC (c : Dev nD) : (dat8 V c).arrAt 7 cfg8.N
    = CArr (V c main_v37) (V c main_v38) (V c main_v39) (V c main_v1) (V c main_v3) (V c main_v5) :=
  (dat8 V c).arrAt_eq_of_cover 7 _ (fun t _ => flushedC V c t) coverC

end Blocks

end Cert.KernelIdeal.Level8

end
-- ==== Proof.Level9.lean ====
/-
  Region 9 of the kernel: the tree level of 4 nodes, computed 4 rows at a time.

  A grid point t works on rows 4·t … 4·t + 3 of the level: it reads those rows of the inputs and of the children's
  states, the whole weight matrices and the bias row, and writes those rows of the two results. Since an entry of the
  level's results depends on its own row only (LibTreeCell), what the point writes back is its block of rows of the
  level's matrices HArr and CArr of the WHOLE inputs; the blocks tile the rows, so the two result arrays end as HArr and CArr.
-/
import proofs.«112656_j36661840839776_1_alg».proof.Proof.Gen.KernelIdeal.Frame
import proofs.«112656_j36661840839776_1_alg».proof.Proof.LibTreeCell

set_option maxRecDepth 16384

noncomputable section

namespace Cert.KernelIdeal.Level9

open Cert.KernelIdeal Cert.KernelIdeal.Gen Idealize.ShloMosaic Idealize.ShloMosaic.TcCoe Idealize.ShloMosaic.ValueIdx
open Idealize.SL.Sem Cert.TreeCell
open Idealize.ShloMosaic.Pipeline (Dat Cfg Window)

/-! ## The body's values at an entry of a block -/

section Payloads
variable (x0 : Vec Ideal S4x1024 .bf16) (x1 x2 : Vec Ideal S4x2048 .f32) (w : Vec Ideal S1024x8192 .bf16)
  (u : Vec Ideal S2048x8192 .bf16) (b : Vec Ideal S1x8192 .f32)

theorem gates_apply (p : Fin 4) (j : Fin 8192) : k9_pay1 (F := Ideal) x0 x1 w u b (ix2 p j) = gateAt x0 x1 w u b p j :=
  kGates_apply (T := 4) x0 x1 w u b _ _ _ _ _ _ _ p j

theorem cell_apply (p : Fin 4) (q : Fin 2048) : k9_pay2 (F := Ideal) x0 x1 w u b x2 (ix2 p q) = cAt x0 x1 x2 w u b p q :=
  kC_apply (T := 4) x2 (k9_pay1 (F := Ideal) x0 x1 w u b) (gateAt x0 x1 w u b) (gates_apply x0 x1 w u b) (fun i q => x2 (ix2 i q))
    (fun _ _ => rfl) _ _ _ _ p q

theorem hout_apply (p : Fin 4) (q : Fin 1024) :
    k9_pay3 (F := Ideal) x0 x1 w u b x2 (ix2 p q) = HArr x0 x1 x2 w u b (ix2 p q) :=
  kH_apply (T := 4) (k9_pay1 (F := Ideal) x0 x1 w u b) (gateAt x0 x1 w u b) (gates_apply x0 x1 w u b)
    (k9_pay2 (F := Ideal) x0 x1 w u b x2) (cAt x0 x1 x2 w u b) (cell_apply x0 x1 x2 w u b) _ (by decide) p q

theorem cout_apply (p : Fin 4) (q : Fin 1024) :
    k9_pay4 (F := Ideal) x0 x1 w u b x2 (ix2 p q) = CArr x0 x1 x2 w u b (ix2 p q) :=
  kCout_apply (T := 4) (k9_pay2 (F := Ideal) x0 x1 w u b x2) (cAt x0 x1 x2 w u b) (cell_apply x0 x1 x2 w u b) (by decide) p q

end Payloads

/-! ## From blocks to the arrays -/

section Blocks
variable (V : (c : Dev nD) → (b : Ref sig .tc) → Buf (Elt Ideal) ((c : Thread nD τ).loc b))

omit V in
theorem hz : (![0, 0] : Fin 2 → Nat) = fun _ => 0 := funext fun a => by fin_cases a <;> rfl

omit V in
/-- The index maps over the grid: the row-blocked windows sit at block row t, the weights and the bias at block 0. -/
theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = t.val ∧ win9_6.index t (1 : Fin 2) = 0
    ∧ win9_7.index t (0 : Fin 2) = t.val ∧ win9_7.index t (1 : Fin 2) = 0 :=
  (by decide +kernel : ∀ t : Fin grid9.N, _)

theorem rows_x (c : Dev nD) (t : Fin cfg9.N) (ht : t.val < 1) (p : Fin 4) (k : Fin 1024) :
    iblk9 V c 0 t (ix2 p k) = V c main_v41 (ix2 ⟨t.val * 4 + p.val, by omega⟩ k) := by
  obtain ⟨e00, e01, e10, e11, e20, e21, e30, e31, e40, e41, e50, e51, e60, e61, e70, e71⟩ := idx_facts t
  show V c main_v41 (((cfg9.win 0).blk t).view.emb (ix2 p k)) = _
  refine congrArg (V c main_v41) (funext fun a => Fin.ext ?_)
  match a with
  | ⟨0, _⟩ => show win9_0.index t (0 : Fin 2) * 4 + 1 * p.val = t.val * 4 + p.val; omega
  | ⟨1, _⟩ => show win9_0.index t (1 : Fin 2) * 1024 + 1 * k.val = k.val; omega

theorem rows_h (c : Dev nD) (t : Fin cfg9.N) (ht : t.val < 1) (p : Fin 4) (k : Fin 2048) :
    iblk9 V c 1 t (ix2 p k) = V c main_v42 (ix2 ⟨t.val * 4 + p.val, by omega⟩ k) := by
  obtain ⟨e00, e01, e10, e11, e20, e21, e30, e31, e40, e41, e50, e51, e60, e61, e70, e71⟩ := idx_facts t
  show V c main_v42 (((cfg9.win 1).blk t).view.emb (ix2 p k)) = _
  refine congrArg (V c main_v42) (funext fun a => Fin.ext ?_)
  match a with
  | ⟨0, _⟩ => show win9_1.index t (0 : Fin 2) * 4 + 1 * p.val = t.val * 4 + p.val; omega
  | ⟨1, _⟩ => show win9_1.index t (1 : Fin 2) * 2048 + 1 * k.val = k.val; omega

theorem rows_c (c : Dev nD) (t : Fin cfg9.N) (ht : t.val < 1) (p : Fin 4) (k : Fin 2048) :
    iblk9 V c 2 t (ix2 p k) = V c main_v43 (ix2 ⟨t.val * 4 + p.val, by omega⟩ k) := by
  obtain ⟨e00, e01, e10, e11, e20, e21, e30, e31, e40, e41, e50, e51, e60, e61, e70, e71⟩ := idx_facts t
  show V c main_v43 (((cfg9.win 2).blk t).view.emb (ix2 p k)) = _
  refine congrArg (V c main_v43) (funext fun a => Fin.ext ?_)
  match a with
  | ⟨0, _⟩ => show win9_2.index t (0 : Fin 2) * 4 + 1 * p.val = t.val * 4 + p.val; omega
  | ⟨1, _⟩ => show win9_2.index t (1 : Fin 2) * 2048 + 1 * k.val = k.val; omega

theorem whole_w (c : Dev nD) (t : Fin cfg9.N) : iblk9 V c 3 t = V c main_v1 := by
  obtain ⟨e00, e01, e10, e11, e20, e21, e30, e31, e40, e41, e50, e51, e60, e61, e70, e71⟩ := idx_facts t
  funext y
  show V c main_v1 (((cfg9.win 3).blk t).view.emb y) = V c main_v1 y
  refine congrArg (V c main_v1) (funext fun a => Fin.ext ?_)
  match a with
  | ⟨0, _⟩ => show win9_3.index t (0 : Fin 2) * 1024 + 1 * (y 0).val = (y 0).val; omega
  | ⟨1, _⟩ => show win9_3.index t (1 : Fin 2) * 8192 + 1 * (y 1).val = (y 1).val; omega

theorem whole_u (c : Dev nD) (t : Fin cfg9.N) : iblk9 V c 4 t = V c main_v3 := by
  obtain ⟨e00, e01, e10, e11, e20, e21, e30, e31, e40, e41, e50, e51, e60, e61, e70, e71⟩ := idx_facts t
  funext y
  show V c main_v3 (((cfg9.win 4).blk t).view.emb y) = V c main_v3 y
  refine congrArg (V c main_v3) (funext fun a => Fin.ext ?_)
  match a with
  | ⟨0, _⟩ => show win9_4.index t (0 : Fin 2) * 2048 + 1 * (y 0).val = (y 0).val; omega
  | ⟨1, _⟩ => show win9_4.index t (1 : Fin 2) * 8192 + 1 * (y 1).val = (y 1).val; omega

theorem whole_b (c : Dev nD) (t : Fin cfg9.N) : iblk9 V c 5 t = V c main_v5 := by
  obtain ⟨e00, e01, e10, e11, e20, e21, e30, e31, e40, e41, e50, e51, e60, e61, e70, e71⟩ := idx_facts t
  funext y
  show V c main_v5 (((cfg9.win 5).blk t).view.emb y) = V c main_v5 y
  refine congrArg (V c main_v5) (funext fun a => Fin.ext ?_)
  match a with
  | ⟨0, _⟩ => show win9_5.index t (0 : Fin 2) * 1 + 1 * (y 0).val = (y 0).val; omega
  | ⟨1, _⟩ => show win9_5.index t (1 : Fin 2) * 8192 + 1 * (y 1).val = (y 1).val; omega

/-- What point t writes back through window 6 is its block of rows of HArr of the whole arrays. -/
theorem flushedH (c : Dev nD) (t : Fin cfg9.N) :
    (dat9 V c).flushed 6 t = ((cfg9.win 6).blk t).view.read (Elt Ideal)
      (HArr (V c main_v41) (V c main_v42) (V c main_v43) (V c main_v1) (V c main_v3) (V c main_v5)) := by
  show (cfg9.win 6).cut (grid9.coords t) ((dat9 V c).after 6 t) = _
  rw [after9_6]
  unfold out9_6
  rw [View.canon_unit_zero hz]
  simp only [View.ld_unit_zero (S := S4x1024) hz, View.ld_unit_zero (S := S4x2048) hz,
    View.ld_unit_zero (S := S1024x8192) hz, View.ld_unit_zero (S := S2048x8192) hz, View.ld_unit_zero (S := S1x8192) hz]
  have ht : t.val < 1 := lt_of_lt_of_eq t.isLt N_9
  obtain ⟨e00, e01, e10, e11, e20, e21, e30, e31, e40, e41, e50, e51, e60, e61, e70, e71⟩ := idx_facts t
  funext y
  obtain ⟨p, q, rfl⟩ : ∃ (p : Fin 4) (q : Fin 1024), y = ix2 p q := ⟨y 0, y 1, eq_ix2 y⟩
  show k9_pay3 (iblk9 V c 0 t) (iblk9 V c 1 t) (iblk9 V c 3 t) (iblk9 V c 4 t) (iblk9 V c 5 t) (iblk9 V c 2 t) (ix2 p q)
    = HArr (V c main_v41) (V c main_v42) (V c main_v43) (V c main_v1) (V c main_v3) (V c main_v5)
        (((cfg9.win 6).blk t).view.emb (ix2 p q))
  have hi : ((cfg9.win 6).blk t).view.emb (ix2 p q) = ix2 ⟨t.val * 4 + p.val, by omega⟩ q := by
    funext a; apply Fin.ext
    match a with
    | ⟨0, _⟩ => show win9_6.index t (0 : Fin 2) * 4 + 1 * p.val = t.val * 4 + p.val; omega
    | ⟨1, _⟩ => show win9_6.index t (1 : Fin 2) * 1024 + 1 * q.val = q.val; omega
  rw [hi, hout_apply]
  exact HArr_block (V c main_v41) (V c main_v42) (V c main_v43) (iblk9 V c 0 t) (iblk9 V c 1 t) (iblk9 V c 2 t)
    (V c main_v1) (V c main_v3) (V c main_v5) (iblk9 V c 3 t) (iblk9 V c 4 t) (iblk9 V c 5 t) p ⟨t.val * 4 + p.val, by omega⟩ q
    (rows_x V c t ht p) (rows_h V c t ht p) (rows_c V c t ht p) (whole_w V c t) (whole_u V c t) (whole_b V c t)

/-- What point t writes back through window 7 is its block of rows of CArr of the whole arrays. -/
theorem flushedC (c : Dev nD) (t : Fin cfg9.N) :
    (dat9 V c).flushed 7 t = ((cfg9.win 7).blk t).view.read (Elt Ideal)
      (CArr (V c main_v41) (V c main_v42) (V c main_v43) (V c main_v1) (V c main_v3) (V c main_v5)) := by
  show (cfg9.win 7).cut (grid9.coords t) ((dat9 V c).after 7 t) = _
  rw [after9_7]
  unfold out9_7
  rw [View.canon_unit_zero hz]
  simp only [View.ld_unit_zero (S := S4x1024) hz, View.ld_unit_zero (S := S4x2048) hz,
    View.ld_unit_zero (S := S1024x8192) hz, View.ld_unit_zero (S := S2048x8192) hz, View.ld_unit_zero (S := S1x8192) hz]
  have ht : t.val < 1 := lt_of_lt_of_eq t.isLt N_9
  obtain ⟨e00, e01, e10, e11, e20, e21, e30, e31, e40, e41, e50, e51, e60, e61, e70, e71⟩ := idx_facts t
  funext y
  obtain ⟨p, q, rfl⟩ : ∃ (p : Fin 4) (q : Fin 1024), y = ix2 p q := ⟨y 0, y 1, eq_ix2 y⟩
  show k9_pay4 (iblk9 V c 0 t) (iblk9 V c 1 t) (iblk9 V c 3 t) (iblk9 V c 4 t) (iblk9 V c 5 t) (iblk9 V c 2 t) (ix2 p q)
    = CArr (V c main_v41) (V c main_v42) (V c main_v43) (V c main_v1) (V c main_v3) (V c main_v5)
        (((cfg9.win 7).blk t).view.emb (ix2 p q))
  have hi : ((cfg9.win 7).blk t).view.emb (ix2 p q) = ix2 ⟨t.val * 4 + p.val, by omega⟩ q := by
    funext a; apply Fin.ext
    match a with
    | ⟨0, _⟩ => show win9_7.index t (0 : Fin 2) * 4 + 1 * p.val = t.val * 4 + p.val; omega
    | ⟨1, _⟩ => show win9_7.index t (1 : Fin 2) * 1024 + 1 * q.val = q.val; omega
  rw [hi, cout_apply]
  exact CArr_block (V c main_v41) (V c main_v42) (V c main_v43) (iblk9 V c 0 t) (iblk9 V c 1 t) (iblk9 V c 2 t)
    (V c main_v1) (V c main_v3) (V c main_v5) (iblk9 V c 3 t) (iblk9 V c 4 t) (iblk9 V c 5 t) p ⟨t.val * 4 + p.val, by omega⟩ q
    (rows_x V c t ht p) (rows_h V c t ht p) (rows_c V c t ht p) (whole_w V c t) (whole_u V c t) (whole_b V c t)

/-- Every row of the level is in some point's block: row r in the block of point r / 4. -/
theorem coverH (i : S4x1024.Idx) : ∃ t : Fin cfg9.N, (cfg9.win 6).flush t = true ∧ i ∈ ((cfg9.win 6).blk t).view.set := by
  have hi0 : (i 0).val < 4 := (i 0).isLt
  have hi1 : (i 1).val < 1024 := (i 1).isLt
  let t : Fin cfg9.N := ⟨(i 0).val / 4, by rw [show cfg9.N = 1 from N_9]; omega⟩
  obtain ⟨e00, e01, e10, e11, e20, e21, e30, e31, e40, e41, e50, e51, e60, e61, e70, e71⟩ := idx_facts t
  have tv : t.val = (i 0).val / 4 := rfl
  refine ⟨t, flush9_6 t, ?_⟩
  show i ∈ ((View.whole main_v44_0).slice (win9_6.rect t)).set
  rw [View.set_slice_whole, Rect.mem_set_unit]
  intro a
  match a with
  | ⟨0, _⟩ => show win9_6.index t (0 : Fin 2) * 4 ≤ (i 0).val ∧ (i 0).val < win9_6.index t (0 : Fin 2) * 4 + 4; omega
  | ⟨1, _⟩ => show win9_6.index t (1 : Fin 2) * 1024 ≤ (i 1).val ∧ (i 1).val < win9_6.index t (1 : Fin 2) * 1024 + 1024; omega

/-- Every row of the level is in some point's block: row r in the block of point r / 4. -/
theorem coverC (i : S4x1024.Idx) : ∃ t : Fin cfg9.N, (cfg9.win 7).flush t = true ∧ i ∈ ((cfg9.win 7).blk t).view.set := by
  have hi0 : (i 0).val < 4 := (i 0).isLt
  have hi1 : (i 1).val < 1024 := (i 1).isLt
  let t : Fin cfg9.N := ⟨(i 0).val / 4, by rw [show cfg9.N = 1 from N_9]; omega⟩
  obtain ⟨e00, e01, e10, e11, e20, e21, e30, e31, e40, e41, e50, e51, e60, e61, e70, e71⟩ := idx_facts t
  have tv : t.val = (i 0).val / 4 := rfl
  refine ⟨t, flush9_7 t, ?_⟩
  show i ∈ ((View.whole main_v44_1).slice (win9_7.rect t)).set
  rw [View.set_slice_whole, Rect.mem_set_unit]
  intro a
  match a with
  | ⟨0, _⟩ => show win9_7.index t (0 : Fin 2) * 4 ≤ (i 0).val ∧ (i 0).val < win9_7.index t (0 : Fin 2) * 4 + 4; omega
  | ⟨1, _⟩ => show win9_7.index t (1 : Fin 2) * 1024 ≤ (i 1).val ∧ (i 1).val < win9_7.index t (1 : Fin 2) * 1024 + 1024; omega

/-- The hidden-state array after the region. -/
theorem finalH (c : Dev nD) : (dat9 V c).arrAt 6 cfg9.N
    = HArr (V c main_v41) (V c main_v42) (V c main_v43) (V c main_v1) (V c main_v3) (V c main_v5) :=
  (dat9 V c).arrAt_eq_of_cover 6 _ (fun t _ => flushedH V c t) coverH

/-- The cell-state array after the region. -/
theorem finalC (c : Dev nD) : (dat9 V c).arrAt 7 cfg9.N
    = CArr (V c main_v41) (V c main_v42) (V c main_v43) (V c main_v1) (V c main_v3) (V c main_v5) :=
  (dat9 V c).arrAt_eq_of_cover 7 _ (fun t _ => flushedC V c t) coverC

end Blocks

end Cert.KernelIdeal.Level9

end
-- ==== Proof.Level10.lean ====
/-
  Region 10 of the kernel: the tree level of 2 nodes, computed 2 rows at a time.

  A grid point t works on rows 2·t … 2·t + 1 of the level: it reads those rows of the inputs and of the children's
  states, the whole weight matrices and the bias row, and writes those rows of the two results. Since an entry of the
  level's results depends on its own row only (LibTreeCell), what the point writes back is its block of rows of the
  level's matrices HArr and CArr of the WHOLE inputs; the blocks tile the rows, so the two result arrays end as HArr and CArr.
-/
import proofs.«112656_j36661840839776_1_alg».proof.Proof.Gen.KernelIdeal.Frame
import proofs.«112656_j36661840839776_1_alg».proof.Proof.LibTreeCell

set_option maxRecDepth 16384

noncomputable section

namespace Cert.KernelIdeal.Level10

open Cert.KernelIdeal Cert.KernelIdeal.Gen Idealize.ShloMosaic Idealize.ShloMosaic.TcCoe Idealize.ShloMosaic.ValueIdx
open Idealize.SL.Sem Cert.TreeCell
open Idealize.ShloMosaic.Pipeline (Dat Cfg Window)

/-! ## The body's values at an entry of a block -/

section Payloads
variable (x0 : Vec Ideal S2x1024 .bf16) (x1 x2 : Vec Ideal S2x2048 .f32) (w : Vec Ideal S1024x8192 .bf16)
  (u : Vec Ideal S2048x8192 .bf16) (b : Vec Ideal S1x8192 .f32)

theorem gates_apply (p : Fin 2) (j : Fin 8192) : k10_pay1 (F := Ideal) x0 x1 w u b (ix2 p j) = gateAt x0 x1 w u b p j :=
  kGates_apply (T := 2) x0 x1 w u b _ _ _ _ _ _ _ p j

theorem cell_apply (p : Fin 2) (q : Fin 2048) : k10_pay2 (F := Ideal) x0 x1 w u b x2 (ix2 p q) = cAt x0 x1 x2 w u b p q :=
  kC_apply (T := 2) x2 (k10_pay1 (F := Ideal) x0 x1 w u b) (gateAt x0 x1 w u b) (gates_apply x0 x1 w u b) (fun i q => x2 (ix2 i q))
    (fun _ _ => rfl) _ _ _ _ p q

theorem hout_apply (p : Fin 2) (q : Fin 1024) :
    k10_pay3 (F := Ideal) x0 x1 w u b x2 (ix2 p q) = HArr x0 x1 x2 w u b (ix2 p q) :=
  kH_apply (T := 2) (k10_pay1 (F := Ideal) x0 x1 w u b) (gateAt x0 x1 w u b) (gates_apply x0 x1 w u b)
    (k10_pay2 (F := Ideal) x0 x1 w u b x2) (cAt x0 x1 x2 w u b) (cell_apply x0 x1 x2 w u b) _ (by decide) p q

theorem cout_apply (p : Fin 2) (q : Fin 1024) :
    k10_pay4 (F := Ideal) x0 x1 w u b x2 (ix2 p q) = CArr x0 x1 x2 w u b (ix2 p q) :=
  kCout_apply (T := 2) (k10_pay2 (F := Ideal) x0 x1 w u b x2) (cAt x0 x1 x2 w u b) (cell_apply x0 x1 x2 w u b) (by decide) p q

end Payloads

/-! ## From blocks to the arrays -/

section Blocks
variable (V : (c : Dev nD) → (b : Ref sig .tc) → Buf (Elt Ideal) ((c : Thread nD τ).loc b))

omit V in
theorem hz : (![0, 0] : Fin 2 → Nat) = fun _ => 0 := funext fun a => by fin_cases a <;> rfl

omit V in
/-- The index maps over the grid: the row-blocked windows sit at block row t, the weights and the bias at block 0. -/
theorem idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = t.val ∧ win10_6.index t (1 : Fin 2) = 0
    ∧ win10_7.index t (0 : Fin 2) = t.val ∧ win10_7.index t (1 : Fin 2) = 0 :=
  (by decide +kernel : ∀ t : Fin grid10.N, _)

theorem rows_x (c : Dev nD) (t : Fin cfg10.N) (ht : t.val < 1) (p : Fin 2) (k : Fin 1024) :
    iblk10 V c 0 t (ix2 p k) = V c main_v45 (ix2 ⟨t.val * 2 + p.val, by omega⟩ k) := by
  obtain ⟨e00, e01, e10, e11, e20, e21, e30, e31, e40, e41, e50, e51, e60, e61, e70, e71⟩ := idx_facts t
  show V c main_v45 (((cfg10.win 0).blk t).view.emb (ix2 p k)) = _
  refine congrArg (V c main_v45) (funext fun a => Fin.ext ?_)
  match a with
  | ⟨0, _⟩ => show win10_0.index t (0 : Fin 2) * 2 + 1 * p.val = t.val * 2 + p.val; omega
  | ⟨1, _⟩ => show win10_0.index t (1 : Fin 2) * 1024 + 1 * k.val = k.val; omega

theorem rows_h (c : Dev nD) (t : Fin cfg10.N) (ht : t.val < 1) (p : Fin 2) (k : Fin 2048) :
    iblk10 V c 1 t (ix2 p k) = V c main_v46 (ix2 ⟨t.val * 2 + p.val, by omega⟩ k) := by
  obtain ⟨e00, e01, e10, e11, e20, e21, e30, e31, e40, e41, e50, e51, e60, e61, e70, e71⟩ := idx_facts t
  show V c main_v46 (((cfg10.win 1).blk t).view.emb (ix2 p k)) = _
  refine congrArg (V c main_v46) (funext fun a => Fin.ext ?_)
  match a with
  | ⟨0, _⟩ => show win10_1.index t (0 : Fin 2) * 2 + 1 * p.val = t.val * 2 + p.val; omega
  | ⟨1, _⟩ => show win10_1.index t (1 : Fin 2) * 2048 + 1 * k.val = k.val; omega

theorem rows_c (c : Dev nD) (t : Fin cfg10.N) (ht : t.val < 1) (p : Fin 2) (k : Fin 2048) :
    iblk10 V c 2 t (ix2 p k) = V c main_v47 (ix2 ⟨t.val * 2 + p.val, by omega⟩ k) := by
  obtain ⟨e00, e01, e10, e11, e20, e21, e30, e31, e40, e41, e50, e51, e60, e61, e70, e71⟩ := idx_facts t
  show V c main_v47 (((cfg10.win 2).blk t).view.emb (ix2 p k)) = _
  refine congrArg (V c main_v47) (funext fun a => Fin.ext ?_)
  match a with
  | ⟨0, _⟩ => show win10_2.index t (0 : Fin 2) * 2 + 1 * p.val = t.val * 2 + p.val; omega
  | ⟨1, _⟩ => show win10_2.index t (1 : Fin 2) * 2048 + 1 * k.val = k.val; omega

theorem whole_w (c : Dev nD) (t : Fin cfg10.N) : iblk10 V c 3 t = V c main_v1 := by
  obtain ⟨e00, e01, e10, e11, e20, e21, e30, e31, e40, e41, e50, e51, e60, e61, e70, e71⟩ := idx_facts t
  funext y
  show V c main_v1 (((cfg10.win 3).blk t).view.emb y) = V c main_v1 y
  refine congrArg (V c main_v1) (funext fun a => Fin.ext ?_)
  match a with
  | ⟨0, _⟩ => show win10_3.index t (0 : Fin 2) * 1024 + 1 * (y 0).val = (y 0).val; omega
  | ⟨1, _⟩ => show win10_3.index t (1 : Fin 2) * 8192 + 1 * (y 1).val = (y 1).val; omega

theorem whole_u (c : Dev nD) (t : Fin cfg10.N) : iblk10 V c 4 t = V c main_v3 := by
  obtain ⟨e00, e01, e10, e11, e20, e21, e30, e31, e40, e41, e50, e51, e60, e61, e70, e71⟩ := idx_facts t
  funext y
  show V c main_v3 (((cfg10.win 4).blk t).view.emb y) = V c main_v3 y
  refine congrArg (V c main_v3) (funext fun a => Fin.ext ?_)
  match a with
  | ⟨0, _⟩ => show win10_4.index t (0 : Fin 2) * 2048 + 1 * (y 0).val = (y 0).val; omega
  | ⟨1, _⟩ => show win10_4.index t (1 : Fin 2) * 8192 + 1 * (y 1).val = (y 1).val; omega

theorem whole_b (c : Dev nD) (t : Fin cfg10.N) : iblk10 V c 5 t = V c main_v5 := by
  obtain ⟨e00, e01, e10, e11, e20, e21, e30, e31, e40, e41, e50, e51, e60, e61, e70, e71⟩ := idx_facts t
  funext y
  show V c main_v5 (((cfg10.win 5).blk t).view.emb y) = V c main_v5 y
  refine congrArg (V c main_v5) (funext fun a => Fin.ext ?_)
  match a with
  | ⟨0, _⟩ => show win10_5.index t (0 : Fin 2) * 1 + 1 * (y 0).val = (y 0).val; omega
  | ⟨1, _⟩ => show win10_5.index t (1 : Fin 2) * 8192 + 1 * (y 1).val = (y 1).val; omega

/-- What point t writes back through window 6 is its block of rows of HArr of the whole arrays. -/
theorem flushedH (c : Dev nD) (t : Fin cfg10.N) :
    (dat10 V c).flushed 6 t = ((cfg10.win 6).blk t).view.read (Elt Ideal)
      (HArr (V c main_v45) (V c main_v46) (V c main_v47) (V c main_v1) (V c main_v3) (V c main_v5)) := by
  show (cfg10.win 6).cut (grid10.coords t) ((dat10 V c).after 6 t) = _
  rw [after10_6]
  unfold out10_6
  rw [View.canon_unit_zero hz]
  simp only [View.ld_unit_zero (S := S2x1024) hz, View.ld_unit_zero (S := S2x2048) hz,
    View.ld_unit_zero (S := S1024x8192) hz, View.ld_unit_zero (S := S2048x8192) hz, View.ld_unit_zero (S := S1x8192) hz]
  have ht : t.val < 1 := lt_of_lt_of_eq t.isLt N_10
  obtain ⟨e00, e01, e10, e11, e20, e21, e30, e31, e40, e41, e50, e51, e60, e61, e70, e71⟩ := idx_facts t
  funext y
  obtain ⟨p, q, rfl⟩ : ∃ (p : Fin 2) (q : Fin 1024), y = ix2 p q := ⟨y 0, y 1, eq_ix2 y⟩
  show k10_pay3 (iblk10 V c 0 t) (iblk10 V c 1 t) (iblk10 V c 3 t) (iblk10 V c 4 t) (iblk10 V c 5 t) (iblk10 V c 2 t) (ix2 p q)
    = HArr (V c main_v45) (V c main_v46) (V c main_v47) (V c main_v1) (V c main_v3) (V c main_v5)
        (((cfg10.win 6).blk t).view.emb (ix2 p q))
  have hi : ((cfg10.win 6).blk t).view.emb (ix2 p q) = ix2 ⟨t.val * 2 + p.val, by omega⟩ q := by
    funext a; apply Fin.ext
    match a with
    | ⟨0, _⟩ => show win10_6.index t (0 : Fin 2) * 2 + 1 * p.val = t.val * 2 + p.val; omega
    | ⟨1, _⟩ => show win10_6.index t (1 : Fin 2) * 1024 + 1 * q.val = q.val; omega
  rw [hi, hout_apply]
  exact HArr_block (V c main_v45) (V c main_v46) (V c main_v47) (iblk10 V c 0 t) (iblk10 V c 1 t) (iblk10 V c 2 t)
    (V c main_v1) (V c main_v3) (V c main_v5) (iblk10 V c 3 t) (iblk10 V c 4 t) (iblk10 V c 5 t) p ⟨t.val * 2 + p.val, by omega⟩ q
    (rows_x V c t ht p) (rows_h V c t ht p) (rows_c V c t ht p) (whole_w V c t) (whole_u V c t) (whole_b V c t)

/-- What point t writes back through window 7 is its block of rows of CArr of the whole arrays. -/
theorem flushedC (c : Dev nD) (t : Fin cfg10.N) :
    (dat10 V c).flushed 7 t = ((cfg10.win 7).blk t).view.read (Elt Ideal)
      (CArr (V c main_v45) (V c main_v46) (V c main_v47) (V c main_v1) (V c main_v3) (V c main_v5)) := by
  show (cfg10.win 7).cut (grid10.coords t) ((dat10 V c).after 7 t) = _
  rw [after10_7]
  unfold out10_7
  rw [View.canon_unit_zero hz]
  simp only [View.ld_unit_zero (S := S2x1024) hz, View.ld_unit_zero (S := S2x2048) hz,
    View.ld_unit_zero (S := S1024x8192) hz, View.ld_unit_zero (S := S2048x8192) hz, View.ld_unit_zero (S := S1x8192) hz]
  have ht : t.val < 1 := lt_of_lt_of_eq t.isLt N_10
  obtain ⟨e00, e01, e10, e11, e20, e21, e30, e31, e40, e41, e50, e51, e60, e61, e70, e71⟩ := idx_facts t
  funext y
  obtain ⟨p, q, rfl⟩ : ∃ (p : Fin 2) (q : Fin 1024), y = ix2 p q := ⟨y 0, y 1, eq_ix2 y⟩
  show k10_pay4 (iblk10 V c 0 t) (iblk10 V c 1 t) (iblk10 V c 3 t) (iblk10 V c 4 t) (iblk10 V c 5 t) (iblk10 V c 2 t) (ix2 p q)
    = CArr (V c main_v45) (V c main_v46) (V c main_v47) (V c main_v1) (V c main_v3) (V c main_v5)
        (((cfg10.win 7).blk t).view.emb (ix2 p q))
  have hi : ((cfg10.win 7).blk t).view.emb (ix2 p q) = ix2 ⟨t.val * 2 + p.val, by omega⟩ q := by
    funext a; apply Fin.ext
    match a with
    | ⟨0, _⟩ => show win10_7.index t (0 : Fin 2) * 2 + 1 * p.val = t.val * 2 + p.val; omega
    | ⟨1, _⟩ => show win10_7.index t (1 : Fin 2) * 1024 + 1 * q.val = q.val; omega
  rw [hi, cout_apply]
  exact CArr_block (V c main_v45) (V c main_v46) (V c main_v47) (iblk10 V c 0 t) (iblk10 V c 1 t) (iblk10 V c 2 t)
    (V c main_v1) (V c main_v3) (V c main_v5) (iblk10 V c 3 t) (iblk10 V c 4 t) (iblk10 V c 5 t) p ⟨t.val * 2 + p.val, by omega⟩ q
    (rows_x V c t ht p) (rows_h V c t ht p) (rows_c V c t ht p) (whole_w V c t) (whole_u V c t) (whole_b V c t)

/-- Every row of the level is in some point's block: row r in the block of point r / 2. -/
theorem coverH (i : S2x1024.Idx) : ∃ t : Fin cfg10.N, (cfg10.win 6).flush t = true ∧ i ∈ ((cfg10.win 6).blk t).view.set := by
  have hi0 : (i 0).val < 2 := (i 0).isLt
  have hi1 : (i 1).val < 1024 := (i 1).isLt
  let t : Fin cfg10.N := ⟨(i 0).val / 2, by rw [show cfg10.N = 1 from N_10]; omega⟩
  obtain ⟨e00, e01, e10, e11, e20, e21, e30, e31, e40, e41, e50, e51, e60, e61, e70, e71⟩ := idx_facts t
  have tv : t.val = (i 0).val / 2 := rfl
  refine ⟨t, flush10_6 t, ?_⟩
  show i ∈ ((View.whole main_v48_0).slice (win10_6.rect t)).set
  rw [View.set_slice_whole, Rect.mem_set_unit]
  intro a
  match a with
  | ⟨0, _⟩ => show win10_6.index t (0 : Fin 2) * 2 ≤ (i 0).val ∧ (i 0).val < win10_6.index t (0 : Fin 2) * 2 + 2; omega
  | ⟨1, _⟩ => show win10_6.index t (1 : Fin 2) * 1024 ≤ (i 1).val ∧ (i 1).val < win10_6.index t (1 : Fin 2) * 1024 + 1024; omega

/-- Every row of the level is in some point's block: row r in the block of point r / 2. -/
theorem coverC (i : S2x1024.Idx) : ∃ t : Fin cfg10.N, (cfg10.win 7).flush t = true ∧ i ∈ ((cfg10.win 7).blk t).view.set := by
  have hi0 : (i 0).val < 2 := (i 0).isLt
  have hi1 : (i 1).val < 1024 := (i 1).isLt
  let t : Fin cfg10.N := ⟨(i 0).val / 2, by rw [show cfg10.N = 1 from N_10]; omega⟩
  obtain ⟨e00, e01, e10, e11, e20, e21, e30, e31, e40, e41, e50, e51, e60, e61, e70, e71⟩ := idx_facts t
  have tv : t.val = (i 0).val / 2 := rfl
  refine ⟨t, flush10_7 t, ?_⟩
  show i ∈ ((View.whole main_v48_1).slice (win10_7.rect t)).set
  rw [View.set_slice_whole, Rect.mem_set_unit]
  intro a
  match a with
  | ⟨0, _⟩ => show win10_7.index t (0 : Fin 2) * 2 ≤ (i 0).val ∧ (i 0).val < win10_7.index t (0 : Fin 2) * 2 + 2; omega
  | ⟨1, _⟩ => show win10_7.index t (1 : Fin 2) * 1024 ≤ (i 1).val ∧ (i 1).val < win10_7.index t (1 : Fin 2) * 1024 + 1024; omega

/-- The hidden-state array after the region. -/
theorem finalH (c : Dev nD) : (dat10 V c).arrAt 6 cfg10.N
    = HArr (V c main_v45) (V c main_v46) (V c main_v47) (V c main_v1) (V c main_v3) (V c main_v5) :=
  (dat10 V c).arrAt_eq_of_cover 6 _ (fun t _ => flushedH V c t) coverH

/-- The cell-state array after the region. -/
theorem finalC (c : Dev nD) : (dat10 V c).arrAt 7 cfg10.N
    = CArr (V c main_v45) (V c main_v46) (V c main_v47) (V c main_v1) (V c main_v3) (V c main_v5) :=
  (dat10 V c).arrAt_eq_of_cover 7 _ (fun t _ => flushedC V c t) coverC

end Blocks

end Cert.KernelIdeal.Level10

end
-- ==== Proof.Level11.lean ====
/-
  Region 11 of the kernel: the tree level of 1 node, computed 1 row at a time.

  A grid point t works on rows 1·t … 1·t + 0 of the level: it reads those rows of the inputs and of the children's
  states, the whole weight matrices and the bias row, and writes those rows of the two results. Since an entry of the
  level's results depends on its own row only (LibTreeCell), what the point writes back is its block of rows of the
  level's matrices HArr and CArr of the WHOLE inputs; the blocks tile the rows, so the two result arrays end as HArr and CArr.
-/
import proofs.«112656_j36661840839776_1_alg».proof.Proof.Gen.KernelIdeal.Frame
import proofs.«112656_j36661840839776_1_alg».proof.Proof.LibTreeCell

set_option maxRecDepth 16384

noncomputable section

namespace Cert.KernelIdeal.Level11

open Cert.KernelIdeal Cert.KernelIdeal.Gen Idealize.ShloMosaic Idealize.ShloMosaic.TcCoe Idealize.ShloMosaic.ValueIdx
open Idealize.SL.Sem Cert.TreeCell
open Idealize.ShloMosaic.Pipeline (Dat Cfg Window)

/-! ## The body's values at an entry of a block -/

section Payloads
variable (x0 : Vec Ideal S1x1024 .bf16) (x1 x2 : Vec Ideal S1x2048 .f32) (w : Vec Ideal S1024x8192 .bf16)
  (u : Vec Ideal S2048x8192 .bf16) (b : Vec Ideal S1x8192 .f32)

theorem gates_apply (p : Fin 1) (j : Fin 8192) : k11_pay1 (F := Ideal) x0 x1 w u b (ix2 p j) = gateAt x0 x1 w u b p j :=
  kGates_one_apply w u b x0 x1 _ _ _ _ _ _ p j

theorem cell_apply (p : Fin 1) (q : Fin 2048) : k11_pay2 (F := Ideal) x0 x1 w u b x2 (ix2 p q) = cAt x0 x1 x2 w u b p q :=
  kC_apply (T := 1) x2 (k11_pay1 (F := Ideal) x0 x1 w u b) (gateAt x0 x1 w u b) (gates_apply x0 x1 w u b) (fun i q => x2 (ix2 i q))
    (fun _ _ => rfl) _ _ _ _ p q

theorem hout_apply (p : Fin 1) (q : Fin 1024) :
    k11_pay3 (F := Ideal) x0 x1 w u b x2 (ix2 p q) = HArr x0 x1 x2 w u b (ix2 p q) :=
  kH_apply (T := 1) (k11_pay1 (F := Ideal) x0 x1 w u b) (gateAt x0 x1 w u b) (gates_apply x0 x1 w u b)
    (k11_pay2 (F := Ideal) x0 x1 w u b x2) (cAt x0 x1 x2 w u b) (cell_apply x0 x1 x2 w u b) _ (by decide) p q

theorem cout_apply (p : Fin 1) (q : Fin 1024) :
    k11_pay4 (F := Ideal) x0 x1 w u b x2 (ix2 p q) = CArr x0 x1 x2 w u b (ix2 p q) :=
  kCout_apply (T := 1) (k11_pay2 (F := Ideal) x0 x1 w u b x2) (cAt x0 x1 x2 w u b) (cell_apply x0 x1 x2 w u b) (by decide) p q

end Payloads

/-! ## From blocks to the arrays -/

section Blocks
variable (V : (c : Dev nD) → (b : Ref sig .tc) → Buf (Elt Ideal) ((c : Thread nD τ).loc b))

omit V in
theorem hz : (![0, 0] : Fin 2 → Nat) = fun _ => 0 := funext fun a => by fin_cases a <;> rfl

omit V in
/-- The index maps over the grid: the row-blocked windows sit at block row t, the weights and the bias at block 0. -/
theorem idx_facts : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = t.val ∧ win11_6.index t (1 : Fin 2) = 0
    ∧ win11_7.index t (0 : Fin 2) = t.val ∧ win11_7.index t (1 : Fin 2) = 0 :=
  (by decide +kernel : ∀ t : Fin grid11.N, _)

theorem rows_x (c : Dev nD) (t : Fin cfg11.N) (ht : t.val < 1) (p : Fin 1) (k : Fin 1024) :
    iblk11 V c 0 t (ix2 p k) = V c main_v49 (ix2 ⟨t.val * 1 + p.val, by omega⟩ k) := by
  obtain ⟨e00, e01, e10, e11, e20, e21, e30, e31, e40, e41, e50, e51, e60, e61, e70, e71⟩ := idx_facts t
  show V c main_v49 (((cfg11.win 0).blk t).view.emb (ix2 p k)) = _
  refine congrArg (V c main_v49) (funext fun a => Fin.ext ?_)
  match a with
  | ⟨0, _⟩ => show win11_0.index t (0 : Fin 2) * 1 + 1 * p.val = t.val * 1 + p.val; omega
  | ⟨1, _⟩ => show win11_0.index t (1 : Fin 2) * 1024 + 1 * k.val = k.val; omega

theorem rows_h (c : Dev nD) (t : Fin cfg11.N) (ht : t.val < 1) (p : Fin 1) (k : Fin 2048) :
    iblk11 V c 1 t (ix2 p k) = V c main_v50 (ix2 ⟨t.val * 1 + p.val, by omega⟩ k) := by
  obtain ⟨e00, e01, e10, e11, e20, e21, e30, e31, e40, e41, e50, e51, e60, e61, e70, e71⟩ := idx_facts t
  show V c main_v50 (((cfg11.win 1).blk t).view.emb (ix2 p k)) = _
  refine congrArg (V c main_v50) (funext fun a => Fin.ext ?_)
  match a with
  | ⟨0, _⟩ => show win11_1.index t (0 : Fin 2) * 1 + 1 * p.val = t.val * 1 + p.val; omega
  | ⟨1, _⟩ => show win11_1.index t (1 : Fin 2) * 2048 + 1 * k.val = k.val; omega

theorem rows_c (c : Dev nD) (t : Fin cfg11.N) (ht : t.val < 1) (p : Fin 1) (k : Fin 2048) :
    iblk11 V c 2 t (ix2 p k) = V c main_v51 (ix2 ⟨t.val * 1 + p.val, by omega⟩ k) := by
  obtain ⟨e00, e01, e10, e11, e20, e21, e30, e31, e40, e41, e50, e51, e60, e61, e70, e71⟩ := idx_facts t
  show V c main_v51 (((cfg11.win 2).blk t).view.emb (ix2 p k)) = _
  refine congrArg (V c main_v51) (funext fun a => Fin.ext ?_)
  match a with
  | ⟨0, _⟩ => show win11_2.index t (0 : Fin 2) * 1 + 1 * p.val = t.val * 1 + p.val; omega
  | ⟨1, _⟩ => show win11_2.index t (1 : Fin 2) * 2048 + 1 * k.val = k.val; omega

theorem whole_w (c : Dev nD) (t : Fin cfg11.N) : iblk11 V c 3 t = V c main_v1 := by
  obtain ⟨e00, e01, e10, e11, e20, e21, e30, e31, e40, e41, e50, e51, e60, e61, e70, e71⟩ := idx_facts t
  funext y
  show V c main_v1 (((cfg11.win 3).blk t).view.emb y) = V c main_v1 y
  refine congrArg (V c main_v1) (funext fun a => Fin.ext ?_)
  match a with
  | ⟨0, _⟩ => show win11_3.index t (0 : Fin 2) * 1024 + 1 * (y 0).val = (y 0).val; omega
  | ⟨1, _⟩ => show win11_3.index t (1 : Fin 2) * 8192 + 1 * (y 1).val = (y 1).val; omega

theorem whole_u (c : Dev nD) (t : Fin cfg11.N) : iblk11 V c 4 t = V c main_v3 := by
  obtain ⟨e00, e01, e10, e11, e20, e21, e30, e31, e40, e41, e50, e51, e60, e61, e70, e71⟩ := idx_facts t
  funext y
  show V c main_v3 (((cfg11.win 4).blk t).view.emb y) = V c main_v3 y
  refine congrArg (V c main_v3) (funext fun a => Fin.ext ?_)
  match a with
  | ⟨0, _⟩ => show win11_4.index t (0 : Fin 2) * 2048 + 1 * (y 0).val = (y 0).val; omega
  | ⟨1, _⟩ => show win11_4.index t (1 : Fin 2) * 8192 + 1 * (y 1).val = (y 1).val; omega

theorem whole_b (c : Dev nD) (t : Fin cfg11.N) : iblk11 V c 5 t = V c main_v5 := by
  obtain ⟨e00, e01, e10, e11, e20, e21, e30, e31, e40, e41, e50, e51, e60, e61, e70, e71⟩ := idx_facts t
  funext y
  show V c main_v5 (((cfg11.win 5).blk t).view.emb y) = V c main_v5 y
  refine congrArg (V c main_v5) (funext fun a => Fin.ext ?_)
  match a with
  | ⟨0, _⟩ => show win11_5.index t (0 : Fin 2) * 1 + 1 * (y 0).val = (y 0).val; omega
  | ⟨1, _⟩ => show win11_5.index t (1 : Fin 2) * 8192 + 1 * (y 1).val = (y 1).val; omega

/-- What point t writes back through window 6 is its block of rows of HArr of the whole arrays. -/
theorem flushedH (c : Dev nD) (t : Fin cfg11.N) :
    (dat11 V c).flushed 6 t = ((cfg11.win 6).blk t).view.read (Elt Ideal)
      (HArr (V c main_v49) (V c main_v50) (V c main_v51) (V c main_v1) (V c main_v3) (V c main_v5)) := by
  show (cfg11.win 6).cut (grid11.coords t) ((dat11 V c).after 6 t) = _
  rw [after11_6]
  unfold out11_6
  rw [View.canon_unit_zero hz]
  simp only [View.ld_unit_zero (S := S1x1024) hz, View.ld_unit_zero (S := S1x2048) hz,
    View.ld_unit_zero (S := S1024x8192) hz, View.ld_unit_zero (S := S2048x8192) hz, View.ld_unit_zero (S := S1x8192) hz]
  have ht : t.val < 1 := lt_of_lt_of_eq t.isLt N_11
  obtain ⟨e00, e01, e10, e11, e20, e21, e30, e31, e40, e41, e50, e51, e60, e61, e70, e71⟩ := idx_facts t
  funext y
  obtain ⟨p, q, rfl⟩ : ∃ (p : Fin 1) (q : Fin 1024), y = ix2 p q := ⟨y 0, y 1, eq_ix2 y⟩
  show k11_pay3 (iblk11 V c 0 t) (iblk11 V c 1 t) (iblk11 V c 3 t) (iblk11 V c 4 t) (iblk11 V c 5 t) (iblk11 V c 2 t) (ix2 p q)
    = HArr (V c main_v49) (V c main_v50) (V c main_v51) (V c main_v1) (V c main_v3) (V c main_v5)
        (((cfg11.win 6).blk t).view.emb (ix2 p q))
  have hi : ((cfg11.win 6).blk t).view.emb (ix2 p q) = ix2 ⟨t.val * 1 + p.val, by omega⟩ q := by
    funext a; apply Fin.ext
    match a with
    | ⟨0, _⟩ => show win11_6.index t (0 : Fin 2) * 1 + 1 * p.val = t.val * 1 + p.val; omega
    | ⟨1, _⟩ => show win11_6.index t (1 : Fin 2) * 1024 + 1 * q.val = q.val; omega
  rw [hi, hout_apply]
  exact HArr_block (V c main_v49) (V c main_v50) (V c main_v51) (iblk11 V c 0 t) (iblk11 V c 1 t) (iblk11 V c 2 t)
    (V c main_v1) (V c main_v3) (V c main_v5) (iblk11 V c 3 t) (iblk11 V c 4 t) (iblk11 V c 5 t) p ⟨t.val * 1 + p.val, by omega⟩ q
    (rows_x V c t ht p) (rows_h V c t ht p) (rows_c V c t ht p) (whole_w V c t) (whole_u V c t) (whole_b V c t)

/-- What point t writes back through window 7 is its block of rows of CArr of the whole arrays. -/
theorem flushedC (c : Dev nD) (t : Fin cfg11.N) :
    (dat11 V c).flushed 7 t = ((cfg11.win 7).blk t).view.read (Elt Ideal)
      (CArr (V c main_v49) (V c main_v50) (V c main_v51) (V c main_v1) (V c main_v3) (V c main_v5)) := by
  show (cfg11.win 7).cut (grid11.coords t) ((dat11 V c).after 7 t) = _
  rw [after11_7]
  unfold out11_7
  rw [View.canon_unit_zero hz]
  simp only [View.ld_unit_zero (S := S1x1024) hz, View.ld_unit_zero (S := S1x2048) hz,
    View.ld_unit_zero (S := S1024x8192) hz, View.ld_unit_zero (S := S2048x8192) hz, View.ld_unit_zero (S := S1x8192) hz]
  have ht : t.val < 1 := lt_of_lt_of_eq t.isLt N_11
  obtain ⟨e00, e01, e10, e11, e20, e21, e30, e31, e40, e41, e50, e51, e60, e61, e70, e71⟩ := idx_facts t
  funext y
  obtain ⟨p, q, rfl⟩ : ∃ (p : Fin 1) (q : Fin 1024), y = ix2 p q := ⟨y 0, y 1, eq_ix2 y⟩
  show k11_pay4 (iblk11 V c 0 t) (iblk11 V c 1 t) (iblk11 V c 3 t) (iblk11 V c 4 t) (iblk11 V c 5 t) (iblk11 V c 2 t) (ix2 p q)
    = CArr (V c main_v49) (V c main_v50) (V c main_v51) (V c main_v1) (V c main_v3) (V c main_v5)
        (((cfg11.win 7).blk t).view.emb (ix2 p q))
  have hi : ((cfg11.win 7).blk t).view.emb (ix2 p q) = ix2 ⟨t.val * 1 + p.val, by omega⟩ q := by
    funext a; apply Fin.ext
    match a with
    | ⟨0, _⟩ => show win11_7.index t (0 : Fin 2) * 1 + 1 * p.val = t.val * 1 + p.val; omega
    | ⟨1, _⟩ => show win11_7.index t (1 : Fin 2) * 1024 + 1 * q.val = q.val; omega
  rw [hi, cout_apply]
  exact CArr_block (V c main_v49) (V c main_v50) (V c main_v51) (iblk11 V c 0 t) (iblk11 V c 1 t) (iblk11 V c 2 t)
    (V c main_v1) (V c main_v3) (V c main_v5) (iblk11 V c 3 t) (iblk11 V c 4 t) (iblk11 V c 5 t) p ⟨t.val * 1 + p.val, by omega⟩ q
    (rows_x V c t ht p) (rows_h V c t ht p) (rows_c V c t ht p) (whole_w V c t) (whole_u V c t) (whole_b V c t)

/-- Every row of the level is in some point's block: row r in the block of point r / 1. -/
theorem coverH (i : S1x1024.Idx) : ∃ t : Fin cfg11.N, (cfg11.win 6).flush t = true ∧ i ∈ ((cfg11.win 6).blk t).view.set := by
  have hi0 : (i 0).val < 1 := (i 0).isLt
  have hi1 : (i 1).val < 1024 := (i 1).isLt
  let t : Fin cfg11.N := ⟨(i 0).val / 1, by rw [show cfg11.N = 1 from N_11]; omega⟩
  obtain ⟨e00, e01, e10, e11, e20, e21, e30, e31, e40, e41, e50, e51, e60, e61, e70, e71⟩ := idx_facts t
  have tv : t.val = (i 0).val / 1 := rfl
  refine ⟨t, flush11_6 t, ?_⟩
  show i ∈ ((View.whole main_v52_0).slice (win11_6.rect t)).set
  rw [View.set_slice_whole, Rect.mem_set_unit]
  intro a
  match a with
  | ⟨0, _⟩ => show win11_6.index t (0 : Fin 2) * 1 ≤ (i 0).val ∧ (i 0).val < win11_6.index t (0 : Fin 2) * 1 + 1; omega
  | ⟨1, _⟩ => show win11_6.index t (1 : Fin 2) * 1024 ≤ (i 1).val ∧ (i 1).val < win11_6.index t (1 : Fin 2) * 1024 + 1024; omega

/-- Every row of the level is in some point's block: row r in the block of point r / 1. -/
theorem coverC (i : S1x1024.Idx) : ∃ t : Fin cfg11.N, (cfg11.win 7).flush t = true ∧ i ∈ ((cfg11.win 7).blk t).view.set := by
  have hi0 : (i 0).val < 1 := (i 0).isLt
  have hi1 : (i 1).val < 1024 := (i 1).isLt
  let t : Fin cfg11.N := ⟨(i 0).val / 1, by rw [show cfg11.N = 1 from N_11]; omega⟩
  obtain ⟨e00, e01, e10, e11, e20, e21, e30, e31, e40, e41, e50, e51, e60, e61, e70, e71⟩ := idx_facts t
  have tv : t.val = (i 0).val / 1 := rfl
  refine ⟨t, flush11_7 t, ?_⟩
  show i ∈ ((View.whole main_v52_1).slice (win11_7.rect t)).set
  rw [View.set_slice_whole, Rect.mem_set_unit]
  intro a
  match a with
  | ⟨0, _⟩ => show win11_7.index t (0 : Fin 2) * 1 ≤ (i 0).val ∧ (i 0).val < win11_7.index t (0 : Fin 2) * 1 + 1; omega
  | ⟨1, _⟩ => show win11_7.index t (1 : Fin 2) * 1024 ≤ (i 1).val ∧ (i 1).val < win11_7.index t (1 : Fin 2) * 1024 + 1024; omega

/-- The hidden-state array after the region. -/
theorem finalH (c : Dev nD) : (dat11 V c).arrAt 6 cfg11.N
    = HArr (V c main_v49) (V c main_v50) (V c main_v51) (V c main_v1) (V c main_v3) (V c main_v5) :=
  (dat11 V c).arrAt_eq_of_cover 6 _ (fun t _ => flushedH V c t) coverH

/-- The cell-state array after the region. -/
theorem finalC (c : Dev nD) : (dat11 V c).arrAt 7 cfg11.N
    = CArr (V c main_v49) (V c main_v50) (V c main_v51) (V c main_v1) (V c main_v3) (V c main_v5) :=
  (dat11 V c).arrAt_eq_of_cover 7 _ (fun t _ => flushedC V c t) coverC

end Blocks

end Cert.KernelIdeal.Level11

end
-- ==== Proof.TreeSpec.lean ====
/-
  The whole tree, level by level.

  The tree has twelve levels of internal nodes, level l holding 2^l nodes in heap order: rows 2^l - 1 … 2^(l+1) - 2 of
  the embedding matrix. The children of node j of level l are nodes 2j and 2j + 1 of level l + 1, so the children's
  states, concatenated, are the level below's 2^(l+1) × 1024 matrix re-laid row-major as 2^l × 2048. Below the last
  level the children are leaves with zero state. The result is the root's hidden and cell rows side by side.
-/
import proofs.«112656_j36661840839776_1_alg».proof.Proof.LibTreeCell

noncomputable section

namespace Cert.TreeCell

open Idealize.ShloMosaic Idealize.ShloMosaic.ValueIdx

section Tree
variable (emb : (Sh 4095 1024).Idx → EReal) (wt : (Sh 1024 8192).Idx → EReal) (ut : (Sh 2048 8192).Idx → EReal)
  (bb : (Sh 1 8192).Idx → EReal)

/-- Level 11 (2048 nodes, rows 2047 … 4094): the children are leaves. -/
def H11 : (Sh 2048 1024).Idx → EReal :=
  HArr (extractStridedSlice (Sh 2048 1024) ![2047, 0] emb) (fun _ => 0) (fun _ => 0) wt ut bb
def C11 : (Sh 2048 1024).Idx → EReal :=
  CArr (extractStridedSlice (Sh 2048 1024) ![2047, 0] emb) (fun _ => 0) (fun _ => 0) wt ut bb

/-- Level 10 (1024 nodes, rows 1023 … 2046). -/
def H10 : (Sh 1024 1024).Idx → EReal :=
  HArr (extractStridedSlice (Sh 1024 1024) ![1023, 0] emb) (shapeCast (Sh 1024 2048) (H11 emb wt ut bb))
    (shapeCast (Sh 1024 2048) (C11 emb wt ut bb)) wt ut bb
def C10 : (Sh 1024 1024).Idx → EReal :=
  CArr (extractStridedSlice (Sh 1024 1024) ![1023, 0] emb) (shapeCast (Sh 1024 2048) (H11 emb wt ut bb))
    (shapeCast (Sh 1024 2048) (C11 emb wt ut bb)) wt ut bb

/-- Level 9 (512 nodes, rows 511 … 1022). -/
def H9 : (Sh 512 1024).Idx → EReal :=
  HArr (extractStridedSlice (Sh 512 1024) ![511, 0] emb) (shapeCast (Sh 512 2048) (H10 emb wt ut bb))
    (shapeCast (Sh 512 2048) (C10 emb wt ut bb)) wt ut bb
def C9 : (Sh 512 1024).Idx → EReal :=
  CArr (extractStridedSlice (Sh 512 1024) ![511, 0] emb) (shapeCast (Sh 512 2048) (H10 emb wt ut bb))
    (shapeCast (Sh 512 2048) (C10 emb wt ut bb)) wt ut bb

/-- Level 8 (256 nodes, rows 255 … 510). -/
def H8 : (Sh 256 1024).Idx → EReal :=
  HArr (extractStridedSlice (Sh 256 1024) ![255, 0] emb) (shapeCast (Sh 256 2048) (H9 emb wt ut bb))
    (shapeCast (Sh 256 2048) (C9 emb wt ut bb)) wt ut bb
def C8 : (Sh 256 1024).Idx → EReal :=
  CArr (extractStridedSlice (Sh 256 1024) ![255, 0] emb) (shapeCast (Sh 256 2048) (H9 emb wt ut bb))
    (shapeCast (Sh 256 2048) (C9 emb wt ut bb)) wt ut bb

/-- Level 7 (128 nodes, rows 127 … 254). -/
def H7 : (Sh 128 1024).Idx → EReal :=
  HArr (extractStridedSlice (Sh 128 1024) ![127, 0] emb) (shapeCast (Sh 128 2048) (H8 emb wt ut bb))
    (shapeCast (Sh 128 2048) (C8 emb wt ut bb)) wt ut bb
def C7 : (Sh 128 1024).Idx → EReal :=
  CArr (extractStridedSlice (Sh 128 1024) ![127, 0] emb) (shapeCast (Sh 128 2048) (H8 emb wt ut bb))
    (shapeCast (Sh 128 2048) (C8 emb wt ut bb)) wt ut bb

/-- Level 6 (64 nodes, rows 63 … 126). -/
def H6 : (Sh 64 1024).Idx → EReal :=
  HArr (extractStridedSlice (Sh 64 1024) ![63, 0] emb) (shapeCast (Sh 64 2048) (H7 emb wt ut bb))
    (shapeCast (Sh 64 2048) (C7 emb wt ut bb)) wt ut bb
def C6 : (Sh 64 1024).Idx → EReal :=
  CArr (extractStridedSlice (Sh 64 1024) ![63, 0] emb) (shapeCast (Sh 64 2048) (H7 emb wt ut bb))
    (shapeCast (Sh 64 2048) (C7 emb wt ut bb)) wt ut bb

/-- Level 5 (32 nodes, rows 31 … 62). -/
def H5 : (Sh 32 1024).Idx → EReal :=
  HArr (extractStridedSlice (Sh 32 1024) ![31, 0] emb) (shapeCast (Sh 32 2048) (H6 emb wt ut bb))
    (shapeCast (Sh 32 2048) (C6 emb wt ut bb)) wt ut bb
def C5 : (Sh 32 1024).Idx → EReal :=
  CArr (extractStridedSlice (Sh 32 1024) ![31, 0] emb) (shapeCast (Sh 32 2048) (H6 emb wt ut bb))
    (shapeCast (Sh 32 2048) (C6 emb wt ut bb)) wt ut bb

/-- Level 4 (16 nodes, rows 15 … 30). -/
def H4 : (Sh 16 1024).Idx → EReal :=
  HArr (extractStridedSlice (Sh 16 1024) ![15, 0] emb) (shapeCast (Sh 16 2048) (H5 emb wt ut bb))
    (shapeCast (Sh 16 2048) (C5 emb wt ut bb)) wt ut bb
def C4 : (Sh 16 1024).Idx → EReal :=
  CArr (extractStridedSlice (Sh 16 1024) ![15, 0] emb) (shapeCast (Sh 16 2048) (H5 emb wt ut bb))
    (shapeCast (Sh 16 2048) (C5 emb wt ut bb)) wt ut bb

/-- Level 3 (8 nodes, rows 7 … 14). -/
def H3 : (Sh 8 1024).Idx → EReal :=
  HArr (extractStridedSlice (Sh 8 1024) ![7, 0] emb) (shapeCast (Sh 8 2048) (H4 emb wt ut bb))
    (shapeCast (Sh 8 2048) (C4 emb wt ut bb)) wt ut bb
def C3 : (Sh 8 1024).Idx → EReal :=
  CArr (extractStridedSlice (Sh 8 1024) ![7, 0] emb) (shapeCast (Sh 8 2048) (H4 emb wt ut bb))
    (shapeCast (Sh 8 2048) (C4 emb wt ut bb)) wt ut bb

/-- Level 2 (4 nodes, rows 3 … 6). -/
def H2 : (Sh 4 1024).Idx → EReal :=
  HArr (extractStridedSlice (Sh 4 1024) ![3, 0] emb) (shapeCast (Sh 4 2048) (H3 emb wt ut bb))
    (shapeCast (Sh 4 2048) (C3 emb wt ut bb)) wt ut bb
def C2 : (Sh 4 1024).Idx → EReal :=
  CArr (extractStridedSlice (Sh 4 1024) ![3, 0] emb) (shapeCast (Sh 4 2048) (H3 emb wt ut bb))
    (shapeCast (Sh 4 2048) (C3 emb wt ut bb)) wt ut bb

/-- Level 1 (2 nodes, rows 1 … 2). -/
def H1 : (Sh 2 1024).Idx → EReal :=
  HArr (extractStridedSlice (Sh 2 1024) ![1, 0] emb) (shapeCast (Sh 2 2048) (H2 emb wt ut bb))
    (shapeCast (Sh 2 2048) (C2 emb wt ut bb)) wt ut bb
def C1 : (Sh 2 1024).Idx → EReal :=
  CArr (extractStridedSlice (Sh 2 1024) ![1, 0] emb) (shapeCast (Sh 2 2048) (H2 emb wt ut bb))
    (shapeCast (Sh 2 2048) (C2 emb wt ut bb)) wt ut bb

/-- Level 0 (1 node, row 0). -/
def H0 : (Sh 1 1024).Idx → EReal :=
  HArr (extractStridedSlice (Sh 1 1024) ![0, 0] emb) (shapeCast (Sh 1 2048) (H1 emb wt ut bb))
    (shapeCast (Sh 1 2048) (C1 emb wt ut bb)) wt ut bb
def C0 : (Sh 1 1024).Idx → EReal :=
  CArr (extractStridedSlice (Sh 1 1024) ![0, 0] emb) (shapeCast (Sh 1 2048) (H1 emb wt ut bb))
    (shapeCast (Sh 1 2048) (C1 emb wt ut bb)) wt ut bb

omit emb wt ut bb in
theorem root_concatenates : Shape.Concatenates [Sh 1 1024, Sh 1 1024] (Sh 1 2048) 1 := by decide

/-- The result: the root's hidden row and cell row, side by side. -/
def Root : (Sh 1 2048).Idx → EReal :=
  concatenate (Sh 1 2048) 1 [⟨Sh 1 1024, H0 emb wt ut bb⟩, ⟨Sh 1 1024, C0 emb wt ut bb⟩] root_concatenates

end Tree

end Cert.TreeCell

end
-- ==== Proof.LibTreeCellHost.lean ====
/-
  The host's spelling of one tree-LSTM level, read at an entry (see LibTreeCell for the formulas).

  On the host a level is computed on all M rows at once: two dot_generals added, the bias row broadcast down the rows,
  the logistic written out as 1 / (1 + e^(-z)) with the constant one broadcast from a scalar, and the children's states
  at the leaves an all-zero matrix. Each lemma below finds under that spelling the same entry formula as the
  matrix unit's spelling does, so that the two are one matrix.
-/
import proofs.«112656_j36661840839776_1_alg».proof.Proof.LibTreeCell

noncomputable section

open scoped BigOperators

namespace Cert.TreeCell

open Idealize.ShloMosaic Idealize.ShloMosaic.ValueIdx

/-- The shape of a scalar. -/
abbrev S0 : Shape := ⟨0, ![]⟩

section Host
variable {M : Nat}

/-- The constant zero, broadcast from a scalar and re-laid as another matrix, is zero at every entry. -/
theorem zero_apply {A B N : Nat} (hb : S0.BroadcastsInDim (Sh A B) ![]) (hs : (Sh A B).ShapeCasts (Sh M N)) (i : (Sh M N).Idx) :
    shapeCast (Sh M N) (broadcastInDim (Sh A B) ![] hb (constant (F := Ideal) S0 .f32 0x00000000#32)) hs i = 0 := by
  show Ideal.ofBits .f32 0x00000000#32 = 0
  exact Ideal.ofBits_zero_f32

/-- The logistic as the host writes it: negate, exponential, add one, divide into one. -/
def hostSig {N : Nat} (hb : S0.BroadcastsInDim (Sh M N) ![]) (z : FVec Ideal (Sh M N) .f32) : FVec Ideal (Sh M N) .f32 :=
  Host.divf (broadcastInDim (Sh M N) ![] hb (constant (F := Ideal) S0 .f32 0x3F800000#32))
    (addf (broadcastInDim (Sh M N) ![] hb (constant (F := Ideal) S0 .f32 0x3F800000#32)) (Host.exp (Host.negf z)))

theorem hostSig_apply {N : Nat} (hb : S0.BroadcastsInDim (Sh M N) ![]) (z : FVec Ideal (Sh M N) .f32) (i : (Sh M N).Idx) :
    hostSig hb z i = Ideal.logistic (z i) := by
  show Ideal.div (Ideal.ofBits .f32 0x3F800000#32) (Ideal.ofBits .f32 0x3F800000#32 + Ideal.exp (-(z i))) = _
  rw [Ideal.ofBits_one_f32]
  rfl

/-- The hidden state a level hands upward, as the host writes it. -/
def hostHout (G : FVec Ideal (Sh M 8192) .f32) (C : FVec Ideal (Sh M 2048) .f32) (hb : S0.BroadcastsInDim (Sh M 2048) ![])
    (s3 : (Sh M 8192).Slices ![0, 6144] (Sh M 2048)) (so : (Sh M 2048).Slices ![0, 0] (Sh M 1024)) : FVec Ideal (Sh M 1024) .f32 :=
  extractStridedSlice (Sh M 1024) ![0, 0] (mulf (hostSig hb (extractStridedSlice (Sh M 2048) ![0, 6144] G s3)) (Host.tanh C)) so

/-- The cell state a level hands upward. -/
def hostCout (C : FVec Ideal (Sh M 2048) .f32) (so : (Sh M 2048).Slices ![0, 0] (Sh M 1024)) : FVec Ideal (Sh M 1024) .f32 :=
  extractStridedSlice (Sh M 1024) ![0, 0] C so

variable (x : FVec Ideal (Sh M 1024) .f32) (hc cc : FVec Ideal (Sh M 2048) .f32)
  (wt : FVec Ideal (Sh 1024 8192) .f32) (ut : FVec Ideal (Sh 2048 8192) .f32) (bb : (Sh 1 8192).Idx → EReal)

/-- The pre-activations of a level: two dot_generals added, plus a matrix every row of which is the bias row. -/
theorem rGates_apply (hc' : FVec Ideal (Sh M 2048) .f32) (hhc : hc' = hc)
    (B : FVec Ideal (Sh M 8192) .f32) (hB : ∀ i j, B (ix2 i j) = bb (ix2 0 j)) (i : Fin M) (j : Fin 8192) :
    addf (addf (Host.dotGeneral (DotDims.plain M 1024 8192) none x wt) (Host.dotGeneral (DotDims.plain M 2048 8192) none hc' ut)) B
      (ix2 i j)
    = gateAt x hc wt ut bb i j := by
  subst hhc
  show Host.dotGeneral (DotDims.plain M 1024 8192) none x wt (ix2 i j)
      + Host.dotGeneral (DotDims.plain M 2048 8192) none hc' ut (ix2 i j) + B (ix2 i j) = _
  rw [StackMember.dotGeneral_plain_apply, StackMember.dotGeneral_plain_apply, hB]
  rfl

variable (G : FVec Ideal (Sh M 8192) .f32) (hG : ∀ i j, G (ix2 i j) = gateAt x hc wt ut bb i j)
include hG

/-- The new cell of a level, entry by entry. -/
theorem rC_apply (cc' : FVec Ideal (Sh M 2048) .f32) (hcc : cc' = cc) (hb : S0.BroadcastsInDim (Sh M 2048) ![])
    (s0 : (Sh M 8192).Slices ![0, 0] (Sh M 2048)) (s1 : (Sh M 8192).Slices ![0, 2048] (Sh M 2048))
    (s2 : (Sh M 8192).Slices ![0, 4096] (Sh M 2048)) (i : Fin M) (q : Fin 2048) :
    addf (mulf (hostSig hb (extractStridedSlice (Sh M 2048) ![0, 2048] G s1)) cc')
      (mulf (hostSig hb (extractStridedSlice (Sh M 2048) ![0, 0] G s0))
        (Host.tanh (extractStridedSlice (Sh M 2048) ![0, 4096] G s2))) (ix2 i q)
    = cAt x hc cc wt ut bb i q := by
  subst hcc
  show hostSig hb (extractStridedSlice (Sh M 2048) ![0, 2048] G s1) (ix2 i q) * cc' (ix2 i q)
    + hostSig hb (extractStridedSlice (Sh M 2048) ![0, 0] G s0) (ix2 i q)
      * Ideal.tanh (extractStridedSlice (Sh M 2048) ![0, 4096] G s2 (ix2 i q)) = _
  rw [hostSig_apply, hostSig_apply, slice_cols_apply 2048 G s1 i q (by omega), slice_cols_apply 0 G s0 i q (by omega),
    slice_cols_apply 4096 G s2 i q (by omega), hG, hG, hG]
  rfl

variable (C : FVec Ideal (Sh M 2048) .f32) (hC : ∀ i q, C (ix2 i q) = cAt x hc cc wt ut bb i q)
include hC

/-- What the level hands upward as hidden state is the matrix of the formulas. -/
theorem rHout_eq (hb : S0.BroadcastsInDim (Sh M 2048) ![]) (s3 : (Sh M 8192).Slices ![0, 6144] (Sh M 2048))
    (so : (Sh M 2048).Slices ![0, 0] (Sh M 1024)) :
    hostHout G C hb s3 so = HArr x hc cc wt ut bb := by
  funext y
  obtain ⟨p, q, rfl⟩ : ∃ (p : Fin M) (q : Fin 1024), y = ix2 p q := ⟨y 0, y 1, eq_ix2 y⟩
  unfold hostHout
  rw [slice_cols_apply 0 _ so p q (by omega)]
  show hostSig hb (extractStridedSlice (Sh M 2048) ![0, 6144] G s3) (ix2 p ⟨0 + q.val, by omega⟩)
      * Ideal.tanh (C (ix2 p ⟨0 + q.val, by omega⟩)) = _
  rw [hostSig_apply, slice_cols_apply 6144 G s3 p _ (by show 6144 + (0 + q.val) < 8192; omega), hG, hC]
  rfl

omit hG in
/-- What the level hands upward as cell state is the matrix of the formulas. -/
theorem rCout_eq (so : (Sh M 2048).Slices ![0, 0] (Sh M 1024)) :
    hostCout C so = CArr x hc cc wt ut bb := by
  funext y
  obtain ⟨p, q, rfl⟩ : ∃ (p : Fin M) (q : Fin 1024), y = ix2 p q := ⟨y 0, y 1, eq_ix2 y⟩
  unfold hostCout
  rw [slice_cols_apply 0 _ so p q (by omega), hC]
  rfl

end Host

/-- Two rows side by side, each replaced by an equal one. -/
theorem side_by_side_congr {A B A' B' : (Sh 1 1024).Idx → EReal} (hA : A = A') (hB : B = B')
    (h : Shape.Concatenates [Sh 1 1024, Sh 1 1024] (Sh 1 2048) 1) :
    concatenate (Sh 1 2048) 1 [⟨Sh 1 1024, A⟩, ⟨Sh 1 1024, B⟩] h = concatenate (Sh 1 2048) 1 [⟨Sh 1 1024, A'⟩, ⟨Sh 1 1024, B'⟩] h := by
  subst hA hB; rfl

/-- The bias as the kernel's host code lays it out (a re-laid vector) and as the reference's does (a broadcast along a new
    leading axis) are one 1 × 8192 row. -/
theorem bias_row_eq (v : (⟨1, ![8192]⟩ : Shape).Idx → EReal) (hs : (⟨1, ![8192]⟩ : Shape).ShapeCasts (Sh 1 8192))
    (hb : (⟨1, ![8192]⟩ : Shape).BroadcastsInDim (Sh 1 8192) ![1]) :
    shapeCast (Sh 1 8192) v hs = broadcastInDim (Sh 1 8192) ![1] hb v := by
  funext y
  obtain ⟨a, j, rfl⟩ : ∃ (a : Fin 1) (j : Fin 8192), y = ix2 a j := ⟨y 0, y 1, eq_ix2 y⟩
  have ha : a.val = 0 := by have := a.isLt; omega
  rw [shapeCast_apply v hs (ix2 a j) (ix1 j) (by
      rw [Shape.rowMajor_val_one, Shape.rowMajor_val_two]
      show j.val = a.val * 8192 + j.val
      omega),
    broadcastInDim_apply ![1] hb v (ix2 a j) (ix1 j) (fun b => by
      match b with
      | ⟨0, _⟩ => rfl)]

end Cert.TreeCell

end
-- ==== Proof.KernelTree.lean ====
/-
  The kernel's result is the tree's root.

  The kernel's host code casts and transposes the weights, adds the two bias vectors and lays the sum out as a row, and
  cuts each level's rows out of the embedding matrix (the casts are the identity on the extended reals). Region 0
  computes level 11 from zero children; each later region computes the next level up from the previous region's two
  results re-laid as the children's concatenated states; no region or host operation overwrites the weights, the bias
  or the embeddings. So, boundary by boundary, the two result arrays of region R hold the tree's level 11 - R (TreeSpec),
  and the last host operation puts the root's two rows side by side.
-/
import proofs.«112656_j36661840839776_1_alg».proof.Proof.Gen.KernelIdeal.Frame
import proofs.«112656_j36661840839776_1_alg».proof.Proof.Level0
import proofs.«112656_j36661840839776_1_alg».proof.Proof.Level1
import proofs.«112656_j36661840839776_1_alg».proof.Proof.Level2
import proofs.«112656_j36661840839776_1_alg».proof.Proof.Level3
import proofs.«112656_j36661840839776_1_alg».proof.Proof.Level4
import proofs.«112656_j36661840839776_1_alg».proof.Proof.Level5
import proofs.«112656_j36661840839776_1_alg».proof.Proof.Level6
import proofs.«112656_j36661840839776_1_alg».proof.Proof.Level7
import proofs.«112656_j36661840839776_1_alg».proof.Proof.Level8
import proofs.«112656_j36661840839776_1_alg».proof.Proof.Level9
import proofs.«112656_j36661840839776_1_alg».proof.Proof.Level10
import proofs.«112656_j36661840839776_1_alg».proof.Proof.Level11
import proofs.«112656_j36661840839776_1_alg».proof.Proof.TreeSpec
import proofs.«112656_j36661840839776_1_alg».proof.Proof.LibTreeCellHost
import Idealize.ShloMosaic.Lib.StableHlo.Run

set_option maxRecDepth 16384

noncomputable section

namespace Cert.KernelIdeal.Tree

open Cert.KernelIdeal Cert.KernelIdeal.Gen Idealize.ShloMosaic Idealize.ShloMosaic.TcCoe Idealize.SL.Sem
open Idealize.ShloMosaic.StableHlo Idealize.ShloMosaic.ValueIdx Cert.TreeCell

variable (m : (ℓ : Loc nD τ sig) → Buf (Elt Ideal) ℓ) (ρ : Dev nD → PrngReg) (c : Dev nD)

/-- The embedding matrix, the two transposed weight matrices and the bias row, as the kernel's regions read them. -/
abbrev EMB : (Sh 4095 1024).Idx → EReal := m ((c : Thread nD τ).loc main_arg0)
abbrev WT : (Sh 1024 8192).Idx → EReal :=
  transpose S1024x8192 [1, 0] (m ((c : Thread nD τ).loc main_arg1)) transposes_S8192x1024_S1024x8192_1_0
abbrev UT : (Sh 2048 8192).Idx → EReal :=
  transpose S2048x8192 [1, 0] (m ((c : Thread nD τ).loc main_arg2)) transposes_S8192x2048_S2048x8192_1_0
abbrev BB : (Sh 1 8192).Idx → EReal :=
  shapeCast S1x8192 (addf (F := Ideal) (s := S8192) (φ := .f32) (m ((c : Thread nD τ).loc main_arg3)) (m ((c : Thread nD τ).loc main_arg4)))
    shapeCasts_S8192_S1x8192

/-! ## After the first stretch of host operations -/

theorem k1_wt : (V1 m ρ c main_v1 : (Sh 1024 8192).Idx → EReal) = WT m c := by
  show StableHlo.after hostOps0 (W0 m ρ c) (Proc.devRef .tc main_v1) = _
  after_results <;> rfl
theorem k1_ut : (V1 m ρ c main_v3 : (Sh 2048 8192).Idx → EReal) = UT m c := by
  show StableHlo.after hostOps0 (W0 m ρ c) (Proc.devRef .tc main_v3) = _
  after_results <;> rfl
theorem k1_bb : (V1 m ρ c main_v5 : (Sh 1 8192).Idx → EReal) = BB m c := by
  show StableHlo.after hostOps0 (W0 m ρ c) (Proc.devRef .tc main_v5) = _
  after_results <;> rfl
theorem k1_emb : (V1 m ρ c main_v6 : (Sh 4095 1024).Idx → EReal) = EMB m c := by
  show StableHlo.after hostOps0 (W0 m ρ c) (Proc.devRef .tc main_v6) = _
  after_results <;> rfl
theorem k1_x : (V1 m ρ c main_v7 : (Sh 2048 1024).Idx → EReal) = extractStridedSlice (Sh 2048 1024) ![2047, 0] (EMB m c) := by
  show StableHlo.after hostOps0 (W0 m ρ c) (Proc.devRef .tc main_v7) = _
  after_results <;> rfl

/-! ## Region 0: level 11 -/

theorem k2_h : (V2 m ρ c main_v8_0 : (Sh 2048 1024).Idx → EReal) = H11 (EMB m c) (WT m c) (UT m c) (BB m c) := by
  refine (W2_arr m ρ c 3).trans ?_
  rw [Level0.finalH (V1 m ρ) (UT m c) c, k1_x, k1_wt, k1_bb]
  rfl
theorem k2_c : (V2 m ρ c main_v8_1 : (Sh 2048 1024).Idx → EReal) = C11 (EMB m c) (WT m c) (UT m c) (BB m c) := by
  refine (W2_arr m ρ c 4).trans ?_
  rw [Level0.finalC (V1 m ρ) (UT m c) c, k1_x, k1_wt, k1_bb]
  rfl
theorem k2_wt : (V2 m ρ c main_v1 : (Sh 1024 8192).Idx → EReal) = WT m c :=
  (W2_arr m ρ c 1).trans (((dat0 (V1 m ρ) c).arrAt_in 1 rfl _).trans ((A_eq0 (V1 m ρ) c 1).trans (k1_wt m ρ c)))
theorem k2_ut : (V2 m ρ c main_v3 : (Sh 2048 8192).Idx → EReal) = UT m c := (W2_of_ne m ρ c main_v3 (by decide)).trans (k1_ut m ρ c)
theorem k2_bb : (V2 m ρ c main_v5 : (Sh 1 8192).Idx → EReal) = BB m c :=
  (W2_arr m ρ c 2).trans (((dat0 (V1 m ρ) c).arrAt_in 2 rfl _).trans ((A_eq0 (V1 m ρ) c 2).trans (k1_bb m ρ c)))
theorem k2_emb : (V2 m ρ c main_v6 : (Sh 4095 1024).Idx → EReal) = EMB m c := (W2_of_ne m ρ c main_v6 (by decide)).trans (k1_emb m ρ c)

/-! ## Region 1: level 10 -/

theorem k3_wt : (V3 m ρ c main_v1 : (Sh 1024 8192).Idx → EReal) = WT m c := by
  refine Eq.trans ?_ (k2_wt m ρ c)
  show StableHlo.after hostOps1 (W2 m ρ c) (Proc.devRef .tc main_v1) = W2 m ρ c (Proc.devRef .tc main_v1)
  after_results
theorem k3_ut : (V3 m ρ c main_v3 : (Sh 2048 8192).Idx → EReal) = UT m c := by
  refine Eq.trans ?_ (k2_ut m ρ c)
  show StableHlo.after hostOps1 (W2 m ρ c) (Proc.devRef .tc main_v3) = W2 m ρ c (Proc.devRef .tc main_v3)
  after_results
theorem k3_bb : (V3 m ρ c main_v5 : (Sh 1 8192).Idx → EReal) = BB m c := by
  refine Eq.trans ?_ (k2_bb m ρ c)
  show StableHlo.after hostOps1 (W2 m ρ c) (Proc.devRef .tc main_v5) = W2 m ρ c (Proc.devRef .tc main_v5)
  after_results
theorem k3_emb : (V3 m ρ c main_v6 : (Sh 4095 1024).Idx → EReal) = EMB m c := by
  refine Eq.trans ?_ (k2_emb m ρ c)
  show StableHlo.after hostOps1 (W2 m ρ c) (Proc.devRef .tc main_v6) = W2 m ρ c (Proc.devRef .tc main_v6)
  after_results
theorem k3_x : (V3 m ρ c main_v9 : (Sh 1024 1024).Idx → EReal) = extractStridedSlice (Sh 1024 1024) ![1023, 0] (EMB m c) := by
  rw [← k2_emb m ρ c]
  show StableHlo.after hostOps1 (W2 m ρ c) (Proc.devRef .tc main_v9) = _
  after_results <;> rfl
theorem k3_hc : (V3 m ρ c main_v10 : (Sh 1024 2048).Idx → EReal) = shapeCast (Sh 1024 2048) (H11 (EMB m c) (WT m c) (UT m c) (BB m c)) := by
  rw [← k2_h m ρ c]
  show StableHlo.after hostOps1 (W2 m ρ c) (Proc.devRef .tc main_v10) = _
  after_results <;> rfl
theorem k3_cc : (V3 m ρ c main_v11 : (Sh 1024 2048).Idx → EReal) = shapeCast (Sh 1024 2048) (C11 (EMB m c) (WT m c) (UT m c) (BB m c)) := by
  rw [← k2_c m ρ c]
  show StableHlo.after hostOps1 (W2 m ρ c) (Proc.devRef .tc main_v11) = _
  after_results <;> rfl
theorem k4_h : (V4 m ρ c main_v12_0 : (Sh 1024 1024).Idx → EReal) = H10 (EMB m c) (WT m c) (UT m c) (BB m c) := by
  refine (W4_arr m ρ c 6).trans ?_
  rw [Level1.finalH (V3 m ρ) c, k3_x, k3_hc, k3_cc, k3_wt, k3_ut, k3_bb]
  rfl
theorem k4_c : (V4 m ρ c main_v12_1 : (Sh 1024 1024).Idx → EReal) = C10 (EMB m c) (WT m c) (UT m c) (BB m c) := by
  refine (W4_arr m ρ c 7).trans ?_
  rw [Level1.finalC (V3 m ρ) c, k3_x, k3_hc, k3_cc, k3_wt, k3_ut, k3_bb]
  rfl
theorem k4_wt : (V4 m ρ c main_v1 : (Sh 1024 8192).Idx → EReal) = WT m c :=
  (W4_arr m ρ c 3).trans (((dat1 (V3 m ρ) c).arrAt_in 3 rfl _).trans ((A_eq1 (V3 m ρ) c 3).trans (k3_wt m ρ c)))
theorem k4_ut : (V4 m ρ c main_v3 : (Sh 2048 8192).Idx → EReal) = UT m c :=
  (W4_arr m ρ c 4).trans (((dat1 (V3 m ρ) c).arrAt_in 4 rfl _).trans ((A_eq1 (V3 m ρ) c 4).trans (k3_ut m ρ c)))
theorem k4_bb : (V4 m ρ c main_v5 : (Sh 1 8192).Idx → EReal) = BB m c :=
  (W4_arr m ρ c 5).trans (((dat1 (V3 m ρ) c).arrAt_in 5 rfl _).trans ((A_eq1 (V3 m ρ) c 5).trans (k3_bb m ρ c)))
theorem k4_emb : (V4 m ρ c main_v6 : (Sh 4095 1024).Idx → EReal) = EMB m c := (W4_of_ne m ρ c main_v6 (by decide)).trans (k3_emb m ρ c)

/-! ## Region 2: level 9 -/

theorem k5_wt : (V5 m ρ c main_v1 : (Sh 1024 8192).Idx → EReal) = WT m c := by
  refine Eq.trans ?_ (k4_wt m ρ c)
  show StableHlo.after hostOps2 (W4 m ρ c) (Proc.devRef .tc main_v1) = W4 m ρ c (Proc.devRef .tc main_v1)
  after_results
theorem k5_ut : (V5 m ρ c main_v3 : (Sh 2048 8192).Idx → EReal) = UT m c := by
  refine Eq.trans ?_ (k4_ut m ρ c)
  show StableHlo.after hostOps2 (W4 m ρ c) (Proc.devRef .tc main_v3) = W4 m ρ c (Proc.devRef .tc main_v3)
  after_results
theorem k5_bb : (V5 m ρ c main_v5 : (Sh 1 8192).Idx → EReal) = BB m c := by
  refine Eq.trans ?_ (k4_bb m ρ c)
  show StableHlo.after hostOps2 (W4 m ρ c) (Proc.devRef .tc main_v5) = W4 m ρ c (Proc.devRef .tc main_v5)
  after_results
theorem k5_emb : (V5 m ρ c main_v6 : (Sh 4095 1024).Idx → EReal) = EMB m c := by
  refine Eq.trans ?_ (k4_emb m ρ c)
  show StableHlo.after hostOps2 (W4 m ρ c) (Proc.devRef .tc main_v6) = W4 m ρ c (Proc.devRef .tc main_v6)
  after_results
theorem k5_x : (V5 m ρ c main_v13 : (Sh 512 1024).Idx → EReal) = extractStridedSlice (Sh 512 1024) ![511, 0] (EMB m c) := by
  rw [← k4_emb m ρ c]
  show StableHlo.after hostOps2 (W4 m ρ c) (Proc.devRef .tc main_v13) = _
  after_results <;> rfl
theorem k5_hc : (V5 m ρ c main_v14 : (Sh 512 2048).Idx → EReal) = shapeCast (Sh 512 2048) (H10 (EMB m c) (WT m c) (UT m c) (BB m c)) := by
  rw [← k4_h m ρ c]
  show StableHlo.after hostOps2 (W4 m ρ c) (Proc.devRef .tc main_v14) = _
  after_results <;> rfl
theorem k5_cc : (V5 m ρ c main_v15 : (Sh 512 2048).Idx → EReal) = shapeCast (Sh 512 2048) (C10 (EMB m c) (WT m c) (UT m c) (BB m c)) := by
  rw [← k4_c m ρ c]
  show StableHlo.after hostOps2 (W4 m ρ c) (Proc.devRef .tc main_v15) = _
  after_results <;> rfl
theorem k6_h : (V6 m ρ c main_v16_0 : (Sh 512 1024).Idx → EReal) = H9 (EMB m c) (WT m c) (UT m c) (BB m c) := by
  refine (W6_arr m ρ c 6).trans ?_
  rw [Level2.finalH (V5 m ρ) c, k5_x, k5_hc, k5_cc, k5_wt, k5_ut, k5_bb]
  rfl
theorem k6_c : (V6 m ρ c main_v16_1 : (Sh 512 1024).Idx → EReal) = C9 (EMB m c) (WT m c) (UT m c) (BB m c) := by
  refine (W6_arr m ρ c 7).trans ?_
  rw [Level2.finalC (V5 m ρ) c, k5_x, k5_hc, k5_cc, k5_wt, k5_ut, k5_bb]
  rfl
theorem k6_wt : (V6 m ρ c main_v1 : (Sh 1024 8192).Idx → EReal) = WT m c :=
  (W6_arr m ρ c 3).trans (((dat2 (V5 m ρ) c).arrAt_in 3 rfl _).trans ((A_eq2 (V5 m ρ) c 3).trans (k5_wt m ρ c)))
theorem k6_ut : (V6 m ρ c main_v3 : (Sh 2048 8192).Idx → EReal) = UT m c :=
  (W6_arr m ρ c 4).trans (((dat2 (V5 m ρ) c).arrAt_in 4 rfl _).trans ((A_eq2 (V5 m ρ) c 4).trans (k5_ut m ρ c)))
theorem k6_bb : (V6 m ρ c main_v5 : (Sh 1 8192).Idx → EReal) = BB m c :=
  (W6_arr m ρ c 5).trans (((dat2 (V5 m ρ) c).arrAt_in 5 rfl _).trans ((A_eq2 (V5 m ρ) c 5).trans (k5_bb m ρ c)))
theorem k6_emb : (V6 m ρ c main_v6 : (Sh 4095 1024).Idx → EReal) = EMB m c := (W6_of_ne m ρ c main_v6 (by decide)).trans (k5_emb m ρ c)

/-! ## Region 3: level 8 -/

theorem k7_wt : (V7 m ρ c main_v1 : (Sh 1024 8192).Idx → EReal) = WT m c := by
  refine Eq.trans ?_ (k6_wt m ρ c)
  show StableHlo.after hostOps3 (W6 m ρ c) (Proc.devRef .tc main_v1) = W6 m ρ c (Proc.devRef .tc main_v1)
  after_results
theorem k7_ut : (V7 m ρ c main_v3 : (Sh 2048 8192).Idx → EReal) = UT m c := by
  refine Eq.trans ?_ (k6_ut m ρ c)
  show StableHlo.after hostOps3 (W6 m ρ c) (Proc.devRef .tc main_v3) = W6 m ρ c (Proc.devRef .tc main_v3)
  after_results
theorem k7_bb : (V7 m ρ c main_v5 : (Sh 1 8192).Idx → EReal) = BB m c := by
  refine Eq.trans ?_ (k6_bb m ρ c)
  show StableHlo.after hostOps3 (W6 m ρ c) (Proc.devRef .tc main_v5) = W6 m ρ c (Proc.devRef .tc main_v5)
  after_results
theorem k7_emb : (V7 m ρ c main_v6 : (Sh 4095 1024).Idx → EReal) = EMB m c := by
  refine Eq.trans ?_ (k6_emb m ρ c)
  show StableHlo.after hostOps3 (W6 m ρ c) (Proc.devRef .tc main_v6) = W6 m ρ c (Proc.devRef .tc main_v6)
  after_results
theorem k7_x : (V7 m ρ c main_v17 : (Sh 256 1024).Idx → EReal) = extractStridedSlice (Sh 256 1024) ![255, 0] (EMB m c) := by
  rw [← k6_emb m ρ c]
  show StableHlo.after hostOps3 (W6 m ρ c) (Proc.devRef .tc main_v17) = _
  after_results <;> rfl
theorem k7_hc : (V7 m ρ c main_v18 : (Sh 256 2048).Idx → EReal) = shapeCast (Sh 256 2048) (H9 (EMB m c) (WT m c) (UT m c) (BB m c)) := by
  rw [← k6_h m ρ c]
  show StableHlo.after hostOps3 (W6 m ρ c) (Proc.devRef .tc main_v18) = _
  after_results <;> rfl
theorem k7_cc : (V7 m ρ c main_v19 : (Sh 256 2048).Idx → EReal) = shapeCast (Sh 256 2048) (C9 (EMB m c) (WT m c) (UT m c) (BB m c)) := by
  rw [← k6_c m ρ c]
  show StableHlo.after hostOps3 (W6 m ρ c) (Proc.devRef .tc main_v19) = _
  after_results <;> rfl
theorem k8_h : (V8 m ρ c main_v20_0 : (Sh 256 1024).Idx → EReal) = H8 (EMB m c) (WT m c) (UT m c) (BB m c) := by
  refine (W8_arr m ρ c 6).trans ?_
  rw [Level3.finalH (V7 m ρ) c, k7_x, k7_hc, k7_cc, k7_wt, k7_ut, k7_bb]
  rfl
theorem k8_c : (V8 m ρ c main_v20_1 : (Sh 256 1024).Idx → EReal) = C8 (EMB m c) (WT m c) (UT m c) (BB m c) := by
  refine (W8_arr m ρ c 7).trans ?_
  rw [Level3.finalC (V7 m ρ) c, k7_x, k7_hc, k7_cc, k7_wt, k7_ut, k7_bb]
  rfl
theorem k8_wt : (V8 m ρ c main_v1 : (Sh 1024 8192).Idx → EReal) = WT m c :=
  (W8_arr m ρ c 3).trans (((dat3 (V7 m ρ) c).arrAt_in 3 rfl _).trans ((A_eq3 (V7 m ρ) c 3).trans (k7_wt m ρ c)))
theorem k8_ut : (V8 m ρ c main_v3 : (Sh 2048 8192).Idx → EReal) = UT m c :=
  (W8_arr m ρ c 4).trans (((dat3 (V7 m ρ) c).arrAt_in 4 rfl _).trans ((A_eq3 (V7 m ρ) c 4).trans (k7_ut m ρ c)))
theorem k8_bb : (V8 m ρ c main_v5 : (Sh 1 8192).Idx → EReal) = BB m c :=
  (W8_arr m ρ c 5).trans (((dat3 (V7 m ρ) c).arrAt_in 5 rfl _).trans ((A_eq3 (V7 m ρ) c 5).trans (k7_bb m ρ c)))
theorem k8_emb : (V8 m ρ c main_v6 : (Sh 4095 1024).Idx → EReal) = EMB m c := (W8_of_ne m ρ c main_v6 (by decide)).trans (k7_emb m ρ c)

/-! ## Region 4: level 7 -/

theorem k9_wt : (V9 m ρ c main_v1 : (Sh 1024 8192).Idx → EReal) = WT m c := by
  refine Eq.trans ?_ (k8_wt m ρ c)
  show StableHlo.after hostOps4 (W8 m ρ c) (Proc.devRef .tc main_v1) = W8 m ρ c (Proc.devRef .tc main_v1)
  after_results
theorem k9_ut : (V9 m ρ c main_v3 : (Sh 2048 8192).Idx → EReal) = UT m c := by
  refine Eq.trans ?_ (k8_ut m ρ c)
  show StableHlo.after hostOps4 (W8 m ρ c) (Proc.devRef .tc main_v3) = W8 m ρ c (Proc.devRef .tc main_v3)
  after_results
theorem k9_bb : (V9 m ρ c main_v5 : (Sh 1 8192).Idx → EReal) = BB m c := by
  refine Eq.trans ?_ (k8_bb m ρ c)
  show StableHlo.after hostOps4 (W8 m ρ c) (Proc.devRef .tc main_v5) = W8 m ρ c (Proc.devRef .tc main_v5)
  after_results
theorem k9_emb : (V9 m ρ c main_v6 : (Sh 4095 1024).Idx → EReal) = EMB m c := by
  refine Eq.trans ?_ (k8_emb m ρ c)
  show StableHlo.after hostOps4 (W8 m ρ c) (Proc.devRef .tc main_v6) = W8 m ρ c (Proc.devRef .tc main_v6)
  after_results
theorem k9_x : (V9 m ρ c main_v21 : (Sh 128 1024).Idx → EReal) = extractStridedSlice (Sh 128 1024) ![127, 0] (EMB m c) := by
  rw [← k8_emb m ρ c]
  show StableHlo.after hostOps4 (W8 m ρ c) (Proc.devRef .tc main_v21) = _
  after_results <;> rfl
theorem k9_hc : (V9 m ρ c main_v22 : (Sh 128 2048).Idx → EReal) = shapeCast (Sh 128 2048) (H8 (EMB m c) (WT m c) (UT m c) (BB m c)) := by
  rw [← k8_h m ρ c]
  show StableHlo.after hostOps4 (W8 m ρ c) (Proc.devRef .tc main_v22) = _
  after_results <;> rfl
theorem k9_cc : (V9 m ρ c main_v23 : (Sh 128 2048).Idx → EReal) = shapeCast (Sh 128 2048) (C8 (EMB m c) (WT m c) (UT m c) (BB m c)) := by
  rw [← k8_c m ρ c]
  show StableHlo.after hostOps4 (W8 m ρ c) (Proc.devRef .tc main_v23) = _
  after_results <;> rfl
theorem k10_h : (V10 m ρ c main_v24_0 : (Sh 128 1024).Idx → EReal) = H7 (EMB m c) (WT m c) (UT m c) (BB m c) := by
  refine (W10_arr m ρ c 6).trans ?_
  rw [Level4.finalH (V9 m ρ) c, k9_x, k9_hc, k9_cc, k9_wt, k9_ut, k9_bb]
  rfl
theorem k10_c : (V10 m ρ c main_v24_1 : (Sh 128 1024).Idx → EReal) = C7 (EMB m c) (WT m c) (UT m c) (BB m c) := by
  refine (W10_arr m ρ c 7).trans ?_
  rw [Level4.finalC (V9 m ρ) c, k9_x, k9_hc, k9_cc, k9_wt, k9_ut, k9_bb]
  rfl
theorem k10_wt : (V10 m ρ c main_v1 : (Sh 1024 8192).Idx → EReal) = WT m c :=
  (W10_arr m ρ c 3).trans (((dat4 (V9 m ρ) c).arrAt_in 3 rfl _).trans ((A_eq4 (V9 m ρ) c 3).trans (k9_wt m ρ c)))
theorem k10_ut : (V10 m ρ c main_v3 : (Sh 2048 8192).Idx → EReal) = UT m c :=
  (W10_arr m ρ c 4).trans (((dat4 (V9 m ρ) c).arrAt_in 4 rfl _).trans ((A_eq4 (V9 m ρ) c 4).trans (k9_ut m ρ c)))
theorem k10_bb : (V10 m ρ c main_v5 : (Sh 1 8192).Idx → EReal) = BB m c :=
  (W10_arr m ρ c 5).trans (((dat4 (V9 m ρ) c).arrAt_in 5 rfl _).trans ((A_eq4 (V9 m ρ) c 5).trans (k9_bb m ρ c)))
theorem k10_emb : (V10 m ρ c main_v6 : (Sh 4095 1024).Idx → EReal) = EMB m c := (W10_of_ne m ρ c main_v6 (by decide)).trans (k9_emb m ρ c)

/-! ## Region 5: level 6 -/

theorem k11_wt : (V11 m ρ c main_v1 : (Sh 1024 8192).Idx → EReal) = WT m c := by
  refine Eq.trans ?_ (k10_wt m ρ c)
  show StableHlo.after hostOps5 (W10 m ρ c) (Proc.devRef .tc main_v1) = W10 m ρ c (Proc.devRef .tc main_v1)
  after_results
theorem k11_ut : (V11 m ρ c main_v3 : (Sh 2048 8192).Idx → EReal) = UT m c := by
  refine Eq.trans ?_ (k10_ut m ρ c)
  show StableHlo.after hostOps5 (W10 m ρ c) (Proc.devRef .tc main_v3) = W10 m ρ c (Proc.devRef .tc main_v3)
  after_results
theorem k11_bb : (V11 m ρ c main_v5 : (Sh 1 8192).Idx → EReal) = BB m c := by
  refine Eq.trans ?_ (k10_bb m ρ c)
  show StableHlo.after hostOps5 (W10 m ρ c) (Proc.devRef .tc main_v5) = W10 m ρ c (Proc.devRef .tc main_v5)
  after_results
theorem k11_emb : (V11 m ρ c main_v6 : (Sh 4095 1024).Idx → EReal) = EMB m c := by
  refine Eq.trans ?_ (k10_emb m ρ c)
  show StableHlo.after hostOps5 (W10 m ρ c) (Proc.devRef .tc main_v6) = W10 m ρ c (Proc.devRef .tc main_v6)
  after_results
theorem k11_x : (V11 m ρ c main_v25 : (Sh 64 1024).Idx → EReal) = extractStridedSlice (Sh 64 1024) ![63, 0] (EMB m c) := by
  rw [← k10_emb m ρ c]
  show StableHlo.after hostOps5 (W10 m ρ c) (Proc.devRef .tc main_v25) = _
  after_results <;> rfl
theorem k11_hc : (V11 m ρ c main_v26 : (Sh 64 2048).Idx → EReal) = shapeCast (Sh 64 2048) (H7 (EMB m c) (WT m c) (UT m c) (BB m c)) := by
  rw [← k10_h m ρ c]
  show StableHlo.after hostOps5 (W10 m ρ c) (Proc.devRef .tc main_v26) = _
  after_results <;> rfl
theorem k11_cc : (V11 m ρ c main_v27 : (Sh 64 2048).Idx → EReal) = shapeCast (Sh 64 2048) (C7 (EMB m c) (WT m c) (UT m c) (BB m c)) := by
  rw [← k10_c m ρ c]
  show StableHlo.after hostOps5 (W10 m ρ c) (Proc.devRef .tc main_v27) = _
  after_results <;> rfl
theorem k12_h : (V12 m ρ c main_v28_0 : (Sh 64 1024).Idx → EReal) = H6 (EMB m c) (WT m c) (UT m c) (BB m c) := by
  refine (W12_arr m ρ c 6).trans ?_
  rw [Level5.finalH (V11 m ρ) c, k11_x, k11_hc, k11_cc, k11_wt, k11_ut, k11_bb]
  rfl
theorem k12_c : (V12 m ρ c main_v28_1 : (Sh 64 1024).Idx → EReal) = C6 (EMB m c) (WT m c) (UT m c) (BB m c) := by
  refine (W12_arr m ρ c 7).trans ?_
  rw [Level5.finalC (V11 m ρ) c, k11_x, k11_hc, k11_cc, k11_wt, k11_ut, k11_bb]
  rfl
theorem k12_wt : (V12 m ρ c main_v1 : (Sh 1024 8192).Idx → EReal) = WT m c :=
  (W12_arr m ρ c 3).trans (((dat5 (V11 m ρ) c).arrAt_in 3 rfl _).trans ((A_eq5 (V11 m ρ) c 3).trans (k11_wt m ρ c)))
theorem k12_ut : (V12 m ρ c main_v3 : (Sh 2048 8192).Idx → EReal) = UT m c :=
  (W12_arr m ρ c 4).trans (((dat5 (V11 m ρ) c).arrAt_in 4 rfl _).trans ((A_eq5 (V11 m ρ) c 4).trans (k11_ut m ρ c)))
theorem k12_bb : (V12 m ρ c main_v5 : (Sh 1 8192).Idx → EReal) = BB m c :=
  (W12_arr m ρ c 5).trans (((dat5 (V11 m ρ) c).arrAt_in 5 rfl _).trans ((A_eq5 (V11 m ρ) c 5).trans (k11_bb m ρ c)))
theorem k12_emb : (V12 m ρ c main_v6 : (Sh 4095 1024).Idx → EReal) = EMB m c := (W12_of_ne m ρ c main_v6 (by decide)).trans (k11_emb m ρ c)

/-! ## Region 6: level 5 -/

theorem k13_wt : (V13 m ρ c main_v1 : (Sh 1024 8192).Idx → EReal) = WT m c := by
  refine Eq.trans ?_ (k12_wt m ρ c)
  show StableHlo.after hostOps6 (W12 m ρ c) (Proc.devRef .tc main_v1) = W12 m ρ c (Proc.devRef .tc main_v1)
  after_results
theorem k13_ut : (V13 m ρ c main_v3 : (Sh 2048 8192).Idx → EReal) = UT m c := by
  refine Eq.trans ?_ (k12_ut m ρ c)
  show StableHlo.after hostOps6 (W12 m ρ c) (Proc.devRef .tc main_v3) = W12 m ρ c (Proc.devRef .tc main_v3)
  after_results
theorem k13_bb : (V13 m ρ c main_v5 : (Sh 1 8192).Idx → EReal) = BB m c := by
  refine Eq.trans ?_ (k12_bb m ρ c)
  show StableHlo.after hostOps6 (W12 m ρ c) (Proc.devRef .tc main_v5) = W12 m ρ c (Proc.devRef .tc main_v5)
  after_results
theorem k13_emb : (V13 m ρ c main_v6 : (Sh 4095 1024).Idx → EReal) = EMB m c := by
  refine Eq.trans ?_ (k12_emb m ρ c)
  show StableHlo.after hostOps6 (W12 m ρ c) (Proc.devRef .tc main_v6) = W12 m ρ c (Proc.devRef .tc main_v6)
  after_results
theorem k13_x : (V13 m ρ c main_v29 : (Sh 32 1024).Idx → EReal) = extractStridedSlice (Sh 32 1024) ![31, 0] (EMB m c) := by
  rw [← k12_emb m ρ c]
  show StableHlo.after hostOps6 (W12 m ρ c) (Proc.devRef .tc main_v29) = _
  after_results <;> rfl
theorem k13_hc : (V13 m ρ c main_v30 : (Sh 32 2048).Idx → EReal) = shapeCast (Sh 32 2048) (H6 (EMB m c) (WT m c) (UT m c) (BB m c)) := by
  rw [← k12_h m ρ c]
  show StableHlo.after hostOps6 (W12 m ρ c) (Proc.devRef .tc main_v30) = _
  after_results <;> rfl
theorem k13_cc : (V13 m ρ c main_v31 : (Sh 32 2048).Idx → EReal) = shapeCast (Sh 32 2048) (C6 (EMB m c) (WT m c) (UT m c) (BB m c)) := by
  rw [← k12_c m ρ c]
  show StableHlo.after hostOps6 (W12 m ρ c) (Proc.devRef .tc main_v31) = _
  after_results <;> rfl
theorem k14_h : (V14 m ρ c main_v32_0 : (Sh 32 1024).Idx → EReal) = H5 (EMB m c) (WT m c) (UT m c) (BB m c) := by
  refine (W14_arr m ρ c 6).trans ?_
  rw [Level6.finalH (V13 m ρ) c, k13_x, k13_hc, k13_cc, k13_wt, k13_ut, k13_bb]
  rfl
theorem k14_c : (V14 m ρ c main_v32_1 : (Sh 32 1024).Idx → EReal) = C5 (EMB m c) (WT m c) (UT m c) (BB m c) := by
  refine (W14_arr m ρ c 7).trans ?_
  rw [Level6.finalC (V13 m ρ) c, k13_x, k13_hc, k13_cc, k13_wt, k13_ut, k13_bb]
  rfl
theorem k14_wt : (V14 m ρ c main_v1 : (Sh 1024 8192).Idx → EReal) = WT m c :=
  (W14_arr m ρ c 3).trans (((dat6 (V13 m ρ) c).arrAt_in 3 rfl _).trans ((A_eq6 (V13 m ρ) c 3).trans (k13_wt m ρ c)))
theorem k14_ut : (V14 m ρ c main_v3 : (Sh 2048 8192).Idx → EReal) = UT m c :=
  (W14_arr m ρ c 4).trans (((dat6 (V13 m ρ) c).arrAt_in 4 rfl _).trans ((A_eq6 (V13 m ρ) c 4).trans (k13_ut m ρ c)))
theorem k14_bb : (V14 m ρ c main_v5 : (Sh 1 8192).Idx → EReal) = BB m c :=
  (W14_arr m ρ c 5).trans (((dat6 (V13 m ρ) c).arrAt_in 5 rfl _).trans ((A_eq6 (V13 m ρ) c 5).trans (k13_bb m ρ c)))
theorem k14_emb : (V14 m ρ c main_v6 : (Sh 4095 1024).Idx → EReal) = EMB m c := (W14_of_ne m ρ c main_v6 (by decide)).trans (k13_emb m ρ c)

/-! ## Region 7: level 4 -/

theorem k15_wt : (V15 m ρ c main_v1 : (Sh 1024 8192).Idx → EReal) = WT m c := by
  refine Eq.trans ?_ (k14_wt m ρ c)
  show StableHlo.after hostOps7 (W14 m ρ c) (Proc.devRef .tc main_v1) = W14 m ρ c (Proc.devRef .tc main_v1)
  after_results
theorem k15_ut : (V15 m ρ c main_v3 : (Sh 2048 8192).Idx → EReal) = UT m c := by
  refine Eq.trans ?_ (k14_ut m ρ c)
  show StableHlo.after hostOps7 (W14 m ρ c) (Proc.devRef .tc main_v3) = W14 m ρ c (Proc.devRef .tc main_v3)
  after_results
theorem k15_bb : (V15 m ρ c main_v5 : (Sh 1 8192).Idx → EReal) = BB m c := by
  refine Eq.trans ?_ (k14_bb m ρ c)
  show StableHlo.after hostOps7 (W14 m ρ c) (Proc.devRef .tc main_v5) = W14 m ρ c (Proc.devRef .tc main_v5)
  after_results
theorem k15_emb : (V15 m ρ c main_v6 : (Sh 4095 1024).Idx → EReal) = EMB m c := by
  refine Eq.trans ?_ (k14_emb m ρ c)
  show StableHlo.after hostOps7 (W14 m ρ c) (Proc.devRef .tc main_v6) = W14 m ρ c (Proc.devRef .tc main_v6)
  after_results
theorem k15_x : (V15 m ρ c main_v33 : (Sh 16 1024).Idx → EReal) = extractStridedSlice (Sh 16 1024) ![15, 0] (EMB m c) := by
  rw [← k14_emb m ρ c]
  show StableHlo.after hostOps7 (W14 m ρ c) (Proc.devRef .tc main_v33) = _
  after_results <;> rfl
theorem k15_hc : (V15 m ρ c main_v34 : (Sh 16 2048).Idx → EReal) = shapeCast (Sh 16 2048) (H5 (EMB m c) (WT m c) (UT m c) (BB m c)) := by
  rw [← k14_h m ρ c]
  show StableHlo.after hostOps7 (W14 m ρ c) (Proc.devRef .tc main_v34) = _
  after_results <;> rfl
theorem k15_cc : (V15 m ρ c main_v35 : (Sh 16 2048).Idx → EReal) = shapeCast (Sh 16 2048) (C5 (EMB m c) (WT m c) (UT m c) (BB m c)) := by
  rw [← k14_c m ρ c]
  show StableHlo.after hostOps7 (W14 m ρ c) (Proc.devRef .tc main_v35) = _
  after_results <;> rfl
theorem k16_h : (V16 m ρ c main_v36_0 : (Sh 16 1024).Idx → EReal) = H4 (EMB m c) (WT m c) (UT m c) (BB m c) := by
  refine (W16_arr m ρ c 6).trans ?_
  rw [Level7.finalH (V15 m ρ) c, k15_x, k15_hc, k15_cc, k15_wt, k15_ut, k15_bb]
  rfl
theorem k16_c : (V16 m ρ c main_v36_1 : (Sh 16 1024).Idx → EReal) = C4 (EMB m c) (WT m c) (UT m c) (BB m c) := by
  refine (W16_arr m ρ c 7).trans ?_
  rw [Level7.finalC (V15 m ρ) c, k15_x, k15_hc, k15_cc, k15_wt, k15_ut, k15_bb]
  rfl
theorem k16_wt : (V16 m ρ c main_v1 : (Sh 1024 8192).Idx → EReal) = WT m c :=
  (W16_arr m ρ c 3).trans (((dat7 (V15 m ρ) c).arrAt_in 3 rfl _).trans ((A_eq7 (V15 m ρ) c 3).trans (k15_wt m ρ c)))
theorem k16_ut : (V16 m ρ c main_v3 : (Sh 2048 8192).Idx → EReal) = UT m c :=
  (W16_arr m ρ c 4).trans (((dat7 (V15 m ρ) c).arrAt_in 4 rfl _).trans ((A_eq7 (V15 m ρ) c 4).trans (k15_ut m ρ c)))
theorem k16_bb : (V16 m ρ c main_v5 : (Sh 1 8192).Idx → EReal) = BB m c :=
  (W16_arr m ρ c 5).trans (((dat7 (V15 m ρ) c).arrAt_in 5 rfl _).trans ((A_eq7 (V15 m ρ) c 5).trans (k15_bb m ρ c)))
theorem k16_emb : (V16 m ρ c main_v6 : (Sh 4095 1024).Idx → EReal) = EMB m c := (W16_of_ne m ρ c main_v6 (by decide)).trans (k15_emb m ρ c)

/-! ## Region 8: level 3 -/

theorem k17_wt : (V17 m ρ c main_v1 : (Sh 1024 8192).Idx → EReal) = WT m c := by
  refine Eq.trans ?_ (k16_wt m ρ c)
  show StableHlo.after hostOps8 (W16 m ρ c) (Proc.devRef .tc main_v1) = W16 m ρ c (Proc.devRef .tc main_v1)
  after_results
theorem k17_ut : (V17 m ρ c main_v3 : (Sh 2048 8192).Idx → EReal) = UT m c := by
  refine Eq.trans ?_ (k16_ut m ρ c)
  show StableHlo.after hostOps8 (W16 m ρ c) (Proc.devRef .tc main_v3) = W16 m ρ c (Proc.devRef .tc main_v3)
  after_results
theorem k17_bb : (V17 m ρ c main_v5 : (Sh 1 8192).Idx → EReal) = BB m c := by
  refine Eq.trans ?_ (k16_bb m ρ c)
  show StableHlo.after hostOps8 (W16 m ρ c) (Proc.devRef .tc main_v5) = W16 m ρ c (Proc.devRef .tc main_v5)
  after_results
theorem k17_emb : (V17 m ρ c main_v6 : (Sh 4095 1024).Idx → EReal) = EMB m c := by
  refine Eq.trans ?_ (k16_emb m ρ c)
  show StableHlo.after hostOps8 (W16 m ρ c) (Proc.devRef .tc main_v6) = W16 m ρ c (Proc.devRef .tc main_v6)
  after_results
theorem k17_x : (V17 m ρ c main_v37 : (Sh 8 1024).Idx → EReal) = extractStridedSlice (Sh 8 1024) ![7, 0] (EMB m c) := by
  rw [← k16_emb m ρ c]
  show StableHlo.after hostOps8 (W16 m ρ c) (Proc.devRef .tc main_v37) = _
  after_results <;> rfl
theorem k17_hc : (V17 m ρ c main_v38 : (Sh 8 2048).Idx → EReal) = shapeCast (Sh 8 2048) (H4 (EMB m c) (WT m c) (UT m c) (BB m c)) := by
  rw [← k16_h m ρ c]
  show StableHlo.after hostOps8 (W16 m ρ c) (Proc.devRef .tc main_v38) = _
  after_results <;> rfl
theorem k17_cc : (V17 m ρ c main_v39 : (Sh 8 2048).Idx → EReal) = shapeCast (Sh 8 2048) (C4 (EMB m c) (WT m c) (UT m c) (BB m c)) := by
  rw [← k16_c m ρ c]
  show StableHlo.after hostOps8 (W16 m ρ c) (Proc.devRef .tc main_v39) = _
  after_results <;> rfl
theorem k18_h : (V18 m ρ c main_v40_0 : (Sh 8 1024).Idx → EReal) = H3 (EMB m c) (WT m c) (UT m c) (BB m c) := by
  refine (W18_arr m ρ c 6).trans ?_
  rw [Level8.finalH (V17 m ρ) c, k17_x, k17_hc, k17_cc, k17_wt, k17_ut, k17_bb]
  rfl
theorem k18_c : (V18 m ρ c main_v40_1 : (Sh 8 1024).Idx → EReal) = C3 (EMB m c) (WT m c) (UT m c) (BB m c) := by
  refine (W18_arr m ρ c 7).trans ?_
  rw [Level8.finalC (V17 m ρ) c, k17_x, k17_hc, k17_cc, k17_wt, k17_ut, k17_bb]
  rfl
theorem k18_wt : (V18 m ρ c main_v1 : (Sh 1024 8192).Idx → EReal) = WT m c :=
  (W18_arr m ρ c 3).trans (((dat8 (V17 m ρ) c).arrAt_in 3 rfl _).trans ((A_eq8 (V17 m ρ) c 3).trans (k17_wt m ρ c)))
theorem k18_ut : (V18 m ρ c main_v3 : (Sh 2048 8192).Idx → EReal) = UT m c :=
  (W18_arr m ρ c 4).trans (((dat8 (V17 m ρ) c).arrAt_in 4 rfl _).trans ((A_eq8 (V17 m ρ) c 4).trans (k17_ut m ρ c)))
theorem k18_bb : (V18 m ρ c main_v5 : (Sh 1 8192).Idx → EReal) = BB m c :=
  (W18_arr m ρ c 5).trans (((dat8 (V17 m ρ) c).arrAt_in 5 rfl _).trans ((A_eq8 (V17 m ρ) c 5).trans (k17_bb m ρ c)))
theorem k18_emb : (V18 m ρ c main_v6 : (Sh 4095 1024).Idx → EReal) = EMB m c := (W18_of_ne m ρ c main_v6 (by decide)).trans (k17_emb m ρ c)

/-! ## Region 9: level 2 -/

theorem k19_wt : (V19 m ρ c main_v1 : (Sh 1024 8192).Idx → EReal) = WT m c := by
  refine Eq.trans ?_ (k18_wt m ρ c)
  show StableHlo.after hostOps9 (W18 m ρ c) (Proc.devRef .tc main_v1) = W18 m ρ c (Proc.devRef .tc main_v1)
  after_results
theorem k19_ut : (V19 m ρ c main_v3 : (Sh 2048 8192).Idx → EReal) = UT m c := by
  refine Eq.trans ?_ (k18_ut m ρ c)
  show StableHlo.after hostOps9 (W18 m ρ c) (Proc.devRef .tc main_v3) = W18 m ρ c (Proc.devRef .tc main_v3)
  after_results
theorem k19_bb : (V19 m ρ c main_v5 : (Sh 1 8192).Idx → EReal) = BB m c := by
  refine Eq.trans ?_ (k18_bb m ρ c)
  show StableHlo.after hostOps9 (W18 m ρ c) (Proc.devRef .tc main_v5) = W18 m ρ c (Proc.devRef .tc main_v5)
  after_results
theorem k19_emb : (V19 m ρ c main_v6 : (Sh 4095 1024).Idx → EReal) = EMB m c := by
  refine Eq.trans ?_ (k18_emb m ρ c)
  show StableHlo.after hostOps9 (W18 m ρ c) (Proc.devRef .tc main_v6) = W18 m ρ c (Proc.devRef .tc main_v6)
  after_results
theorem k19_x : (V19 m ρ c main_v41 : (Sh 4 1024).Idx → EReal) = extractStridedSlice (Sh 4 1024) ![3, 0] (EMB m c) := by
  rw [← k18_emb m ρ c]
  show StableHlo.after hostOps9 (W18 m ρ c) (Proc.devRef .tc main_v41) = _
  after_results <;> rfl
theorem k19_hc : (V19 m ρ c main_v42 : (Sh 4 2048).Idx → EReal) = shapeCast (Sh 4 2048) (H3 (EMB m c) (WT m c) (UT m c) (BB m c)) := by
  rw [← k18_h m ρ c]
  show StableHlo.after hostOps9 (W18 m ρ c) (Proc.devRef .tc main_v42) = _
  after_results <;> rfl
theorem k19_cc : (V19 m ρ c main_v43 : (Sh 4 2048).Idx → EReal) = shapeCast (Sh 4 2048) (C3 (EMB m c) (WT m c) (UT m c) (BB m c)) := by
  rw [← k18_c m ρ c]
  show StableHlo.after hostOps9 (W18 m ρ c) (Proc.devRef .tc main_v43) = _
  after_results <;> rfl
theorem k20_h : (V20 m ρ c main_v44_0 : (Sh 4 1024).Idx → EReal) = H2 (EMB m c) (WT m c) (UT m c) (BB m c) := by
  refine (W20_arr m ρ c 6).trans ?_
  rw [Level9.finalH (V19 m ρ) c, k19_x, k19_hc, k19_cc, k19_wt, k19_ut, k19_bb]
  rfl
theorem k20_c : (V20 m ρ c main_v44_1 : (Sh 4 1024).Idx → EReal) = C2 (EMB m c) (WT m c) (UT m c) (BB m c) := by
  refine (W20_arr m ρ c 7).trans ?_
  rw [Level9.finalC (V19 m ρ) c, k19_x, k19_hc, k19_cc, k19_wt, k19_ut, k19_bb]
  rfl
theorem k20_wt : (V20 m ρ c main_v1 : (Sh 1024 8192).Idx → EReal) = WT m c :=
  (W20_arr m ρ c 3).trans (((dat9 (V19 m ρ) c).arrAt_in 3 rfl _).trans ((A_eq9 (V19 m ρ) c 3).trans (k19_wt m ρ c)))
theorem k20_ut : (V20 m ρ c main_v3 : (Sh 2048 8192).Idx → EReal) = UT m c :=
  (W20_arr m ρ c 4).trans (((dat9 (V19 m ρ) c).arrAt_in 4 rfl _).trans ((A_eq9 (V19 m ρ) c 4).trans (k19_ut m ρ c)))
theorem k20_bb : (V20 m ρ c main_v5 : (Sh 1 8192).Idx → EReal) = BB m c :=
  (W20_arr m ρ c 5).trans (((dat9 (V19 m ρ) c).arrAt_in 5 rfl _).trans ((A_eq9 (V19 m ρ) c 5).trans (k19_bb m ρ c)))
theorem k20_emb : (V20 m ρ c main_v6 : (Sh 4095 1024).Idx → EReal) = EMB m c := (W20_of_ne m ρ c main_v6 (by decide)).trans (k19_emb m ρ c)

/-! ## Region 10: level 1 -/

theorem k21_wt : (V21 m ρ c main_v1 : (Sh 1024 8192).Idx → EReal) = WT m c := by
  refine Eq.trans ?_ (k20_wt m ρ c)
  show StableHlo.after hostOps10 (W20 m ρ c) (Proc.devRef .tc main_v1) = W20 m ρ c (Proc.devRef .tc main_v1)
  after_results
theorem k21_ut : (V21 m ρ c main_v3 : (Sh 2048 8192).Idx → EReal) = UT m c := by
  refine Eq.trans ?_ (k20_ut m ρ c)
  show StableHlo.after hostOps10 (W20 m ρ c) (Proc.devRef .tc main_v3) = W20 m ρ c (Proc.devRef .tc main_v3)
  after_results
theorem k21_bb : (V21 m ρ c main_v5 : (Sh 1 8192).Idx → EReal) = BB m c := by
  refine Eq.trans ?_ (k20_bb m ρ c)
  show StableHlo.after hostOps10 (W20 m ρ c) (Proc.devRef .tc main_v5) = W20 m ρ c (Proc.devRef .tc main_v5)
  after_results
theorem k21_emb : (V21 m ρ c main_v6 : (Sh 4095 1024).Idx → EReal) = EMB m c := by
  refine Eq.trans ?_ (k20_emb m ρ c)
  show StableHlo.after hostOps10 (W20 m ρ c) (Proc.devRef .tc main_v6) = W20 m ρ c (Proc.devRef .tc main_v6)
  after_results
theorem k21_x : (V21 m ρ c main_v45 : (Sh 2 1024).Idx → EReal) = extractStridedSlice (Sh 2 1024) ![1, 0] (EMB m c) := by
  rw [← k20_emb m ρ c]
  show StableHlo.after hostOps10 (W20 m ρ c) (Proc.devRef .tc main_v45) = _
  after_results <;> rfl
theorem k21_hc : (V21 m ρ c main_v46 : (Sh 2 2048).Idx → EReal) = shapeCast (Sh 2 2048) (H2 (EMB m c) (WT m c) (UT m c) (BB m c)) := by
  rw [← k20_h m ρ c]
  show StableHlo.after hostOps10 (W20 m ρ c) (Proc.devRef .tc main_v46) = _
  after_results <;> rfl
theorem k21_cc : (V21 m ρ c main_v47 : (Sh 2 2048).Idx → EReal) = shapeCast (Sh 2 2048) (C2 (EMB m c) (WT m c) (UT m c) (BB m c)) := by
  rw [← k20_c m ρ c]
  show StableHlo.after hostOps10 (W20 m ρ c) (Proc.devRef .tc main_v47) = _
  after_results <;> rfl
theorem k22_h : (V22 m ρ c main_v48_0 : (Sh 2 1024).Idx → EReal) = H1 (EMB m c) (WT m c) (UT m c) (BB m c) := by
  refine (W22_arr m ρ c 6).trans ?_
  rw [Level10.finalH (V21 m ρ) c, k21_x, k21_hc, k21_cc, k21_wt, k21_ut, k21_bb]
  rfl
theorem k22_c : (V22 m ρ c main_v48_1 : (Sh 2 1024).Idx → EReal) = C1 (EMB m c) (WT m c) (UT m c) (BB m c) := by
  refine (W22_arr m ρ c 7).trans ?_
  rw [Level10.finalC (V21 m ρ) c, k21_x, k21_hc, k21_cc, k21_wt, k21_ut, k21_bb]
  rfl
theorem k22_wt : (V22 m ρ c main_v1 : (Sh 1024 8192).Idx → EReal) = WT m c :=
  (W22_arr m ρ c 3).trans (((dat10 (V21 m ρ) c).arrAt_in 3 rfl _).trans ((A_eq10 (V21 m ρ) c 3).trans (k21_wt m ρ c)))
theorem k22_ut : (V22 m ρ c main_v3 : (Sh 2048 8192).Idx → EReal) = UT m c :=
  (W22_arr m ρ c 4).trans (((dat10 (V21 m ρ) c).arrAt_in 4 rfl _).trans ((A_eq10 (V21 m ρ) c 4).trans (k21_ut m ρ c)))
theorem k22_bb : (V22 m ρ c main_v5 : (Sh 1 8192).Idx → EReal) = BB m c :=
  (W22_arr m ρ c 5).trans (((dat10 (V21 m ρ) c).arrAt_in 5 rfl _).trans ((A_eq10 (V21 m ρ) c 5).trans (k21_bb m ρ c)))
theorem k22_emb : (V22 m ρ c main_v6 : (Sh 4095 1024).Idx → EReal) = EMB m c := (W22_of_ne m ρ c main_v6 (by decide)).trans (k21_emb m ρ c)

/-! ## Region 11: level 0 -/

theorem k23_wt : (V23 m ρ c main_v1 : (Sh 1024 8192).Idx → EReal) = WT m c := by
  refine Eq.trans ?_ (k22_wt m ρ c)
  show StableHlo.after hostOps11 (W22 m ρ c) (Proc.devRef .tc main_v1) = W22 m ρ c (Proc.devRef .tc main_v1)
  after_results
theorem k23_ut : (V23 m ρ c main_v3 : (Sh 2048 8192).Idx → EReal) = UT m c := by
  refine Eq.trans ?_ (k22_ut m ρ c)
  show StableHlo.after hostOps11 (W22 m ρ c) (Proc.devRef .tc main_v3) = W22 m ρ c (Proc.devRef .tc main_v3)
  after_results
theorem k23_bb : (V23 m ρ c main_v5 : (Sh 1 8192).Idx → EReal) = BB m c := by
  refine Eq.trans ?_ (k22_bb m ρ c)
  show StableHlo.after hostOps11 (W22 m ρ c) (Proc.devRef .tc main_v5) = W22 m ρ c (Proc.devRef .tc main_v5)
  after_results
theorem k23_emb : (V23 m ρ c main_v6 : (Sh 4095 1024).Idx → EReal) = EMB m c := by
  refine Eq.trans ?_ (k22_emb m ρ c)
  show StableHlo.after hostOps11 (W22 m ρ c) (Proc.devRef .tc main_v6) = W22 m ρ c (Proc.devRef .tc main_v6)
  after_results
theorem k23_x : (V23 m ρ c main_v49 : (Sh 1 1024).Idx → EReal) = extractStridedSlice (Sh 1 1024) ![0, 0] (EMB m c) := by
  rw [← k22_emb m ρ c]
  show StableHlo.after hostOps11 (W22 m ρ c) (Proc.devRef .tc main_v49) = _
  after_results <;> rfl
theorem k23_hc : (V23 m ρ c main_v50 : (Sh 1 2048).Idx → EReal) = shapeCast (Sh 1 2048) (H1 (EMB m c) (WT m c) (UT m c) (BB m c)) := by
  rw [← k22_h m ρ c]
  show StableHlo.after hostOps11 (W22 m ρ c) (Proc.devRef .tc main_v50) = _
  after_results <;> rfl
theorem k23_cc : (V23 m ρ c main_v51 : (Sh 1 2048).Idx → EReal) = shapeCast (Sh 1 2048) (C1 (EMB m c) (WT m c) (UT m c) (BB m c)) := by
  rw [← k22_c m ρ c]
  show StableHlo.after hostOps11 (W22 m ρ c) (Proc.devRef .tc main_v51) = _
  after_results <;> rfl
theorem k24_h : (V24 m ρ c main_v52_0 : (Sh 1 1024).Idx → EReal) = H0 (EMB m c) (WT m c) (UT m c) (BB m c) := by
  refine (W24_arr m ρ c 6).trans ?_
  rw [Level11.finalH (V23 m ρ) c, k23_x, k23_hc, k23_cc, k23_wt, k23_ut, k23_bb]
  rfl
theorem k24_c : (V24 m ρ c main_v52_1 : (Sh 1 1024).Idx → EReal) = C0 (EMB m c) (WT m c) (UT m c) (BB m c) := by
  refine (W24_arr m ρ c 7).trans ?_
  rw [Level11.finalC (V23 m ρ) c, k23_x, k23_hc, k23_cc, k23_wt, k23_ut, k23_bb]
  rfl

/-! ## The last host operation -/

/-- The result buffer after the run's last boundary: the root's hidden row and cell row, side by side. -/
theorem result_eq : (W25 m ρ c (Proc.devRef .tc main_v53) : (Sh 1 2048).Idx → EReal)
    = Root (EMB m c) (WT m c) (UT m c) (BB m c) := by
  refine Eq.trans ?_ (side_by_side_congr (k24_h m ρ c) (k24_c m ρ c) root_concatenates)
  show StableHlo.after hostOps12 (W24 m ρ c) (Proc.devRef .tc main_v53) = _
  after_results <;> rfl

end Cert.KernelIdeal.Tree

end
-- ==== Proof.RefTree.lean ====
/-
  The reference, level by level.

  The reference computes each level on all its rows at once. Reading its named intermediate matrices (the pre-activations
  and the new cells of each level) at an entry finds the level formulas of LibTreeCell, the children's states being the
  level below's two results re-laid — or zero below the last level — so that what each level hands upward is the tree's
  matrix of that level (TreeSpec), down to the root, whose two rows side by side are the result.
-/
import proofs.«112656_j36661840839776_1_alg».proof.Proof.Gen.ReferenceIdeal.Run
import proofs.«112656_j36661840839776_1_alg».proof.Proof.LibTreeCellHost
import proofs.«112656_j36661840839776_1_alg».proof.Proof.TreeSpec

set_option maxRecDepth 16384

noncomputable section

namespace Cert.ReferenceIdeal.Tree

open Cert.ReferenceIdeal Cert.ReferenceIdeal.Gen Cert.ReferenceIdeal.Value Idealize.ShloMosaic Idealize.ShloMosaic.TcCoe
open Idealize.SL.Sem Idealize.ShloMosaic.StableHlo Idealize.ShloMosaic.ValueIdx Cert.TreeCell

variable (V0 : Valuation τ sig (Elt Ideal))

/-- The embedding matrix, the two transposed weight matrices and the bias row, as the reference reads them. -/
abbrev EMB : (Sh 4095 1024).Idx → EReal := V0 (Proc.devRef .tc main_arg0)
abbrev WT : (Sh 1024 8192).Idx → EReal :=
  transpose S1024x8192 [1, 0] (V0 (Proc.devRef .tc main_arg1)) transposes_S8192x1024_S1024x8192_1_0
abbrev UT : (Sh 2048 8192).Idx → EReal :=
  transpose S2048x8192 [1, 0] (V0 (Proc.devRef .tc main_arg2)) transposes_S8192x2048_S2048x8192_1_0
abbrev BB : (Sh 1 8192).Idx → EReal := broadcastInDim S1x8192 ![1] bcast_S8192_S1x8192_1 (res_main_v0 (F := Ideal) V0)

/-! ## Level 11: the children are leaves -/

theorem gates11 (i : Fin 2048) (j : Fin 8192) :
    res_main_v13 (F := Ideal) V0 (ix2 i j)
      = gateAt (extractStridedSlice (Sh 2048 1024) ![2047, 0] (EMB V0)) (fun _ => 0) (WT V0) (UT V0) (BB V0) i j :=
  rGates_apply _ (fun _ => 0) (WT V0) (UT V0) (BB V0) _ (funext fun y => zero_apply _ _ y) _
    (fun i j => broadcastInDim_row_apply _ _ i j) i j

theorem cell11 (i : Fin 2048) (q : Fin 2048) :
    res_main_v33 (F := Ideal) V0 (ix2 i q)
      = cAt (extractStridedSlice (Sh 2048 1024) ![2047, 0] (EMB V0)) (fun _ => 0) (fun _ => 0) (WT V0) (UT V0) (BB V0) i q :=
  rC_apply _ (fun _ => 0) (fun _ => 0) (WT V0) (UT V0) (BB V0) (res_main_v13 (F := Ideal) V0) (gates11 V0) _
    (funext fun y => zero_apply _ _ y) _ _ _ _ i q

theorem hout11 : hostHout (res_main_v13 (F := Ideal) V0) (res_main_v33 (F := Ideal) V0) (by decide) (by decide) (by decide)
    = H11 (EMB V0) (WT V0) (UT V0) (BB V0) :=
  rHout_eq _ _ _ _ _ _ _ (gates11 V0) _ (cell11 V0) _ _ _

theorem cout11 : hostCout (res_main_v33 (F := Ideal) V0) (by decide) = C11 (EMB V0) (WT V0) (UT V0) (BB V0) :=
  rCout_eq _ _ _ _ _ _ _ (cell11 V0) _

/-! ## Level 10 -/

theorem gates10 (i : Fin 1024) (j : Fin 8192) :
    res_main_v54 (F := Ideal) V0 (ix2 i j)
      = gateAt (extractStridedSlice (Sh 1024 1024) ![1023, 0] (EMB V0)) (shapeCast (Sh 1024 2048) (H11 (EMB V0) (WT V0) (UT V0) (BB V0)))
          (WT V0) (UT V0) (BB V0) i j :=
  rGates_apply _ _ (WT V0) (UT V0) (BB V0) _
    (congrArg (fun a => shapeCast (Sh 1024 2048) a (by decide)) (hout11 V0)) _
    (fun i j => broadcastInDim_row_apply _ _ i j) i j

theorem cell10 (i : Fin 1024) (q : Fin 2048) :
    res_main_v74 (F := Ideal) V0 (ix2 i q)
      = cAt (extractStridedSlice (Sh 1024 1024) ![1023, 0] (EMB V0)) (shapeCast (Sh 1024 2048) (H11 (EMB V0) (WT V0) (UT V0) (BB V0)))
          (shapeCast (Sh 1024 2048) (C11 (EMB V0) (WT V0) (UT V0) (BB V0))) (WT V0) (UT V0) (BB V0) i q :=
  rC_apply _ _ _ (WT V0) (UT V0) (BB V0) (res_main_v54 (F := Ideal) V0) (gates10 V0) _
    (congrArg (fun a => shapeCast (Sh 1024 2048) a (by decide)) (cout11 V0)) _ _ _ _ i q

theorem hout10 : hostHout (res_main_v54 (F := Ideal) V0) (res_main_v74 (F := Ideal) V0) (by decide) (by decide) (by decide)
    = H10 (EMB V0) (WT V0) (UT V0) (BB V0) :=
  rHout_eq _ _ _ _ _ _ _ (gates10 V0) _ (cell10 V0) _ _ _

theorem cout10 : hostCout (res_main_v74 (F := Ideal) V0) (by decide) = C10 (EMB V0) (WT V0) (UT V0) (BB V0) :=
  rCout_eq _ _ _ _ _ _ _ (cell10 V0) _

/-! ## Level 9 -/

theorem gates9 (i : Fin 512) (j : Fin 8192) :
    res_main_v95 (F := Ideal) V0 (ix2 i j)
      = gateAt (extractStridedSlice (Sh 512 1024) ![511, 0] (EMB V0)) (shapeCast (Sh 512 2048) (H10 (EMB V0) (WT V0) (UT V0) (BB V0)))
          (WT V0) (UT V0) (BB V0) i j :=
  rGates_apply _ _ (WT V0) (UT V0) (BB V0) _
    (congrArg (fun a => shapeCast (Sh 512 2048) a (by decide)) (hout10 V0)) _
    (fun i j => broadcastInDim_row_apply _ _ i j) i j

theorem cell9 (i : Fin 512) (q : Fin 2048) :
    res_main_v115 (F := Ideal) V0 (ix2 i q)
      = cAt (extractStridedSlice (Sh 512 1024) ![511, 0] (EMB V0)) (shapeCast (Sh 512 2048) (H10 (EMB V0) (WT V0) (UT V0) (BB V0)))
          (shapeCast (Sh 512 2048) (C10 (EMB V0) (WT V0) (UT V0) (BB V0))) (WT V0) (UT V0) (BB V0) i q :=
  rC_apply _ _ _ (WT V0) (UT V0) (BB V0) (res_main_v95 (F := Ideal) V0) (gates9 V0) _
    (congrArg (fun a => shapeCast (Sh 512 2048) a (by decide)) (cout10 V0)) _ _ _ _ i q

theorem hout9 : hostHout (res_main_v95 (F := Ideal) V0) (res_main_v115 (F := Ideal) V0) (by decide) (by decide) (by decide)
    = H9 (EMB V0) (WT V0) (UT V0) (BB V0) :=
  rHout_eq _ _ _ _ _ _ _ (gates9 V0) _ (cell9 V0) _ _ _

theorem cout9 : hostCout (res_main_v115 (F := Ideal) V0) (by decide) = C9 (EMB V0) (WT V0) (UT V0) (BB V0) :=
  rCout_eq _ _ _ _ _ _ _ (cell9 V0) _

/-! ## Level 8 -/

theorem gates8 (i : Fin 256) (j : Fin 8192) :
    res_main_v136 (F := Ideal) V0 (ix2 i j)
      = gateAt (extractStridedSlice (Sh 256 1024) ![255, 0] (EMB V0)) (shapeCast (Sh 256 2048) (H9 (EMB V0) (WT V0) (UT V0) (BB V0)))
          (WT V0) (UT V0) (BB V0) i j :=
  rGates_apply _ _ (WT V0) (UT V0) (BB V0) _
    (congrArg (fun a => shapeCast (Sh 256 2048) a (by decide)) (hout9 V0)) _
    (fun i j => broadcastInDim_row_apply _ _ i j) i j

theorem cell8 (i : Fin 256) (q : Fin 2048) :
    res_main_v156 (F := Ideal) V0 (ix2 i q)
      = cAt (extractStridedSlice (Sh 256 1024) ![255, 0] (EMB V0)) (shapeCast (Sh 256 2048) (H9 (EMB V0) (WT V0) (UT V0) (BB V0)))
          (shapeCast (Sh 256 2048) (C9 (EMB V0) (WT V0) (UT V0) (BB V0))) (WT V0) (UT V0) (BB V0) i q :=
  rC_apply _ _ _ (WT V0) (UT V0) (BB V0) (res_main_v136 (F := Ideal) V0) (gates8 V0) _
    (congrArg (fun a => shapeCast (Sh 256 2048) a (by decide)) (cout9 V0)) _ _ _ _ i q

theorem hout8 : hostHout (res_main_v136 (F := Ideal) V0) (res_main_v156 (F := Ideal) V0) (by decide) (by decide) (by decide)
    = H8 (EMB V0) (WT V0) (UT V0) (BB V0) :=
  rHout_eq _ _ _ _ _ _ _ (gates8 V0) _ (cell8 V0) _ _ _

theorem cout8 : hostCout (res_main_v156 (F := Ideal) V0) (by decide) = C8 (EMB V0) (WT V0) (UT V0) (BB V0) :=
  rCout_eq _ _ _ _ _ _ _ (cell8 V0) _

/-! ## Level 7 -/

theorem gates7 (i : Fin 128) (j : Fin 8192) :
    res_main_v177 (F := Ideal) V0 (ix2 i j)
      = gateAt (extractStridedSlice (Sh 128 1024) ![127, 0] (EMB V0)) (shapeCast (Sh 128 2048) (H8 (EMB V0) (WT V0) (UT V0) (BB V0)))
          (WT V0) (UT V0) (BB V0) i j :=
  rGates_apply _ _ (WT V0) (UT V0) (BB V0) _
    (congrArg (fun a => shapeCast (Sh 128 2048) a (by decide)) (hout8 V0)) _
    (fun i j => broadcastInDim_row_apply _ _ i j) i j

theorem cell7 (i : Fin 128) (q : Fin 2048) :
    res_main_v197 (F := Ideal) V0 (ix2 i q)
      = cAt (extractStridedSlice (Sh 128 1024) ![127, 0] (EMB V0)) (shapeCast (Sh 128 2048) (H8 (EMB V0) (WT V0) (UT V0) (BB V0)))
          (shapeCast (Sh 128 2048) (C8 (EMB V0) (WT V0) (UT V0) (BB V0))) (WT V0) (UT V0) (BB V0) i q :=
  rC_apply _ _ _ (WT V0) (UT V0) (BB V0) (res_main_v177 (F := Ideal) V0) (gates7 V0) _
    (congrArg (fun a => shapeCast (Sh 128 2048) a (by decide)) (cout8 V0)) _ _ _ _ i q

theorem hout7 : hostHout (res_main_v177 (F := Ideal) V0) (res_main_v197 (F := Ideal) V0) (by decide) (by decide) (by decide)
    = H7 (EMB V0) (WT V0) (UT V0) (BB V0) :=
  rHout_eq _ _ _ _ _ _ _ (gates7 V0) _ (cell7 V0) _ _ _

theorem cout7 : hostCout (res_main_v197 (F := Ideal) V0) (by decide) = C7 (EMB V0) (WT V0) (UT V0) (BB V0) :=
  rCout_eq _ _ _ _ _ _ _ (cell7 V0) _

/-! ## Level 6 -/

theorem gates6 (i : Fin 64) (j : Fin 8192) :
    res_main_v218 (F := Ideal) V0 (ix2 i j)
      = gateAt (extractStridedSlice (Sh 64 1024) ![63, 0] (EMB V0)) (shapeCast (Sh 64 2048) (H7 (EMB V0) (WT V0) (UT V0) (BB V0)))
          (WT V0) (UT V0) (BB V0) i j :=
  rGates_apply _ _ (WT V0) (UT V0) (BB V0) _
    (congrArg (fun a => shapeCast (Sh 64 2048) a (by decide)) (hout7 V0)) _
    (fun i j => broadcastInDim_row_apply _ _ i j) i j

theorem cell6 (i : Fin 64) (q : Fin 2048) :
    res_main_v238 (F := Ideal) V0 (ix2 i q)
      = cAt (extractStridedSlice (Sh 64 1024) ![63, 0] (EMB V0)) (shapeCast (Sh 64 2048) (H7 (EMB V0) (WT V0) (UT V0) (BB V0)))
          (shapeCast (Sh 64 2048) (C7 (EMB V0) (WT V0) (UT V0) (BB V0))) (WT V0) (UT V0) (BB V0) i q :=
  rC_apply _ _ _ (WT V0) (UT V0) (BB V0) (res_main_v218 (F := Ideal) V0) (gates6 V0) _
    (congrArg (fun a => shapeCast (Sh 64 2048) a (by decide)) (cout7 V0)) _ _ _ _ i q

theorem hout6 : hostHout (res_main_v218 (F := Ideal) V0) (res_main_v238 (F := Ideal) V0) (by decide) (by decide) (by decide)
    = H6 (EMB V0) (WT V0) (UT V0) (BB V0) :=
  rHout_eq _ _ _ _ _ _ _ (gates6 V0) _ (cell6 V0) _ _ _

theorem cout6 : hostCout (res_main_v238 (F := Ideal) V0) (by decide) = C6 (EMB V0) (WT V0) (UT V0) (BB V0) :=
  rCout_eq _ _ _ _ _ _ _ (cell6 V0) _

/-! ## Level 5 -/

theorem gates5 (i : Fin 32) (j : Fin 8192) :
    res_main_v259 (F := Ideal) V0 (ix2 i j)
      = gateAt (extractStridedSlice (Sh 32 1024) ![31, 0] (EMB V0)) (shapeCast (Sh 32 2048) (H6 (EMB V0) (WT V0) (UT V0) (BB V0)))
          (WT V0) (UT V0) (BB V0) i j :=
  rGates_apply _ _ (WT V0) (UT V0) (BB V0) _
    (congrArg (fun a => shapeCast (Sh 32 2048) a (by decide)) (hout6 V0)) _
    (fun i j => broadcastInDim_row_apply _ _ i j) i j

theorem cell5 (i : Fin 32) (q : Fin 2048) :
    res_main_v279 (F := Ideal) V0 (ix2 i q)
      = cAt (extractStridedSlice (Sh 32 1024) ![31, 0] (EMB V0)) (shapeCast (Sh 32 2048) (H6 (EMB V0) (WT V0) (UT V0) (BB V0)))
          (shapeCast (Sh 32 2048) (C6 (EMB V0) (WT V0) (UT V0) (BB V0))) (WT V0) (UT V0) (BB V0) i q :=
  rC_apply _ _ _ (WT V0) (UT V0) (BB V0) (res_main_v259 (F := Ideal) V0) (gates5 V0) _
    (congrArg (fun a => shapeCast (Sh 32 2048) a (by decide)) (cout6 V0)) _ _ _ _ i q

theorem hout5 : hostHout (res_main_v259 (F := Ideal) V0) (res_main_v279 (F := Ideal) V0) (by decide) (by decide) (by decide)
    = H5 (EMB V0) (WT V0) (UT V0) (BB V0) :=
  rHout_eq _ _ _ _ _ _ _ (gates5 V0) _ (cell5 V0) _ _ _

theorem cout5 : hostCout (res_main_v279 (F := Ideal) V0) (by decide) = C5 (EMB V0) (WT V0) (UT V0) (BB V0) :=
  rCout_eq _ _ _ _ _ _ _ (cell5 V0) _

/-! ## Level 4 -/

theorem gates4 (i : Fin 16) (j : Fin 8192) :
    res_main_v300 (F := Ideal) V0 (ix2 i j)
      = gateAt (extractStridedSlice (Sh 16 1024) ![15, 0] (EMB V0)) (shapeCast (Sh 16 2048) (H5 (EMB V0) (WT V0) (UT V0) (BB V0)))
          (WT V0) (UT V0) (BB V0) i j :=
  rGates_apply _ _ (WT V0) (UT V0) (BB V0) _
    (congrArg (fun a => shapeCast (Sh 16 2048) a (by decide)) (hout5 V0)) _
    (fun i j => broadcastInDim_row_apply _ _ i j) i j

theorem cell4 (i : Fin 16) (q : Fin 2048) :
    res_main_v320 (F := Ideal) V0 (ix2 i q)
      = cAt (extractStridedSlice (Sh 16 1024) ![15, 0] (EMB V0)) (shapeCast (Sh 16 2048) (H5 (EMB V0) (WT V0) (UT V0) (BB V0)))
          (shapeCast (Sh 16 2048) (C5 (EMB V0) (WT V0) (UT V0) (BB V0))) (WT V0) (UT V0) (BB V0) i q :=
  rC_apply _ _ _ (WT V0) (UT V0) (BB V0) (res_main_v300 (F := Ideal) V0) (gates4 V0) _
    (congrArg (fun a => shapeCast (Sh 16 2048) a (by decide)) (cout5 V0)) _ _ _ _ i q

theorem hout4 : hostHout (res_main_v300 (F := Ideal) V0) (res_main_v320 (F := Ideal) V0) (by decide) (by decide) (by decide)
    = H4 (EMB V0) (WT V0) (UT V0) (BB V0) :=
  rHout_eq _ _ _ _ _ _ _ (gates4 V0) _ (cell4 V0) _ _ _

theorem cout4 : hostCout (res_main_v320 (F := Ideal) V0) (by decide) = C4 (EMB V0) (WT V0) (UT V0) (BB V0) :=
  rCout_eq _ _ _ _ _ _ _ (cell4 V0) _

/-! ## Level 3 -/

theorem gates3 (i : Fin 8) (j : Fin 8192) :
    res_main_v341 (F := Ideal) V0 (ix2 i j)
      = gateAt (extractStridedSlice (Sh 8 1024) ![7, 0] (EMB V0)) (shapeCast (Sh 8 2048) (H4 (EMB V0) (WT V0) (UT V0) (BB V0)))
          (WT V0) (UT V0) (BB V0) i j :=
  rGates_apply _ _ (WT V0) (UT V0) (BB V0) _
    (congrArg (fun a => shapeCast (Sh 8 2048) a (by decide)) (hout4 V0)) _
    (fun i j => broadcastInDim_row_apply _ _ i j) i j

theorem cell3 (i : Fin 8) (q : Fin 2048) :
    res_main_v361 (F := Ideal) V0 (ix2 i q)
      = cAt (extractStridedSlice (Sh 8 1024) ![7, 0] (EMB V0)) (shapeCast (Sh 8 2048) (H4 (EMB V0) (WT V0) (UT V0) (BB V0)))
          (shapeCast (Sh 8 2048) (C4 (EMB V0) (WT V0) (UT V0) (BB V0))) (WT V0) (UT V0) (BB V0) i q :=
  rC_apply _ _ _ (WT V0) (UT V0) (BB V0) (res_main_v341 (F := Ideal) V0) (gates3 V0) _
    (congrArg (fun a => shapeCast (Sh 8 2048) a (by decide)) (cout4 V0)) _ _ _ _ i q

theorem hout3 : hostHout (res_main_v341 (F := Ideal) V0) (res_main_v361 (F := Ideal) V0) (by decide) (by decide) (by decide)
    = H3 (EMB V0) (WT V0) (UT V0) (BB V0) :=
  rHout_eq _ _ _ _ _ _ _ (gates3 V0) _ (cell3 V0) _ _ _

theorem cout3 : hostCout (res_main_v361 (F := Ideal) V0) (by decide) = C3 (EMB V0) (WT V0) (UT V0) (BB V0) :=
  rCout_eq _ _ _ _ _ _ _ (cell3 V0) _

/-! ## Level 2 -/

theorem gates2 (i : Fin 4) (j : Fin 8192) :
    res_main_v382 (F := Ideal) V0 (ix2 i j)
      = gateAt (extractStridedSlice (Sh 4 1024) ![3, 0] (EMB V0)) (shapeCast (Sh 4 2048) (H3 (EMB V0) (WT V0) (UT V0) (BB V0)))
          (WT V0) (UT V0) (BB V0) i j :=
  rGates_apply _ _ (WT V0) (UT V0) (BB V0) _
    (congrArg (fun a => shapeCast (Sh 4 2048) a (by decide)) (hout3 V0)) _
    (fun i j => broadcastInDim_row_apply _ _ i j) i j

theorem cell2 (i : Fin 4) (q : Fin 2048) :
    res_main_v402 (F := Ideal) V0 (ix2 i q)
      = cAt (extractStridedSlice (Sh 4 1024) ![3, 0] (EMB V0)) (shapeCast (Sh 4 2048) (H3 (EMB V0) (WT V0) (UT V0) (BB V0)))
          (shapeCast (Sh 4 2048) (C3 (EMB V0) (WT V0) (UT V0) (BB V0))) (WT V0) (UT V0) (BB V0) i q :=
  rC_apply _ _ _ (WT V0) (UT V0) (BB V0) (res_main_v382 (F := Ideal) V0) (gates2 V0) _
    (congrArg (fun a => shapeCast (Sh 4 2048) a (by decide)) (cout3 V0)) _ _ _ _ i q

theorem hout2 : hostHout (res_main_v382 (F := Ideal) V0) (res_main_v402 (F := Ideal) V0) (by decide) (by decide) (by decide)
    = H2 (EMB V0) (WT V0) (UT V0) (BB V0) :=
  rHout_eq _ _ _ _ _ _ _ (gates2 V0) _ (cell2 V0) _ _ _

theorem cout2 : hostCout (res_main_v402 (F := Ideal) V0) (by decide) = C2 (EMB V0) (WT V0) (UT V0) (BB V0) :=
  rCout_eq _ _ _ _ _ _ _ (cell2 V0) _

/-! ## Level 1 -/

theorem gates1 (i : Fin 2) (j : Fin 8192) :
    res_main_v423 (F := Ideal) V0 (ix2 i j)
      = gateAt (extractStridedSlice (Sh 2 1024) ![1, 0] (EMB V0)) (shapeCast (Sh 2 2048) (H2 (EMB V0) (WT V0) (UT V0) (BB V0)))
          (WT V0) (UT V0) (BB V0) i j :=
  rGates_apply _ _ (WT V0) (UT V0) (BB V0) _
    (congrArg (fun a => shapeCast (Sh 2 2048) a (by decide)) (hout2 V0)) _
    (fun i j => broadcastInDim_row_apply _ _ i j) i j

theorem cell1 (i : Fin 2) (q : Fin 2048) :
    res_main_v443 (F := Ideal) V0 (ix2 i q)
      = cAt (extractStridedSlice (Sh 2 1024) ![1, 0] (EMB V0)) (shapeCast (Sh 2 2048) (H2 (EMB V0) (WT V0) (UT V0) (BB V0)))
          (shapeCast (Sh 2 2048) (C2 (EMB V0) (WT V0) (UT V0) (BB V0))) (WT V0) (UT V0) (BB V0) i q :=
  rC_apply _ _ _ (WT V0) (UT V0) (BB V0) (res_main_v423 (F := Ideal) V0) (gates1 V0) _
    (congrArg (fun a => shapeCast (Sh 2 2048) a (by decide)) (cout2 V0)) _ _ _ _ i q

theorem hout1 : hostHout (res_main_v423 (F := Ideal) V0) (res_main_v443 (F := Ideal) V0) (by decide) (by decide) (by decide)
    = H1 (EMB V0) (WT V0) (UT V0) (BB V0) :=
  rHout_eq _ _ _ _ _ _ _ (gates1 V0) _ (cell1 V0) _ _ _

theorem cout1 : hostCout (res_main_v443 (F := Ideal) V0) (by decide) = C1 (EMB V0) (WT V0) (UT V0) (BB V0) :=
  rCout_eq _ _ _ _ _ _ _ (cell1 V0) _

/-! ## Level 0 -/

theorem gates0 (i : Fin 1) (j : Fin 8192) :
    res_main_v463 (F := Ideal) V0 (ix2 i j)
      = gateAt (extractStridedSlice (Sh 1 1024) ![0, 0] (EMB V0)) (shapeCast (Sh 1 2048) (H1 (EMB V0) (WT V0) (UT V0) (BB V0)))
          (WT V0) (UT V0) (BB V0) i j :=
  rGates_apply _ _ (WT V0) (UT V0) (BB V0) _
    (congrArg (fun a => shapeCast (Sh 1 2048) a (by decide)) (hout1 V0)) _
    (fun i j => by have hi : i = 0 := Subsingleton.elim _ _; subst hi; rfl) i j

theorem cell0 (i : Fin 1) (q : Fin 2048) :
    res_main_v483 (F := Ideal) V0 (ix2 i q)
      = cAt (extractStridedSlice (Sh 1 1024) ![0, 0] (EMB V0)) (shapeCast (Sh 1 2048) (H1 (EMB V0) (WT V0) (UT V0) (BB V0)))
          (shapeCast (Sh 1 2048) (C1 (EMB V0) (WT V0) (UT V0) (BB V0))) (WT V0) (UT V0) (BB V0) i q :=
  rC_apply _ _ _ (WT V0) (UT V0) (BB V0) (res_main_v463 (F := Ideal) V0) (gates0 V0) _
    (congrArg (fun a => shapeCast (Sh 1 2048) a (by decide)) (cout1 V0)) _ _ _ _ i q

theorem hout0 : hostHout (res_main_v463 (F := Ideal) V0) (res_main_v483 (F := Ideal) V0) (by decide) (by decide) (by decide)
    = H0 (EMB V0) (WT V0) (UT V0) (BB V0) :=
  rHout_eq _ _ _ _ _ _ _ (gates0 V0) _ (cell0 V0) _ _ _

theorem cout0 : hostCout (res_main_v483 (F := Ideal) V0) (by decide) = C0 (EMB V0) (WT V0) (UT V0) (BB V0) :=
  rCout_eq _ _ _ _ _ _ _ (cell0 V0) _

/-! ## The root as a function of the argument arrays -/

/-- The reference's root rows, with its argument arrays named and the bias row laid out as a re-laid vector (the
    reference broadcasts the summed bias along a new leading axis: the same 1 × 8192 row). -/
theorem root_of_args (e : (Sh 4095 1024).Idx → EReal) (w : (Sh 8192 1024).Idx → EReal) (u : (Sh 8192 2048).Idx → EReal)
    (b3 b4 : FVec Ideal (⟨1, ![8192]⟩ : Shape) .f32)
    (h0 : V0 (Proc.devRef .tc main_arg0) = e) (h1 : V0 (Proc.devRef .tc main_arg1) = w)
    (h2 : V0 (Proc.devRef .tc main_arg2) = u) (h3 : V0 (Proc.devRef .tc main_arg3) = b3)
    (h4 : V0 (Proc.devRef .tc main_arg4) = b4) :
    Root (EMB V0) (WT V0) (UT V0) (BB V0)
      = Root e (transpose (Sh 1024 8192) [1, 0] w (by decide)) (transpose (Sh 2048 8192) [1, 0] u (by decide))
          (shapeCast (Sh 1 8192) (addf b3 b4) (by decide)) := by
  subst h0 h1 h2 h3 h4
  have hb : BB V0 = shapeCast (Sh 1 8192)
      (addf (F := Ideal) (φ := .f32) (V0 (Proc.devRef .tc main_arg3)) (V0 (Proc.devRef .tc main_arg4))) (by decide) :=
    (bias_row_eq _ _ _).symm
  rw [hb]

/-! ## The run -/

/-- Every weakly fair execution of the reference ends with its result at the tree's root rows of its arguments, and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v494)
        = Root (EMB (launchContents m c)) (WT (launchContents m c)) (UT (launchContents m c)) (BB (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c).1.trans (side_by_side_congr (hout0 (launchContents m c)) (cout0 (launchContents m c)) _), (h c).2⟩)
    (Cert.ReferenceIdeal.Value.run (F := Ideal) m ρ)

end Cert.ReferenceIdeal.Tree

end
-- ==== Proof.lean ====
/-
  The kernel and the reference compute the same tree-LSTM root.

  The program is a tree-LSTM over a perfect binary tree of twelve levels of internal nodes, evaluated level by level
  from the bottom. The reference evaluates every level on all its rows at once; the kernel runs one pipelined region
  per level, a block of rows at a time, and at the bottom level leaves out the terms that multiply the leaves' zero
  states. At the extended reals both compute, for each level, the matrices of one set of entry formulas (LibTreeCell):
  the kernel's blocks are row restrictions of them (Level0 … Level11, chained in KernelTree), and the reference's
  whole-level expressions read at an entry are the same formulas (LibTreeCellHost, RefTree). Both results are the
  root's hidden and cell rows side by side (TreeSpec.Root) of the argument arrays, which the two programs are given equal.
  The sum of zeros and the product with zero at the bottom level need no finiteness, and nothing else is rearranged, so
  the precondition is not used. The three frames are the generated ones (the reference's is its generated run with the
  result dropped), and the idealization rewrote nothing, so preserves holds trivially.
-/
import proofs.«112656_j36661840839776_1_alg».proof.Defs
import proofs.«112656_j36661840839776_1_alg».proof.Proof.Gen.Kernel
import proofs.«112656_j36661840839776_1_alg».proof.Proof.Gen.Kernel.Skeleton
import proofs.«112656_j36661840839776_1_alg».proof.Proof.Gen.Kernel.Launch
import proofs.«112656_j36661840839776_1_alg».proof.Proof.Gen.Kernel.Points
import proofs.«112656_j36661840839776_1_alg».proof.Proof.Gen.Kernel.Frame
import proofs.«112656_j36661840839776_1_alg».proof.Proof.Gen.KernelIdeal
import proofs.«112656_j36661840839776_1_alg».proof.Proof.Gen.KernelIdeal.Skeleton
import proofs.«112656_j36661840839776_1_alg».proof.Proof.Gen.KernelIdeal.Launch
import proofs.«112656_j36661840839776_1_alg».proof.Proof.Gen.KernelIdeal.Points
import proofs.«112656_j36661840839776_1_alg».proof.Proof.Gen.KernelIdeal.Frame
import proofs.«112656_j36661840839776_1_alg».proof.Proof.Gen.ReferenceIdeal
import proofs.«112656_j36661840839776_1_alg».proof.Proof.Gen.ReferenceIdeal.Run
import proofs.«112656_j36661840839776_1_alg».proof.Proof.Gen.Pre_finite_inputs
import proofs.«112656_j36661840839776_1_alg».proof.Proof.KernelRun
import proofs.«112656_j36661840839776_1_alg».proof.Proof.KernelTree
import proofs.«112656_j36661840839776_1_alg».proof.Proof.RefTree
import Idealize.ShloMosaic.Adequacy
import Idealize.ShloMosaic.Init

noncomputable section

namespace Cert.Proof

open Idealize.ShloMosaic Idealize.SL.Sem Idealize.ShloMosaic.StableHlo Cert.TreeCell

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the tree's root rows of the kernel's argument arrays: the kernel's by its chain of
    regions, the reference's by its levels and the agreement of the arguments. -/
theorem algebraic : Cert.algebraic_KernelIdeal_ReferenceIdeal := by
  intro m ρ m' ρ' _ hagree
  refine ⟨fun c => Root (Cert.KernelIdeal.Tree.EMB m c) (Cert.KernelIdeal.Tree.WT m c) (Cert.KernelIdeal.Tree.UT m c)
    (Cert.KernelIdeal.Tree.BB m c), ?_, ?_⟩
  · exact (θ_run Cert.KernelIdeal.defs _ _).mono
      (fun r h c => ⟨(h c).1.trans (Cert.KernelIdeal.Tree.result_eq m ρ c), (h c).2⟩)
      (Cert.KernelIdeal.Gen.run_final (F := Ideal) m ρ)
  · refine (θ_run Cert.ReferenceIdeal.defs _ _).mono (fun r h c => ⟨(h c).1.trans ?_, (h c).2⟩)
      (Cert.ReferenceIdeal.Tree.run m' ρ')
    exact Cert.ReferenceIdeal.Tree.root_of_args (launchContents m' c) _ _ _ _ _
      (hagree c).1 (hagree c).2.1 (hagree c).2.2.1 (hagree c).2.2.2.1 (hagree c).2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
